-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S2x640000 : S_.BroadcastsInDim S2x640000 (![] : Fin 0 → Fin S2x640000.rank)
  reducesTo_S2x640000_S_d0_1 : S2x640000.ReducesTo [0, 1] S_

variable [Facts]

def fn_part2 {F : FTy → Type} [FloatOps F] (main_arg1 : IVec S2x640000 32) (main_v33 : IVec S_ 1) : IVec S_ 1 :=
  let main_c_12 : IVec S_ 32 := constantI S_ 32 0#32
  let main_v34 : IVec S2x640000 32 := broadcastInDim S2x640000 ![] bcast_S_S2x640000 main_c_12
  let main_v35 : IVec S2x640000 1 := cmpi .sge main_arg1 main_v34
  let main_c_13 : IVec S_ 32 := constantI S_ 32 10000#32
  let main_v36 : IVec S2x640000 32 := broadcastInDim S2x640000 ![] bcast_S_S2x640000 main_c_13
  let main_v37 : IVec S2x640000 1 := cmpi .slt main_arg1 main_v36
  let main_v38 : IVec S2x640000 1 := andi main_v35 main_v37
  let main_c_14 : IVec S_ 1 := constantI S_ 1 1#1
  let main_v39 : IVec S_ 1 := (fun x v => Host.reduce IntOp.andi x v reducesTo_S2x640000_S_d0_1 h_S_) main_v38 main_c_14
  let main_v40 : IVec S_ 1 := andi main_v33 main_v39
  main_v40

def fn_part1 {F : FTy → Type} [FloatOps F] (main_arg1 : IVec S2x640000 32) (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg1 main_v33

def fn {F : FTy → Type} [FloatOps F] (main_arg0 : FVec F S10000x128 .f32) (main_arg1 : IVec S2x640000 32) (main_arg2 : IVec S10000 32) (main_arg3 : FVec F S128x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S10240x10240 : Shape := ⟨2, ![10240, 10240]⟩
abbrev S640000x2 : Shape := ⟨2, ![640000, 2]⟩
abbrev S10000x1 : Shape := ⟨2, ![10000, 1]⟩
abbrev S10000x2 : Shape := ⟨2, ![10000, 2]⟩
abbrev S10240x128 : Shape := ⟨2, ![10240, 128]⟩
abbrev S1 : Shape := ⟨1, ![1]⟩
abbrev S1x128 : Shape := ⟨2, ![1, 128]⟩
abbrev S2048x2048 : Shape := ⟨2, ![2048, 2048]⟩
abbrev S2048x128 : Shape := ⟨2, ![2048, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 113
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x10, .f32⟩
  | .hbm, ⟨8, _⟩ => ⟨S10, .f32⟩
  | .hbm, ⟨9, _⟩ => ⟨S1x640000, .i32⟩
  | .hbm, ⟨10, _⟩ => ⟨S640000, .i32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S640000, .f32⟩
  | .hbm, ⟨15, _⟩ => ⟨S_, .f32⟩
  | .hbm, ⟨16, _⟩ => ⟨S10000, .f32⟩
  | .hbm, ⟨17, _⟩ => ⟨S640000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .f32⟩
  | .hbm, ⟨22, _⟩ => ⟨S10000, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000, .f32⟩
  | .hbm, ⟨41, _⟩ => ⟨S640000, .f32⟩
  | .hbm, ⟨42, _⟩ => ⟨S_, .f32⟩
  | .hbm, ⟨43, _⟩ => ⟨S10240x10240, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x1, .i32⟩
  | .hbm, ⟨60, _⟩ => ⟨S640000x2, .i32⟩
  | .hbm, ⟨61, _⟩ => ⟨S10240x10240, .f32⟩
  | .hbm, ⟨62, _⟩ => ⟨S10000, .i32⟩
  | .hbm, ⟨63, _⟩ => ⟨S10000, .f32⟩
  | .hbm, ⟨64, _⟩ => ⟨S_, .i32⟩
  | .hbm, ⟨65, _⟩ => ⟨S10000, .i32⟩
  | .hbm, ⟨66, _⟩ => ⟨S10000, .i1⟩
  | .hbm, ⟨67, _⟩ => ⟨S_, .i32⟩
  | .hbm, ⟨68, _⟩ => ⟨S10000, .i32⟩
  | .hbm, ⟨69, _⟩ => ⟨S10000, .i32⟩
  | .hbm, ⟨70, _⟩ => ⟨S10000, .i32⟩
  | .hbm, ⟨71, _⟩ => ⟨S_, .i32⟩
  | .hbm, ⟨72, _⟩ => ⟨S10000, .i32⟩
  | .hbm, ⟨73, _⟩ => ⟨S10000, .i1⟩
  | .hbm, ⟨74, _⟩ => ⟨S_, .i32⟩
  | .hbm, ⟨75, _⟩ => ⟨S10000, .i32⟩
  | .hbm, ⟨76, _⟩ => ⟨S10000, .i32⟩
  | .hbm, ⟨77, _⟩ => ⟨S10000, .i32⟩
  | .hbm, ⟨78, _⟩ => ⟨S10000x1, .i32⟩
  | .hbm, ⟨79, _⟩ => ⟨S10000x1, .i32⟩
  | .hbm, ⟨80, _⟩ => ⟨S10000x2, .i32⟩
  | .hbm, ⟨81, _⟩ => ⟨S10240x10240, .f32⟩
  | .hbm, ⟨82, _⟩ => ⟨S10240x10240, .bf16⟩
  | .hbm, ⟨83, _⟩ => ⟨S_, .f32⟩
  | .hbm, ⟨84, _⟩ => ⟨S10240x128, .f32⟩
  | .hbm, ⟨85, _⟩ => ⟨S_, .i32⟩
  | .hbm, ⟨86, _⟩ => ⟨S1, .i32⟩
  | .hbm, ⟨87, _⟩ => ⟨S10240x128, .f32⟩
  | .hbm, ⟨88, _⟩ => ⟨S1x128, .f32⟩
  | .hbm, ⟨89, _⟩ => ⟨S1x128, .f32⟩
  | .hbm, ⟨90, _⟩ => ⟨S10240x128, .f32⟩
  | .hbm, ⟨91, _⟩ => ⟨S10240x128, .f32⟩
  | .hbm, ⟨92, _⟩ => ⟨S10000x128, .f32⟩
  | .hbm, ⟨93, _⟩ => ⟨S_, .f32⟩
  | .hbm, ⟨94, _⟩ => ⟨S64x128, .f32⟩
  | .hbm, ⟨95, _⟩ => ⟨S10000x1, .i32⟩
  | .hbm, ⟨96, _⟩ => ⟨S64x128, .f32⟩
  | .hbm, ⟨97, _⟩ => ⟨S_, .f32⟩
  | .hbm, ⟨98, _⟩ => ⟨S10000, .f32⟩
  | .hbm, ⟨99, _⟩ => ⟨S_, .f32⟩
  | .hbm, ⟨100, _⟩ => ⟨S64, .f32⟩
  | .hbm, ⟨101, _⟩ => ⟨S10000x1, .i32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x128, .f32⟩
  | .hbm, ⟨108, _⟩ => ⟨S64x128, .f32⟩
  | .hbm, ⟨109, _⟩ => ⟨S64x10, .f32⟩
  | .hbm, ⟨110, _⟩ => ⟨S1x10, .f32⟩
  | .hbm, ⟨111, _⟩ => ⟨S64x10, .f32⟩
  | .hbm, ⟨112, _⟩ => ⟨S64x10, .f32⟩
  | .local _ .vmem, ⟨0, _⟩ => ⟨S2048x2048, .bf16⟩
  | .local _ .vmem, ⟨1, _⟩ => ⟨S2048x2048, .bf16⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x2048, .bf16⟩
  | .local _ .vmem, ⟨10, _⟩ => ⟨S2048x2048, .bf16⟩
  | .local _ .vmem, ⟨11, _⟩ => ⟨S2048x128, .f32⟩
  | .local _ .vmem, ⟨12, _⟩ => ⟨S2048x128, .f32⟩
  | .local _ .vmem, ⟨13, _⟩ => ⟨S128x128, .f32⟩
  | .local _ .vmem, ⟨14, _⟩ => ⟨S1x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_c_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_c_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_c_15 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_16 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_17 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_19 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![5, 5], ![false, false]⟩

def k0_cond2 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![5, 5], ![false, false]⟩

def k1_cond2 (i : grid1.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S_S10240x10240 : S_.BroadcastsInDim S10240x10240 (![] : Fin 0 → Fin S10240x10240.rank)
  concatenates_S640000x1_S640000x1_S640000x2_d1 : Shape.Concatenates [S640000x1, S640000x1] S640000x2 1
  bcast_S10000_S10000x1_0 : S10000.BroadcastsInDim S10000x1 (![0] : Fin 1 → Fin S10000x1.rank)
  concatenates_S10000x1_S10000x1_S10000x2_d1 : Shape.Concatenates [S10000x1, S10000x1] S10000x2 1
  bitsLt_bf16_f32 : FTy.bits .bf16 < FTy.bits .f32
  bcast_S_S10240x128 : S_.BroadcastsInDim S10240x128 (![] : Fin 0 → Fin S10240x128.rank)
  bcast_S_S1 : S_.BroadcastsInDim S1 (![] : Fin 0 → Fin S1.rank)
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S10240x128_S10000x128_0_0 : S10240x128.Slices ![0, 0] S10000x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  scatter_S10240x10240_S640000x2_S640000_n_01_01_1_wf : ScatterDims.WF S10240x10240 S640000x2 S640000 [] [0, 1] [0, 1] 1
  scatter_S10240x10240_S10000x2_S10000_n_01_01_1_wf : ScatterDims.WF S10240x10240 S10000x2 S10000 [] [0, 1] [0, 1] 1
  scatter_S10240x128_S1_S10000x128_01_n_0_0_wf : ScatterDims.WF S10240x128 S1 S10000x128 [0, 1] [] [0] 0
  dot_S2048x128_S128x128_S2048x128_1_0_0_1_n_n_wf : DotDims.WF S2048x128 S128x128 S2048x128 [1] [0] [0] [1] [] []
  dot_S2048x2048_S2048x128_S2048x128_1_0_0_1_n_n_wf : DotDims.WF S2048x2048 S2048x128 S2048x128 [1] [0] [0] [1] [] []
  scatter_S64x128_S10000x1_S10000x128_1_0_0_1_wf : ScatterDims.WF S64x128 S10000x1 S10000x128 [1] [0] [0] 1
  scatter_S64_S10000x1_S10000_n_0_0_1_wf : ScatterDims.WF S64 S10000x1 S10000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S10240x10240.size a
  hwx0_0 : ∀ i : grid0.Coords, EltTy.bits .bf16 = 32 ∨ (Rect.block (s := S10240x10240) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S10240x128.size a
  hwx0_1 : ∀ i : grid0.Coords, EltTy.bits .f32 = 32 ∨ (Rect.block (s := S10240x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S10240x128.size a
  hwx0_4 : ∀ i : grid0.Coords, EltTy.bits .f32 = 32 ∨ (Rect.block (s := S10240x128) S2048x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S10240x10240.size a
  hwx1_0 : ∀ i : grid1.Coords, EltTy.bits .bf16 = 32 ∨ (Rect.block (s := S10240x10240) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S10240x128.size a
  hwx1_1 : ∀ i : grid1.Coords, EltTy.bits .f32 = 32 ∨ (Rect.block (s := S10240x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x128.size a ≤ S10240x128.size a
  hwx1_4 : ∀ i : grid1.Coords, EltTy.bits .f32 = 32 ∨ (Rect.block (s := S10240x128) S2048x128.size (cc1_transform_4 i) (hinb1_4 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10240x10240_S640000x2_S640000_n_01_01_1 : ScatterDims S10240x10240 S640000x2 S640000 where
  updateWindowDims := []
  insertedWindowDims := [0, 1]
  scatterDimsToOperandDims := [0, 1]
  indexVectorDim := 1
  wf := scatter_S10240x10240_S640000x2_S640000_n_01_01_1_wf
def scatter_S10240x10240_S10000x2_S10000_n_01_01_1 : ScatterDims S10240x10240 S10000x2 S10000 where
  updateWindowDims := []
  insertedWindowDims := [0, 1]
  scatterDimsToOperandDims := [0, 1]
  indexVectorDim := 1
  wf := scatter_S10240x10240_S10000x2_S10000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v57) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v61) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v63) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v57) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S2048x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S10000 : Shape := ⟨1, ![10000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000x1 : Shape := ⟨2, ![10000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 147
  | .vmem => 0
  | .smem => 0
  | _ => 0

abbrev hbmTy0_0 (i : Nat) : BufTy := match i % 128 with
  | 0 => ⟨S10000x128, .f32⟩
  | 1 => ⟨S2x640000, .i32⟩
  | 2 => ⟨S10000, .i32⟩
  | 3 => ⟨S128x128, .f32⟩
  | 4 => ⟨S128, .f32⟩
  | 5 => ⟨S128x128, .f32⟩
  | 6 => ⟨S128, .f32⟩
  | 7 => ⟨S128x10, .f32⟩
  | 8 => ⟨S10, .f32⟩
  | 9 => ⟨S1x640000, .i32⟩
  | 10 => ⟨S640000, .i32⟩
  | 11 => ⟨S1x640000, .i32⟩
  | 12 => ⟨S640000, .i32⟩
  | 13 => ⟨S10000x128, .f32⟩
  | 14 => ⟨S_, .f32⟩
  | 15 => ⟨S640000, .f32⟩
  | 16 => ⟨S_, .f32⟩
  | 17 => ⟨S10000, .f32⟩
  | 18 => ⟨S640000x1, .i32⟩
  | 19 => ⟨S10000, .f32⟩
  | 20 => ⟨S_, .f32⟩
  | 21 => ⟨S10000, .f32⟩
  | 22 => ⟨S10000, .f32⟩
  | 23 => ⟨S10000, .f32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000, .f32⟩
  | 42 => ⟨S640000, .f32⟩
  | 43 => ⟨S_, .i32⟩
  | 44 => ⟨S640000, .i32⟩
  | 45 => ⟨S640000, .i1⟩
  | 46 => ⟨S_, .i32⟩
  | 47 => ⟨S640000, .i32⟩
  | 48 => ⟨S640000, .i32⟩
  | 49 => ⟨S640000, .i32⟩
  | 50 => ⟨S640000x1, .i32⟩
  | 51 => ⟨S640000x128, .f32⟩
  | 52 => ⟨S640000x1, .f32⟩
  | 53 => ⟨S640000x128, .f32⟩
  | 54 => ⟨S640000x128, .f32⟩
  | 55 => ⟨S_, .f32⟩
  | 56 => ⟨S10000x128, .f32⟩
  | 57 => ⟨S640000x1, .i32⟩
  | 58 => ⟨S10000x128, .f32⟩
  | 59 => ⟨S10000, .f32⟩
  | 60 => ⟨S10000x1, .f32⟩
  | 61 => ⟨S10000x128, .f32⟩
  | 62 => ⟨S10000x128, .f32⟩
  | 63 => ⟨S10000x128, .f32⟩
  | 64 => ⟨S1x128, .f32⟩
  | 65 => ⟨S10000x128, .f32⟩
  | 66 => ⟨S10000x128, .f32⟩
  | 67 => ⟨S_, .f32⟩
  | 68 => ⟨S10000x128, .f32⟩
  | 69 => ⟨S10000x128, .f32⟩
  | 70 => ⟨S10000x128, .f32⟩
  | 71 => ⟨S_, .f32⟩
  | 72 => ⟨S640000, .f32⟩
  | 73 => ⟨S_, .f32⟩
  | 74 => ⟨S10000, .f32⟩
  | 75 => ⟨S640000x1, .i32⟩
  | 76 => ⟨S10000, .f32⟩
  | 77 => ⟨S_, .f32⟩
  | 78 => ⟨S10000, .f32⟩
  | 79 => ⟨S10000, .f32⟩
  | 80 => ⟨S10000, .f32⟩
  | 81 => ⟨S_, .i32⟩
  | 82 => ⟨S640000, .i32⟩
  | 83 => ⟨S640000, .i1⟩
  | 84 => ⟨S_, .i32⟩
  | 85 => ⟨S640000, .i32⟩
  | 86 => ⟨S640000, .i32⟩
  | 87 => ⟨S640000, .i32⟩
  | 88 => ⟨S640000x1, .i32⟩
  | 89 => ⟨S640000, .f32⟩
  | 90 => ⟨S_, .i32⟩
  | 91 => ⟨S640000, .i32⟩
  | 92 => ⟨S640000, .i1⟩
  | 93 => ⟨S_, .i32⟩
  | 94 => ⟨S640000, .i32⟩
  | 95 => ⟨S640000, .i32⟩
  | 96 => ⟨S640000, .i32⟩
  | 97 => ⟨S640000x1, .i32⟩
  | 98 => ⟨S640000, .f32⟩
  | 99 => ⟨S640000, .f32⟩
  | 100 => ⟨S_, .i32⟩
  | 101 => ⟨S640000, .i32⟩
  | 102 => ⟨S640000, .i1⟩
  | 103 => ⟨S_, .i32⟩
  | 104 => ⟨S640000, .i32⟩
  | 105 => ⟨S640000, .i32⟩
  | 106 => ⟨S640000, .i32⟩
  | 107 => ⟨S640000x1, .i32⟩
  | 108 => ⟨S640000x128, .f32⟩
  | 109 => ⟨S640000x1, .f32⟩
  | 110 => ⟨S640000x128, .f32⟩
  | 111 => ⟨S640000x128, .f32⟩
  | 112 => ⟨S_, .f32⟩
  | 113 => ⟨S10000x128, .f32⟩
  | 114 => ⟨S640000x1, .i32⟩
  | 115 => ⟨S10000x128, .f32⟩
  | 116 => ⟨S10000, .f32⟩
  | 117 => ⟨S10000x1, .f32⟩
  | 118 => ⟨S10000x128, .f32⟩
  | 119 => ⟨S10000x128, .f32⟩
  | 120 => ⟨S10000x128, .f32⟩
  | 121 => ⟨S1x128, .f32⟩
  | 122 => ⟨S10000x128, .f32⟩
  | 123 => ⟨S10000x128, .f32⟩
  | 124 => ⟨S_, .f32⟩
  | 125 => ⟨S10000x128, .f32⟩
  | 126 => ⟨S10000x128, .f32⟩
  | 127 => ⟨S_, .f32⟩
  | _ => ⟨S10000x128, .f32⟩

abbrev hbmTy0_1 (i : Nat) : BufTy := match i % 128 with
  | 0 => ⟨S64x128, .f32⟩
  | 1 => ⟨S10000x1, .i32⟩
  | 2 => ⟨S64x128, .f32⟩
  | 3 => ⟨S_, .f32⟩
  | 4 => ⟨S10000, .f32⟩
  | 5 => ⟨S_, .f32⟩
  | 6 => ⟨S64, .f32⟩
  | 7 => ⟨S10000x1, .i32⟩
  | 8 => ⟨S64, .f32⟩
  | 9 => ⟨S_, .f32⟩
  | 10 => ⟨S64, .f32⟩
  | 11 => ⟨S64, .f32⟩
  | 12 => ⟨S64x1, .f32⟩
  | 13 => ⟨S64x128, .f32⟩
  | 14 => ⟨S64x128, .f32⟩
  | 15 => ⟨S64x10, .f32⟩
  | 16 => ⟨S1x10, .f32⟩
  | 17 => ⟨S64x10, .f32⟩
  | 18 => ⟨S64x10, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_19 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S10000x128_S128x128_S10000x128_1_0_0_1_n_n_wf : DotDims.WF S10000x128 S128x128 S10000x128 [1] [0] [0] [1] [] []
  scatter_S10000_S640000x1_S640000_n_0_0_1_wf : ScatterDims.WF S10000 S640000x1 S640000 [] [0] [0] 1
  gather_S10000_S640000x1_S640000_n_0_n_n_0_1_1_wf : GatherDims.WF S10000 S640000x1 S640000 [] [0] [] [0] [] 1 ![1]
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S64x128_S10000x1_S10000x128_1_0_0_1_wf : ScatterDims.WF S64x128 S10000x1 S10000x128 [1] [0] [0] 1
  scatter_S64_S10000x1_S10000_n_0_0_1_wf : ScatterDims.WF S64 S10000x1 S10000 [] [0] [0] 1
  dot_S64x128_S128x10_S64x10_1_0_0_1_n_n_wf : DotDims.WF S64x128 S128x10 S64x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S64x128_S10000x1_S10000x128_1_0_0_1 : ScatterDims S64x128 S10000x1 S10000x128 where
  updateWindowDims := [1]
  insertedWindowDims := [0]
  scatterDimsToOperandDims := [0]
  indexVectorDim := 1
  wf := scatter_S64x128_S10000x1_S10000x128_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KB.Base0.lean ====
/-
  First graph-convolution launch (grid 5 × 5 over row blocks m and column blocks k of the padded adjacency):
  what the proofs about its body share. At grid point t = 5·m + k the body clears the accumulator when k = 0,
  adds the product of the adjacency tile (m, k) with the projected feature rows of block k, and when k = 4 writes
  max(accumulator + bias, 0) into the output tile of row block m. So a point is in one of three situations:
  k = 0 (clear, accumulate), 0 < k < 4 (accumulate), k = 4 (accumulate, write the tile).
  Everything is stated at a parameter V: the contents of the core's buffers when the launch is entered.
-/
import proofs.«151618_j80324478369804_1_alg».proof.Proof.Gen.Kernel.Launch
import proofs.«151618_j80324478369804_1_alg».proof.Proof.Gen.Kernel.Skeleton
import proofs.«151618_j80324478369804_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The tile of operand w that point t works on, read off the operand as the launch finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its tile at every point, whether the pipeline fetched there or kept the
    buffer of the point before (the tile index did not move then). One statement per input operand. -/
theorem staged0_0 {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)
theorem staged0_1 {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)
theorem staged0_2 {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)
theorem staged0_3 {c : Dev nD} (dat : Dat τ (Elt F) Unit ℕ (UR sig nD τ) ℕ cfg0 c) (hA : dat.A 3 = V c (Pipeline.arrRef spec0 3))
    (hafter : ∀ t, dat.after 3 t = tile0 V c 3 t) (t : Fin cfg0.N) (d) : dat.before 3 t d = tile0 V c 3 t :=
  (dat.before_in_eq_fetched 3 rfl (fun _ => rfl) (fun _ _ _ => rfl) (fun t => by rw [hafter]; unfold Dat.blockOf tile0; rw [hA]; try rfl) t d).trans
    (by unfold Dat.fetched Dat.blockOf tile0; rw [hA]; try rfl)
end

/-! ## Which situation a point is in -/

/-- "k = 0": the condition under which the body clears the accumulator, as the body computes it from the coordinates. -/
abbrev first0 (i : grid0.Coords) : Prop := (Scalar.cmpi .ne (Scalar.extui (Scalar.cmpi .eq (BitVec.ofNat 32 (i 1).val) 0#32)) 0#32) = 1#1
/-- It holds exactly at the points t with t mod 5 = 0. -/
theorem first0_iff : ∀ t : Fin cfg0.N, first0 (grid0.coords t) ↔ t.val % 5 = 0 :=
  (by decide +kernel : ∀ t : Fin grid0.N, first0 (grid0.coords t) ↔ t.val % 5 = 0)
/-- "k = 4": the condition under which the body writes the output tile. -/
abbrev last0 (i : grid0.Coords) : Prop := k0_cond2 i = 1#1
/-- It holds exactly at the points t with t mod 5 = 4. -/
theorem last0_iff : ∀ t : Fin cfg0.N, last0 (grid0.coords t) ↔ t.val % 5 = 4 :=
  (by decide +kernel : ∀ t : Fin grid0.N, last0 (grid0.coords t) ↔ t.val % 5 = 4)

/-! ## Where operands are in use -/

theorem inUse0_0 : ∀ t : Fin cfg0.N, cfg0.idle 0 (grid0.coords t) = false := by decide +kernel
theorem inUse0_1 : ∀ t : Fin cfg0.N, cfg0.idle 1 (grid0.coords t) = false := by decide +kernel
theorem inUse0_2 : ∀ t : Fin cfg0.N, cfg0.idle 2 (grid0.coords t) = false := by decide +kernel
theorem inUse0_3 : ∀ t : Fin cfg0.N, cfg0.idle 3 (grid0.coords t) = false := by decide +kernel
/-- Away from k = 4 nothing is stored into the output tile and the pipeline does not write it back. -/
theorem rest0_4 : ∀ t : Fin cfg0.N, ¬last0 (grid0.coords t) → cfg0.idle 4 (grid0.coords t) = true := by decide +kernel
theorem noWriteBack0_4 : ∀ t : Fin cfg0.N, ¬last0 (grid0.coords t) → (cfg0.win 4).flush t = false := by decide +kernel
/-- At k = 4 the output tile is in use. -/
theorem inUse0_4 : ∀ t : Fin cfg0.N, last0 (grid0.coords t) → cfg0.idle 4 (grid0.coords t) = false := by decide +kernel

/-! ## The buffers the body is called with -/

/-- Operand w's staging buffer at point t, as the pipeline passes it, and that it is a whole buffer. -/
abbrev buf0_0 (t : Fin cfg0.N) : Memref sig .tc .vmem S2048x2048 .bf16 := win0_0.stage (cfg0.slots t 0)
abbrev whole0_0 (t : Fin cfg0.N) : (buf0_0 t).IsWhole := hstage0_0 ((cfg0.slots t 0).cast nbuf0_0)
abbrev buf0_1 (t : Fin cfg0.N) : Memref sig .tc .vmem S2048x128 .f32 := win0_1.stage (cfg0.slots t 1)
abbrev whole0_1 (t : Fin cfg0.N) : (buf0_1 t).IsWhole := hstage0_1 ((cfg0.slots t 1).cast nbuf0_1)
abbrev buf0_2 (t : Fin cfg0.N) : Memref sig .tc .vmem S128x128 .f32 := win0_2.stage (cfg0.slots t 2)
abbrev whole0_2 (t : Fin cfg0.N) : (buf0_2 t).IsWhole := hstage0_2 ((cfg0.slots t 2).cast nbuf0_2)
abbrev buf0_3 (t : Fin cfg0.N) : Memref sig .tc .vmem S1x128 .f32 := win0_3.stage (cfg0.slots t 3)
abbrev whole0_3 (t : Fin cfg0.N) : (buf0_3 t).IsWhole := hstage0_3 ((cfg0.slots t 3).cast nbuf0_3)
abbrev buf0_4 (t : Fin cfg0.N) : Memref sig .tc .vmem S2048x128 .f32 := win0_4.stage (cfg0.slots t 4)
abbrev whole0_4 (t : Fin cfg0.N) : (buf0_4 t).IsWhole := hstage0_4 ((cfg0.slots t 4).cast nbuf0_4)
/-- The accumulator: a buffer of the kernel's own, kept from one point to the next. -/
abbrev acc0 : Memref sig .tc .vmem S2048x128 .f32 := Memref.whole cc0_scratch0
/-- Views through which the accumulator's and the output tile's contents are stated. -/
abbrev accView0 : View sig .tc .vmem S2048x128 .f32 := acc0.view
abbrev outView0 : View sig .tc .vmem S2048x128 .f32 := (Memref.whole cc0_stg4_0 : Memref sig .tc .vmem S2048x128 .f32).view

/-- The second launch's own buffers (its staging buffers and its accumulator), each at some contents: bystanders
    of the first launch, lent with the rest and handed back unread. -/
def bystanders0 (c : Dev nD) : sProp 𝕄 :=
  iprop((∃ d, owns (c : Thread nD τ) (Memref.whole cc1_stg0_0 : Memref sig .tc .vmem S2048x2048 .bf16) fullShare d)
    ∗ (∃ d, owns (c : Thread nD τ) (Memref.whole cc1_stg0_1 : Memref sig .tc .vmem S2048x2048 .bf16) fullShare d)
    ∗ (∃ d, owns (c : Thread nD τ) (Memref.whole cc1_stg1_0 : Memref sig .tc .vmem S2048x128 .f32) fullShare d)
    ∗ (∃ d, owns (c : Thread nD τ) (Memref.whole cc1_stg1_1 : Memref sig .tc .vmem S2048x128 .f32) fullShare d)
    ∗ (∃ d, owns (c : Thread nD τ) (Memref.whole cc1_stg2_0 : Memref sig .tc .vmem S128x128 .f32) fullShare d)
    ∗ (∃ d, owns (c : Thread nD τ) (Memref.whole cc1_stg3_0 : Memref sig .tc .vmem S1x128 .f32) fullShare d)
    ∗ (∃ d, owns (c : Thread nD τ) (Memref.whole cc1_stg4_0 : Memref sig .tc .vmem S2048x128 .f32) fullShare d)
    ∗ (∃ d, owns (c : Thread nD τ) (Memref.whole cc1_stg4_1 : Memref sig .tc .vmem S2048x128 .f32) fullShare d)
    ∗ (∃ d, owns (c : Thread nD τ) (Memref.whole cc1_scratch0 : Memref sig .tc .vmem S2048x128 .f32) fullShare d))

/-- What the launch lends the body besides the operands: the accumulator at some contents, the bystanders, and the
    generator register. -/
theorem lent0_eq (c : Dev nD) :
    (Pipeline.ΦA spec0 c : sProp 𝕄)
      = iprop(iprop((∃ d, owns (c : Thread nD τ) acc0 fullShare d) ∗ bystanders0 c) ∗ (∃ r, prngReg c r)) := by
  unfold Pipeline.ΦA; rw [scopedRest0_eq]; simp only [acc0, bystanders0, owns_whole]; try rfl

end Cert.Kernel.Hand

end
-- ==== Proof.KB.First0.lean ====
/-
  The first launch's body at a point with k = 0: the accumulator is cleared, then the tile product is added to it;
  the output tile is not touched. The run records, as a list of written pieces, what the accumulator ends with.
-/
import proofs.«151618_j80324478369804_1_alg».proof.Proof.Gen.Kernel.Launch
import proofs.«151618_j80324478369804_1_alg».proof.Proof.Gen.Kernel.Skeleton
import proofs.«151618_j80324478369804_1_alg».proof.Proof.Gen.Kernel.Points
import proofs.«151618_j80324478369804_1_alg».proof.Proof.KB.Base0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the four inputs at given contents, the output tile at contents handed back untouched, the
    accumulator at anything — the body at a point with k = 0 runs to its end, leaving the inputs as they were and the
    accumulator with the pieces `LS` written. -/
noncomputable def runFirst0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first0 i) (hl : ¬last0 i)
    (x0 : Vec F S2048x2048 .bf16) (x1 : Vec F S2048x128 .f32) (x2 : Vec F S128x128 .f32) (x3 : Vec F S1x128 .f32) :
    { LS : List (View.Piece (Elt F) S2048x128 .f32) //
      ∀ (xo : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun xo E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.KB.Mid0.lean ====
/-
  The first launch's body at a point with 0 < k < 4: the tile product is added to the accumulator the point before
  left; the output tile is not touched.
-/
import proofs.«151618_j80324478369804_1_alg».proof.Proof.Gen.Kernel.Launch
import proofs.«151618_j80324478369804_1_alg».proof.Proof.Gen.Kernel.Skeleton
import proofs.«151618_j80324478369804_1_alg».proof.Proof.Gen.Kernel.Points
import proofs.«151618_j80324478369804_1_alg».proof.Proof.KB.Base0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the inputs at given contents, the output tile at contents handed back untouched, the
    accumulator at the contents `xs` carried over — the body at a point with 0 < k < 4 runs to its end, leaving the
    inputs as they were and the accumulator with the pieces `LS` written. -/
noncomputable def runMid0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : ¬last0 i)
    (x0 : Vec F S2048x2048 .bf16) (x1 : Vec F S2048x128 .f32) (x2 : Vec F S128x128 .f32) (x3 : Vec F S1x128 .f32) (xs : Vec F S2048x128 .f32) :
    { LS : List (View.Piece (Elt F) S2048x128 .f32) //
      ∀ (xo : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun xo E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.KB.Last0.lean ====
/-
  The first launch's body at a point with k = 4: the tile product is added to the accumulator the point before left,
  and max(accumulator + bias, 0) is written over the whole output tile.
-/
import proofs.«151618_j80324478369804_1_alg».proof.Proof.Gen.Kernel.Launch
import proofs.«151618_j80324478369804_1_alg».proof.Proof.Gen.Kernel.Skeleton
import proofs.«151618_j80324478369804_1_alg».proof.Proof.Gen.Kernel.Points
import proofs.«151618_j80324478369804_1_alg».proof.Proof.KB.Base0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the inputs at given contents, the output tile at anything, the accumulator at the contents
    `xs` carried over — the body at a point with k = 4 runs to its end, leaving the inputs as they were, the output
    tile with the pieces `LO` written and the accumulator with the pieces `LS` written. -/
noncomputable def runLast0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : last0 i)
    (x0 : Vec F S2048x2048 .bf16) (x1 : Vec F S2048x128 .f32) (x2 : Vec F S128x128 .f32) (x3 : Vec F S1x128 .f32) (xs : Vec F S2048x128 .f32) :
    Σ' (LO : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.KB.Body0.lean ====
/-
  The first graph-convolution launch, point by point. After the point t = 5·m + k the accumulator holds the sum over
  the column blocks 0..k of (adjacency tile (m, k')) · (feature rows of block k' times the weight matrix), and at k = 4
  the output tile of row block m holds max(that sum + bias, 0). Here this is recorded as a recursion over the points
  (each point's contents from the point before), together with the proof that the body, run at any point from the
  contents the recursion names, leaves the contents it names: the obligation the launch theorem asks for.
-/
import proofs.«151618_j80324478369804_1_alg».proof.Proof.Gen.Kernel.Launch
import proofs.«151618_j80324478369804_1_alg».proof.Proof.Gen.Kernel.Skeleton
import proofs.«151618_j80324478369804_1_alg».proof.Proof.Gen.Kernel.Points
import proofs.«151618_j80324478369804_1_alg».proof.Proof.KB.First0
import proofs.«151618_j80324478369804_1_alg».proof.Proof.KB.Mid0
import proofs.«151618_j80324478369804_1_alg».proof.Proof.KB.Last0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each situation leaves -/

/-- The accumulator after a point with k = 0: the recorded pieces read back. -/
def accFirst0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first0 i) (hl : ¬last0 i) (x0 : Vec F S2048x2048 .bf16) (x1 : Vec F S2048x128 .f32) (x2 : Vec F S128x128 .f32) (x3 : Vec F S1x128 .f32) : Vec F S2048x128 .f32 :=
  accView0.read (Elt F) (accView0.writes (Elt F) accView0.junk (runFirst0 c i arg2 harg2 arg3 harg3 arg4 harg4 arg5 harg5 arg6 harg6 arg7 harg7 hf hl x0 x1 x2 x3).1)
/-- Those pieces cover the accumulator. -/
theorem accFirst0_cover (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first0 i) (hl : ¬last0 i) (x0 : Vec F S2048x2048 .bf16) (x1 : Vec F S2048x128 .f32) (x2 : Vec F S128x128 .f32) (x3 : Vec F S1x128 .f32) (y : S2048x128.Idx) :
    ∃ pc ∈ (runFirst0 c i arg2 harg2 arg3 harg3 arg4 harg4 arg5 harg5 arg6 harg6 arg7 harg7 hf hl x0 x1 x2 x3).1, y ∈ pc.1.set :=
  View.cover_of_tiledL (runFirst0 c i arg2 harg2 arg3 harg3 arg4 harg4 arg5 harg5 arg6 harg6 arg7 harg7 hf hl x0 x1 x2 x3).1 S2048x128.size (by sl_kernel_rfl) y

/-- The accumulator after a point with 0 < k < 4, from the accumulator `xs` before it. -/
def accMid0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : ¬last0 i) (x0 : Vec F S2048x2048 .bf16) (x1 : Vec F S2048x128 .f32) (x2 : Vec F S128x128 .f32) (x3 : Vec F S1x128 .f32) (xs : Vec F S2048x128 .f32) : Vec F S2048x128 .f32 :=
  accView0.read (Elt F) (accView0.writes (Elt F) accView0.junk (runMid0 c i arg2 harg2 arg3 harg3 arg4 harg4 arg5 harg5 arg6 harg6 arg7 harg7 hf hl x0 x1 x2 x3 xs).1)
theorem accMid0_cover (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : ¬last0 i) (x0 : Vec F S2048x2048 .bf16) (x1 : Vec F S2048x128 .f32) (x2 : Vec F S128x128 .f32) (x3 : Vec F S1x128 .f32) (xs : Vec F S2048x128 .f32) (y : S2048x128.Idx) :
    ∃ pc ∈ (runMid0 c i arg2 harg2 arg3 harg3 arg4 harg4 arg5 harg5 arg6 harg6 arg7 harg7 hf hl x0 x1 x2 x3 xs).1, y ∈ pc.1.set :=
  View.cover_of_tiledL (runMid0 c i arg2 harg2 arg3 harg3 arg4 harg4 arg5 harg5 arg6 harg6 arg7 harg7 hf hl x0 x1 x2 x3 xs).1 S2048x128.size (by sl_kernel_rfl) y

/-- The accumulator and the output tile after a point with k = 4, from the accumulator `xs` before it. -/
def accLast0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : last0 i) (x0 : Vec F S2048x2048 .bf16) (x1 : Vec F S2048x128 .f32) (x2 : Vec F S128x128 .f32) (x3 : Vec F S1x128 .f32) (xs : Vec F S2048x128 .f32) : Vec F S2048x128 .f32 :=
  accView0.read (Elt F) (accView0.writes (Elt F) accView0.junk (runLast0 c i arg2 harg2 arg3 harg3 arg4 harg4 arg5 harg5 arg6 harg6 arg7 harg7 hf hl x0 x1 x2 x3 xs).2.1)
theorem accLast0_cover (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : last0 i) (x0 : Vec F S2048x2048 .bf16) (x1 : Vec F S2048x128 .f32) (x2 : Vec F S128x128 .f32) (x3 : Vec F S1x128 .f32) (xs : Vec F S2048x128 .f32) (y : S2048x128.Idx) :
    ∃ pc ∈ (runLast0 c i arg2 harg2 arg3 harg3 arg4 harg4 arg5 harg5 arg6 harg6 arg7 harg7 hf hl x0 x1 x2 x3 xs).2.1, y ∈ pc.1.set :=
  View.cover_of_tiledL (runLast0 c i arg2 harg2 arg3 harg3 arg4 harg4 arg5 harg5 arg6 harg6 arg7 harg7 hf hl x0 x1 x2 x3 xs).2.1 S2048x128.size (by sl_kernel_rfl) y
def outLast0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : last0 i) (x0 : Vec F S2048x2048 .bf16) (x1 : Vec F S2048x128 .f32) (x2 : Vec F S128x128 .f32) (x3 : Vec F S1x128 .f32) (xs : Vec F S2048x128 .f32) : Vec F S2048x128 .f32 :=
  outView0.read (Elt F) (outView0.writes (Elt F) outView0.junk (runLast0 c i arg2 harg2 arg3 harg3 arg4 harg4 arg5 harg5 arg6 harg6 arg7 harg7 hf hl x0 x1 x2 x3 xs).1)
theorem outLast0_cover (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : last0 i) (x0 : Vec F S2048x2048 .bf16) (x1 : Vec F S2048x128 .f32) (x2 : Vec F S128x128 .f32) (x3 : Vec F S1x128 .f32) (xs : Vec F S2048x128 .f32) (y : S2048x128.Idx) :
    ∃ pc ∈ (runLast0 c i arg2 harg2 arg3 harg3 arg4 harg4 arg5 harg5 arg6 harg6 arg7 harg7 hf hl x0 x1 x2 x3 xs).1, y ∈ pc.1.set :=
  View.cover_of_tiledL (runLast0 c i arg2 harg2 arg3 harg3 arg4 harg4 arg5 harg5 arg6 harg6 arg7 harg7 hf hl x0 x1 x2 x3 xs).1 S2048x128.size (by sl_kernel_rfl) y

/-- The output tile's recorded contents at a point that does not write it: a placeholder nothing reads (the tile is
    neither written back there nor read by the next point). -/
def restOut0 : Vec F S2048x128 .f32 := outView0.read (Elt F) outView0.junk

section
variable (V : (c : Dev nD) → (b : Ref sig .tc) → Buf (Elt F) ((c : Thread nD τ).loc b))

/-! ## The contents after each point -/

/-- (output tile, accumulator) after the body at the n-th point: by the point's situation, from the accumulator the
    point before left. -/
def stateAt0 (c : Dev nD) : (n : ℕ) → n < cfg0.N → Vec F S2048x128 .f32 × Vec F S2048x128 .f32
  | 0, hn => (restOut0, accFirst0 c (grid0.coords ⟨0, hn⟩) (buf0_0 ⟨0, hn⟩) (whole0_0 ⟨0, hn⟩) (buf0_1 ⟨0, hn⟩) (whole0_1 ⟨0, hn⟩) (buf0_2 ⟨0, hn⟩) (whole0_2 ⟨0, hn⟩) (buf0_3 ⟨0, hn⟩) (whole0_3 ⟨0, hn⟩) (buf0_4 ⟨0, hn⟩) (whole0_4 ⟨0, hn⟩) acc0 (Memref.isWhole_whole _) ((first0_iff ⟨0, hn⟩).mpr (Nat.zero_mod _)) (fun h => (fun h => by (try dsimp only at h); omega) ((last0_iff ⟨0, hn⟩).mp h)) (tile0 V c 0 ⟨0, hn⟩) (tile0 V c 1 ⟨0, hn⟩) (tile0 V c 2 ⟨0, hn⟩) (tile0 V c 3 ⟨0, hn⟩))
  | n + 1, hn =>
    if h0 : (n + 1) % 5 = 0 then
      (restOut0, accFirst0 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) acc0 (Memref.isWhole_whole _) ((first0_iff ⟨n + 1, hn⟩).mpr h0) (fun h => (fun h => by (try dsimp only at h); omega) ((last0_iff ⟨n + 1, hn⟩).mp h)) (tile0 V c 0 ⟨n + 1, hn⟩) (tile0 V c 1 ⟨n + 1, hn⟩) (tile0 V c 2 ⟨n + 1, hn⟩) (tile0 V c 3 ⟨n + 1, hn⟩))
    else if h4 : (n + 1) % 5 = 4 then
      (outLast0 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) acc0 (Memref.isWhole_whole _) (fun h => h0 ((first0_iff ⟨n + 1, hn⟩).mp h)) ((last0_iff ⟨n + 1, hn⟩).mpr h4) (tile0 V c 0 ⟨n + 1, hn⟩) (tile0 V c 1 ⟨n + 1, hn⟩) (tile0 V c 2 ⟨n + 1, hn⟩) (tile0 V c 3 ⟨n + 1, hn⟩) (stateAt0 c n (Nat.lt_of_succ_lt hn)).2,
       accLast0 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) acc0 (Memref.isWhole_whole _) (fun h => h0 ((first0_iff ⟨n + 1, hn⟩).mp h)) ((last0_iff ⟨n + 1, hn⟩).mpr h4) (tile0 V c 0 ⟨n + 1, hn⟩) (tile0 V c 1 ⟨n + 1, hn⟩) (tile0 V c 2 ⟨n + 1, hn⟩) (tile0 V c 3 ⟨n + 1, hn⟩) (stateAt0 c n (Nat.lt_of_succ_lt hn)).2)
    else
      (restOut0, accMid0 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) acc0 (Memref.isWhole_whole _) (fun h => h0 ((first0_iff ⟨n + 1, hn⟩).mp h)) (fun h => h4 ((last0_iff ⟨n + 1, hn⟩).mp h)) (tile0 V c 0 ⟨n + 1, hn⟩) (tile0 V c 1 ⟨n + 1, hn⟩) (tile0 V c 2 ⟨n + 1, hn⟩) (tile0 V c 3 ⟨n + 1, hn⟩) (stateAt0 c n (Nat.lt_of_succ_lt hn)).2)

theorem stateAt0_first (c : Dev nD) (t : Fin cfg0.N) (h0 : t.val % 5 = 0) (h4 : ¬t.val % 5 = 4) :
    stateAt0 V c t.val t.isLt = (restOut0, accFirst0 c (grid0.coords t) (buf0_0 t) (whole0_0 t) (buf0_1 t) (whole0_1 t) (buf0_2 t) (whole0_2 t) (buf0_3 t) (whole0_3 t) (buf0_4 t) (whole0_4 t) acc0 (Memref.isWhole_whole _) ((first0_iff t).mpr h0) (fun h => h4 ((last0_iff t).mp h)) (tile0 V c 0 t) (tile0 V c 1 t) (tile0 V c 2 t) (tile0 V c 3 t)) := by
  obtain ⟨n, hn⟩ := t
  cases n with
  | zero => exact rfl
  | succ n => exact (dif_pos h0).trans rfl

theorem stateAt0_mid (c : Dev nD) (t : Fin cfg0.N) (h0 : ¬t.val % 5 = 0) (h4 : ¬t.val % 5 = 4) :
    stateAt0 V c t.val t.isLt = (restOut0, accMid0 c (grid0.coords t) (buf0_0 t) (whole0_0 t) (buf0_1 t) (whole0_1 t) (buf0_2 t) (whole0_2 t) (buf0_3 t) (whole0_3 t) (buf0_4 t) (whole0_4 t) acc0 (Memref.isWhole_whole _) (fun h => h0 ((first0_iff t).mp h)) (fun h => h4 ((last0_iff t).mp h)) (tile0 V c 0 t) (tile0 V c 1 t) (tile0 V c 2 t) (tile0 V c 3 t) (stateAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h4).trans rfl)

theorem stateAt0_last (c : Dev nD) (t : Fin cfg0.N) (h0 : ¬t.val % 5 = 0) (h4 : t.val % 5 = 4) :
    stateAt0 V c t.val t.isLt = (outLast0 c (grid0.coords t) (buf0_0 t) (whole0_0 t) (buf0_1 t) (whole0_1 t) (buf0_2 t) (whole0_2 t) (buf0_3 t) (whole0_3 t) (buf0_4 t) (whole0_4 t) acc0 (Memref.isWhole_whole _) (fun h => h0 ((first0_iff t).mp h)) ((last0_iff t).mpr h4) (tile0 V c 0 t) (tile0 V c 1 t) (tile0 V c 2 t) (tile0 V c 3 t) (stateAt0 V c (t.val - 1) (Nat.lt_of_le_of_lt (Nat.sub_le _ _) t.isLt)).2,
      accLast0 c (grid0.coords t) (buf0_0 t) (whole0_0 t) (buf0_1 t) (whole0_1 t) (buf0_2 t) (whole0_2 t) (buf0_3 t) (whole0_3 t) (buf0_4 t) (whole0_4 t) acc0 (Memref.isWhole_whole _) (fun h => h0 ((first0_iff t).mp h)) ((last0_iff t).mpr h4) (tile0 V c 0 t) (tile0 V c 1 t) (tile0 V c 2 t) (tile0 V c 3 t) (stateAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h4).trans rfl)

/-! ## The invariant between points -/

/-- Before the first point: what the launch lends. Before any later point: the accumulator at what the point before
    left, the bystanders, the generator register. -/
def carried0 (c : Dev nD) : (n : ℕ) → n ≤ cfg0.N → sProp 𝕄
  | 0, _ => Pipeline.ΦA spec0 c
  | n + 1, hn => iprop(iprop(owns (c : Thread nD τ) acc0 fullShare ((stateAt0 V c n hn).2) ∗ bystanders0 c) ∗ (∃ r, prngReg c r))

theorem carried0_zero (c : Dev nD) (n : ℕ) (h : n ≤ cfg0.N) (hz : n = 0) : carried0 V c n h = Pipeline.ΦA spec0 c := by
  subst hz; rfl
theorem carried0_succ (c : Dev nD) (n : ℕ) (hn : n < cfg0.N) :
    carried0 V c (n + 1) hn = iprop(iprop(owns (c : Thread nD τ) acc0 fullShare ((stateAt0 V c n hn).2) ∗ bystanders0 c) ∗ (∃ r, prngReg c r)) := rfl
theorem carried0_pos (c : Dev nD) (n : ℕ) (h : n ≤ cfg0.N) (hz : n ≠ 0) :
    carried0 V c n h = iprop(iprop(owns (c : Thread nD τ) acc0 fullShare ((stateAt0 V c (n - 1) (by omega)).2) ∗ bystanders0 c) ∗ (∃ r, prngReg c r)) := by
  cases n with
  | zero => exact absurd rfl hz
  | succ n => rfl

/-! ## The launch's proof data -/

/-- The operands as the launch finds them; after the body at point t each input's buffer at its tile, the output's at
    the recursion's first component; the invariant above; nothing owed, full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => tile0 V c 3 t
    | ⟨4, _⟩ => (stateAt0 V c t.val t.isLt).1
  Φ t := carried0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_inv (c : Dev nD) (t : Fin cfg0.N) :
    (dat0 V c).Φ t.castSucc = carried0 V c t.val (Nat.le_of_lt t.isLt) := by
  dsimp only [dat0]; simp only [Fin.coe_castSucc]
theorem dat0_after0 (c : Dev nD) (t : Fin cfg0.N) : (dat0 V c).after 0 t = tile0 V c 0 t := by dsimp only [dat0]
theorem dat0_after1 (c : Dev nD) (t : Fin cfg0.N) : (dat0 V c).after 1 t = tile0 V c 1 t := by dsimp only [dat0]
theorem dat0_after2 (c : Dev nD) (t : Fin cfg0.N) : (dat0 V c).after 2 t = tile0 V c 2 t := by dsimp only [dat0]
theorem dat0_after3 (c : Dev nD) (t : Fin cfg0.N) : (dat0 V c).after 3 t = tile0 V c 3 t := by dsimp only [dat0]
theorem dat0_after4 (c : Dev nD) (t : Fin cfg0.N) : (dat0 V c).after 4 t = (stateAt0 V c t.val t.isLt).1 := by dsimp only [dat0]
theorem dat0_before0 (c : Dev nD) (t : Fin cfg0.N) (d) : (dat0 V c).before 0 t d = tile0 V c 0 t :=
  staged0_0 V (dat0 V c) (dat0_A V c 0) (dat0_after0 V c) t d
theorem dat0_before1 (c : Dev nD) (t : Fin cfg0.N) (d) : (dat0 V c).before 1 t d = tile0 V c 1 t :=
  staged0_1 V (dat0 V c) (dat0_A V c 1) (dat0_after1 V c) t d
theorem dat0_before2 (c : Dev nD) (t : Fin cfg0.N) (d) : (dat0 V c).before 2 t d = tile0 V c 2 t :=
  staged0_2 V (dat0 V c) (dat0_A V c 2) (dat0_after2 V c) t d
theorem dat0_before3 (c : Dev nD) (t : Fin cfg0.N) (d) : (dat0 V c).before 3 t d = tile0 V c 3 t :=
  staged0_3 V (dat0 V c) (dat0_A V c 3) (dat0_after3 V c) t d

/-! ## The body at any point -/

def pointPre0 (c : Dev nD) (t : Fin cfg0.N) : sProp 𝕄 :=
  iprop((dat0 V c).Φ t.castSucc ∗ (dat0 V c).owesAt () t.castSucc
    ∗ (∃ d, owns (c : Thread nD τ) (buf0_0 t) fullShare ((dat0 V c).before 0 t d))
    ∗ (∃ d, owns (c : Thread nD τ) (buf0_1 t) fullShare ((dat0 V c).before 1 t d))
    ∗ (∃ d, owns (c : Thread nD τ) (buf0_2 t) fullShare ((dat0 V c).before 2 t d))
    ∗ (∃ d, owns (c : Thread nD τ) (buf0_3 t) fullShare ((dat0 V c).before 3 t d))
    ∗ (∃ d, owns (c : Thread nD τ) (buf0_4 t) fullShare ((dat0 V c).before 4 t d)))

def pointPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' buffers hold their tiles; the point's situation is decided by t mod 5; the
    invariant hands over the accumulator (at anything before the first point, else at what the point before left) and
    takes it back at this point's contents. -/
theorem point0 (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [dat0_before0, dat0_before1, dat0_before2, dat0_before3]
  rw [show (dat0 V c).owesAt () t.succ = (dat0 V c).owesAt () t.castSucc from rfl]
  rw [show (dat0 V c).Φ t.succ = carried0 V c (t.val + 1) t.isLt from rfl, carried0_succ]
  have hN : t.val < 25 := lt_of_lt_of_eq t.isLt (show cfg0.N = 25 from N_0)
  rw [show (dat0 V c).leavesExact 0 t = owns (c : Thread nD τ) (buf0_0 t) fullShare ((dat0 V c).after 0 t) from by
    unfold Dat.leavesExact; rw [inUse0_0 t], dat0_after0]
  rw [show (dat0 V c).leavesExact 1 t = owns (c : Thread nD τ) (buf0_1 t) fullShare ((dat0 V c).after 1 t) from by
    unfold Dat.leavesExact; rw [inUse0_1 t], dat0_after1]
  rw [show (dat0 V c).leavesExact 2 t = owns (c : Thread nD τ) (buf0_2 t) fullShare ((dat0 V c).after 2 t) from by
    unfold Dat.leavesExact; rw [inUse0_2 t], dat0_after2]
  rw [show (dat0 V c).leavesExact 3 t = owns (c : Thread nD τ) (buf0_3 t) fullShare ((dat0 V c).after 3 t) from by
    unfold Dat.leavesExact; rw [inUse0_3 t], dat0_after3]
  by_cases h0 : t.val % 5 = 0
  · have h4 : ¬t.val % 5 = 4 := by omega
    rw [Dat.leavesExact_idle (dat0 V c) 4 t (rest0_4 t (fun h => h4 ((last0_iff t).mp h))) (noWriteBack0_4 t (fun h => h4 ((last0_iff t).mp h)))]
    rw [stateAt0_first V c t h0 h4]
    unfold accFirst0; (try dsimp only)
    by_cases hz : t.val = 0
    · rw [dat0_inv V c t, carried0_zero V c _ _ hz, lent0_eq]
      iintro ⟨⟨⟨HS, Hby⟩, Hg⟩, Ho, ⟨%d0, H0⟩, ⟨%d1, H1⟩, ⟨%d2, H2⟩, ⟨%d3, H3⟩, ⟨%d4, H4⟩⟩
      iapply ((runFirst0 c (grid0.coords t) _ _ _ _ _ _ _ _ _ _ _ _ ((first0_iff t).mpr h0) (fun h => h4 ((last0_iff t).mp h)) (tile0 V c 0 t) (tile0 V c 1 t) (tile0 V c 2 t) (tile0 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hby Hg]
      · isplitl [HS Hby]
        · isplitl [HS]
          · unfold owns; iexists _; isplitr
            swap; · iexact HS
            ipureintro; exact View.read_writes_of_cover _ _ _ _ _ (accFirst0_cover c _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      iexists _; iexact H4
    · rw [dat0_inv V c t, carried0_pos V c _ _ hz]
      iintro ⟨⟨⟨HS, Hby⟩, Hg⟩, Ho, ⟨%d0, H0⟩, ⟨%d1, H1⟩, ⟨%d2, H2⟩, ⟨%d3, H3⟩, ⟨%d4, H4⟩⟩
      iapply ((runFirst0 c (grid0.coords t) _ _ _ _ _ _ _ _ _ _ _ _ ((first0_iff t).mpr h0) (fun h => h4 ((last0_iff t).mp h)) (tile0 V c 0 t) (tile0 V c 1 t) (tile0 V c 2 t) (tile0 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hby Hg]
      · isplitl [HS Hby]
        · isplitl [HS]
          · unfold owns; iexists _; isplitr
            swap; · iexact HS
            ipureintro; exact View.read_writes_of_cover _ _ _ _ _ (accFirst0_cover c _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h4 : t.val % 5 = 4
    · rw [show (dat0 V c).leavesExact 4 t = owns (c : Thread nD τ) (buf0_4 t) fullShare ((dat0 V c).after 4 t) from by
        unfold Dat.leavesExact; rw [inUse0_4 t ((last0_iff t).mpr h4)], dat0_after4]
      rw [stateAt0_last V c t h0 h4]
      unfold outLast0 accLast0; (try dsimp only)
      rw [dat0_inv V c t, carried0_pos V c _ _ hz]
      iintro ⟨⟨⟨HS, Hby⟩, Hg⟩, Ho, ⟨%d0, H0⟩, ⟨%d1, H1⟩, ⟨%d2, H2⟩, ⟨%d3, H3⟩, ⟨%d4, H4⟩⟩
      iapply ((runLast0 c (grid0.coords t) _ _ _ _ _ _ _ _ _ _ _ _ (fun h => h0 ((first0_iff t).mp h)) ((last0_iff t).mpr h4) (tile0 V c 0 t) (tile0 V c 1 t) (tile0 V c 2 t) (tile0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hby Hg]
      · isplitl [HS Hby]
        · isplitl [HS]
          · unfold owns; iexists _; isplitr
            swap; · iexact HS
            ipureintro; exact View.read_writes_of_cover _ _ _ _ _ (accLast0_cover c _ _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast0_cover c _ _ _ _ _ _ _ _ _ _ _ _ _ _ _ _ _ _ _ _)
    · rw [Dat.leavesExact_idle (dat0 V c) 4 t (rest0_4 t (fun h => h4 ((last0_iff t).mp h))) (noWriteBack0_4 t (fun h => h4 ((last0_iff t).mp h)))]
      rw [stateAt0_mid V c t h0 h4]
      unfold accMid0; (try dsimp only)
      rw [dat0_inv V c t, carried0_pos V c _ _ hz]
      iintro ⟨⟨⟨HS, Hby⟩, Hg⟩, Ho, ⟨%d0, H0⟩, ⟨%d1, H1⟩, ⟨%d2, H2⟩, ⟨%d3, H3⟩, ⟨%d4, H4⟩⟩
      iapply ((runMid0 c (grid0.coords t) _ _ _ _ _ _ _ _ _ _ _ _ (fun h => h0 ((first0_iff t).mp h)) (fun h => h4 ((last0_iff t).mp h)) (tile0 V c 0 t) (tile0 V c 1 t) (tile0 V c 2 t) (tile0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hby Hg]
      · isplitl [HS Hby]
        · isplitl [HS]
          · unfold owns; iexists _; isplitr
            swap; · iexact HS
            ipureintro; exact View.read_writes_of_cover _ _ _ _ _ (accMid0_cover c _ _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      iexists _; iexact H4

/-- The obligation the launch theorem asks for, at every point. -/
theorem obligation0 (c : Dev nD) : BodyObligation (dat0 (F := F) V c) (defs₀ (F := F)) Variants.none () Set.univ := fun t => by
  rw [bigSep_W0, bigSep_W0]
  exact point0 V c t

/-- What the launch lends is the invariant before the first point. -/
theorem enter0 (c : Dev nD) : Pipeline.ΦA spec0 c ⊢ (dat0 V c).Φ 0 := by
  rw [show (dat0 V c).Φ 0 = carried0 V c 0 (Nat.zero_le _) from rfl, carried0_zero V c 0 _ rfl]
  try exact Idealize.SL.BI.Entails.refl _

/-- After the last point the invariant gives it back, the accumulator's contents forgotten. -/
theorem leave0 (c : Dev nD) : (dat0 V c).Φ (Fin.last cfg0.N) ⊢ Pipeline.ΦA spec0 c := by
  rw [show (dat0 V c).Φ (Fin.last cfg0.N) = carried0 V c (Fin.last cfg0.N).val (Nat.le_of_lt_succ (Fin.last cfg0.N).isLt) from rfl,
    carried0_pos V c _ _ (by rw [Fin.val_last]; have : cfg0.N = 25 := N_0; omega), lent0_eq]
  iintro ⟨⟨HS, Hby⟩, Hg⟩
  isplitl [HS Hby]
  · isplitl [HS]
    · iexists _; iexact HS
    iexact Hby
  iexact Hg

end

end Cert.Kernel.Hand

end
-- ==== Proof.KB.Base1.lean ====
/-
  Second graph-convolution launch (grid 5 × 5 over row blocks m and column blocks k of the padded adjacency):
  what the proofs about its body share. At grid point t = 5·m + k the body clears the accumulator when k = 0,
  adds the product of the adjacency tile (m, k) with the projected feature rows of block k, and when k = 4 writes
  max(accumulator + bias, 0) into the output tile of row block m. So a point is in one of three situations:
  k = 0 (clear, accumulate), 0 < k < 4 (accumulate), k = 4 (accumulate, write the tile).
  Everything is stated at a parameter V: the contents of the core's buffers when the launch is entered.
-/
import proofs.«151618_j80324478369804_1_alg».proof.Proof.Gen.Kernel.Launch
import proofs.«151618_j80324478369804_1_alg».proof.Proof.Gen.Kernel.Skeleton
import proofs.«151618_j80324478369804_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The tile of operand w that point t works on, read off the operand as the launch finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its tile at every point, whether the pipeline fetched there or kept the
    buffer of the point before (the tile index did not move then). One statement per input operand. -/
theorem staged1_0 {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)
theorem staged1_1 {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)
theorem staged1_2 {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)
theorem staged1_3 {c : Dev nD} (dat : Dat τ (Elt F) Unit ℕ (UR sig nD τ) ℕ cfg1 c) (hA : dat.A 3 = V c (Pipeline.arrRef spec1 3))
    (hafter : ∀ t, dat.after 3 t = tile1 V c 3 t) (t : Fin cfg1.N) (d) : dat.before 3 t d = tile1 V c 3 t :=
  (dat.before_in_eq_fetched 3 rfl (fun _ => rfl) (fun _ _ _ => rfl) (fun t => by rw [hafter]; unfold Dat.blockOf tile1; rw [hA]; try rfl) t d).trans
    (by unfold Dat.fetched Dat.blockOf tile1; rw [hA]; try rfl)
end

/-! ## Which situation a point is in -/

/-- "k = 0": the condition under which the body clears the accumulator, as the body computes it from the coordinates. -/
abbrev first1 (i : grid1.Coords) : Prop := (Scalar.cmpi .ne (Scalar.extui (Scalar.cmpi .eq (BitVec.ofNat 32 (i 1).val) 0#32)) 0#32) = 1#1
/-- It holds exactly at the points t with t mod 5 = 0. -/
theorem first1_iff : ∀ t : Fin cfg1.N, first1 (grid1.coords t) ↔ t.val % 5 = 0 :=
  (by decide +kernel : ∀ t : Fin grid1.N, first1 (grid1.coords t) ↔ t.val % 5 = 0)
/-- "k = 4": the condition under which the body writes the output tile. -/
abbrev last1 (i : grid1.Coords) : Prop := k1_cond2 i = 1#1
/-- It holds exactly at the points t with t mod 5 = 4. -/
theorem last1_iff : ∀ t : Fin cfg1.N, last1 (grid1.coords t) ↔ t.val % 5 = 4 :=
  (by decide +kernel : ∀ t : Fin grid1.N, last1 (grid1.coords t) ↔ t.val % 5 = 4)

/-! ## Where operands are in use -/

theorem inUse1_0 : ∀ t : Fin cfg1.N, cfg1.idle 0 (grid1.coords t) = false := by decide +kernel
theorem inUse1_1 : ∀ t : Fin cfg1.N, cfg1.idle 1 (grid1.coords t) = false := by decide +kernel
theorem inUse1_2 : ∀ t : Fin cfg1.N, cfg1.idle 2 (grid1.coords t) = false := by decide +kernel
theorem inUse1_3 : ∀ t : Fin cfg1.N, cfg1.idle 3 (grid1.coords t) = false := by decide +kernel
/-- Away from k = 4 nothing is stored into the output tile and the pipeline does not write it back. -/
theorem rest1_4 : ∀ t : Fin cfg1.N, ¬last1 (grid1.coords t) → cfg1.idle 4 (grid1.coords t) = true := by decide +kernel
theorem noWriteBack1_4 : ∀ t : Fin cfg1.N, ¬last1 (grid1.coords t) → (cfg1.win 4).flush t = false := by decide +kernel
/-- At k = 4 the output tile is in use. -/
theorem inUse1_4 : ∀ t : Fin cfg1.N, last1 (grid1.coords t) → cfg1.idle 4 (grid1.coords t) = false := by decide +kernel

/-! ## The buffers the body is called with -/

/-- Operand w's staging buffer at point t, as the pipeline passes it, and that it is a whole buffer. -/
abbrev buf1_0 (t : Fin cfg1.N) : Memref sig .tc .vmem S2048x2048 .bf16 := win1_0.stage (cfg1.slots t 0)
abbrev whole1_0 (t : Fin cfg1.N) : (buf1_0 t).IsWhole := hstage1_0 ((cfg1.slots t 0).cast nbuf1_0)
abbrev buf1_1 (t : Fin cfg1.N) : Memref sig .tc .vmem S2048x128 .f32 := win1_1.stage (cfg1.slots t 1)
abbrev whole1_1 (t : Fin cfg1.N) : (buf1_1 t).IsWhole := hstage1_1 ((cfg1.slots t 1).cast nbuf1_1)
abbrev buf1_2 (t : Fin cfg1.N) : Memref sig .tc .vmem S128x128 .f32 := win1_2.stage (cfg1.slots t 2)
abbrev whole1_2 (t : Fin cfg1.N) : (buf1_2 t).IsWhole := hstage1_2 ((cfg1.slots t 2).cast nbuf1_2)
abbrev buf1_3 (t : Fin cfg1.N) : Memref sig .tc .vmem S1x128 .f32 := win1_3.stage (cfg1.slots t 3)
abbrev whole1_3 (t : Fin cfg1.N) : (buf1_3 t).IsWhole := hstage1_3 ((cfg1.slots t 3).cast nbuf1_3)
abbrev buf1_4 (t : Fin cfg1.N) : Memref sig .tc .vmem S2048x128 .f32 := win1_4.stage (cfg1.slots t 4)
abbrev whole1_4 (t : Fin cfg1.N) : (buf1_4 t).IsWhole := hstage1_4 ((cfg1.slots t 4).cast nbuf1_4)
/-- The accumulator: a buffer of the kernel's own, kept from one point to the next. -/
abbrev acc1 : Memref sig .tc .vmem S2048x128 .f32 := Memref.whole cc1_scratch0
/-- Views through which the accumulator's and the output tile's contents are stated. -/
abbrev accView1 : View sig .tc .vmem S2048x128 .f32 := acc1.view
abbrev outView1 : View sig .tc .vmem S2048x128 .f32 := (Memref.whole cc1_stg4_0 : Memref sig .tc .vmem S2048x128 .f32).view

/-- The first launch's own buffers (its staging buffers and its accumulator), each at some contents: bystanders
    of the second launch, lent with the rest and handed back unread. -/
def bystanders1 (c : Dev nD) : sProp 𝕄 :=
  iprop((∃ d, owns (c : Thread nD τ) (Memref.whole cc0_stg0_0 : Memref sig .tc .vmem S2048x2048 .bf16) fullShare d)
    ∗ (∃ d, owns (c : Thread nD τ) (Memref.whole cc0_stg0_1 : Memref sig .tc .vmem S2048x2048 .bf16) fullShare d)
    ∗ (∃ d, owns (c : Thread nD τ) (Memref.whole cc0_stg1_0 : Memref sig .tc .vmem S2048x128 .f32) fullShare d)
    ∗ (∃ d, owns (c : Thread nD τ) (Memref.whole cc0_stg1_1 : Memref sig .tc .vmem S2048x128 .f32) fullShare d)
    ∗ (∃ d, owns (c : Thread nD τ) (Memref.whole cc0_stg2_0 : Memref sig .tc .vmem S128x128 .f32) fullShare d)
    ∗ (∃ d, owns (c : Thread nD τ) (Memref.whole cc0_stg3_0 : Memref sig .tc .vmem S1x128 .f32) fullShare d)
    ∗ (∃ d, owns (c : Thread nD τ) (Memref.whole cc0_stg4_0 : Memref sig .tc .vmem S2048x128 .f32) fullShare d)
    ∗ (∃ d, owns (c : Thread nD τ) (Memref.whole cc0_stg4_1 : Memref sig .tc .vmem S2048x128 .f32) fullShare d)
    ∗ (∃ d, owns (c : Thread nD τ) (Memref.whole cc0_scratch0 : Memref sig .tc .vmem S2048x128 .f32) fullShare d))

/-- What the launch lends the body besides the operands: the accumulator at some contents, the bystanders, and the
    generator register. -/
theorem lent1_eq (c : Dev nD) :
    (Pipeline.ΦA spec1 c : sProp 𝕄)
      = iprop(iprop((∃ d, owns (c : Thread nD τ) acc1 fullShare d) ∗ bystanders1 c) ∗ (∃ r, prngReg c r)) := by
  unfold Pipeline.ΦA; rw [scopedRest1_eq]; simp only [acc1, bystanders1, owns_whole]
  refine BI.Entails.antisymm (show (_ : sProp 𝕄) ⊢ _ from ?_) (show (_ : sProp 𝕄) ⊢ _ from ?_)
  · iintro ⟨⟨B1, B2, B3, B4, B5, B6, B7, B8, B9, HA⟩, Hg⟩
    isplitr [Hg]
    · isplitl [HA]; · iexact HA
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      iexact B9
    iexact Hg
  · iintro ⟨⟨HA, B1, B2, B3, B4, B5, B6, B7, B8, B9⟩, Hg⟩
    isplitr [Hg]
    · isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact HA
    iexact Hg

end Cert.Kernel.Hand

end
-- ==== Proof.KB.First1.lean ====
/-
  The second launch's body at a point with k = 0: the accumulator is cleared, then the tile product is added to it;
  the output tile is not touched. The run records, as a list of written pieces, what the accumulator ends with.
-/
import proofs.«151618_j80324478369804_1_alg».proof.Proof.Gen.Kernel.Launch
import proofs.«151618_j80324478369804_1_alg».proof.Proof.Gen.Kernel.Skeleton
import proofs.«151618_j80324478369804_1_alg».proof.Proof.Gen.Kernel.Points
import proofs.«151618_j80324478369804_1_alg».proof.Proof.KB.Base1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the four inputs at given contents, the output tile at contents handed back untouched, the
    accumulator at anything — the body at a point with k = 0 runs to its end, leaving the inputs as they were and the
    accumulator with the pieces `LS` written. -/
noncomputable def runFirst1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first1 i) (hl : ¬last1 i)
    (x0 : Vec F S2048x2048 .bf16) (x1 : Vec F S2048x128 .f32) (x2 : Vec F S128x128 .f32) (x3 : Vec F S1x128 .f32) :
    { LS : List (View.Piece (Elt F) S2048x128 .f32) //
      ∀ (xo : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, fun xo E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.KB.Mid1.lean ====
/-
  The second launch's body at a point with 0 < k < 4: the tile product is added to the accumulator the point before
  left; the output tile is not touched.
-/
import proofs.«151618_j80324478369804_1_alg».proof.Proof.Gen.Kernel.Launch
import proofs.«151618_j80324478369804_1_alg».proof.Proof.Gen.Kernel.Skeleton
import proofs.«151618_j80324478369804_1_alg».proof.Proof.Gen.Kernel.Points
import proofs.«151618_j80324478369804_1_alg».proof.Proof.KB.Base1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the inputs at given contents, the output tile at contents handed back untouched, the
    accumulator at the contents `xs` carried over — the body at a point with 0 < k < 4 runs to its end, leaving the
    inputs as they were and the accumulator with the pieces `LS` written. -/
noncomputable def runMid1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : ¬last1 i)
    (x0 : Vec F S2048x2048 .bf16) (x1 : Vec F S2048x128 .f32) (x2 : Vec F S128x128 .f32) (x3 : Vec F S1x128 .f32) (xs : Vec F S2048x128 .f32) :
    { LS : List (View.Piece (Elt F) S2048x128 .f32) //
      ∀ (xo : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, fun xo E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.KB.Last1.lean ====
/-
  The second launch's body at a point with k = 4: the tile product is added to the accumulator the point before left,
  and max(accumulator + bias, 0) is written over the whole output tile.
-/
import proofs.«151618_j80324478369804_1_alg».proof.Proof.Gen.Kernel.Launch
import proofs.«151618_j80324478369804_1_alg».proof.Proof.Gen.Kernel.Skeleton
import proofs.«151618_j80324478369804_1_alg».proof.Proof.Gen.Kernel.Points
import proofs.«151618_j80324478369804_1_alg».proof.Proof.KB.Base1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the inputs at given contents, the output tile at anything, the accumulator at the contents
    `xs` carried over — the body at a point with k = 4 runs to its end, leaving the inputs as they were, the output
    tile with the pieces `LO` written and the accumulator with the pieces `LS` written. -/
noncomputable def runLast1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : last1 i)
    (x0 : Vec F S2048x2048 .bf16) (x1 : Vec F S2048x128 .f32) (x2 : Vec F S128x128 .f32) (x3 : Vec F S1x128 .f32) (xs : Vec F S2048x128 .f32) :
    Σ' (LO : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.KB.Body1.lean ====
/-
  The second graph-convolution launch, point by point. After the point t = 5·m + k the accumulator holds the sum over
  the column blocks 0..k of (adjacency tile (m, k')) · (feature rows of block k' times the weight matrix), and at k = 4
  the output tile of row block m holds max(that sum + bias, 0). Here this is recorded as a recursion over the points
  (each point's contents from the point before), together with the proof that the body, run at any point from the
  contents the recursion names, leaves the contents it names: the obligation the launch theorem asks for.
-/
import proofs.«151618_j80324478369804_1_alg».proof.Proof.Gen.Kernel.Launch
import proofs.«151618_j80324478369804_1_alg».proof.Proof.Gen.Kernel.Skeleton
import proofs.«151618_j80324478369804_1_alg».proof.Proof.Gen.Kernel.Points
import proofs.«151618_j80324478369804_1_alg».proof.Proof.KB.First1
import proofs.«151618_j80324478369804_1_alg».proof.Proof.KB.Mid1
import proofs.«151618_j80324478369804_1_alg».proof.Proof.KB.Last1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each situation leaves -/

/-- The accumulator after a point with k = 0: the recorded pieces read back. -/
def accFirst1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first1 i) (hl : ¬last1 i) (x0 : Vec F S2048x2048 .bf16) (x1 : Vec F S2048x128 .f32) (x2 : Vec F S128x128 .f32) (x3 : Vec F S1x128 .f32) : Vec F S2048x128 .f32 :=
  accView1.read (Elt F) (accView1.writes (Elt F) accView1.junk (runFirst1 c i arg2 harg2 arg3 harg3 arg4 harg4 arg5 harg5 arg6 harg6 arg7 harg7 hf hl x0 x1 x2 x3).1)
/-- Those pieces cover the accumulator. -/
theorem accFirst1_cover (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first1 i) (hl : ¬last1 i) (x0 : Vec F S2048x2048 .bf16) (x1 : Vec F S2048x128 .f32) (x2 : Vec F S128x128 .f32) (x3 : Vec F S1x128 .f32) (y : S2048x128.Idx) :
    ∃ pc ∈ (runFirst1 c i arg2 harg2 arg3 harg3 arg4 harg4 arg5 harg5 arg6 harg6 arg7 harg7 hf hl x0 x1 x2 x3).1, y ∈ pc.1.set :=
  View.cover_of_tiledL (runFirst1 c i arg2 harg2 arg3 harg3 arg4 harg4 arg5 harg5 arg6 harg6 arg7 harg7 hf hl x0 x1 x2 x3).1 S2048x128.size (by sl_kernel_rfl) y

/-- The accumulator after a point with 0 < k < 4, from the accumulator `xs` before it. -/
def accMid1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : ¬last1 i) (x0 : Vec F S2048x2048 .bf16) (x1 : Vec F S2048x128 .f32) (x2 : Vec F S128x128 .f32) (x3 : Vec F S1x128 .f32) (xs : Vec F S2048x128 .f32) : Vec F S2048x128 .f32 :=
  accView1.read (Elt F) (accView1.writes (Elt F) accView1.junk (runMid1 c i arg2 harg2 arg3 harg3 arg4 harg4 arg5 harg5 arg6 harg6 arg7 harg7 hf hl x0 x1 x2 x3 xs).1)
theorem accMid1_cover (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : ¬last1 i) (x0 : Vec F S2048x2048 .bf16) (x1 : Vec F S2048x128 .f32) (x2 : Vec F S128x128 .f32) (x3 : Vec F S1x128 .f32) (xs : Vec F S2048x128 .f32) (y : S2048x128.Idx) :
    ∃ pc ∈ (runMid1 c i arg2 harg2 arg3 harg3 arg4 harg4 arg5 harg5 arg6 harg6 arg7 harg7 hf hl x0 x1 x2 x3 xs).1, y ∈ pc.1.set :=
  View.cover_of_tiledL (runMid1 c i arg2 harg2 arg3 harg3 arg4 harg4 arg5 harg5 arg6 harg6 arg7 harg7 hf hl x0 x1 x2 x3 xs).1 S2048x128.size (by sl_kernel_rfl) y

/-- The accumulator and the output tile after a point with k = 4, from the accumulator `xs` before it. -/
def accLast1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : last1 i) (x0 : Vec F S2048x2048 .bf16) (x1 : Vec F S2048x128 .f32) (x2 : Vec F S128x128 .f32) (x3 : Vec F S1x128 .f32) (xs : Vec F S2048x128 .f32) : Vec F S2048x128 .f32 :=
  accView1.read (Elt F) (accView1.writes (Elt F) accView1.junk (runLast1 c i arg2 harg2 arg3 harg3 arg4 harg4 arg5 harg5 arg6 harg6 arg7 harg7 hf hl x0 x1 x2 x3 xs).2.1)
theorem accLast1_cover (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : last1 i) (x0 : Vec F S2048x2048 .bf16) (x1 : Vec F S2048x128 .f32) (x2 : Vec F S128x128 .f32) (x3 : Vec F S1x128 .f32) (xs : Vec F S2048x128 .f32) (y : S2048x128.Idx) :
    ∃ pc ∈ (runLast1 c i arg2 harg2 arg3 harg3 arg4 harg4 arg5 harg5 arg6 harg6 arg7 harg7 hf hl x0 x1 x2 x3 xs).2.1, y ∈ pc.1.set :=
  View.cover_of_tiledL (runLast1 c i arg2 harg2 arg3 harg3 arg4 harg4 arg5 harg5 arg6 harg6 arg7 harg7 hf hl x0 x1 x2 x3 xs).2.1 S2048x128.size (by sl_kernel_rfl) y
def outLast1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : last1 i) (x0 : Vec F S2048x2048 .bf16) (x1 : Vec F S2048x128 .f32) (x2 : Vec F S128x128 .f32) (x3 : Vec F S1x128 .f32) (xs : Vec F S2048x128 .f32) : Vec F S2048x128 .f32 :=
  outView1.read (Elt F) (outView1.writes (Elt F) outView1.junk (runLast1 c i arg2 harg2 arg3 harg3 arg4 harg4 arg5 harg5 arg6 harg6 arg7 harg7 hf hl x0 x1 x2 x3 xs).1)
theorem outLast1_cover (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : last1 i) (x0 : Vec F S2048x2048 .bf16) (x1 : Vec F S2048x128 .f32) (x2 : Vec F S128x128 .f32) (x3 : Vec F S1x128 .f32) (xs : Vec F S2048x128 .f32) (y : S2048x128.Idx) :
    ∃ pc ∈ (runLast1 c i arg2 harg2 arg3 harg3 arg4 harg4 arg5 harg5 arg6 harg6 arg7 harg7 hf hl x0 x1 x2 x3 xs).1, y ∈ pc.1.set :=
  View.cover_of_tiledL (runLast1 c i arg2 harg2 arg3 harg3 arg4 harg4 arg5 harg5 arg6 harg6 arg7 harg7 hf hl x0 x1 x2 x3 xs).1 S2048x128.size (by sl_kernel_rfl) y

/-- The output tile's recorded contents at a point that does not write it: a placeholder nothing reads (the tile is
    neither written back there nor read by the next point). -/
def restOut1 : Vec F S2048x128 .f32 := outView1.read (Elt F) outView1.junk

section
variable (V : (c : Dev nD) → (b : Ref sig .tc) → Buf (Elt F) ((c : Thread nD τ).loc b))

/-! ## The contents after each point -/

/-- (output tile, accumulator) after the body at the n-th point: by the point's situation, from the accumulator the
    point before left. -/
def stateAt1 (c : Dev nD) : (n : ℕ) → n < cfg1.N → Vec F S2048x128 .f32 × Vec F S2048x128 .f32
  | 0, hn => (restOut1, accFirst1 c (grid1.coords ⟨0, hn⟩) (buf1_0 ⟨0, hn⟩) (whole1_0 ⟨0, hn⟩) (buf1_1 ⟨0, hn⟩) (whole1_1 ⟨0, hn⟩) (buf1_2 ⟨0, hn⟩) (whole1_2 ⟨0, hn⟩) (buf1_3 ⟨0, hn⟩) (whole1_3 ⟨0, hn⟩) (buf1_4 ⟨0, hn⟩) (whole1_4 ⟨0, hn⟩) acc1 (Memref.isWhole_whole _) ((first1_iff ⟨0, hn⟩).mpr (Nat.zero_mod _)) (fun h => (fun h => by (try dsimp only at h); omega) ((last1_iff ⟨0, hn⟩).mp h)) (tile1 V c 0 ⟨0, hn⟩) (tile1 V c 1 ⟨0, hn⟩) (tile1 V c 2 ⟨0, hn⟩) (tile1 V c 3 ⟨0, hn⟩))
  | n + 1, hn =>
    if h0 : (n + 1) % 5 = 0 then
      (restOut1, accFirst1 c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) acc1 (Memref.isWhole_whole _) ((first1_iff ⟨n + 1, hn⟩).mpr h0) (fun h => (fun h => by (try dsimp only at h); omega) ((last1_iff ⟨n + 1, hn⟩).mp h)) (tile1 V c 0 ⟨n + 1, hn⟩) (tile1 V c 1 ⟨n + 1, hn⟩) (tile1 V c 2 ⟨n + 1, hn⟩) (tile1 V c 3 ⟨n + 1, hn⟩))
    else if h4 : (n + 1) % 5 = 4 then
      (outLast1 c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) acc1 (Memref.isWhole_whole _) (fun h => h0 ((first1_iff ⟨n + 1, hn⟩).mp h)) ((last1_iff ⟨n + 1, hn⟩).mpr h4) (tile1 V c 0 ⟨n + 1, hn⟩) (tile1 V c 1 ⟨n + 1, hn⟩) (tile1 V c 2 ⟨n + 1, hn⟩) (tile1 V c 3 ⟨n + 1, hn⟩) (stateAt1 c n (Nat.lt_of_succ_lt hn)).2,
       accLast1 c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) acc1 (Memref.isWhole_whole _) (fun h => h0 ((first1_iff ⟨n + 1, hn⟩).mp h)) ((last1_iff ⟨n + 1, hn⟩).mpr h4) (tile1 V c 0 ⟨n + 1, hn⟩) (tile1 V c 1 ⟨n + 1, hn⟩) (tile1 V c 2 ⟨n + 1, hn⟩) (tile1 V c 3 ⟨n + 1, hn⟩) (stateAt1 c n (Nat.lt_of_succ_lt hn)).2)
    else
      (restOut1, accMid1 c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) acc1 (Memref.isWhole_whole _) (fun h => h0 ((first1_iff ⟨n + 1, hn⟩).mp h)) (fun h => h4 ((last1_iff ⟨n + 1, hn⟩).mp h)) (tile1 V c 0 ⟨n + 1, hn⟩) (tile1 V c 1 ⟨n + 1, hn⟩) (tile1 V c 2 ⟨n + 1, hn⟩) (tile1 V c 3 ⟨n + 1, hn⟩) (stateAt1 c n (Nat.lt_of_succ_lt hn)).2)

theorem stateAt1_first (c : Dev nD) (t : Fin cfg1.N) (h0 : t.val % 5 = 0) (h4 : ¬t.val % 5 = 4) :
    stateAt1 V c t.val t.isLt = (restOut1, accFirst1 c (grid1.coords t) (buf1_0 t) (whole1_0 t) (buf1_1 t) (whole1_1 t) (buf1_2 t) (whole1_2 t) (buf1_3 t) (whole1_3 t) (buf1_4 t) (whole1_4 t) acc1 (Memref.isWhole_whole _) ((first1_iff t).mpr h0) (fun h => h4 ((last1_iff t).mp h)) (tile1 V c 0 t) (tile1 V c 1 t) (tile1 V c 2 t) (tile1 V c 3 t)) := by
  obtain ⟨n, hn⟩ := t
  cases n with
  | zero => exact rfl
  | succ n => exact (dif_pos h0).trans rfl

theorem stateAt1_mid (c : Dev nD) (t : Fin cfg1.N) (h0 : ¬t.val % 5 = 0) (h4 : ¬t.val % 5 = 4) :
    stateAt1 V c t.val t.isLt = (restOut1, accMid1 c (grid1.coords t) (buf1_0 t) (whole1_0 t) (buf1_1 t) (whole1_1 t) (buf1_2 t) (whole1_2 t) (buf1_3 t) (whole1_3 t) (buf1_4 t) (whole1_4 t) acc1 (Memref.isWhole_whole _) (fun h => h0 ((first1_iff t).mp h)) (fun h => h4 ((last1_iff t).mp h)) (tile1 V c 0 t) (tile1 V c 1 t) (tile1 V c 2 t) (tile1 V c 3 t) (stateAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h4).trans rfl)

theorem stateAt1_last (c : Dev nD) (t : Fin cfg1.N) (h0 : ¬t.val % 5 = 0) (h4 : t.val % 5 = 4) :
    stateAt1 V c t.val t.isLt = (outLast1 c (grid1.coords t) (buf1_0 t) (whole1_0 t) (buf1_1 t) (whole1_1 t) (buf1_2 t) (whole1_2 t) (buf1_3 t) (whole1_3 t) (buf1_4 t) (whole1_4 t) acc1 (Memref.isWhole_whole _) (fun h => h0 ((first1_iff t).mp h)) ((last1_iff t).mpr h4) (tile1 V c 0 t) (tile1 V c 1 t) (tile1 V c 2 t) (tile1 V c 3 t) (stateAt1 V c (t.val - 1) (Nat.lt_of_le_of_lt (Nat.sub_le _ _) t.isLt)).2,
      accLast1 c (grid1.coords t) (buf1_0 t) (whole1_0 t) (buf1_1 t) (whole1_1 t) (buf1_2 t) (whole1_2 t) (buf1_3 t) (whole1_3 t) (buf1_4 t) (whole1_4 t) acc1 (Memref.isWhole_whole _) (fun h => h0 ((first1_iff t).mp h)) ((last1_iff t).mpr h4) (tile1 V c 0 t) (tile1 V c 1 t) (tile1 V c 2 t) (tile1 V c 3 t) (stateAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h4).trans rfl)

/-! ## The invariant between points -/

/-- Before the first point: what the launch lends. Before any later point: the accumulator at what the point before
    left, the bystanders, the generator register. -/
def carried1 (c : Dev nD) : (n : ℕ) → n ≤ cfg1.N → sProp 𝕄
  | 0, _ => Pipeline.ΦA spec1 c
  | n + 1, hn => iprop(iprop(owns (c : Thread nD τ) acc1 fullShare ((stateAt1 V c n hn).2) ∗ bystanders1 c) ∗ (∃ r, prngReg c r))

theorem carried1_zero (c : Dev nD) (n : ℕ) (h : n ≤ cfg1.N) (hz : n = 0) : carried1 V c n h = Pipeline.ΦA spec1 c := by
  subst hz; rfl
theorem carried1_succ (c : Dev nD) (n : ℕ) (hn : n < cfg1.N) :
    carried1 V c (n + 1) hn = iprop(iprop(owns (c : Thread nD τ) acc1 fullShare ((stateAt1 V c n hn).2) ∗ bystanders1 c) ∗ (∃ r, prngReg c r)) := rfl
theorem carried1_pos (c : Dev nD) (n : ℕ) (h : n ≤ cfg1.N) (hz : n ≠ 0) :
    carried1 V c n h = iprop(iprop(owns (c : Thread nD τ) acc1 fullShare ((stateAt1 V c (n - 1) (by omega)).2) ∗ bystanders1 c) ∗ (∃ r, prngReg c r)) := by
  cases n with
  | zero => exact absurd rfl hz
  | succ n => rfl

/-! ## The launch's proof data -/

/-- The operands as the launch finds them; after the body at point t each input's buffer at its tile, the output's at
    the recursion's first component; the invariant above; nothing owed, full shares. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => (stateAt1 V c t.val t.isLt).1
  Φ t := carried1 V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_inv (c : Dev nD) (t : Fin cfg1.N) :
    (dat1 V c).Φ t.castSucc = carried1 V c t.val (Nat.le_of_lt t.isLt) := by
  dsimp only [dat1]; simp only [Fin.coe_castSucc]
theorem dat1_after0 (c : Dev nD) (t : Fin cfg1.N) : (dat1 V c).after 0 t = tile1 V c 0 t := by dsimp only [dat1]
theorem dat1_after1 (c : Dev nD) (t : Fin cfg1.N) : (dat1 V c).after 1 t = tile1 V c 1 t := by dsimp only [dat1]
theorem dat1_after2 (c : Dev nD) (t : Fin cfg1.N) : (dat1 V c).after 2 t = tile1 V c 2 t := by dsimp only [dat1]
theorem dat1_after3 (c : Dev nD) (t : Fin cfg1.N) : (dat1 V c).after 3 t = tile1 V c 3 t := by dsimp only [dat1]
theorem dat1_after4 (c : Dev nD) (t : Fin cfg1.N) : (dat1 V c).after 4 t = (stateAt1 V c t.val t.isLt).1 := by dsimp only [dat1]
theorem dat1_before0 (c : Dev nD) (t : Fin cfg1.N) (d) : (dat1 V c).before 0 t d = tile1 V c 0 t :=
  staged1_0 V (dat1 V c) (dat1_A V c 0) (dat1_after0 V c) t d
theorem dat1_before1 (c : Dev nD) (t : Fin cfg1.N) (d) : (dat1 V c).before 1 t d = tile1 V c 1 t :=
  staged1_1 V (dat1 V c) (dat1_A V c 1) (dat1_after1 V c) t d
theorem dat1_before2 (c : Dev nD) (t : Fin cfg1.N) (d) : (dat1 V c).before 2 t d = tile1 V c 2 t :=
  staged1_2 V (dat1 V c) (dat1_A V c 2) (dat1_after2 V c) t d
theorem dat1_before3 (c : Dev nD) (t : Fin cfg1.N) (d) : (dat1 V c).before 3 t d = tile1 V c 3 t :=
  staged1_3 V (dat1 V c) (dat1_A V c 3) (dat1_after3 V c) t d

/-! ## The body at any point -/

def pointPre1 (c : Dev nD) (t : Fin cfg1.N) : sProp 𝕄 :=
  iprop((dat1 V c).Φ t.castSucc ∗ (dat1 V c).owesAt () t.castSucc
    ∗ (∃ d, owns (c : Thread nD τ) (buf1_0 t) fullShare ((dat1 V c).before 0 t d))
    ∗ (∃ d, owns (c : Thread nD τ) (buf1_1 t) fullShare ((dat1 V c).before 1 t d))
    ∗ (∃ d, owns (c : Thread nD τ) (buf1_2 t) fullShare ((dat1 V c).before 2 t d))
    ∗ (∃ d, owns (c : Thread nD τ) (buf1_3 t) fullShare ((dat1 V c).before 3 t d))
    ∗ (∃ d, owns (c : Thread nD τ) (buf1_4 t) fullShare ((dat1 V c).before 4 t d)))

def pointPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their tiles; the point's situation is decided by t mod 5; the
    invariant hands over the accumulator (at anything before the first point, else at what the point before left) and
    takes it back at this point's contents. -/
theorem point1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [dat1_before0, dat1_before1, dat1_before2, dat1_before3]
  rw [show (dat1 V c).owesAt () t.succ = (dat1 V c).owesAt () t.castSucc from rfl]
  rw [show (dat1 V c).Φ t.succ = carried1 V c (t.val + 1) t.isLt from rfl, carried1_succ]
  have hN : t.val < 25 := lt_of_lt_of_eq t.isLt (show cfg1.N = 25 from N_1)
  rw [show (dat1 V c).leavesExact 0 t = owns (c : Thread nD τ) (buf1_0 t) fullShare ((dat1 V c).after 0 t) from by
    unfold Dat.leavesExact; rw [inUse1_0 t], dat1_after0]
  rw [show (dat1 V c).leavesExact 1 t = owns (c : Thread nD τ) (buf1_1 t) fullShare ((dat1 V c).after 1 t) from by
    unfold Dat.leavesExact; rw [inUse1_1 t], dat1_after1]
  rw [show (dat1 V c).leavesExact 2 t = owns (c : Thread nD τ) (buf1_2 t) fullShare ((dat1 V c).after 2 t) from by
    unfold Dat.leavesExact; rw [inUse1_2 t], dat1_after2]
  rw [show (dat1 V c).leavesExact 3 t = owns (c : Thread nD τ) (buf1_3 t) fullShare ((dat1 V c).after 3 t) from by
    unfold Dat.leavesExact; rw [inUse1_3 t], dat1_after3]
  by_cases h0 : t.val % 5 = 0
  · have h4 : ¬t.val % 5 = 4 := by omega
    rw [Dat.leavesExact_idle (dat1 V c) 4 t (rest1_4 t (fun h => h4 ((last1_iff t).mp h))) (noWriteBack1_4 t (fun h => h4 ((last1_iff t).mp h)))]
    rw [stateAt1_first V c t h0 h4]
    unfold accFirst1; (try dsimp only)
    by_cases hz : t.val = 0
    · rw [dat1_inv V c t, carried1_zero V c _ _ hz, lent1_eq]
      iintro ⟨⟨⟨HS, Hby⟩, Hg⟩, Ho, ⟨%d0, H0⟩, ⟨%d1, H1⟩, ⟨%d2, H2⟩, ⟨%d3, H3⟩, ⟨%d4, H4⟩⟩
      iapply ((runFirst1 c (grid1.coords t) _ _ _ _ _ _ _ _ _ _ _ _ ((first1_iff t).mpr h0) (fun h => h4 ((last1_iff t).mp h)) (tile1 V c 0 t) (tile1 V c 1 t) (tile1 V c 2 t) (tile1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hby Hg]
      · isplitl [HS Hby]
        · isplitl [HS]
          · unfold owns; iexists _; isplitr
            swap; · iexact HS
            ipureintro; exact View.read_writes_of_cover _ _ _ _ _ (accFirst1_cover c _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      iexists _; iexact H4
    · rw [dat1_inv V c t, carried1_pos V c _ _ hz]
      iintro ⟨⟨⟨HS, Hby⟩, Hg⟩, Ho, ⟨%d0, H0⟩, ⟨%d1, H1⟩, ⟨%d2, H2⟩, ⟨%d3, H3⟩, ⟨%d4, H4⟩⟩
      iapply ((runFirst1 c (grid1.coords t) _ _ _ _ _ _ _ _ _ _ _ _ ((first1_iff t).mpr h0) (fun h => h4 ((last1_iff t).mp h)) (tile1 V c 0 t) (tile1 V c 1 t) (tile1 V c 2 t) (tile1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hby Hg]
      · isplitl [HS Hby]
        · isplitl [HS]
          · unfold owns; iexists _; isplitr
            swap; · iexact HS
            ipureintro; exact View.read_writes_of_cover _ _ _ _ _ (accFirst1_cover c _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h4 : t.val % 5 = 4
    · rw [show (dat1 V c).leavesExact 4 t = owns (c : Thread nD τ) (buf1_4 t) fullShare ((dat1 V c).after 4 t) from by
        unfold Dat.leavesExact; rw [inUse1_4 t ((last1_iff t).mpr h4)], dat1_after4]
      rw [stateAt1_last V c t h0 h4]
      unfold outLast1 accLast1; (try dsimp only)
      rw [dat1_inv V c t, carried1_pos V c _ _ hz]
      iintro ⟨⟨⟨HS, Hby⟩, Hg⟩, Ho, ⟨%d0, H0⟩, ⟨%d1, H1⟩, ⟨%d2, H2⟩, ⟨%d3, H3⟩, ⟨%d4, H4⟩⟩
      iapply ((runLast1 c (grid1.coords t) _ _ _ _ _ _ _ _ _ _ _ _ (fun h => h0 ((first1_iff t).mp h)) ((last1_iff t).mpr h4) (tile1 V c 0 t) (tile1 V c 1 t) (tile1 V c 2 t) (tile1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hby Hg]
      · isplitl [HS Hby]
        · isplitl [HS]
          · unfold owns; iexists _; isplitr
            swap; · iexact HS
            ipureintro; exact View.read_writes_of_cover _ _ _ _ _ (accLast1_cover c _ _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast1_cover c _ _ _ _ _ _ _ _ _ _ _ _ _ _ _ _ _ _ _ _)
    · rw [Dat.leavesExact_idle (dat1 V c) 4 t (rest1_4 t (fun h => h4 ((last1_iff t).mp h))) (noWriteBack1_4 t (fun h => h4 ((last1_iff t).mp h)))]
      rw [stateAt1_mid V c t h0 h4]
      unfold accMid1; (try dsimp only)
      rw [dat1_inv V c t, carried1_pos V c _ _ hz]
      iintro ⟨⟨⟨HS, Hby⟩, Hg⟩, Ho, ⟨%d0, H0⟩, ⟨%d1, H1⟩, ⟨%d2, H2⟩, ⟨%d3, H3⟩, ⟨%d4, H4⟩⟩
      iapply ((runMid1 c (grid1.coords t) _ _ _ _ _ _ _ _ _ _ _ _ (fun h => h0 ((first1_iff t).mp h)) (fun h => h4 ((last1_iff t).mp h)) (tile1 V c 0 t) (tile1 V c 1 t) (tile1 V c 2 t) (tile1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hby Hg]
      · isplitl [HS Hby]
        · isplitl [HS]
          · unfold owns; iexists _; isplitr
            swap; · iexact HS
            ipureintro; exact View.read_writes_of_cover _ _ _ _ _ (accMid1_cover c _ _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      iexists _; iexact H4

/-- The obligation the launch theorem asks for, at every point. -/
theorem obligation1 (c : Dev nD) : BodyObligation (dat1 (F := F) V c) (defs₀ (F := F)) Variants.none () Set.univ := fun t => by
  rw [bigSep_W1, bigSep_W1]
  exact point1 V c t

/-- What the launch lends is the invariant before the first point. -/
theorem enter1 (c : Dev nD) : Pipeline.ΦA spec1 c ⊢ (dat1 V c).Φ 0 := by
  rw [show (dat1 V c).Φ 0 = carried1 V c 0 (Nat.zero_le _) from rfl, carried1_zero V c 0 _ rfl]
  try exact Idealize.SL.BI.Entails.refl _

/-- After the last point the invariant gives it back, the accumulator's contents forgotten. -/
theorem leave1 (c : Dev nD) : (dat1 V c).Φ (Fin.last cfg1.N) ⊢ Pipeline.ΦA spec1 c := by
  rw [show (dat1 V c).Φ (Fin.last cfg1.N) = carried1 V c (Fin.last cfg1.N).val (Nat.le_of_lt_succ (Fin.last cfg1.N).isLt) from rfl,
    carried1_pos V c _ _ (by rw [Fin.val_last]; have : cfg1.N = 25 := N_1; omega), lent1_eq]
  iintro ⟨⟨HS, Hby⟩, Hg⟩
  isplitl [HS Hby]
  · isplitl [HS]
    · iexists _; iexact HS
    iexact Hby
  iexact Hg

end

end Cert.Kernel.Hand

end
-- ==== Proof.KB.Run.lean ====
/-
  The whole program at one instance of the floats: host operations, the first graph-convolution launch, the second
  one, host operations. The contents of the core's buffers are followed from the launch of the program to its return
  (each stretch of host operations applied as a function; each launch's operands replaced by what its pipeline wrote
  back), and the run is assembled segment by segment. The result: every execution terminates without a fault with
  every unscoped buffer at the contents so computed — in particular the nine arguments as they were.
-/
import proofs.«151618_j80324478369804_1_alg».proof.Proof.Gen.Kernel.Launch
import proofs.«151618_j80324478369804_1_alg».proof.Proof.Gen.Kernel.Skeleton
import proofs.«151618_j80324478369804_1_alg».proof.Proof.Gen.Kernel.Points
import proofs.«151618_j80324478369804_1_alg».proof.Proof.KB.Body0
import proofs.«151618_j80324478369804_1_alg».proof.Proof.KB.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At the program's launch. -/
abbrev atLaunch : Dev nD → Valuation τ sig (Elt F) := fun c b => (s₀ m ρ).mem ((c : Dev nD), b)
/-- After the host operations that build the normalized adjacency and pad the features: the first launch's entry. -/
abbrev atEntry0 : Dev nD → Valuation τ sig (Elt F) := fun c => StableHlo.after hostOps0 (atLaunch m ρ c)
abbrev entry0 : (c : Dev nD) → (b : Ref sig .tc) → Buf (Elt F) ((c : Thread nD τ).loc b) := fun c b => atEntry0 m ρ c b
/-- After the first launch: its operands at what its pipeline leaves, every other buffer as entered. The second
    launch is entered from here (no host operation stands between the two). -/
def atExit0 (c : Dev nD) : Valuation τ sig (Elt F) :=
  Pipeline.withArrays spec0 c (atEntry0 m ρ c) fun w => (dat0 (entry0 m ρ) c).arrAt w cfg0.N
theorem atExit0_arr (c : Dev nD) (w : Fin cfg0.W) :
    atExit0 m ρ c (Proc.devRef .tc (Pipeline.arrRef spec0 w)) = (dat0 (entry0 m ρ) c).arrAt w cfg0.N := by
  unfold atExit0; exact Pipeline.withArrays_arr spec0 launch0.win.arr_inj c _ _ w
theorem atExit0_of_ne (c : Dev nD) (b : Ref sig .tc) (hb : ∀ w, Pipeline.arrRef spec0 w ≠ b) :
    atExit0 m ρ c (Proc.devRef .tc b) = atEntry0 m ρ c (Proc.devRef .tc b) := by
  unfold atExit0; exact Pipeline.withArrays_of_ne spec0 c _ _ b hb
abbrev entry1 : (c : Dev nD) → (b : Ref sig .tc) → Buf (Elt F) ((c : Thread nD τ).loc b) := fun c b => atExit0 m ρ c b
theorem wrote0 (c : Dev nD) (w : Fin cfg0.W) : (dat0 (entry0 m ρ) c).arrAt w cfg0.N = entry1 m ρ c (Pipeline.arrRef spec0 w) :=
  (atExit0_arr m ρ c w).symm
theorem kept0 (c : Dev nD) : ∀ b, b ∉ Finset.univ.image (Pipeline.arrRef spec0) → entry1 m ρ c b = entry0 m ρ c b :=
  fun b hb => atExit0_of_ne m ρ c b fun w e => hb (Finset.mem_image.mpr ⟨w, Finset.mem_univ _, e⟩)
/-- After the second launch. -/
def atExit1 (c : Dev nD) : Valuation τ sig (Elt F) :=
  Pipeline.withArrays spec1 c (atExit0 m ρ c) fun w => (dat1 (entry1 m ρ) c).arrAt w cfg1.N
theorem atExit1_arr (c : Dev nD) (w : Fin cfg1.W) :
    atExit1 m ρ c (Proc.devRef .tc (Pipeline.arrRef spec1 w)) = (dat1 (entry1 m ρ) c).arrAt w cfg1.N := by
  unfold atExit1; exact Pipeline.withArrays_arr spec1 launch1.win.arr_inj c _ _ w
theorem atExit1_of_ne (c : Dev nD) (b : Ref sig .tc) (hb : ∀ w, Pipeline.arrRef spec1 w ≠ b) :
    atExit1 m ρ c (Proc.devRef .tc b) = atExit0 m ρ c (Proc.devRef .tc b) := by
  unfold atExit1; exact Pipeline.withArrays_of_ne spec1 c _ _ b hb
abbrev exit1 : (c : Dev nD) → (b : Ref sig .tc) → Buf (Elt F) ((c : Thread nD τ).loc b) := fun c b => atExit1 m ρ c b
theorem wrote1 (c : Dev nD) (w : Fin cfg1.W) : (dat1 (entry1 m ρ) c).arrAt w cfg1.N = exit1 m ρ c (Pipeline.arrRef spec1 w) :=
  (atExit1_arr m ρ c w).symm
theorem kept1 (c : Dev nD) : ∀ b, b ∉ Finset.univ.image (Pipeline.arrRef spec1) → exit1 m ρ c b = entry1 m ρ c b :=
  fun b hb => atExit1_of_ne m ρ c b fun w e => hb (Finset.mem_image.mpr ⟨w, Finset.mem_univ _, e⟩)
/-- After the host operations that pool the node rows per graph and apply the last linear layer: the program's end. -/
abbrev atEnd : Dev nD → Valuation τ sig (Elt F) := fun c => StableHlo.after hostOps2 (atExit1 m ρ c)

/-! ## No segment writes an argument -/

/-- A buffer that none of the leading host operations writes. -/
theorem prefix_keeps_args (b : DevRef τ sig) (hb : b ∈ ([Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8] : List (DevRef τ sig))) :
    ∀ op ∈ (hostOps0 : List (HloOp τ sig (Elt F))), b ∉ op.writes := by
  refine List.forall_iff_forall_mem.mp ?_
  simp only [List.mem_cons, List.mem_nil_iff, or_false] at hb
  rcases hb with rfl | rfl | rfl | rfl | rfl | rfl | rfl | rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem atEnd_arg0 (c : Dev nD) : atEnd m ρ c (Proc.devRef .tc main_arg0) = m ((c : Thread nD τ).loc main_arg0) :=
  calc atEnd m ρ c (Proc.devRef .tc main_arg0)
    _ = atExit1 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg0) := atExit1_of_ne m ρ c main_arg0 (by decide)
    _ = atEntry0 m ρ c (Proc.devRef .tc main_arg0) := atExit0_of_ne m ρ c main_arg0 (by decide)
    _ = atLaunch m ρ c (Proc.devRef .tc main_arg0) := StableHlo.after_of_forall_not_mem (b := Proc.devRef .tc main_arg0) _ _ (prefix_keeps_args (Proc.devRef .tc main_arg0) (by decide))
    _ = m ((c : Thread nD τ).loc main_arg0) := rfl
theorem atEnd_arg1 (c : Dev nD) : atEnd m ρ c (Proc.devRef .tc main_arg1) = m ((c : Thread nD τ).loc main_arg1) :=
  calc atEnd m ρ c (Proc.devRef .tc main_arg1)
    _ = atExit1 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg1) := atExit1_of_ne m ρ c main_arg1 (by decide)
    _ = atEntry0 m ρ c (Proc.devRef .tc main_arg1) := atExit0_of_ne m ρ c main_arg1 (by decide)
    _ = atLaunch m ρ c (Proc.devRef .tc main_arg1) := StableHlo.after_of_forall_not_mem (b := Proc.devRef .tc main_arg1) _ _ (prefix_keeps_args (Proc.devRef .tc main_arg1) (by decide))
    _ = m ((c : Thread nD τ).loc main_arg1) := rfl
theorem atEnd_arg2 (c : Dev nD) : atEnd m ρ c (Proc.devRef .tc main_arg2) = m ((c : Thread nD τ).loc main_arg2) :=
  calc atEnd m ρ c (Proc.devRef .tc main_arg2)
    _ = atExit1 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg2) := atExit1_of_ne m ρ c main_arg2 (by decide)
    _ = atEntry0 m ρ c (Proc.devRef .tc main_arg2) := atExit0_of_ne m ρ c main_arg2 (by decide)
    _ = atLaunch m ρ c (Proc.devRef .tc main_arg2) := StableHlo.after_of_forall_not_mem (b := Proc.devRef .tc main_arg2) _ _ (prefix_keeps_args (Proc.devRef .tc main_arg2) (by decide))
    _ = m ((c : Thread nD τ).loc main_arg2) := rfl
theorem atEnd_arg4 (c : Dev nD) : atEnd m ρ c (Proc.devRef .tc main_arg4) = m ((c : Thread nD τ).loc main_arg4) :=
  calc atEnd m ρ c (Proc.devRef .tc main_arg4)
    _ = atExit1 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg4) := atExit1_of_ne m ρ c main_arg4 (by decide)
    _ = atEntry0 m ρ c (Proc.devRef .tc main_arg4) := atExit0_of_ne m ρ c main_arg4 (by decide)
    _ = atLaunch m ρ c (Proc.devRef .tc main_arg4) := StableHlo.after_of_forall_not_mem (b := Proc.devRef .tc main_arg4) _ _ (prefix_keeps_args (Proc.devRef .tc main_arg4) (by decide))
    _ = m ((c : Thread nD τ).loc main_arg4) := rfl
theorem atEnd_arg6 (c : Dev nD) : atEnd m ρ c (Proc.devRef .tc main_arg6) = m ((c : Thread nD τ).loc main_arg6) :=
  calc atEnd m ρ c (Proc.devRef .tc main_arg6)
    _ = atExit1 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg6) := atExit1_of_ne m ρ c main_arg6 (by decide)
    _ = atEntry0 m ρ c (Proc.devRef .tc main_arg6) := atExit0_of_ne m ρ c main_arg6 (by decide)
    _ = atLaunch m ρ c (Proc.devRef .tc main_arg6) := StableHlo.after_of_forall_not_mem (b := Proc.devRef .tc main_arg6) _ _ (prefix_keeps_args (Proc.devRef .tc main_arg6) (by decide))
    _ = m ((c : Thread nD τ).loc main_arg6) := rfl
theorem atEnd_arg7 (c : Dev nD) : atEnd m ρ c (Proc.devRef .tc main_arg7) = m ((c : Thread nD τ).loc main_arg7) :=
  calc atEnd m ρ c (Proc.devRef .tc main_arg7)
    _ = atExit1 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg7) := atExit1_of_ne m ρ c main_arg7 (by decide)
    _ = atEntry0 m ρ c (Proc.devRef .tc main_arg7) := atExit0_of_ne m ρ c main_arg7 (by decide)
    _ = atLaunch m ρ c (Proc.devRef .tc main_arg7) := StableHlo.after_of_forall_not_mem (b := Proc.devRef .tc main_arg7) _ _ (prefix_keeps_args (Proc.devRef .tc main_arg7) (by decide))
    _ = m ((c : Thread nD τ).loc main_arg7) := rfl
theorem atEnd_arg8 (c : Dev nD) : atEnd m ρ c (Proc.devRef .tc main_arg8) = m ((c : Thread nD τ).loc main_arg8) :=
  calc atEnd m ρ c (Proc.devRef .tc main_arg8)
    _ = atExit1 m ρ c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg8) := atExit1_of_ne m ρ c main_arg8 (by decide)
    _ = atEntry0 m ρ c (Proc.devRef .tc main_arg8) := atExit0_of_ne m ρ c main_arg8 (by decide)
    _ = atLaunch m ρ c (Proc.devRef .tc main_arg8) := StableHlo.after_of_forall_not_mem (b := Proc.devRef .tc main_arg8) _ _ (prefix_keeps_args (Proc.devRef .tc main_arg8) (by decide))
    _ = m ((c : Thread nD τ).loc main_arg8) := rfl
theorem atEnd_arg3 (c : Dev nD) : atEnd m ρ c (Proc.devRef .tc main_arg3) = m ((c : Thread nD τ).loc main_arg3) :=
  calc atEnd m ρ c (Proc.devRef .tc main_arg3)
    _ = atExit1 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg3) := atExit1_of_ne m ρ c main_arg3 (by decide)
    _ = atEntry0 m ρ c (Proc.devRef .tc main_arg3) := (atExit0_arr m ρ c 2).trans (((dat0 (entry0 m ρ) c).arrAt_in 2 rfl _).trans (dat0_A (entry0 m ρ) c 2))
    _ = atLaunch m ρ c (Proc.devRef .tc main_arg3) := StableHlo.after_of_forall_not_mem (b := Proc.devRef .tc main_arg3) _ _ (prefix_keeps_args (Proc.devRef .tc main_arg3) (by decide))
    _ = m ((c : Thread nD τ).loc main_arg3) := rfl
theorem atEnd_arg5 (c : Dev nD) : atEnd m ρ c (Proc.devRef .tc main_arg5) = m ((c : Thread nD τ).loc main_arg5) :=
  calc atEnd m ρ c (Proc.devRef .tc main_arg5)
    _ = atExit1 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg5) := (atExit1_arr m ρ c 2).trans (((dat1 (entry1 m ρ) c).arrAt_in 2 rfl _).trans (dat1_A (entry1 m ρ) c 2))
    _ = atEntry0 m ρ c (Proc.devRef .tc main_arg5) := atExit0_of_ne m ρ c main_arg5 (by decide)
    _ = atLaunch m ρ c (Proc.devRef .tc main_arg5) := StableHlo.after_of_forall_not_mem (b := Proc.devRef .tc main_arg5) _ _ (prefix_keeps_args (Proc.devRef .tc main_arg5) (by decide))
    _ = m ((c : Thread nD τ).loc main_arg5) := rfl

/-! ## The proof data of both launches and what rides along -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (entry0 m ρ) c
  | ⟨1, _⟩ => fun c => dat1 (entry1 m ρ) c
abbrev 𝒱₀ : Variants := Variants.none
abbrev L : GSem nD τ sig → Finset Unit := fun _ => ∅
abbrev lv : GSem nD τ sig → Unit → ℕ := fun _ _ => 0
/-- Beside the buffers, through every segment: the generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem hostOps2_noalloc : (hostOps2 : List (HloOp τ sig (Elt F))).Forall fun op => op.fresh = ∅ := by
  simp only [List.Forall]; repeat' constructor
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev atReturn (c : Dev nD) : sProp 𝕄 := iprop(StableHlo.held (c : Thread nD τ) (Pipeline.ucRefs τ sig) (atEnd m ρ c) ∗ ∃ r, prngReg c r)

/-! ## The launches as segments -/

set_option backward.isDefEq.respectTransparency.types false in
/-- Launch 0 as a segment: entered from every unscoped buffer at the contents before it, left with its operands at
    what the pipeline wrote back and everything else as entered. Its operands are split out of the unscoped buffers
    and put back; the generator register goes into the invariant and comes out; nothing is owed. -/
def region0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (entry0 m ρ) c).loose
  hwaits := Pipeline.hwaits_of_owed_zero _ _ _ _ L lv 0 fun _ _ => rfl
  pre c := iprop(StableHlo.held (c : Thread nD τ) (Pipeline.ucRefs τ sig) (atEntry0 m ρ c) ∗ R c)
  post c := iprop(StableHlo.held (c : Thread nD τ) (Pipeline.ucRefs τ sig) (atExit0 m ρ c) ∗ R c)
  X c := iprop(∃ r, prngReg c r)
  Y c := iprop(∃ r, prngReg c r)
  Z c := Pipeline.unscopedRest (Ix := Unit) (Name := ℕ) (U := UR sig nD τ) (Lvl := ℕ) spec0 c (entry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (entry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (enter0 (entry0 m ρ) c)
    unfold Pipeline.ΦA
    iintro ⟨Hp, -, Hr⟩
    isplitl [Hr]; · iexact Hr
    iexact Hp
  hout c := by
    rw [Pipeline.ownSems0_none]
    refine (leave0 (entry0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (entry0 m ρ c) (entry1 m ρ c) ((pdats m ρ 0 c).arrAt · cfg0.N) (wrote0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered from every unscoped buffer at the contents before it, left with its operands at
    what the pipeline wrote back and everything else as entered. Its operands are split out of the unscoped buffers
    and put back; the generator register goes into the invariant and comes out; nothing is owed. -/
def region1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (entry1 m ρ) c).loose
  hwaits := Pipeline.hwaits_of_owed_zero _ _ _ _ L lv 1 fun _ _ => rfl
  pre c := iprop(StableHlo.held (c : Thread nD τ) (Pipeline.ucRefs τ sig) (atExit0 m ρ c) ∗ R c)
  post c := iprop(StableHlo.held (c : Thread nD τ) (Pipeline.ucRefs τ sig) (atExit1 m ρ c) ∗ R c)
  X c := iprop(∃ r, prngReg c r)
  Y c := iprop(∃ r, prngReg c r)
  Z c := Pipeline.unscopedRest (Ix := Unit) (Name := ℕ) (U := UR sig nD τ) (Lvl := ℕ) spec1 c (entry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (enter1 (entry1 m ρ) c)
    unfold Pipeline.ΦA
    iintro ⟨Hp, -, Hr⟩
    isplitl [Hr]; · iexact Hr
    iexact Hp
  hout c := by
    rw [Pipeline.ownSems0_none]
    refine (leave1 (entry1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (entry1 m ρ c) (exit1 m ρ c) ((pdats m ρ 1 c).arrAt · cfg1.N) (wrote1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and its run -/

abbrev segments : List (Pipeline.Seg (pcfgs (F := F)) adm (pdats m ρ) () defs₀ 𝒱₀ L lv) :=
  [ .host (hostSeg hostOps0 hostOps0_sub hostOps0_noalloc (atLaunch m ρ)),
    .region (region0 m ρ),
    .region (region1 m ρ),
    .host (hostSeg hostOps2 hostOps2_sub hostOps2_noalloc (atExit1 m ρ)) ]
theorem main_is_segments (c : Dev nD) : main (F := F) c = Pipeline.Seg.run (segments m ρ) := (main_chain c).trans (by chain_rfl)

set_option backward.isDefEq.respectTransparency.types false in
/-- From any memory with zero counters every weakly fair execution of the program terminates, nothing faulting, and
    the final state has every unscoped buffer at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) adm (pdats m ρ) () cellOf_inj emb₁ defs₀ 𝒱₀ L lv m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := atReturn m ρ)
    (hch := ⟨fun _ => .rfl, fun _ => .rfl, fun _ => .rfl, fun _ => .rfl, fun c =>
      (show iprop(StableHlo.held (c : Thread nD τ) (Pipeline.ucRefs τ sig) (atEnd m ρ c) ∗ R c)
          ⊢ iprop(atReturn m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h c => h c)

/-- The frame: the run, read at the nine arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (unscoped_mem main_arg0 (by decide))).trans (atEnd_arg0 m ρ c),
     (h c _ (unscoped_mem main_arg1 (by decide))).trans (atEnd_arg1 m ρ c),
     (h c _ (unscoped_mem main_arg2 (by decide))).trans (atEnd_arg2 m ρ c),
     (h c _ (unscoped_mem main_arg3 (by decide))).trans (atEnd_arg3 m ρ c),
     (h c _ (unscoped_mem main_arg4 (by decide))).trans (atEnd_arg4 m ρ c),
     (h c _ (unscoped_mem main_arg5 (by decide))).trans (atEnd_arg5 m ρ c),
     (h c _ (unscoped_mem main_arg6 (by decide))).trans (atEnd_arg6 m ρ c),
     (h c _ (unscoped_mem main_arg7 (by decide))).trans (atEnd_arg7 m ρ c),
     (h c _ (unscoped_mem main_arg8 (by decide))).trans (atEnd_arg8 m ρ c)⟩) (run_all m ρ)

end Cert.Kernel.Hand

end
-- ==== Proof.KI.Base0.lean ====
/-
  First graph-convolution launch (grid 5 × 5 over row blocks m and column blocks k of the padded adjacency):
  what the proofs about its body share. At grid point t = 5·m + k the body clears the accumulator when k = 0,
  adds the product of the adjacency tile (m, k) with the projected feature rows of block k, and when k = 4 writes
  max(accumulator + bias, 0) into the output tile of row block m. So a point is in one of three situations:
  k = 0 (clear, accumulate), 0 < k < 4 (accumulate), k = 4 (accumulate, write the tile).
  Everything is stated at a parameter V: the contents of the core's buffers when the launch is entered.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The tile of operand w that point t works on, read off the operand as the launch finds it. -/
def tile0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its tile at every point, whether the pipeline fetched there or kept the
    buffer of the point before (the tile index did not move then). One statement per input operand. -/
theorem staged0_0 {c : Dev nD} (dat : Dat τ (Elt F) Unit ℕ (UR sig nD τ) ℕ cfg0 c) (hA : dat.A 0 = V c (Pipeline.arrRef spec0 0))
    (hafter : ∀ t, dat.after 0 t = tile0 V c 0 t) (t : Fin cfg0.N) (d) : dat.before 0 t d = tile0 V c 0 t :=
  (dat.before_in_eq_fetched 0 rfl (fun _ => rfl) (fun _ _ _ => rfl) (fun t => by rw [hafter]; unfold Dat.blockOf tile0; rw [hA]; try rfl) t d).trans
    (by unfold Dat.fetched Dat.blockOf tile0; rw [hA]; try rfl)
theorem staged0_1 {c : Dev nD} (dat : Dat τ (Elt F) Unit ℕ (UR sig nD τ) ℕ cfg0 c) (hA : dat.A 1 = V c (Pipeline.arrRef spec0 1))
    (hafter : ∀ t, dat.after 1 t = tile0 V c 1 t) (t : Fin cfg0.N) (d) : dat.before 1 t d = tile0 V c 1 t :=
  (dat.before_in_eq_fetched 1 rfl (fun _ => rfl) (fun _ _ _ => rfl) (fun t => by rw [hafter]; unfold Dat.blockOf tile0; rw [hA]; try rfl) t d).trans
    (by unfold Dat.fetched Dat.blockOf tile0; rw [hA]; try rfl)
theorem staged0_2 {c : Dev nD} (dat : Dat τ (Elt F) Unit ℕ (UR sig nD τ) ℕ cfg0 c) (hA : dat.A 2 = V c (Pipeline.arrRef spec0 2))
    (hafter : ∀ t, dat.after 2 t = tile0 V c 2 t) (t : Fin cfg0.N) (d) : dat.before 2 t d = tile0 V c 2 t :=
  (dat.before_in_eq_fetched 2 rfl (fun _ => rfl) (fun _ _ _ => rfl) (fun t => by rw [hafter]; unfold Dat.blockOf tile0; rw [hA]; try rfl) t d).trans
    (by unfold Dat.fetched Dat.blockOf tile0; rw [hA]; try rfl)
theorem staged0_3 {c : Dev nD} (dat : Dat τ (Elt F) Unit ℕ (UR sig nD τ) ℕ cfg0 c) (hA : dat.A 3 = V c (Pipeline.arrRef spec0 3))
    (hafter : ∀ t, dat.after 3 t = tile0 V c 3 t) (t : Fin cfg0.N) (d) : dat.before 3 t d = tile0 V c 3 t :=
  (dat.before_in_eq_fetched 3 rfl (fun _ => rfl) (fun _ _ _ => rfl) (fun t => by rw [hafter]; unfold Dat.blockOf tile0; rw [hA]; try rfl) t d).trans
    (by unfold Dat.fetched Dat.blockOf tile0; rw [hA]; try rfl)
end

/-! ## Which situation a point is in -/

/-- "k = 0": the condition under which the body clears the accumulator, as the body computes it from the coordinates. -/
abbrev first0 (i : grid0.Coords) : Prop := (Scalar.cmpi .ne (Scalar.extui (Scalar.cmpi .eq (BitVec.ofNat 32 (i 1).val) 0#32)) 0#32) = 1#1
/-- It holds exactly at the points t with t mod 5 = 0. -/
theorem first0_iff : ∀ t : Fin cfg0.N, first0 (grid0.coords t) ↔ t.val % 5 = 0 :=
  (by decide +kernel : ∀ t : Fin grid0.N, first0 (grid0.coords t) ↔ t.val % 5 = 0)
/-- "k = 4": the condition under which the body writes the output tile. -/
abbrev last0 (i : grid0.Coords) : Prop := k0_cond2 i = 1#1
/-- It holds exactly at the points t with t mod 5 = 4. -/
theorem last0_iff : ∀ t : Fin cfg0.N, last0 (grid0.coords t) ↔ t.val % 5 = 4 :=
  (by decide +kernel : ∀ t : Fin grid0.N, last0 (grid0.coords t) ↔ t.val % 5 = 4)

/-! ## Where operands are in use -/

theorem inUse0_0 : ∀ t : Fin cfg0.N, cfg0.idle 0 (grid0.coords t) = false := by decide +kernel
theorem inUse0_1 : ∀ t : Fin cfg0.N, cfg0.idle 1 (grid0.coords t) = false := by decide +kernel
theorem inUse0_2 : ∀ t : Fin cfg0.N, cfg0.idle 2 (grid0.coords t) = false := by decide +kernel
theorem inUse0_3 : ∀ t : Fin cfg0.N, cfg0.idle 3 (grid0.coords t) = false := by decide +kernel
/-- Away from k = 4 nothing is stored into the output tile and the pipeline does not write it back. -/
theorem rest0_4 : ∀ t : Fin cfg0.N, ¬last0 (grid0.coords t) → cfg0.idle 4 (grid0.coords t) = true := by decide +kernel
theorem noWriteBack0_4 : ∀ t : Fin cfg0.N, ¬last0 (grid0.coords t) → (cfg0.win 4).flush t = false := by decide +kernel
/-- At k = 4 the output tile is in use. -/
theorem inUse0_4 : ∀ t : Fin cfg0.N, last0 (grid0.coords t) → cfg0.idle 4 (grid0.coords t) = false := by decide +kernel

/-! ## The buffers the body is called with -/

/-- Operand w's staging buffer at point t, as the pipeline passes it, and that it is a whole buffer. -/
abbrev buf0_0 (t : Fin cfg0.N) : Memref sig .tc .vmem S2048x2048 .bf16 := win0_0.stage (cfg0.slots t 0)
abbrev whole0_0 (t : Fin cfg0.N) : (buf0_0 t).IsWhole := hstage0_0 ((cfg0.slots t 0).cast nbuf0_0)
abbrev buf0_1 (t : Fin cfg0.N) : Memref sig .tc .vmem S2048x128 .f32 := win0_1.stage (cfg0.slots t 1)
abbrev whole0_1 (t : Fin cfg0.N) : (buf0_1 t).IsWhole := hstage0_1 ((cfg0.slots t 1).cast nbuf0_1)
abbrev buf0_2 (t : Fin cfg0.N) : Memref sig .tc .vmem S128x128 .f32 := win0_2.stage (cfg0.slots t 2)
abbrev whole0_2 (t : Fin cfg0.N) : (buf0_2 t).IsWhole := hstage0_2 ((cfg0.slots t 2).cast nbuf0_2)
abbrev buf0_3 (t : Fin cfg0.N) : Memref sig .tc .vmem S1x128 .f32 := win0_3.stage (cfg0.slots t 3)
abbrev whole0_3 (t : Fin cfg0.N) : (buf0_3 t).IsWhole := hstage0_3 ((cfg0.slots t 3).cast nbuf0_3)
abbrev buf0_4 (t : Fin cfg0.N) : Memref sig .tc .vmem S2048x128 .f32 := win0_4.stage (cfg0.slots t 4)
abbrev whole0_4 (t : Fin cfg0.N) : (buf0_4 t).IsWhole := hstage0_4 ((cfg0.slots t 4).cast nbuf0_4)
/-- The accumulator: a buffer of the kernel's own, kept from one point to the next. -/
abbrev acc0 : Memref sig .tc .vmem S2048x128 .f32 := Memref.whole cc0_scratch0
/-- Views through which the accumulator's and the output tile's contents are stated. -/
abbrev accView0 : View sig .tc .vmem S2048x128 .f32 := acc0.view
abbrev outView0 : View sig .tc .vmem S2048x128 .f32 := (Memref.whole cc0_stg4_0 : Memref sig .tc .vmem S2048x128 .f32).view

/-- The second launch's own buffers (its staging buffers and its accumulator), each at some contents: bystanders
    of the first launch, lent with the rest and handed back unread. -/
def bystanders0 (c : Dev nD) : sProp 𝕄 :=
  iprop((∃ d, owns (c : Thread nD τ) (Memref.whole cc1_stg0_0 : Memref sig .tc .vmem S2048x2048 .bf16) fullShare d)
    ∗ (∃ d, owns (c : Thread nD τ) (Memref.whole cc1_stg0_1 : Memref sig .tc .vmem S2048x2048 .bf16) fullShare d)
    ∗ (∃ d, owns (c : Thread nD τ) (Memref.whole cc1_stg1_0 : Memref sig .tc .vmem S2048x128 .f32) fullShare d)
    ∗ (∃ d, owns (c : Thread nD τ) (Memref.whole cc1_stg1_1 : Memref sig .tc .vmem S2048x128 .f32) fullShare d)
    ∗ (∃ d, owns (c : Thread nD τ) (Memref.whole cc1_stg2_0 : Memref sig .tc .vmem S128x128 .f32) fullShare d)
    ∗ (∃ d, owns (c : Thread nD τ) (Memref.whole cc1_stg3_0 : Memref sig .tc .vmem S1x128 .f32) fullShare d)
    ∗ (∃ d, owns (c : Thread nD τ) (Memref.whole cc1_stg4_0 : Memref sig .tc .vmem S2048x128 .f32) fullShare d)
    ∗ (∃ d, owns (c : Thread nD τ) (Memref.whole cc1_stg4_1 : Memref sig .tc .vmem S2048x128 .f32) fullShare d)
    ∗ (∃ d, owns (c : Thread nD τ) (Memref.whole cc1_scratch0 : Memref sig .tc .vmem S2048x128 .f32) fullShare d))

/-- What the launch lends the body besides the operands: the accumulator at some contents, the bystanders, and the
    generator register. -/
theorem lent0_eq (c : Dev nD) :
    (Pipeline.ΦA spec0 c : sProp 𝕄)
      = iprop(iprop((∃ d, owns (c : Thread nD τ) acc0 fullShare d) ∗ bystanders0 c) ∗ (∃ r, prngReg c r)) := by
  unfold Pipeline.ΦA; rw [scopedRest0_eq]; simp only [acc0, bystanders0, owns_whole]; try rfl

end Cert.KernelIdeal.Hand

end
-- ==== Proof.KI.First0.lean ====
/-
  The first launch's body at a point with k = 0: the accumulator is cleared, then the tile product is added to it;
  the output tile is not touched. The run records, as a list of written pieces, what the accumulator ends with.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.Base0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the four inputs at given contents, the output tile at contents handed back untouched, the
    accumulator at anything — the body at a point with k = 0 runs to its end, leaving the inputs as they were and the
    accumulator with the pieces `LS` written. -/
noncomputable def runFirst0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first0 i) (hl : ¬last0 i)
    (x0 : Vec F S2048x2048 .bf16) (x1 : Vec F S2048x128 .f32) (x2 : Vec F S128x128 .f32) (x3 : Vec F S1x128 .f32) :
    { LS : List (View.Piece (Elt F) S2048x128 .f32) //
      ∀ (xo : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun xo E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.Mid0.lean ====
/-
  The first launch's body at a point with 0 < k < 4: the tile product is added to the accumulator the point before
  left; the output tile is not touched.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.Base0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the inputs at given contents, the output tile at contents handed back untouched, the
    accumulator at the contents `xs` carried over — the body at a point with 0 < k < 4 runs to its end, leaving the
    inputs as they were and the accumulator with the pieces `LS` written. -/
noncomputable def runMid0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : ¬last0 i)
    (x0 : Vec F S2048x2048 .bf16) (x1 : Vec F S2048x128 .f32) (x2 : Vec F S128x128 .f32) (x3 : Vec F S1x128 .f32) (xs : Vec F S2048x128 .f32) :
    { LS : List (View.Piece (Elt F) S2048x128 .f32) //
      ∀ (xo : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, fun xo E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.Last0.lean ====
/-
  The first launch's body at a point with k = 4: the tile product is added to the accumulator the point before left,
  and max(accumulator + bias, 0) is written over the whole output tile.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.Base0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the inputs at given contents, the output tile at anything, the accumulator at the contents
    `xs` carried over — the body at a point with k = 4 runs to its end, leaving the inputs as they were, the output
    tile with the pieces `LO` written and the accumulator with the pieces `LS` written. -/
noncomputable def runLast0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : last0 i)
    (x0 : Vec F S2048x2048 .bf16) (x1 : Vec F S2048x128 .f32) (x2 : Vec F S128x128 .f32) (x3 : Vec F S1x128 .f32) (xs : Vec F S2048x128 .f32) :
    Σ' (LO : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KI.Body0.lean ====
/-
  The first graph-convolution launch, point by point. After the point t = 5·m + k the accumulator holds the sum over
  the column blocks 0..k of (adjacency tile (m, k')) · (feature rows of block k' times the weight matrix), and at k = 4
  the output tile of row block m holds max(that sum + bias, 0). Here this is recorded as a recursion over the points
  (each point's contents from the point before), together with the proof that the body, run at any point from the
  contents the recursion names, leaves the contents it names: the obligation the launch theorem asks for.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.First0
import proofs.«151618_j80324478369804_1_alg».proof.Proof.KI.Mid0
import proofs.«151618_j80324478369804_1_alg».proof.Proof.KI.Last0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each situation leaves -/

/-- The accumulator after a point with k = 0: the recorded pieces read back. -/
def accFirst0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first0 i) (hl : ¬last0 i) (x0 : Vec F S2048x2048 .bf16) (x1 : Vec F S2048x128 .f32) (x2 : Vec F S128x128 .f32) (x3 : Vec F S1x128 .f32) : Vec F S2048x128 .f32 :=
  accView0.read (Elt F) (accView0.writes (Elt F) accView0.junk (runFirst0 c i arg2 harg2 arg3 harg3 arg4 harg4 arg5 harg5 arg6 harg6 arg7 harg7 hf hl x0 x1 x2 x3).1)
/-- Those pieces cover the accumulator. -/
theorem accFirst0_cover (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first0 i) (hl : ¬last0 i) (x0 : Vec F S2048x2048 .bf16) (x1 : Vec F S2048x128 .f32) (x2 : Vec F S128x128 .f32) (x3 : Vec F S1x128 .f32) (y : S2048x128.Idx) :
    ∃ pc ∈ (runFirst0 c i arg2 harg2 arg3 harg3 arg4 harg4 arg5 harg5 arg6 harg6 arg7 harg7 hf hl x0 x1 x2 x3).1, y ∈ pc.1.set :=
  View.cover_of_tiledL (runFirst0 c i arg2 harg2 arg3 harg3 arg4 harg4 arg5 harg5 arg6 harg6 arg7 harg7 hf hl x0 x1 x2 x3).1 S2048x128.size (by sl_kernel_rfl) y

/-- The accumulator after a point with 0 < k < 4, from the accumulator `xs` before it. -/
def accMid0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : ¬last0 i) (x0 : Vec F S2048x2048 .bf16) (x1 : Vec F S2048x128 .f32) (x2 : Vec F S128x128 .f32) (x3 : Vec F S1x128 .f32) (xs : Vec F S2048x128 .f32) : Vec F S2048x128 .f32 :=
  accView0.read (Elt F) (accView0.writes (Elt F) accView0.junk (runMid0 c i arg2 harg2 arg3 harg3 arg4 harg4 arg5 harg5 arg6 harg6 arg7 harg7 hf hl x0 x1 x2 x3 xs).1)
theorem accMid0_cover (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : ¬last0 i) (x0 : Vec F S2048x2048 .bf16) (x1 : Vec F S2048x128 .f32) (x2 : Vec F S128x128 .f32) (x3 : Vec F S1x128 .f32) (xs : Vec F S2048x128 .f32) (y : S2048x128.Idx) :
    ∃ pc ∈ (runMid0 c i arg2 harg2 arg3 harg3 arg4 harg4 arg5 harg5 arg6 harg6 arg7 harg7 hf hl x0 x1 x2 x3 xs).1, y ∈ pc.1.set :=
  View.cover_of_tiledL (runMid0 c i arg2 harg2 arg3 harg3 arg4 harg4 arg5 harg5 arg6 harg6 arg7 harg7 hf hl x0 x1 x2 x3 xs).1 S2048x128.size (by sl_kernel_rfl) y

/-- The accumulator and the output tile after a point with k = 4, from the accumulator `xs` before it. -/
def accLast0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : last0 i) (x0 : Vec F S2048x2048 .bf16) (x1 : Vec F S2048x128 .f32) (x2 : Vec F S128x128 .f32) (x3 : Vec F S1x128 .f32) (xs : Vec F S2048x128 .f32) : Vec F S2048x128 .f32 :=
  accView0.read (Elt F) (accView0.writes (Elt F) accView0.junk (runLast0 c i arg2 harg2 arg3 harg3 arg4 harg4 arg5 harg5 arg6 harg6 arg7 harg7 hf hl x0 x1 x2 x3 xs).2.1)
theorem accLast0_cover (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : last0 i) (x0 : Vec F S2048x2048 .bf16) (x1 : Vec F S2048x128 .f32) (x2 : Vec F S128x128 .f32) (x3 : Vec F S1x128 .f32) (xs : Vec F S2048x128 .f32) (y : S2048x128.Idx) :
    ∃ pc ∈ (runLast0 c i arg2 harg2 arg3 harg3 arg4 harg4 arg5 harg5 arg6 harg6 arg7 harg7 hf hl x0 x1 x2 x3 xs).2.1, y ∈ pc.1.set :=
  View.cover_of_tiledL (runLast0 c i arg2 harg2 arg3 harg3 arg4 harg4 arg5 harg5 arg6 harg6 arg7 harg7 hf hl x0 x1 x2 x3 xs).2.1 S2048x128.size (by sl_kernel_rfl) y
def outLast0 (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : last0 i) (x0 : Vec F S2048x2048 .bf16) (x1 : Vec F S2048x128 .f32) (x2 : Vec F S128x128 .f32) (x3 : Vec F S1x128 .f32) (xs : Vec F S2048x128 .f32) : Vec F S2048x128 .f32 :=
  outView0.read (Elt F) (outView0.writes (Elt F) outView0.junk (runLast0 c i arg2 harg2 arg3 harg3 arg4 harg4 arg5 harg5 arg6 harg6 arg7 harg7 hf hl x0 x1 x2 x3 xs).1)
theorem outLast0_cover (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : last0 i) (x0 : Vec F S2048x2048 .bf16) (x1 : Vec F S2048x128 .f32) (x2 : Vec F S128x128 .f32) (x3 : Vec F S1x128 .f32) (xs : Vec F S2048x128 .f32) (y : S2048x128.Idx) :
    ∃ pc ∈ (runLast0 c i arg2 harg2 arg3 harg3 arg4 harg4 arg5 harg5 arg6 harg6 arg7 harg7 hf hl x0 x1 x2 x3 xs).1, y ∈ pc.1.set :=
  View.cover_of_tiledL (runLast0 c i arg2 harg2 arg3 harg3 arg4 harg4 arg5 harg5 arg6 harg6 arg7 harg7 hf hl x0 x1 x2 x3 xs).1 S2048x128.size (by sl_kernel_rfl) y

/-- The output tile's recorded contents at a point that does not write it: a placeholder nothing reads (the tile is
    neither written back there nor read by the next point). -/
def restOut0 : Vec F S2048x128 .f32 := outView0.read (Elt F) outView0.junk

section
variable (V : (c : Dev nD) → (b : Ref sig .tc) → Buf (Elt F) ((c : Thread nD τ).loc b))

/-! ## The contents after each point -/

/-- (output tile, accumulator) after the body at the n-th point: by the point's situation, from the accumulator the
    point before left. -/
def stateAt0 (c : Dev nD) : (n : ℕ) → n < cfg0.N → Vec F S2048x128 .f32 × Vec F S2048x128 .f32
  | 0, hn => (restOut0, accFirst0 c (grid0.coords ⟨0, hn⟩) (buf0_0 ⟨0, hn⟩) (whole0_0 ⟨0, hn⟩) (buf0_1 ⟨0, hn⟩) (whole0_1 ⟨0, hn⟩) (buf0_2 ⟨0, hn⟩) (whole0_2 ⟨0, hn⟩) (buf0_3 ⟨0, hn⟩) (whole0_3 ⟨0, hn⟩) (buf0_4 ⟨0, hn⟩) (whole0_4 ⟨0, hn⟩) acc0 (Memref.isWhole_whole _) ((first0_iff ⟨0, hn⟩).mpr (Nat.zero_mod _)) (fun h => (fun h => by (try dsimp only at h); omega) ((last0_iff ⟨0, hn⟩).mp h)) (tile0 V c 0 ⟨0, hn⟩) (tile0 V c 1 ⟨0, hn⟩) (tile0 V c 2 ⟨0, hn⟩) (tile0 V c 3 ⟨0, hn⟩))
  | n + 1, hn =>
    if h0 : (n + 1) % 5 = 0 then
      (restOut0, accFirst0 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) acc0 (Memref.isWhole_whole _) ((first0_iff ⟨n + 1, hn⟩).mpr h0) (fun h => (fun h => by (try dsimp only at h); omega) ((last0_iff ⟨n + 1, hn⟩).mp h)) (tile0 V c 0 ⟨n + 1, hn⟩) (tile0 V c 1 ⟨n + 1, hn⟩) (tile0 V c 2 ⟨n + 1, hn⟩) (tile0 V c 3 ⟨n + 1, hn⟩))
    else if h4 : (n + 1) % 5 = 4 then
      (outLast0 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) acc0 (Memref.isWhole_whole _) (fun h => h0 ((first0_iff ⟨n + 1, hn⟩).mp h)) ((last0_iff ⟨n + 1, hn⟩).mpr h4) (tile0 V c 0 ⟨n + 1, hn⟩) (tile0 V c 1 ⟨n + 1, hn⟩) (tile0 V c 2 ⟨n + 1, hn⟩) (tile0 V c 3 ⟨n + 1, hn⟩) (stateAt0 c n (Nat.lt_of_succ_lt hn)).2,
       accLast0 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) acc0 (Memref.isWhole_whole _) (fun h => h0 ((first0_iff ⟨n + 1, hn⟩).mp h)) ((last0_iff ⟨n + 1, hn⟩).mpr h4) (tile0 V c 0 ⟨n + 1, hn⟩) (tile0 V c 1 ⟨n + 1, hn⟩) (tile0 V c 2 ⟨n + 1, hn⟩) (tile0 V c 3 ⟨n + 1, hn⟩) (stateAt0 c n (Nat.lt_of_succ_lt hn)).2)
    else
      (restOut0, accMid0 c (grid0.coords ⟨n + 1, hn⟩) (buf0_0 ⟨n + 1, hn⟩) (whole0_0 ⟨n + 1, hn⟩) (buf0_1 ⟨n + 1, hn⟩) (whole0_1 ⟨n + 1, hn⟩) (buf0_2 ⟨n + 1, hn⟩) (whole0_2 ⟨n + 1, hn⟩) (buf0_3 ⟨n + 1, hn⟩) (whole0_3 ⟨n + 1, hn⟩) (buf0_4 ⟨n + 1, hn⟩) (whole0_4 ⟨n + 1, hn⟩) acc0 (Memref.isWhole_whole _) (fun h => h0 ((first0_iff ⟨n + 1, hn⟩).mp h)) (fun h => h4 ((last0_iff ⟨n + 1, hn⟩).mp h)) (tile0 V c 0 ⟨n + 1, hn⟩) (tile0 V c 1 ⟨n + 1, hn⟩) (tile0 V c 2 ⟨n + 1, hn⟩) (tile0 V c 3 ⟨n + 1, hn⟩) (stateAt0 c n (Nat.lt_of_succ_lt hn)).2)

theorem stateAt0_first (c : Dev nD) (t : Fin cfg0.N) (h0 : t.val % 5 = 0) (h4 : ¬t.val % 5 = 4) :
    stateAt0 V c t.val t.isLt = (restOut0, accFirst0 c (grid0.coords t) (buf0_0 t) (whole0_0 t) (buf0_1 t) (whole0_1 t) (buf0_2 t) (whole0_2 t) (buf0_3 t) (whole0_3 t) (buf0_4 t) (whole0_4 t) acc0 (Memref.isWhole_whole _) ((first0_iff t).mpr h0) (fun h => h4 ((last0_iff t).mp h)) (tile0 V c 0 t) (tile0 V c 1 t) (tile0 V c 2 t) (tile0 V c 3 t)) := by
  obtain ⟨n, hn⟩ := t
  cases n with
  | zero => exact rfl
  | succ n => exact (dif_pos h0).trans rfl

theorem stateAt0_mid (c : Dev nD) (t : Fin cfg0.N) (h0 : ¬t.val % 5 = 0) (h4 : ¬t.val % 5 = 4) :
    stateAt0 V c t.val t.isLt = (restOut0, accMid0 c (grid0.coords t) (buf0_0 t) (whole0_0 t) (buf0_1 t) (whole0_1 t) (buf0_2 t) (whole0_2 t) (buf0_3 t) (whole0_3 t) (buf0_4 t) (whole0_4 t) acc0 (Memref.isWhole_whole _) (fun h => h0 ((first0_iff t).mp h)) (fun h => h4 ((last0_iff t).mp h)) (tile0 V c 0 t) (tile0 V c 1 t) (tile0 V c 2 t) (tile0 V c 3 t) (stateAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h4).trans rfl)

theorem stateAt0_last (c : Dev nD) (t : Fin cfg0.N) (h0 : ¬t.val % 5 = 0) (h4 : t.val % 5 = 4) :
    stateAt0 V c t.val t.isLt = (outLast0 c (grid0.coords t) (buf0_0 t) (whole0_0 t) (buf0_1 t) (whole0_1 t) (buf0_2 t) (whole0_2 t) (buf0_3 t) (whole0_3 t) (buf0_4 t) (whole0_4 t) acc0 (Memref.isWhole_whole _) (fun h => h0 ((first0_iff t).mp h)) ((last0_iff t).mpr h4) (tile0 V c 0 t) (tile0 V c 1 t) (tile0 V c 2 t) (tile0 V c 3 t) (stateAt0 V c (t.val - 1) (Nat.lt_of_le_of_lt (Nat.sub_le _ _) t.isLt)).2,
      accLast0 c (grid0.coords t) (buf0_0 t) (whole0_0 t) (buf0_1 t) (whole0_1 t) (buf0_2 t) (whole0_2 t) (buf0_3 t) (whole0_3 t) (buf0_4 t) (whole0_4 t) acc0 (Memref.isWhole_whole _) (fun h => h0 ((first0_iff t).mp h)) ((last0_iff t).mpr h4) (tile0 V c 0 t) (tile0 V c 1 t) (tile0 V c 2 t) (tile0 V c 3 t) (stateAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h4).trans rfl)

/-! ## The invariant between points -/

/-- Before the first point: what the launch lends. Before any later point: the accumulator at what the point before
    left, the bystanders, the generator register. -/
def carried0 (c : Dev nD) : (n : ℕ) → n ≤ cfg0.N → sProp 𝕄
  | 0, _ => Pipeline.ΦA spec0 c
  | n + 1, hn => iprop(iprop(owns (c : Thread nD τ) acc0 fullShare ((stateAt0 V c n hn).2) ∗ bystanders0 c) ∗ (∃ r, prngReg c r))

theorem carried0_zero (c : Dev nD) (n : ℕ) (h : n ≤ cfg0.N) (hz : n = 0) : carried0 V c n h = Pipeline.ΦA spec0 c := by
  subst hz; rfl
theorem carried0_succ (c : Dev nD) (n : ℕ) (hn : n < cfg0.N) :
    carried0 V c (n + 1) hn = iprop(iprop(owns (c : Thread nD τ) acc0 fullShare ((stateAt0 V c n hn).2) ∗ bystanders0 c) ∗ (∃ r, prngReg c r)) := rfl
theorem carried0_pos (c : Dev nD) (n : ℕ) (h : n ≤ cfg0.N) (hz : n ≠ 0) :
    carried0 V c n h = iprop(iprop(owns (c : Thread nD τ) acc0 fullShare ((stateAt0 V c (n - 1) (by omega)).2) ∗ bystanders0 c) ∗ (∃ r, prngReg c r)) := by
  cases n with
  | zero => exact absurd rfl hz
  | succ n => rfl

/-! ## The launch's proof data -/

/-- The operands as the launch finds them; after the body at point t each input's buffer at its tile, the output's at
    the recursion's first component; the invariant above; nothing owed, full shares. -/
def dat0 (c : Dev nD) : Dat τ (Elt F) Unit ℕ (UR sig nD τ) ℕ cfg0 c where
  A w := V c (Pipeline.arrRef spec0 w)
  after w t := match w with
    | ⟨0, _⟩ => tile0 V c 0 t
    | ⟨1, _⟩ => tile0 V c 1 t
    | ⟨2, _⟩ => tile0 V c 2 t
    | ⟨3, _⟩ => tile0 V c 3 t
    | ⟨4, _⟩ => (stateAt0 V c t.val t.isLt).1
  Φ t := carried0 V c t.val (Nat.le_of_lt_succ t.isLt)
  q _ := fullShare
  owed _ := 0

theorem dat0_A (c : Dev nD) (w : Fin cfg0.W) : (dat0 V c).A w = V c (Pipeline.arrRef spec0 w) := by
  dsimp only [dat0]
theorem dat0_inv (c : Dev nD) (t : Fin cfg0.N) :
    (dat0 V c).Φ t.castSucc = carried0 V c t.val (Nat.le_of_lt t.isLt) := by
  dsimp only [dat0]; simp only [Fin.coe_castSucc]
theorem dat0_after0 (c : Dev nD) (t : Fin cfg0.N) : (dat0 V c).after 0 t = tile0 V c 0 t := by dsimp only [dat0]
theorem dat0_after1 (c : Dev nD) (t : Fin cfg0.N) : (dat0 V c).after 1 t = tile0 V c 1 t := by dsimp only [dat0]
theorem dat0_after2 (c : Dev nD) (t : Fin cfg0.N) : (dat0 V c).after 2 t = tile0 V c 2 t := by dsimp only [dat0]
theorem dat0_after3 (c : Dev nD) (t : Fin cfg0.N) : (dat0 V c).after 3 t = tile0 V c 3 t := by dsimp only [dat0]
theorem dat0_after4 (c : Dev nD) (t : Fin cfg0.N) : (dat0 V c).after 4 t = (stateAt0 V c t.val t.isLt).1 := by dsimp only [dat0]
theorem dat0_before0 (c : Dev nD) (t : Fin cfg0.N) (d) : (dat0 V c).before 0 t d = tile0 V c 0 t :=
  staged0_0 V (dat0 V c) (dat0_A V c 0) (dat0_after0 V c) t d
theorem dat0_before1 (c : Dev nD) (t : Fin cfg0.N) (d) : (dat0 V c).before 1 t d = tile0 V c 1 t :=
  staged0_1 V (dat0 V c) (dat0_A V c 1) (dat0_after1 V c) t d
theorem dat0_before2 (c : Dev nD) (t : Fin cfg0.N) (d) : (dat0 V c).before 2 t d = tile0 V c 2 t :=
  staged0_2 V (dat0 V c) (dat0_A V c 2) (dat0_after2 V c) t d
theorem dat0_before3 (c : Dev nD) (t : Fin cfg0.N) (d) : (dat0 V c).before 3 t d = tile0 V c 3 t :=
  staged0_3 V (dat0 V c) (dat0_A V c 3) (dat0_after3 V c) t d

/-! ## The body at any point -/

def pointPre0 (c : Dev nD) (t : Fin cfg0.N) : sProp 𝕄 :=
  iprop((dat0 V c).Φ t.castSucc ∗ (dat0 V c).owesAt () t.castSucc
    ∗ (∃ d, owns (c : Thread nD τ) (buf0_0 t) fullShare ((dat0 V c).before 0 t d))
    ∗ (∃ d, owns (c : Thread nD τ) (buf0_1 t) fullShare ((dat0 V c).before 1 t d))
    ∗ (∃ d, owns (c : Thread nD τ) (buf0_2 t) fullShare ((dat0 V c).before 2 t d))
    ∗ (∃ d, owns (c : Thread nD τ) (buf0_3 t) fullShare ((dat0 V c).before 3 t d))
    ∗ (∃ d, owns (c : Thread nD τ) (buf0_4 t) fullShare ((dat0 V c).before 4 t d)))

def pointPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the inputs' buffers hold their tiles; the point's situation is decided by t mod 5; the
    invariant hands over the accumulator (at anything before the first point, else at what the point before left) and
    takes it back at this point's contents. -/
theorem point0 (c : Dev nD) (t : Fin cfg0.N) :
    pointPre0 V c t ⊢ wp frame (wpE (defs₀ (F := F)) Variants.none c none) Set.univ (bodyAt0 t) (fun _ => pointPost0 V c t) := by
  unfold pointPre0 pointPost0 bodyAt0
  simp only [dat0_before0, dat0_before1, dat0_before2, dat0_before3]
  rw [show (dat0 V c).owesAt () t.succ = (dat0 V c).owesAt () t.castSucc from rfl]
  rw [show (dat0 V c).Φ t.succ = carried0 V c (t.val + 1) t.isLt from rfl, carried0_succ]
  have hN : t.val < 25 := lt_of_lt_of_eq t.isLt (show cfg0.N = 25 from N_0)
  rw [show (dat0 V c).leavesExact 0 t = owns (c : Thread nD τ) (buf0_0 t) fullShare ((dat0 V c).after 0 t) from by
    unfold Dat.leavesExact; rw [inUse0_0 t], dat0_after0]
  rw [show (dat0 V c).leavesExact 1 t = owns (c : Thread nD τ) (buf0_1 t) fullShare ((dat0 V c).after 1 t) from by
    unfold Dat.leavesExact; rw [inUse0_1 t], dat0_after1]
  rw [show (dat0 V c).leavesExact 2 t = owns (c : Thread nD τ) (buf0_2 t) fullShare ((dat0 V c).after 2 t) from by
    unfold Dat.leavesExact; rw [inUse0_2 t], dat0_after2]
  rw [show (dat0 V c).leavesExact 3 t = owns (c : Thread nD τ) (buf0_3 t) fullShare ((dat0 V c).after 3 t) from by
    unfold Dat.leavesExact; rw [inUse0_3 t], dat0_after3]
  by_cases h0 : t.val % 5 = 0
  · have h4 : ¬t.val % 5 = 4 := by omega
    rw [Dat.leavesExact_idle (dat0 V c) 4 t (rest0_4 t (fun h => h4 ((last0_iff t).mp h))) (noWriteBack0_4 t (fun h => h4 ((last0_iff t).mp h)))]
    rw [stateAt0_first V c t h0 h4]
    unfold accFirst0; (try dsimp only)
    by_cases hz : t.val = 0
    · rw [dat0_inv V c t, carried0_zero V c _ _ hz, lent0_eq]
      iintro ⟨⟨⟨HS, Hby⟩, Hg⟩, Ho, ⟨%d0, H0⟩, ⟨%d1, H1⟩, ⟨%d2, H2⟩, ⟨%d3, H3⟩, ⟨%d4, H4⟩⟩
      iapply ((runFirst0 c (grid0.coords t) _ _ _ _ _ _ _ _ _ _ _ _ ((first0_iff t).mpr h0) (fun h => h4 ((last0_iff t).mp h)) (tile0 V c 0 t) (tile0 V c 1 t) (tile0 V c 2 t) (tile0 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hby Hg]
      · isplitl [HS Hby]
        · isplitl [HS]
          · unfold owns; iexists _; isplitr
            swap; · iexact HS
            ipureintro; exact View.read_writes_of_cover _ _ _ _ _ (accFirst0_cover c _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      iexists _; iexact H4
    · rw [dat0_inv V c t, carried0_pos V c _ _ hz]
      iintro ⟨⟨⟨HS, Hby⟩, Hg⟩, Ho, ⟨%d0, H0⟩, ⟨%d1, H1⟩, ⟨%d2, H2⟩, ⟨%d3, H3⟩, ⟨%d4, H4⟩⟩
      iapply ((runFirst0 c (grid0.coords t) _ _ _ _ _ _ _ _ _ _ _ _ ((first0_iff t).mpr h0) (fun h => h4 ((last0_iff t).mp h)) (tile0 V c 0 t) (tile0 V c 1 t) (tile0 V c 2 t) (tile0 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hby Hg]
      · isplitl [HS Hby]
        · isplitl [HS]
          · unfold owns; iexists _; isplitr
            swap; · iexact HS
            ipureintro; exact View.read_writes_of_cover _ _ _ _ _ (accFirst0_cover c _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h4 : t.val % 5 = 4
    · rw [show (dat0 V c).leavesExact 4 t = owns (c : Thread nD τ) (buf0_4 t) fullShare ((dat0 V c).after 4 t) from by
        unfold Dat.leavesExact; rw [inUse0_4 t ((last0_iff t).mpr h4)], dat0_after4]
      rw [stateAt0_last V c t h0 h4]
      unfold outLast0 accLast0; (try dsimp only)
      rw [dat0_inv V c t, carried0_pos V c _ _ hz]
      iintro ⟨⟨⟨HS, Hby⟩, Hg⟩, Ho, ⟨%d0, H0⟩, ⟨%d1, H1⟩, ⟨%d2, H2⟩, ⟨%d3, H3⟩, ⟨%d4, H4⟩⟩
      iapply ((runLast0 c (grid0.coords t) _ _ _ _ _ _ _ _ _ _ _ _ (fun h => h0 ((first0_iff t).mp h)) ((last0_iff t).mpr h4) (tile0 V c 0 t) (tile0 V c 1 t) (tile0 V c 2 t) (tile0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hby Hg]
      · isplitl [HS Hby]
        · isplitl [HS]
          · unfold owns; iexists _; isplitr
            swap; · iexact HS
            ipureintro; exact View.read_writes_of_cover _ _ _ _ _ (accLast0_cover c _ _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast0_cover c _ _ _ _ _ _ _ _ _ _ _ _ _ _ _ _ _ _ _ _)
    · rw [Dat.leavesExact_idle (dat0 V c) 4 t (rest0_4 t (fun h => h4 ((last0_iff t).mp h))) (noWriteBack0_4 t (fun h => h4 ((last0_iff t).mp h)))]
      rw [stateAt0_mid V c t h0 h4]
      unfold accMid0; (try dsimp only)
      rw [dat0_inv V c t, carried0_pos V c _ _ hz]
      iintro ⟨⟨⟨HS, Hby⟩, Hg⟩, Ho, ⟨%d0, H0⟩, ⟨%d1, H1⟩, ⟨%d2, H2⟩, ⟨%d3, H3⟩, ⟨%d4, H4⟩⟩
      iapply ((runMid0 c (grid0.coords t) _ _ _ _ _ _ _ _ _ _ _ _ (fun h => h0 ((first0_iff t).mp h)) (fun h => h4 ((last0_iff t).mp h)) (tile0 V c 0 t) (tile0 V c 1 t) (tile0 V c 2 t) (tile0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hby Hg]
      · isplitl [HS Hby]
        · isplitl [HS]
          · unfold owns; iexists _; isplitr
            swap; · iexact HS
            ipureintro; exact View.read_writes_of_cover _ _ _ _ _ (accMid0_cover c _ _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      iexists _; iexact H4

/-- The obligation the launch theorem asks for, at every point. -/
theorem obligation0 (c : Dev nD) : BodyObligation (dat0 (F := F) V c) (defs₀ (F := F)) Variants.none () Set.univ := fun t => by
  rw [bigSep_W0, bigSep_W0]
  exact point0 V c t

/-- What the launch lends is the invariant before the first point. -/
theorem enter0 (c : Dev nD) : Pipeline.ΦA spec0 c ⊢ (dat0 V c).Φ 0 := by
  rw [show (dat0 V c).Φ 0 = carried0 V c 0 (Nat.zero_le _) from rfl, carried0_zero V c 0 _ rfl]
  try exact Idealize.SL.BI.Entails.refl _

/-- After the last point the invariant gives it back, the accumulator's contents forgotten. -/
theorem leave0 (c : Dev nD) : (dat0 V c).Φ (Fin.last cfg0.N) ⊢ Pipeline.ΦA spec0 c := by
  rw [show (dat0 V c).Φ (Fin.last cfg0.N) = carried0 V c (Fin.last cfg0.N).val (Nat.le_of_lt_succ (Fin.last cfg0.N).isLt) from rfl,
    carried0_pos V c _ _ (by rw [Fin.val_last]; have : cfg0.N = 25 := N_0; omega), lent0_eq]
  iintro ⟨⟨HS, Hby⟩, Hg⟩
  isplitl [HS Hby]
  · isplitl [HS]
    · iexists _; iexact HS
    iexact Hby
  iexact Hg

end

end Cert.KernelIdeal.Hand

end
-- ==== Proof.KI.Base1.lean ====
/-
  Second graph-convolution launch (grid 5 × 5 over row blocks m and column blocks k of the padded adjacency):
  what the proofs about its body share. At grid point t = 5·m + k the body clears the accumulator when k = 0,
  adds the product of the adjacency tile (m, k) with the projected feature rows of block k, and when k = 4 writes
  max(accumulator + bias, 0) into the output tile of row block m. So a point is in one of three situations:
  k = 0 (clear, accumulate), 0 < k < 4 (accumulate), k = 4 (accumulate, write the tile).
  Everything is stated at a parameter V: the contents of the core's buffers when the launch is entered.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The tile of operand w that point t works on, read off the operand as the launch finds it. -/
def tile1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its tile at every point, whether the pipeline fetched there or kept the
    buffer of the point before (the tile index did not move then). One statement per input operand. -/
theorem staged1_0 {c : Dev nD} (dat : Dat τ (Elt F) Unit ℕ (UR sig nD τ) ℕ cfg1 c) (hA : dat.A 0 = V c (Pipeline.arrRef spec1 0))
    (hafter : ∀ t, dat.after 0 t = tile1 V c 0 t) (t : Fin cfg1.N) (d) : dat.before 0 t d = tile1 V c 0 t :=
  (dat.before_in_eq_fetched 0 rfl (fun _ => rfl) (fun _ _ _ => rfl) (fun t => by rw [hafter]; unfold Dat.blockOf tile1; rw [hA]; try rfl) t d).trans
    (by unfold Dat.fetched Dat.blockOf tile1; rw [hA]; try rfl)
theorem staged1_1 {c : Dev nD} (dat : Dat τ (Elt F) Unit ℕ (UR sig nD τ) ℕ cfg1 c) (hA : dat.A 1 = V c (Pipeline.arrRef spec1 1))
    (hafter : ∀ t, dat.after 1 t = tile1 V c 1 t) (t : Fin cfg1.N) (d) : dat.before 1 t d = tile1 V c 1 t :=
  (dat.before_in_eq_fetched 1 rfl (fun _ => rfl) (fun _ _ _ => rfl) (fun t => by rw [hafter]; unfold Dat.blockOf tile1; rw [hA]; try rfl) t d).trans
    (by unfold Dat.fetched Dat.blockOf tile1; rw [hA]; try rfl)
theorem staged1_2 {c : Dev nD} (dat : Dat τ (Elt F) Unit ℕ (UR sig nD τ) ℕ cfg1 c) (hA : dat.A 2 = V c (Pipeline.arrRef spec1 2))
    (hafter : ∀ t, dat.after 2 t = tile1 V c 2 t) (t : Fin cfg1.N) (d) : dat.before 2 t d = tile1 V c 2 t :=
  (dat.before_in_eq_fetched 2 rfl (fun _ => rfl) (fun _ _ _ => rfl) (fun t => by rw [hafter]; unfold Dat.blockOf tile1; rw [hA]; try rfl) t d).trans
    (by unfold Dat.fetched Dat.blockOf tile1; rw [hA]; try rfl)
theorem staged1_3 {c : Dev nD} (dat : Dat τ (Elt F) Unit ℕ (UR sig nD τ) ℕ cfg1 c) (hA : dat.A 3 = V c (Pipeline.arrRef spec1 3))
    (hafter : ∀ t, dat.after 3 t = tile1 V c 3 t) (t : Fin cfg1.N) (d) : dat.before 3 t d = tile1 V c 3 t :=
  (dat.before_in_eq_fetched 3 rfl (fun _ => rfl) (fun _ _ _ => rfl) (fun t => by rw [hafter]; unfold Dat.blockOf tile1; rw [hA]; try rfl) t d).trans
    (by unfold Dat.fetched Dat.blockOf tile1; rw [hA]; try rfl)
end

/-! ## Which situation a point is in -/

/-- "k = 0": the condition under which the body clears the accumulator, as the body computes it from the coordinates. -/
abbrev first1 (i : grid1.Coords) : Prop := (Scalar.cmpi .ne (Scalar.extui (Scalar.cmpi .eq (BitVec.ofNat 32 (i 1).val) 0#32)) 0#32) = 1#1
/-- It holds exactly at the points t with t mod 5 = 0. -/
theorem first1_iff : ∀ t : Fin cfg1.N, first1 (grid1.coords t) ↔ t.val % 5 = 0 :=
  (by decide +kernel : ∀ t : Fin grid1.N, first1 (grid1.coords t) ↔ t.val % 5 = 0)
/-- "k = 4": the condition under which the body writes the output tile. -/
abbrev last1 (i : grid1.Coords) : Prop := k1_cond2 i = 1#1
/-- It holds exactly at the points t with t mod 5 = 4. -/
theorem last1_iff : ∀ t : Fin cfg1.N, last1 (grid1.coords t) ↔ t.val % 5 = 4 :=
  (by decide +kernel : ∀ t : Fin grid1.N, last1 (grid1.coords t) ↔ t.val % 5 = 4)

/-! ## Where operands are in use -/

theorem inUse1_0 : ∀ t : Fin cfg1.N, cfg1.idle 0 (grid1.coords t) = false := by decide +kernel
theorem inUse1_1 : ∀ t : Fin cfg1.N, cfg1.idle 1 (grid1.coords t) = false := by decide +kernel
theorem inUse1_2 : ∀ t : Fin cfg1.N, cfg1.idle 2 (grid1.coords t) = false := by decide +kernel
theorem inUse1_3 : ∀ t : Fin cfg1.N, cfg1.idle 3 (grid1.coords t) = false := by decide +kernel
/-- Away from k = 4 nothing is stored into the output tile and the pipeline does not write it back. -/
theorem rest1_4 : ∀ t : Fin cfg1.N, ¬last1 (grid1.coords t) → cfg1.idle 4 (grid1.coords t) = true := by decide +kernel
theorem noWriteBack1_4 : ∀ t : Fin cfg1.N, ¬last1 (grid1.coords t) → (cfg1.win 4).flush t = false := by decide +kernel
/-- At k = 4 the output tile is in use. -/
theorem inUse1_4 : ∀ t : Fin cfg1.N, last1 (grid1.coords t) → cfg1.idle 4 (grid1.coords t) = false := by decide +kernel

/-! ## The buffers the body is called with -/

/-- Operand w's staging buffer at point t, as the pipeline passes it, and that it is a whole buffer. -/
abbrev buf1_0 (t : Fin cfg1.N) : Memref sig .tc .vmem S2048x2048 .bf16 := win1_0.stage (cfg1.slots t 0)
abbrev whole1_0 (t : Fin cfg1.N) : (buf1_0 t).IsWhole := hstage1_0 ((cfg1.slots t 0).cast nbuf1_0)
abbrev buf1_1 (t : Fin cfg1.N) : Memref sig .tc .vmem S2048x128 .f32 := win1_1.stage (cfg1.slots t 1)
abbrev whole1_1 (t : Fin cfg1.N) : (buf1_1 t).IsWhole := hstage1_1 ((cfg1.slots t 1).cast nbuf1_1)
abbrev buf1_2 (t : Fin cfg1.N) : Memref sig .tc .vmem S128x128 .f32 := win1_2.stage (cfg1.slots t 2)
abbrev whole1_2 (t : Fin cfg1.N) : (buf1_2 t).IsWhole := hstage1_2 ((cfg1.slots t 2).cast nbuf1_2)
abbrev buf1_3 (t : Fin cfg1.N) : Memref sig .tc .vmem S1x128 .f32 := win1_3.stage (cfg1.slots t 3)
abbrev whole1_3 (t : Fin cfg1.N) : (buf1_3 t).IsWhole := hstage1_3 ((cfg1.slots t 3).cast nbuf1_3)
abbrev buf1_4 (t : Fin cfg1.N) : Memref sig .tc .vmem S2048x128 .f32 := win1_4.stage (cfg1.slots t 4)
abbrev whole1_4 (t : Fin cfg1.N) : (buf1_4 t).IsWhole := hstage1_4 ((cfg1.slots t 4).cast nbuf1_4)
/-- The accumulator: a buffer of the kernel's own, kept from one point to the next. -/
abbrev acc1 : Memref sig .tc .vmem S2048x128 .f32 := Memref.whole cc1_scratch0
/-- Views through which the accumulator's and the output tile's contents are stated. -/
abbrev accView1 : View sig .tc .vmem S2048x128 .f32 := acc1.view
abbrev outView1 : View sig .tc .vmem S2048x128 .f32 := (Memref.whole cc1_stg4_0 : Memref sig .tc .vmem S2048x128 .f32).view

/-- The first launch's own buffers (its staging buffers and its accumulator), each at some contents: bystanders
    of the second launch, lent with the rest and handed back unread. -/
def bystanders1 (c : Dev nD) : sProp 𝕄 :=
  iprop((∃ d, owns (c : Thread nD τ) (Memref.whole cc0_stg0_0 : Memref sig .tc .vmem S2048x2048 .bf16) fullShare d)
    ∗ (∃ d, owns (c : Thread nD τ) (Memref.whole cc0_stg0_1 : Memref sig .tc .vmem S2048x2048 .bf16) fullShare d)
    ∗ (∃ d, owns (c : Thread nD τ) (Memref.whole cc0_stg1_0 : Memref sig .tc .vmem S2048x128 .f32) fullShare d)
    ∗ (∃ d, owns (c : Thread nD τ) (Memref.whole cc0_stg1_1 : Memref sig .tc .vmem S2048x128 .f32) fullShare d)
    ∗ (∃ d, owns (c : Thread nD τ) (Memref.whole cc0_stg2_0 : Memref sig .tc .vmem S128x128 .f32) fullShare d)
    ∗ (∃ d, owns (c : Thread nD τ) (Memref.whole cc0_stg3_0 : Memref sig .tc .vmem S1x128 .f32) fullShare d)
    ∗ (∃ d, owns (c : Thread nD τ) (Memref.whole cc0_stg4_0 : Memref sig .tc .vmem S2048x128 .f32) fullShare d)
    ∗ (∃ d, owns (c : Thread nD τ) (Memref.whole cc0_stg4_1 : Memref sig .tc .vmem S2048x128 .f32) fullShare d)
    ∗ (∃ d, owns (c : Thread nD τ) (Memref.whole cc0_scratch0 : Memref sig .tc .vmem S2048x128 .f32) fullShare d))

/-- What the launch lends the body besides the operands: the accumulator at some contents, the bystanders, and the
    generator register. -/
theorem lent1_eq (c : Dev nD) :
    (Pipeline.ΦA spec1 c : sProp 𝕄)
      = iprop(iprop((∃ d, owns (c : Thread nD τ) acc1 fullShare d) ∗ bystanders1 c) ∗ (∃ r, prngReg c r)) := by
  unfold Pipeline.ΦA; rw [scopedRest1_eq]; simp only [acc1, bystanders1, owns_whole]
  refine BI.Entails.antisymm (show (_ : sProp 𝕄) ⊢ _ from ?_) (show (_ : sProp 𝕄) ⊢ _ from ?_)
  · iintro ⟨⟨B1, B2, B3, B4, B5, B6, B7, B8, B9, HA⟩, Hg⟩
    isplitr [Hg]
    · isplitl [HA]; · iexact HA
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      iexact B9
    iexact Hg
  · iintro ⟨⟨HA, B1, B2, B3, B4, B5, B6, B7, B8, B9⟩, Hg⟩
    isplitr [Hg]
    · isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact HA
    iexact Hg

end Cert.KernelIdeal.Hand

end
-- ==== Proof.KI.First1.lean ====
/-
  The second launch's body at a point with k = 0: the accumulator is cleared, then the tile product is added to it;
  the output tile is not touched. The run records, as a list of written pieces, what the accumulator ends with.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.Base1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the four inputs at given contents, the output tile at contents handed back untouched, the
    accumulator at anything — the body at a point with k = 0 runs to its end, leaving the inputs as they were and the
    accumulator with the pieces `LS` written. -/
noncomputable def runFirst1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first1 i) (hl : ¬last1 i)
    (x0 : Vec F S2048x2048 .bf16) (x1 : Vec F S2048x128 .f32) (x2 : Vec F S128x128 .f32) (x3 : Vec F S1x128 .f32) :
    { LS : List (View.Piece (Elt F) S2048x128 .f32) //
      ∀ (xo : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, fun xo E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.Mid1.lean ====
/-
  The second launch's body at a point with 0 < k < 4: the tile product is added to the accumulator the point before
  left; the output tile is not touched.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.Base1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the inputs at given contents, the output tile at contents handed back untouched, the
    accumulator at the contents `xs` carried over — the body at a point with 0 < k < 4 runs to its end, leaving the
    inputs as they were and the accumulator with the pieces `LS` written. -/
noncomputable def runMid1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : ¬last1 i)
    (x0 : Vec F S2048x2048 .bf16) (x1 : Vec F S2048x128 .f32) (x2 : Vec F S128x128 .f32) (x3 : Vec F S1x128 .f32) (xs : Vec F S2048x128 .f32) :
    { LS : List (View.Piece (Elt F) S2048x128 .f32) //
      ∀ (xo : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, fun xo E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.Last1.lean ====
/-
  The second launch's body at a point with k = 4: the tile product is added to the accumulator the point before left,
  and max(accumulator + bias, 0) is written over the whole output tile.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.Base1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole buffers — the inputs at given contents, the output tile at anything, the accumulator at the contents
    `xs` carried over — the body at a point with k = 4 runs to its end, leaving the inputs as they were, the output
    tile with the pieces `LO` written and the accumulator with the pieces `LS` written. -/
noncomputable def runLast1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : last1 i)
    (x0 : Vec F S2048x2048 .bf16) (x1 : Vec F S2048x128 .f32) (x2 : Vec F S128x128 .f32) (x3 : Vec F S1x128 .f32) (xs : Vec F S2048x128 .f32) :
    Σ' (LO : List (View.Piece (Elt F) S2048x128 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__gcn_kernel i arg2 harg2 arg3 harg3 arg4 harg4 arg5 harg5 arg6 harg6 arg7 harg7) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KI.Body1.lean ====
/-
  The second graph-convolution launch, point by point. After the point t = 5·m + k the accumulator holds the sum over
  the column blocks 0..k of (adjacency tile (m, k')) · (feature rows of block k' times the weight matrix), and at k = 4
  the output tile of row block m holds max(that sum + bias, 0). Here this is recorded as a recursion over the points
  (each point's contents from the point before), together with the proof that the body, run at any point from the
  contents the recursion names, leaves the contents it names: the obligation the launch theorem asks for.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.First1
import proofs.«151618_j80324478369804_1_alg».proof.Proof.KI.Mid1
import proofs.«151618_j80324478369804_1_alg».proof.Proof.KI.Last1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each situation leaves -/

/-- The accumulator after a point with k = 0: the recorded pieces read back. -/
def accFirst1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first1 i) (hl : ¬last1 i) (x0 : Vec F S2048x2048 .bf16) (x1 : Vec F S2048x128 .f32) (x2 : Vec F S128x128 .f32) (x3 : Vec F S1x128 .f32) : Vec F S2048x128 .f32 :=
  accView1.read (Elt F) (accView1.writes (Elt F) accView1.junk (runFirst1 c i arg2 harg2 arg3 harg3 arg4 harg4 arg5 harg5 arg6 harg6 arg7 harg7 hf hl x0 x1 x2 x3).1)
/-- Those pieces cover the accumulator. -/
theorem accFirst1_cover (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first1 i) (hl : ¬last1 i) (x0 : Vec F S2048x2048 .bf16) (x1 : Vec F S2048x128 .f32) (x2 : Vec F S128x128 .f32) (x3 : Vec F S1x128 .f32) (y : S2048x128.Idx) :
    ∃ pc ∈ (runFirst1 c i arg2 harg2 arg3 harg3 arg4 harg4 arg5 harg5 arg6 harg6 arg7 harg7 hf hl x0 x1 x2 x3).1, y ∈ pc.1.set :=
  View.cover_of_tiledL (runFirst1 c i arg2 harg2 arg3 harg3 arg4 harg4 arg5 harg5 arg6 harg6 arg7 harg7 hf hl x0 x1 x2 x3).1 S2048x128.size (by sl_kernel_rfl) y

/-- The accumulator after a point with 0 < k < 4, from the accumulator `xs` before it. -/
def accMid1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : ¬last1 i) (x0 : Vec F S2048x2048 .bf16) (x1 : Vec F S2048x128 .f32) (x2 : Vec F S128x128 .f32) (x3 : Vec F S1x128 .f32) (xs : Vec F S2048x128 .f32) : Vec F S2048x128 .f32 :=
  accView1.read (Elt F) (accView1.writes (Elt F) accView1.junk (runMid1 c i arg2 harg2 arg3 harg3 arg4 harg4 arg5 harg5 arg6 harg6 arg7 harg7 hf hl x0 x1 x2 x3 xs).1)
theorem accMid1_cover (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : ¬last1 i) (x0 : Vec F S2048x2048 .bf16) (x1 : Vec F S2048x128 .f32) (x2 : Vec F S128x128 .f32) (x3 : Vec F S1x128 .f32) (xs : Vec F S2048x128 .f32) (y : S2048x128.Idx) :
    ∃ pc ∈ (runMid1 c i arg2 harg2 arg3 harg3 arg4 harg4 arg5 harg5 arg6 harg6 arg7 harg7 hf hl x0 x1 x2 x3 xs).1, y ∈ pc.1.set :=
  View.cover_of_tiledL (runMid1 c i arg2 harg2 arg3 harg3 arg4 harg4 arg5 harg5 arg6 harg6 arg7 harg7 hf hl x0 x1 x2 x3 xs).1 S2048x128.size (by sl_kernel_rfl) y

/-- The accumulator and the output tile after a point with k = 4, from the accumulator `xs` before it. -/
def accLast1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : last1 i) (x0 : Vec F S2048x2048 .bf16) (x1 : Vec F S2048x128 .f32) (x2 : Vec F S128x128 .f32) (x3 : Vec F S1x128 .f32) (xs : Vec F S2048x128 .f32) : Vec F S2048x128 .f32 :=
  accView1.read (Elt F) (accView1.writes (Elt F) accView1.junk (runLast1 c i arg2 harg2 arg3 harg3 arg4 harg4 arg5 harg5 arg6 harg6 arg7 harg7 hf hl x0 x1 x2 x3 xs).2.1)
theorem accLast1_cover (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : last1 i) (x0 : Vec F S2048x2048 .bf16) (x1 : Vec F S2048x128 .f32) (x2 : Vec F S128x128 .f32) (x3 : Vec F S1x128 .f32) (xs : Vec F S2048x128 .f32) (y : S2048x128.Idx) :
    ∃ pc ∈ (runLast1 c i arg2 harg2 arg3 harg3 arg4 harg4 arg5 harg5 arg6 harg6 arg7 harg7 hf hl x0 x1 x2 x3 xs).2.1, y ∈ pc.1.set :=
  View.cover_of_tiledL (runLast1 c i arg2 harg2 arg3 harg3 arg4 harg4 arg5 harg5 arg6 harg6 arg7 harg7 hf hl x0 x1 x2 x3 xs).2.1 S2048x128.size (by sl_kernel_rfl) y
def outLast1 (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : last1 i) (x0 : Vec F S2048x2048 .bf16) (x1 : Vec F S2048x128 .f32) (x2 : Vec F S128x128 .f32) (x3 : Vec F S1x128 .f32) (xs : Vec F S2048x128 .f32) : Vec F S2048x128 .f32 :=
  outView1.read (Elt F) (outView1.writes (Elt F) outView1.junk (runLast1 c i arg2 harg2 arg3 harg3 arg4 harg4 arg5 harg5 arg6 harg6 arg7 harg7 hf hl x0 x1 x2 x3 xs).1)
theorem outLast1_cover (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : last1 i) (x0 : Vec F S2048x2048 .bf16) (x1 : Vec F S2048x128 .f32) (x2 : Vec F S128x128 .f32) (x3 : Vec F S1x128 .f32) (xs : Vec F S2048x128 .f32) (y : S2048x128.Idx) :
    ∃ pc ∈ (runLast1 c i arg2 harg2 arg3 harg3 arg4 harg4 arg5 harg5 arg6 harg6 arg7 harg7 hf hl x0 x1 x2 x3 xs).1, y ∈ pc.1.set :=
  View.cover_of_tiledL (runLast1 c i arg2 harg2 arg3 harg3 arg4 harg4 arg5 harg5 arg6 harg6 arg7 harg7 hf hl x0 x1 x2 x3 xs).1 S2048x128.size (by sl_kernel_rfl) y

/-- The output tile's recorded contents at a point that does not write it: a placeholder nothing reads (the tile is
    neither written back there nor read by the next point). -/
def restOut1 : Vec F S2048x128 .f32 := outView1.read (Elt F) outView1.junk

section
variable (V : (c : Dev nD) → (b : Ref sig .tc) → Buf (Elt F) ((c : Thread nD τ).loc b))

/-! ## The contents after each point -/

/-- (output tile, accumulator) after the body at the n-th point: by the point's situation, from the accumulator the
    point before left. -/
def stateAt1 (c : Dev nD) : (n : ℕ) → n < cfg1.N → Vec F S2048x128 .f32 × Vec F S2048x128 .f32
  | 0, hn => (restOut1, accFirst1 c (grid1.coords ⟨0, hn⟩) (buf1_0 ⟨0, hn⟩) (whole1_0 ⟨0, hn⟩) (buf1_1 ⟨0, hn⟩) (whole1_1 ⟨0, hn⟩) (buf1_2 ⟨0, hn⟩) (whole1_2 ⟨0, hn⟩) (buf1_3 ⟨0, hn⟩) (whole1_3 ⟨0, hn⟩) (buf1_4 ⟨0, hn⟩) (whole1_4 ⟨0, hn⟩) acc1 (Memref.isWhole_whole _) ((first1_iff ⟨0, hn⟩).mpr (Nat.zero_mod _)) (fun h => (fun h => by (try dsimp only at h); omega) ((last1_iff ⟨0, hn⟩).mp h)) (tile1 V c 0 ⟨0, hn⟩) (tile1 V c 1 ⟨0, hn⟩) (tile1 V c 2 ⟨0, hn⟩) (tile1 V c 3 ⟨0, hn⟩))
  | n + 1, hn =>
    if h0 : (n + 1) % 5 = 0 then
      (restOut1, accFirst1 c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) acc1 (Memref.isWhole_whole _) ((first1_iff ⟨n + 1, hn⟩).mpr h0) (fun h => (fun h => by (try dsimp only at h); omega) ((last1_iff ⟨n + 1, hn⟩).mp h)) (tile1 V c 0 ⟨n + 1, hn⟩) (tile1 V c 1 ⟨n + 1, hn⟩) (tile1 V c 2 ⟨n + 1, hn⟩) (tile1 V c 3 ⟨n + 1, hn⟩))
    else if h4 : (n + 1) % 5 = 4 then
      (outLast1 c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) acc1 (Memref.isWhole_whole _) (fun h => h0 ((first1_iff ⟨n + 1, hn⟩).mp h)) ((last1_iff ⟨n + 1, hn⟩).mpr h4) (tile1 V c 0 ⟨n + 1, hn⟩) (tile1 V c 1 ⟨n + 1, hn⟩) (tile1 V c 2 ⟨n + 1, hn⟩) (tile1 V c 3 ⟨n + 1, hn⟩) (stateAt1 c n (Nat.lt_of_succ_lt hn)).2,
       accLast1 c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) acc1 (Memref.isWhole_whole _) (fun h => h0 ((first1_iff ⟨n + 1, hn⟩).mp h)) ((last1_iff ⟨n + 1, hn⟩).mpr h4) (tile1 V c 0 ⟨n + 1, hn⟩) (tile1 V c 1 ⟨n + 1, hn⟩) (tile1 V c 2 ⟨n + 1, hn⟩) (tile1 V c 3 ⟨n + 1, hn⟩) (stateAt1 c n (Nat.lt_of_succ_lt hn)).2)
    else
      (restOut1, accMid1 c (grid1.coords ⟨n + 1, hn⟩) (buf1_0 ⟨n + 1, hn⟩) (whole1_0 ⟨n + 1, hn⟩) (buf1_1 ⟨n + 1, hn⟩) (whole1_1 ⟨n + 1, hn⟩) (buf1_2 ⟨n + 1, hn⟩) (whole1_2 ⟨n + 1, hn⟩) (buf1_3 ⟨n + 1, hn⟩) (whole1_3 ⟨n + 1, hn⟩) (buf1_4 ⟨n + 1, hn⟩) (whole1_4 ⟨n + 1, hn⟩) acc1 (Memref.isWhole_whole _) (fun h => h0 ((first1_iff ⟨n + 1, hn⟩).mp h)) (fun h => h4 ((last1_iff ⟨n + 1, hn⟩).mp h)) (tile1 V c 0 ⟨n + 1, hn⟩) (tile1 V c 1 ⟨n + 1, hn⟩) (tile1 V c 2 ⟨n + 1, hn⟩) (tile1 V c 3 ⟨n + 1, hn⟩) (stateAt1 c n (Nat.lt_of_succ_lt hn)).2)

theorem stateAt1_first (c : Dev nD) (t : Fin cfg1.N) (h0 : t.val % 5 = 0) (h4 : ¬t.val % 5 = 4) :
    stateAt1 V c t.val t.isLt = (restOut1, accFirst1 c (grid1.coords t) (buf1_0 t) (whole1_0 t) (buf1_1 t) (whole1_1 t) (buf1_2 t) (whole1_2 t) (buf1_3 t) (whole1_3 t) (buf1_4 t) (whole1_4 t) acc1 (Memref.isWhole_whole _) ((first1_iff t).mpr h0) (fun h => h4 ((last1_iff t).mp h)) (tile1 V c 0 t) (tile1 V c 1 t) (tile1 V c 2 t) (tile1 V c 3 t)) := by
  obtain ⟨n, hn⟩ := t
  cases n with
  | zero => exact rfl
  | succ n => exact (dif_pos h0).trans rfl

theorem stateAt1_mid (c : Dev nD) (t : Fin cfg1.N) (h0 : ¬t.val % 5 = 0) (h4 : ¬t.val % 5 = 4) :
    stateAt1 V c t.val t.isLt = (restOut1, accMid1 c (grid1.coords t) (buf1_0 t) (whole1_0 t) (buf1_1 t) (whole1_1 t) (buf1_2 t) (whole1_2 t) (buf1_3 t) (whole1_3 t) (buf1_4 t) (whole1_4 t) acc1 (Memref.isWhole_whole _) (fun h => h0 ((first1_iff t).mp h)) (fun h => h4 ((last1_iff t).mp h)) (tile1 V c 0 t) (tile1 V c 1 t) (tile1 V c 2 t) (tile1 V c 3 t) (stateAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h4).trans rfl)

theorem stateAt1_last (c : Dev nD) (t : Fin cfg1.N) (h0 : ¬t.val % 5 = 0) (h4 : t.val % 5 = 4) :
    stateAt1 V c t.val t.isLt = (outLast1 c (grid1.coords t) (buf1_0 t) (whole1_0 t) (buf1_1 t) (whole1_1 t) (buf1_2 t) (whole1_2 t) (buf1_3 t) (whole1_3 t) (buf1_4 t) (whole1_4 t) acc1 (Memref.isWhole_whole _) (fun h => h0 ((first1_iff t).mp h)) ((last1_iff t).mpr h4) (tile1 V c 0 t) (tile1 V c 1 t) (tile1 V c 2 t) (tile1 V c 3 t) (stateAt1 V c (t.val - 1) (Nat.lt_of_le_of_lt (Nat.sub_le _ _) t.isLt)).2,
      accLast1 c (grid1.coords t) (buf1_0 t) (whole1_0 t) (buf1_1 t) (whole1_1 t) (buf1_2 t) (whole1_2 t) (buf1_3 t) (whole1_3 t) (buf1_4 t) (whole1_4 t) acc1 (Memref.isWhole_whole _) (fun h => h0 ((first1_iff t).mp h)) ((last1_iff t).mpr h4) (tile1 V c 0 t) (tile1 V c 1 t) (tile1 V c 2 t) (tile1 V c 3 t) (stateAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h4).trans rfl)

/-! ## The invariant between points -/

/-- Before the first point: what the launch lends. Before any later point: the accumulator at what the point before
    left, the bystanders, the generator register. -/
def carried1 (c : Dev nD) : (n : ℕ) → n ≤ cfg1.N → sProp 𝕄
  | 0, _ => Pipeline.ΦA spec1 c
  | n + 1, hn => iprop(iprop(owns (c : Thread nD τ) acc1 fullShare ((stateAt1 V c n hn).2) ∗ bystanders1 c) ∗ (∃ r, prngReg c r))

theorem carried1_zero (c : Dev nD) (n : ℕ) (h : n ≤ cfg1.N) (hz : n = 0) : carried1 V c n h = Pipeline.ΦA spec1 c := by
  subst hz; rfl
theorem carried1_succ (c : Dev nD) (n : ℕ) (hn : n < cfg1.N) :
    carried1 V c (n + 1) hn = iprop(iprop(owns (c : Thread nD τ) acc1 fullShare ((stateAt1 V c n hn).2) ∗ bystanders1 c) ∗ (∃ r, prngReg c r)) := rfl
theorem carried1_pos (c : Dev nD) (n : ℕ) (h : n ≤ cfg1.N) (hz : n ≠ 0) :
    carried1 V c n h = iprop(iprop(owns (c : Thread nD τ) acc1 fullShare ((stateAt1 V c (n - 1) (by omega)).2) ∗ bystanders1 c) ∗ (∃ r, prngReg c r)) := by
  cases n with
  | zero => exact absurd rfl hz
  | succ n => rfl

/-! ## The launch's proof data -/

/-- The operands as the launch finds them; after the body at point t each input's buffer at its tile, the output's at
    the recursion's first component; the invariant above; nothing owed, full shares. -/
def dat1 (c : Dev nD) : Dat τ (Elt F) Unit ℕ (UR sig nD τ) ℕ cfg1 c where
  A w := V c (Pipeline.arrRef spec1 w)
  after w t := match w with
    | ⟨0, _⟩ => tile1 V c 0 t
    | ⟨1, _⟩ => tile1 V c 1 t
    | ⟨2, _⟩ => tile1 V c 2 t
    | ⟨3, _⟩ => tile1 V c 3 t
    | ⟨4, _⟩ => (stateAt1 V c t.val t.isLt).1
  Φ t := carried1 V c t.val (Nat.le_of_lt_succ t.isLt)
  q _ := fullShare
  owed _ := 0

theorem dat1_A (c : Dev nD) (w : Fin cfg1.W) : (dat1 V c).A w = V c (Pipeline.arrRef spec1 w) := by
  dsimp only [dat1]
theorem dat1_inv (c : Dev nD) (t : Fin cfg1.N) :
    (dat1 V c).Φ t.castSucc = carried1 V c t.val (Nat.le_of_lt t.isLt) := by
  dsimp only [dat1]; simp only [Fin.coe_castSucc]
theorem dat1_after0 (c : Dev nD) (t : Fin cfg1.N) : (dat1 V c).after 0 t = tile1 V c 0 t := by dsimp only [dat1]
theorem dat1_after1 (c : Dev nD) (t : Fin cfg1.N) : (dat1 V c).after 1 t = tile1 V c 1 t := by dsimp only [dat1]
theorem dat1_after2 (c : Dev nD) (t : Fin cfg1.N) : (dat1 V c).after 2 t = tile1 V c 2 t := by dsimp only [dat1]
theorem dat1_after3 (c : Dev nD) (t : Fin cfg1.N) : (dat1 V c).after 3 t = tile1 V c 3 t := by dsimp only [dat1]
theorem dat1_after4 (c : Dev nD) (t : Fin cfg1.N) : (dat1 V c).after 4 t = (stateAt1 V c t.val t.isLt).1 := by dsimp only [dat1]
theorem dat1_before0 (c : Dev nD) (t : Fin cfg1.N) (d) : (dat1 V c).before 0 t d = tile1 V c 0 t :=
  staged1_0 V (dat1 V c) (dat1_A V c 0) (dat1_after0 V c) t d
theorem dat1_before1 (c : Dev nD) (t : Fin cfg1.N) (d) : (dat1 V c).before 1 t d = tile1 V c 1 t :=
  staged1_1 V (dat1 V c) (dat1_A V c 1) (dat1_after1 V c) t d
theorem dat1_before2 (c : Dev nD) (t : Fin cfg1.N) (d) : (dat1 V c).before 2 t d = tile1 V c 2 t :=
  staged1_2 V (dat1 V c) (dat1_A V c 2) (dat1_after2 V c) t d
theorem dat1_before3 (c : Dev nD) (t : Fin cfg1.N) (d) : (dat1 V c).before 3 t d = tile1 V c 3 t :=
  staged1_3 V (dat1 V c) (dat1_A V c 3) (dat1_after3 V c) t d

/-! ## The body at any point -/

def pointPre1 (c : Dev nD) (t : Fin cfg1.N) : sProp 𝕄 :=
  iprop((dat1 V c).Φ t.castSucc ∗ (dat1 V c).owesAt () t.castSucc
    ∗ (∃ d, owns (c : Thread nD τ) (buf1_0 t) fullShare ((dat1 V c).before 0 t d))
    ∗ (∃ d, owns (c : Thread nD τ) (buf1_1 t) fullShare ((dat1 V c).before 1 t d))
    ∗ (∃ d, owns (c : Thread nD τ) (buf1_2 t) fullShare ((dat1 V c).before 2 t d))
    ∗ (∃ d, owns (c : Thread nD τ) (buf1_3 t) fullShare ((dat1 V c).before 3 t d))
    ∗ (∃ d, owns (c : Thread nD τ) (buf1_4 t) fullShare ((dat1 V c).before 4 t d)))

def pointPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any point: the inputs' buffers hold their tiles; the point's situation is decided by t mod 5; the
    invariant hands over the accumulator (at anything before the first point, else at what the point before left) and
    takes it back at this point's contents. -/
theorem point1 (c : Dev nD) (t : Fin cfg1.N) :
    pointPre1 V c t ⊢ wp frame (wpE (defs₀ (F := F)) Variants.none c none) Set.univ (bodyAt1 t) (fun _ => pointPost1 V c t) := by
  unfold pointPre1 pointPost1 bodyAt1
  simp only [dat1_before0, dat1_before1, dat1_before2, dat1_before3]
  rw [show (dat1 V c).owesAt () t.succ = (dat1 V c).owesAt () t.castSucc from rfl]
  rw [show (dat1 V c).Φ t.succ = carried1 V c (t.val + 1) t.isLt from rfl, carried1_succ]
  have hN : t.val < 25 := lt_of_lt_of_eq t.isLt (show cfg1.N = 25 from N_1)
  rw [show (dat1 V c).leavesExact 0 t = owns (c : Thread nD τ) (buf1_0 t) fullShare ((dat1 V c).after 0 t) from by
    unfold Dat.leavesExact; rw [inUse1_0 t], dat1_after0]
  rw [show (dat1 V c).leavesExact 1 t = owns (c : Thread nD τ) (buf1_1 t) fullShare ((dat1 V c).after 1 t) from by
    unfold Dat.leavesExact; rw [inUse1_1 t], dat1_after1]
  rw [show (dat1 V c).leavesExact 2 t = owns (c : Thread nD τ) (buf1_2 t) fullShare ((dat1 V c).after 2 t) from by
    unfold Dat.leavesExact; rw [inUse1_2 t], dat1_after2]
  rw [show (dat1 V c).leavesExact 3 t = owns (c : Thread nD τ) (buf1_3 t) fullShare ((dat1 V c).after 3 t) from by
    unfold Dat.leavesExact; rw [inUse1_3 t], dat1_after3]
  by_cases h0 : t.val % 5 = 0
  · have h4 : ¬t.val % 5 = 4 := by omega
    rw [Dat.leavesExact_idle (dat1 V c) 4 t (rest1_4 t (fun h => h4 ((last1_iff t).mp h))) (noWriteBack1_4 t (fun h => h4 ((last1_iff t).mp h)))]
    rw [stateAt1_first V c t h0 h4]
    unfold accFirst1; (try dsimp only)
    by_cases hz : t.val = 0
    · rw [dat1_inv V c t, carried1_zero V c _ _ hz, lent1_eq]
      iintro ⟨⟨⟨HS, Hby⟩, Hg⟩, Ho, ⟨%d0, H0⟩, ⟨%d1, H1⟩, ⟨%d2, H2⟩, ⟨%d3, H3⟩, ⟨%d4, H4⟩⟩
      iapply ((runFirst1 c (grid1.coords t) _ _ _ _ _ _ _ _ _ _ _ _ ((first1_iff t).mpr h0) (fun h => h4 ((last1_iff t).mp h)) (tile1 V c 0 t) (tile1 V c 1 t) (tile1 V c 2 t) (tile1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hby Hg]
      · isplitl [HS Hby]
        · isplitl [HS]
          · unfold owns; iexists _; isplitr
            swap; · iexact HS
            ipureintro; exact View.read_writes_of_cover _ _ _ _ _ (accFirst1_cover c _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      iexists _; iexact H4
    · rw [dat1_inv V c t, carried1_pos V c _ _ hz]
      iintro ⟨⟨⟨HS, Hby⟩, Hg⟩, Ho, ⟨%d0, H0⟩, ⟨%d1, H1⟩, ⟨%d2, H2⟩, ⟨%d3, H3⟩, ⟨%d4, H4⟩⟩
      iapply ((runFirst1 c (grid1.coords t) _ _ _ _ _ _ _ _ _ _ _ _ ((first1_iff t).mpr h0) (fun h => h4 ((last1_iff t).mp h)) (tile1 V c 0 t) (tile1 V c 1 t) (tile1 V c 2 t) (tile1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hby Hg]
      · isplitl [HS Hby]
        · isplitl [HS]
          · unfold owns; iexists _; isplitr
            swap; · iexact HS
            ipureintro; exact View.read_writes_of_cover _ _ _ _ _ (accFirst1_cover c _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h4 : t.val % 5 = 4
    · rw [show (dat1 V c).leavesExact 4 t = owns (c : Thread nD τ) (buf1_4 t) fullShare ((dat1 V c).after 4 t) from by
        unfold Dat.leavesExact; rw [inUse1_4 t ((last1_iff t).mpr h4)], dat1_after4]
      rw [stateAt1_last V c t h0 h4]
      unfold outLast1 accLast1; (try dsimp only)
      rw [dat1_inv V c t, carried1_pos V c _ _ hz]
      iintro ⟨⟨⟨HS, Hby⟩, Hg⟩, Ho, ⟨%d0, H0⟩, ⟨%d1, H1⟩, ⟨%d2, H2⟩, ⟨%d3, H3⟩, ⟨%d4, H4⟩⟩
      iapply ((runLast1 c (grid1.coords t) _ _ _ _ _ _ _ _ _ _ _ _ (fun h => h0 ((first1_iff t).mp h)) ((last1_iff t).mpr h4) (tile1 V c 0 t) (tile1 V c 1 t) (tile1 V c 2 t) (tile1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hby Hg]
      · isplitl [HS Hby]
        · isplitl [HS]
          · unfold owns; iexists _; isplitr
            swap; · iexact HS
            ipureintro; exact View.read_writes_of_cover _ _ _ _ _ (accLast1_cover c _ _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (outLast1_cover c _ _ _ _ _ _ _ _ _ _ _ _ _ _ _ _ _ _ _ _)
    · rw [Dat.leavesExact_idle (dat1 V c) 4 t (rest1_4 t (fun h => h4 ((last1_iff t).mp h))) (noWriteBack1_4 t (fun h => h4 ((last1_iff t).mp h)))]
      rw [stateAt1_mid V c t h0 h4]
      unfold accMid1; (try dsimp only)
      rw [dat1_inv V c t, carried1_pos V c _ _ hz]
      iintro ⟨⟨⟨HS, Hby⟩, Hg⟩, Ho, ⟨%d0, H0⟩, ⟨%d1, H1⟩, ⟨%d2, H2⟩, ⟨%d3, H3⟩, ⟨%d4, H4⟩⟩
      iapply ((runMid1 c (grid1.coords t) _ _ _ _ _ _ _ _ _ _ _ _ (fun h => h0 ((first1_iff t).mp h)) (fun h => h4 ((last1_iff t).mp h)) (tile1 V c 0 t) (tile1 V c 1 t) (tile1 V c 2 t) (tile1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hby Hg]
      · isplitl [HS Hby]
        · isplitl [HS]
          · unfold owns; iexists _; isplitr
            swap; · iexact HS
            ipureintro; exact View.read_writes_of_cover _ _ _ _ _ (accMid1_cover c _ _ _ _ _ _ _ _ _ _ _ _ _ _ _ _ _ _ _ _)
          iexact Hby
        iexact Hg
      isplitl [Ho]; · iexact Ho
      isplitl [H0]; · iexact H0
      isplitl [H1]; · iexact H1
      isplitl [H2]; · iexact H2
      isplitl [H3]; · iexact H3
      iexists _; iexact H4

/-- The obligation the launch theorem asks for, at every point. -/
theorem obligation1 (c : Dev nD) : BodyObligation (dat1 (F := F) V c) (defs₀ (F := F)) Variants.none () Set.univ := fun t => by
  rw [bigSep_W1, bigSep_W1]
  exact point1 V c t

/-- What the launch lends is the invariant before the first point. -/
theorem enter1 (c : Dev nD) : Pipeline.ΦA spec1 c ⊢ (dat1 V c).Φ 0 := by
  rw [show (dat1 V c).Φ 0 = carried1 V c 0 (Nat.zero_le _) from rfl, carried1_zero V c 0 _ rfl]
  try exact Idealize.SL.BI.Entails.refl _

/-- After the last point the invariant gives it back, the accumulator's contents forgotten. -/
theorem leave1 (c : Dev nD) : (dat1 V c).Φ (Fin.last cfg1.N) ⊢ Pipeline.ΦA spec1 c := by
  rw [show (dat1 V c).Φ (Fin.last cfg1.N) = carried1 V c (Fin.last cfg1.N).val (Nat.le_of_lt_succ (Fin.last cfg1.N).isLt) from rfl,
    carried1_pos V c _ _ (by rw [Fin.val_last]; have : cfg1.N = 25 := N_1; omega), lent1_eq]
  iintro ⟨⟨HS, Hby⟩, Hg⟩
  isplitl [HS Hby]
  · isplitl [HS]
    · iexists _; iexact HS
    iexact Hby
  iexact Hg

end

end Cert.KernelIdeal.Hand

end
-- ==== Proof.KI.Run.lean ====
/-
  The whole program at one instance of the floats: host operations, the first graph-convolution launch, the second
  one, host operations. The contents of the core's buffers are followed from the launch of the program to its return
  (each stretch of host operations applied as a function; each launch's operands replaced by what its pipeline wrote
  back), and the run is assembled segment by segment. The result: every execution terminates without a fault with
  every unscoped buffer at the contents so computed — in particular the nine arguments as they were.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.Body0
import proofs.«151618_j80324478369804_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At the program's launch. -/
abbrev atLaunch : Dev nD → Valuation τ sig (Elt F) := fun c b => (s₀ m ρ).mem ((c : Dev nD), b)
/-- After the host operations that build the normalized adjacency and pad the features: the first launch's entry. -/
abbrev atEntry0 : Dev nD → Valuation τ sig (Elt F) := fun c => StableHlo.after hostOps0 (atLaunch m ρ c)
abbrev entry0 : (c : Dev nD) → (b : Ref sig .tc) → Buf (Elt F) ((c : Thread nD τ).loc b) := fun c b => atEntry0 m ρ c b
/-- After the first launch: its operands at what its pipeline leaves, every other buffer as entered. The second
    launch is entered from here (no host operation stands between the two). -/
def atExit0 (c : Dev nD) : Valuation τ sig (Elt F) :=
  Pipeline.withArrays spec0 c (atEntry0 m ρ c) fun w => (dat0 (entry0 m ρ) c).arrAt w cfg0.N
theorem atExit0_arr (c : Dev nD) (w : Fin cfg0.W) :
    atExit0 m ρ c (Proc.devRef .tc (Pipeline.arrRef spec0 w)) = (dat0 (entry0 m ρ) c).arrAt w cfg0.N := by
  unfold atExit0; exact Pipeline.withArrays_arr spec0 launch0.win.arr_inj c _ _ w
theorem atExit0_of_ne (c : Dev nD) (b : Ref sig .tc) (hb : ∀ w, Pipeline.arrRef spec0 w ≠ b) :
    atExit0 m ρ c (Proc.devRef .tc b) = atEntry0 m ρ c (Proc.devRef .tc b) := by
  unfold atExit0; exact Pipeline.withArrays_of_ne spec0 c _ _ b hb
abbrev entry1 : (c : Dev nD) → (b : Ref sig .tc) → Buf (Elt F) ((c : Thread nD τ).loc b) := fun c b => atExit0 m ρ c b
theorem wrote0 (c : Dev nD) (w : Fin cfg0.W) : (dat0 (entry0 m ρ) c).arrAt w cfg0.N = entry1 m ρ c (Pipeline.arrRef spec0 w) :=
  (atExit0_arr m ρ c w).symm
theorem kept0 (c : Dev nD) : ∀ b, b ∉ Finset.univ.image (Pipeline.arrRef spec0) → entry1 m ρ c b = entry0 m ρ c b :=
  fun b hb => atExit0_of_ne m ρ c b fun w e => hb (Finset.mem_image.mpr ⟨w, Finset.mem_univ _, e⟩)
/-- After the second launch. -/
def atExit1 (c : Dev nD) : Valuation τ sig (Elt F) :=
  Pipeline.withArrays spec1 c (atExit0 m ρ c) fun w => (dat1 (entry1 m ρ) c).arrAt w cfg1.N
theorem atExit1_arr (c : Dev nD) (w : Fin cfg1.W) :
    atExit1 m ρ c (Proc.devRef .tc (Pipeline.arrRef spec1 w)) = (dat1 (entry1 m ρ) c).arrAt w cfg1.N := by
  unfold atExit1; exact Pipeline.withArrays_arr spec1 launch1.win.arr_inj c _ _ w
theorem atExit1_of_ne (c : Dev nD) (b : Ref sig .tc) (hb : ∀ w, Pipeline.arrRef spec1 w ≠ b) :
    atExit1 m ρ c (Proc.devRef .tc b) = atExit0 m ρ c (Proc.devRef .tc b) := by
  unfold atExit1; exact Pipeline.withArrays_of_ne spec1 c _ _ b hb
abbrev exit1 : (c : Dev nD) → (b : Ref sig .tc) → Buf (Elt F) ((c : Thread nD τ).loc b) := fun c b => atExit1 m ρ c b
theorem wrote1 (c : Dev nD) (w : Fin cfg1.W) : (dat1 (entry1 m ρ) c).arrAt w cfg1.N = exit1 m ρ c (Pipeline.arrRef spec1 w) :=
  (atExit1_arr m ρ c w).symm
theorem kept1 (c : Dev nD) : ∀ b, b ∉ Finset.univ.image (Pipeline.arrRef spec1) → exit1 m ρ c b = entry1 m ρ c b :=
  fun b hb => atExit1_of_ne m ρ c b fun w e => hb (Finset.mem_image.mpr ⟨w, Finset.mem_univ _, e⟩)
/-- After the host operations that pool the node rows per graph and apply the last linear layer: the program's end. -/
abbrev atEnd : Dev nD → Valuation τ sig (Elt F) := fun c => StableHlo.after hostOps2 (atExit1 m ρ c)

/-! ## No segment writes an argument -/

/-- A buffer that none of the leading host operations writes. -/
theorem prefix_keeps_args (b : DevRef τ sig) (hb : b ∈ ([Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8] : List (DevRef τ sig))) :
    ∀ op ∈ (hostOps0 : List (HloOp τ sig (Elt F))), b ∉ op.writes := by
  refine List.forall_iff_forall_mem.mp ?_
  simp only [List.mem_cons, List.mem_nil_iff, or_false] at hb
  rcases hb with rfl | rfl | rfl | rfl | rfl | rfl | rfl | rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem atEnd_arg0 (c : Dev nD) : atEnd m ρ c (Proc.devRef .tc main_arg0) = m ((c : Thread nD τ).loc main_arg0) :=
  calc atEnd m ρ c (Proc.devRef .tc main_arg0)
    _ = atExit1 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg0) := atExit1_of_ne m ρ c main_arg0 (by decide)
    _ = atEntry0 m ρ c (Proc.devRef .tc main_arg0) := atExit0_of_ne m ρ c main_arg0 (by decide)
    _ = atLaunch m ρ c (Proc.devRef .tc main_arg0) := StableHlo.after_of_forall_not_mem (b := Proc.devRef .tc main_arg0) _ _ (prefix_keeps_args (Proc.devRef .tc main_arg0) (by decide))
    _ = m ((c : Thread nD τ).loc main_arg0) := rfl
theorem atEnd_arg1 (c : Dev nD) : atEnd m ρ c (Proc.devRef .tc main_arg1) = m ((c : Thread nD τ).loc main_arg1) :=
  calc atEnd m ρ c (Proc.devRef .tc main_arg1)
    _ = atExit1 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg1) := atExit1_of_ne m ρ c main_arg1 (by decide)
    _ = atEntry0 m ρ c (Proc.devRef .tc main_arg1) := atExit0_of_ne m ρ c main_arg1 (by decide)
    _ = atLaunch m ρ c (Proc.devRef .tc main_arg1) := StableHlo.after_of_forall_not_mem (b := Proc.devRef .tc main_arg1) _ _ (prefix_keeps_args (Proc.devRef .tc main_arg1) (by decide))
    _ = m ((c : Thread nD τ).loc main_arg1) := rfl
theorem atEnd_arg2 (c : Dev nD) : atEnd m ρ c (Proc.devRef .tc main_arg2) = m ((c : Thread nD τ).loc main_arg2) :=
  calc atEnd m ρ c (Proc.devRef .tc main_arg2)
    _ = atExit1 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg2) := atExit1_of_ne m ρ c main_arg2 (by decide)
    _ = atEntry0 m ρ c (Proc.devRef .tc main_arg2) := atExit0_of_ne m ρ c main_arg2 (by decide)
    _ = atLaunch m ρ c (Proc.devRef .tc main_arg2) := StableHlo.after_of_forall_not_mem (b := Proc.devRef .tc main_arg2) _ _ (prefix_keeps_args (Proc.devRef .tc main_arg2) (by decide))
    _ = m ((c : Thread nD τ).loc main_arg2) := rfl
theorem atEnd_arg4 (c : Dev nD) : atEnd m ρ c (Proc.devRef .tc main_arg4) = m ((c : Thread nD τ).loc main_arg4) :=
  calc atEnd m ρ c (Proc.devRef .tc main_arg4)
    _ = atExit1 m ρ c (Proc.devRef .tc main_arg4) := StableHlo.after_of_forall_not_mem (b := Proc.devRef .tc main_arg4) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg4) := atExit1_of_ne m ρ c main_arg4 (by decide)
    _ = atEntry0 m ρ c (Proc.devRef .tc main_arg4) := atExit0_of_ne m ρ c main_arg4 (by decide)
    _ = atLaunch m ρ c (Proc.devRef .tc main_arg4) := StableHlo.after_of_forall_not_mem (b := Proc.devRef .tc main_arg4) _ _ (prefix_keeps_args (Proc.devRef .tc main_arg4) (by decide))
    _ = m ((c : Thread nD τ).loc main_arg4) := rfl
theorem atEnd_arg6 (c : Dev nD) : atEnd m ρ c (Proc.devRef .tc main_arg6) = m ((c : Thread nD τ).loc main_arg6) :=
  calc atEnd m ρ c (Proc.devRef .tc main_arg6)
    _ = atExit1 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg6) := atExit1_of_ne m ρ c main_arg6 (by decide)
    _ = atEntry0 m ρ c (Proc.devRef .tc main_arg6) := atExit0_of_ne m ρ c main_arg6 (by decide)
    _ = atLaunch m ρ c (Proc.devRef .tc main_arg6) := StableHlo.after_of_forall_not_mem (b := Proc.devRef .tc main_arg6) _ _ (prefix_keeps_args (Proc.devRef .tc main_arg6) (by decide))
    _ = m ((c : Thread nD τ).loc main_arg6) := rfl
theorem atEnd_arg7 (c : Dev nD) : atEnd m ρ c (Proc.devRef .tc main_arg7) = m ((c : Thread nD τ).loc main_arg7) :=
  calc atEnd m ρ c (Proc.devRef .tc main_arg7)
    _ = atExit1 m ρ c (Proc.devRef .tc main_arg7) := StableHlo.after_of_forall_not_mem (b := Proc.devRef .tc main_arg7) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg7) := atExit1_of_ne m ρ c main_arg7 (by decide)
    _ = atEntry0 m ρ c (Proc.devRef .tc main_arg7) := atExit0_of_ne m ρ c main_arg7 (by decide)
    _ = atLaunch m ρ c (Proc.devRef .tc main_arg7) := StableHlo.after_of_forall_not_mem (b := Proc.devRef .tc main_arg7) _ _ (prefix_keeps_args (Proc.devRef .tc main_arg7) (by decide))
    _ = m ((c : Thread nD τ).loc main_arg7) := rfl
theorem atEnd_arg8 (c : Dev nD) : atEnd m ρ c (Proc.devRef .tc main_arg8) = m ((c : Thread nD τ).loc main_arg8) :=
  calc atEnd m ρ c (Proc.devRef .tc main_arg8)
    _ = atExit1 m ρ c (Proc.devRef .tc main_arg8) := StableHlo.after_of_forall_not_mem (b := Proc.devRef .tc main_arg8) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg8) := atExit1_of_ne m ρ c main_arg8 (by decide)
    _ = atEntry0 m ρ c (Proc.devRef .tc main_arg8) := atExit0_of_ne m ρ c main_arg8 (by decide)
    _ = atLaunch m ρ c (Proc.devRef .tc main_arg8) := StableHlo.after_of_forall_not_mem (b := Proc.devRef .tc main_arg8) _ _ (prefix_keeps_args (Proc.devRef .tc main_arg8) (by decide))
    _ = m ((c : Thread nD τ).loc main_arg8) := rfl
theorem atEnd_arg3 (c : Dev nD) : atEnd m ρ c (Proc.devRef .tc main_arg3) = m ((c : Thread nD τ).loc main_arg3) :=
  calc atEnd m ρ c (Proc.devRef .tc main_arg3)
    _ = atExit1 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg3) := atExit1_of_ne m ρ c main_arg3 (by decide)
    _ = atEntry0 m ρ c (Proc.devRef .tc main_arg3) := (atExit0_arr m ρ c 2).trans (((dat0 (entry0 m ρ) c).arrAt_in 2 rfl _).trans (dat0_A (entry0 m ρ) c 2))
    _ = atLaunch m ρ c (Proc.devRef .tc main_arg3) := StableHlo.after_of_forall_not_mem (b := Proc.devRef .tc main_arg3) _ _ (prefix_keeps_args (Proc.devRef .tc main_arg3) (by decide))
    _ = m ((c : Thread nD τ).loc main_arg3) := rfl
theorem atEnd_arg5 (c : Dev nD) : atEnd m ρ c (Proc.devRef .tc main_arg5) = m ((c : Thread nD τ).loc main_arg5) :=
  calc atEnd m ρ c (Proc.devRef .tc main_arg5)
    _ = atExit1 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = atExit0 m ρ c (Proc.devRef .tc main_arg5) := (atExit1_arr m ρ c 2).trans (((dat1 (entry1 m ρ) c).arrAt_in 2 rfl _).trans (dat1_A (entry1 m ρ) c 2))
    _ = atEntry0 m ρ c (Proc.devRef .tc main_arg5) := atExit0_of_ne m ρ c main_arg5 (by decide)
    _ = atLaunch m ρ c (Proc.devRef .tc main_arg5) := StableHlo.after_of_forall_not_mem (b := Proc.devRef .tc main_arg5) _ _ (prefix_keeps_args (Proc.devRef .tc main_arg5) (by decide))
    _ = m ((c : Thread nD τ).loc main_arg5) := rfl

/-! ## The proof data of both launches and what rides along -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (entry0 m ρ) c
  | ⟨1, _⟩ => fun c => dat1 (entry1 m ρ) c
abbrev 𝒱₀ : Variants := Variants.none
abbrev L : GSem nD τ sig → Finset Unit := fun _ => ∅
abbrev lv : GSem nD τ sig → Unit → ℕ := fun _ _ => 0
/-- Beside the buffers, through every segment: the generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem hostOps2_noalloc : (hostOps2 : List (HloOp τ sig (Elt F))).Forall fun op => op.fresh = ∅ := by
  simp only [List.Forall]; repeat' constructor
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev atReturn (c : Dev nD) : sProp 𝕄 := iprop(StableHlo.held (c : Thread nD τ) (Pipeline.ucRefs τ sig) (atEnd m ρ c) ∗ ∃ r, prngReg c r)

/-! ## The launches as segments -/

set_option backward.isDefEq.respectTransparency.types false in
/-- Launch 0 as a segment: entered from every unscoped buffer at the contents before it, left with its operands at
    what the pipeline wrote back and everything else as entered. Its operands are split out of the unscoped buffers
    and put back; the generator register goes into the invariant and comes out; nothing is owed. -/
def region0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (entry0 m ρ) c).loose
  hwaits := Pipeline.hwaits_of_owed_zero _ _ _ _ L lv 0 fun _ _ => rfl
  pre c := iprop(StableHlo.held (c : Thread nD τ) (Pipeline.ucRefs τ sig) (atEntry0 m ρ c) ∗ R c)
  post c := iprop(StableHlo.held (c : Thread nD τ) (Pipeline.ucRefs τ sig) (atExit0 m ρ c) ∗ R c)
  X c := iprop(∃ r, prngReg c r)
  Y c := iprop(∃ r, prngReg c r)
  Z c := Pipeline.unscopedRest (Ix := Unit) (Name := ℕ) (U := UR sig nD τ) (Lvl := ℕ) spec0 c (entry0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (entry0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (enter0 (entry0 m ρ) c)
    unfold Pipeline.ΦA
    iintro ⟨Hp, -, Hr⟩
    isplitl [Hr]; · iexact Hr
    iexact Hp
  hout c := by
    rw [Pipeline.ownSems0_none]
    refine (leave0 (entry0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (entry0 m ρ c) (entry1 m ρ c) ((pdats m ρ 0 c).arrAt · cfg0.N) (wrote0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered from every unscoped buffer at the contents before it, left with its operands at
    what the pipeline wrote back and everything else as entered. Its operands are split out of the unscoped buffers
    and put back; the generator register goes into the invariant and comes out; nothing is owed. -/
def region1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (entry1 m ρ) c).loose
  hwaits := Pipeline.hwaits_of_owed_zero _ _ _ _ L lv 1 fun _ _ => rfl
  pre c := iprop(StableHlo.held (c : Thread nD τ) (Pipeline.ucRefs τ sig) (atExit0 m ρ c) ∗ R c)
  post c := iprop(StableHlo.held (c : Thread nD τ) (Pipeline.ucRefs τ sig) (atExit1 m ρ c) ∗ R c)
  X c := iprop(∃ r, prngReg c r)
  Y c := iprop(∃ r, prngReg c r)
  Z c := Pipeline.unscopedRest (Ix := Unit) (Name := ℕ) (U := UR sig nD τ) (Lvl := ℕ) spec1 c (entry1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec1 c).trans (enter1 (entry1 m ρ) c)
    unfold Pipeline.ΦA
    iintro ⟨Hp, -, Hr⟩
    isplitl [Hr]; · iexact Hr
    iexact Hp
  hout c := by
    rw [Pipeline.ownSems0_none]
    refine (leave1 (entry1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (entry1 m ρ c) (exit1 m ρ c) ((pdats m ρ 1 c).arrAt · cfg1.N) (wrote1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and its run -/

abbrev segments : List (Pipeline.Seg (pcfgs (F := F)) adm (pdats m ρ) () defs₀ 𝒱₀ L lv) :=
  [ .host (hostSeg hostOps0 hostOps0_sub hostOps0_noalloc (atLaunch m ρ)),
    .region (region0 m ρ),
    .region (region1 m ρ),
    .host (hostSeg hostOps2 hostOps2_sub hostOps2_noalloc (atExit1 m ρ)) ]
theorem main_is_segments (c : Dev nD) : main (F := F) c = Pipeline.Seg.run (segments m ρ) := (main_chain c).trans (by chain_rfl)

set_option backward.isDefEq.respectTransparency.types false in
/-- From any memory with zero counters every weakly fair execution of the program terminates, nothing faulting, and
    the final state has every unscoped buffer at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) adm (pdats m ρ) () cellOf_inj emb₁ defs₀ 𝒱₀ L lv m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := atReturn m ρ)
    (hch := ⟨fun _ => .rfl, fun _ => .rfl, fun _ => .rfl, fun _ => .rfl, fun c =>
      (show iprop(StableHlo.held (c : Thread nD τ) (Pipeline.ucRefs τ sig) (atEnd m ρ c) ∗ R c)
          ⊢ iprop(atReturn m ρ c ∗ ∃ W, owes (c : Thread nD τ) (0 : CellTallies nD τ sig Unit) W) from by
        iintro ⟨Hh, Hp, HO⟩
        isplitr [HO]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h c => h c)

/-- The frame: the run, read at the nine arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (unscoped_mem main_arg0 (by decide))).trans (atEnd_arg0 m ρ c),
     (h c _ (unscoped_mem main_arg1 (by decide))).trans (atEnd_arg1 m ρ c),
     (h c _ (unscoped_mem main_arg2 (by decide))).trans (atEnd_arg2 m ρ c),
     (h c _ (unscoped_mem main_arg3 (by decide))).trans (atEnd_arg3 m ρ c),
     (h c _ (unscoped_mem main_arg4 (by decide))).trans (atEnd_arg4 m ρ c),
     (h c _ (unscoped_mem main_arg5 (by decide))).trans (atEnd_arg5 m ρ c),
     (h c _ (unscoped_mem main_arg6 (by decide))).trans (atEnd_arg6 m ρ c),
     (h c _ (unscoped_mem main_arg7 (by decide))).trans (atEnd_arg7 m ρ c),
     (h c _ (unscoped_mem main_arg8 (by decide))).trans (atEnd_arg8 m ρ c)⟩) (run_all m ρ)

end Cert.KernelIdeal.Hand

end
-- ==== Proof.KI.Fold0.lean ====
/-
  The first graph-convolution launch: what the recursion over its points amounts to. Each point's accumulator is the
  body's accumulate step (feature tile times weights, through the adjacency tile, added to the accumulator before it)
  applied to the accumulator the point before left — or to the zero tile at the first column block; at the last column
  block the output tile is the body's bias-and-maximum step of that accumulator.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.Body0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin0 : (![0, 0] : Fin 2 → Nat) = fun _ => 0 := funext fun a => by fin_cases a <;> rfl

/-- At a point with 0 < k < 4 the accumulator ends as the accumulate step of the tiles and the accumulator before. -/
theorem accMid0_eq (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : ¬last0 i) (x0 : Vec F S2048x2048 .bf16) (x1 : Vec F S2048x128 .f32) (x2 : Vec F S128x128 .f32) (x3 : Vec F S1x128 .f32) (xs : Vec F S2048x128 .f32) :
    accMid0 c i arg2 harg2 arg3 harg3 arg4 harg4 arg5 harg5 arg6 harg6 arg7 harg7 hf hl x0 x1 x2 x3 xs = k0_pay2 x1 x2 xs x0 := by
  unfold accMid0
  rw [View.read_writes_eq_canon _ _ _ (accMid0_cover c i arg2 harg2 arg3 harg3 arg4 harg4 arg5 harg5 arg6 harg6 arg7 harg7 hf hl x0 x1 x2 x3 xs)]
  unfold runMid0
  dsimp only
  rw [View.canon_unit_zero origin0]
  simp only [View.readAt_eq_ld, harg2.read_unread, harg3.read_unread, harg4.read_unread, harg5.read_unread, harg7.read_unread, View.ld_unit_zero (S := S2048x128) origin0, View.ld_unit_zero (S := S128x128) origin0, View.ld_unit_zero (S := S2048x2048) origin0, View.ld_unit_zero (S := S1x128) origin0]

/-- At a point with k = 4 likewise, -/
theorem accLast0_eq (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : last0 i) (x0 : Vec F S2048x2048 .bf16) (x1 : Vec F S2048x128 .f32) (x2 : Vec F S128x128 .f32) (x3 : Vec F S1x128 .f32) (xs : Vec F S2048x128 .f32) :
    accLast0 c i arg2 harg2 arg3 harg3 arg4 harg4 arg5 harg5 arg6 harg6 arg7 harg7 hf hl x0 x1 x2 x3 xs = k0_pay2 x1 x2 xs x0 := by
  unfold accLast0
  rw [View.read_writes_eq_canon _ _ _ (accLast0_cover c i arg2 harg2 arg3 harg3 arg4 harg4 arg5 harg5 arg6 harg6 arg7 harg7 hf hl x0 x1 x2 x3 xs)]
  unfold runLast0
  dsimp only
  sl_unfold_words
  rw [View.canon_unit_zero origin0]
  simp only [View.readAt_eq_ld, harg2.read_unread, harg3.read_unread, harg4.read_unread, harg5.read_unread, harg7.read_unread, View.ld_unit_zero (S := S2048x128) origin0, View.ld_unit_zero (S := S128x128) origin0, View.ld_unit_zero (S := S2048x2048) origin0, View.ld_unit_zero (S := S1x128) origin0]

/-- and the output tile is the bias-and-maximum step of that accumulator. -/
theorem outLast0_eq (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first0 i) (hl : last0 i) (x0 : Vec F S2048x2048 .bf16) (x1 : Vec F S2048x128 .f32) (x2 : Vec F S128x128 .f32) (x3 : Vec F S1x128 .f32) (xs : Vec F S2048x128 .f32) :
    outLast0 c i arg2 harg2 arg3 harg3 arg4 harg4 arg5 harg5 arg6 harg6 arg7 harg7 hf hl x0 x1 x2 x3 xs = k0_pay3 (k0_pay2 x1 x2 xs x0) x3 := by
  unfold outLast0
  rw [View.read_writes_eq_canon _ _ _ (outLast0_cover c i arg2 harg2 arg3 harg3 arg4 harg4 arg5 harg5 arg6 harg6 arg7 harg7 hf hl x0 x1 x2 x3 xs)]
  unfold runLast0
  dsimp only
  sl_unfold_words
  rw [View.canon_unit_zero origin0]
  simp only [View.readAt_eq_ld, harg2.read_unread, harg3.read_unread, harg4.read_unread, harg5.read_unread, harg7.read_unread, View.ld_unit_zero (S := S2048x128) origin0, View.ld_unit_zero (S := S128x128) origin0, View.ld_unit_zero (S := S2048x2048) origin0, View.ld_unit_zero (S := S1x128) origin0]
  rw [View.readCov_unit_zero (S := S2048x128) _ origin0]

/-- At a point with k = 0 the accumulator ends as the accumulate step applied to the zero tile just stored. -/
theorem accFirst0_eq (c : Dev nD) (i : grid0.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first0 i) (hl : ¬last0 i) (x0 : Vec F S2048x2048 .bf16) (x1 : Vec F S2048x128 .f32) (x2 : Vec F S128x128 .f32) (x3 : Vec F S1x128 .f32) :
    accFirst0 c i arg2 harg2 arg3 harg3 arg4 harg4 arg5 harg5 arg6 harg6 arg7 harg7 hf hl x0 x1 x2 x3 = k0_pay2 x1 x2 (k0_pay1 (F := F)) x0 := by
  unfold accFirst0
  rw [View.read_writes_eq_canon _ _ _ (accFirst0_cover c i arg2 harg2 arg3 harg3 arg4 harg4 arg5 harg5 arg6 harg6 arg7 harg7 hf hl x0 x1 x2 x3)]
  unfold runFirst0
  dsimp only
  sl_unfold_words
  rw [View.canon_cons_unit_zero (S := S2048x128) origin0, View.readCov_unit_zero (S := S2048x128) _ origin0]
  simp only [View.readAt_eq_ld, harg2.read_unread, harg3.read_unread, harg4.read_unread, harg5.read_unread, harg7.read_unread, View.ld_unit_zero (S := S2048x128) origin0, View.ld_unit_zero (S := S128x128) origin0, View.ld_unit_zero (S := S2048x2048) origin0, View.ld_unit_zero (S := S1x128) origin0]

section
variable (V : (c : Dev nD) → (b : Ref sig .tc) → Buf (Elt F) ((c : Thread nD τ).loc b))

/-- The running accumulator after the n-th point. -/
def running0 (c : Dev nD) : (n : ℕ) → n < cfg0.N → Vec F S2048x128 .f32
  | 0, hn => k0_pay2 (tile0 V c 1 ⟨0, hn⟩) (tile0 V c 2 ⟨0, hn⟩) (k0_pay1 (F := F)) (tile0 V c 0 ⟨0, hn⟩)
  | n + 1, hn =>
    if (n + 1) % 5 = 0 then k0_pay2 (tile0 V c 1 ⟨n + 1, hn⟩) (tile0 V c 2 ⟨n + 1, hn⟩) (k0_pay1 (F := F)) (tile0 V c 0 ⟨n + 1, hn⟩)
    else k0_pay2 (tile0 V c 1 ⟨n + 1, hn⟩) (tile0 V c 2 ⟨n + 1, hn⟩) (running0 c n (Nat.lt_of_succ_lt hn)) (tile0 V c 0 ⟨n + 1, hn⟩)

/-- The recursion's accumulator component is the running accumulator: by induction on the point. -/
theorem stateAt0_acc (c : Dev nD) : ∀ (n : ℕ) (hn : n < cfg0.N), (stateAt0 V c n hn).2 = running0 V c n hn
  | 0, hn => by
    have e := stateAt0_first V c ⟨0, hn⟩ (Nat.zero_mod 5) (by show ¬ 0 % 5 = 4; decide)
    dsimp only at e
    rw [e]; dsimp only
    rw [accFirst0_eq]
    rw [running0]
  | n + 1, hn => by
    by_cases h0 : (n + 1) % 5 = 0
    · have h4 : ¬(n + 1) % 5 = 4 := by omega
      rw [stateAt0_first V c ⟨n + 1, hn⟩ h0 h4]
      dsimp only
      rw [accFirst0_eq]
      rw [running0, if_pos h0]
    · by_cases h4 : (n + 1) % 5 = 4
      · rw [stateAt0_last V c ⟨n + 1, hn⟩ h0 h4]
        dsimp only
        rw [accLast0_eq]
        simp only [Nat.add_sub_cancel]
        rw [stateAt0_acc c n]
        rw [running0, if_neg h0]
      · rw [stateAt0_mid V c ⟨n + 1, hn⟩ h0 h4]
        dsimp only
        rw [accMid0_eq]
        simp only [Nat.add_sub_cancel]
        rw [stateAt0_acc c n]
        rw [running0, if_neg h0]

/-- At a point with k = 4 the output tile is the bias-and-maximum step of the running accumulator there. -/
theorem stateAt0_out (c : Dev nD) (t : Fin cfg0.N) (h4 : t.val % 5 = 4) :
    (stateAt0 V c t.val t.isLt).1 = k0_pay3 (running0 V c t.val t.isLt) (tile0 V c 3 t) := by
  have h0 : ¬t.val % 5 = 0 := by omega
  have e := stateAt0_acc V c t.val t.isLt
  rw [stateAt0_last V c t h0 h4] at e ⊢
  dsimp only at e ⊢
  rw [outLast0_eq]
  rw [accLast0_eq] at e
  rw [e]
end

end Cert.KernelIdeal.Hand

end
-- ==== Proof.Spec.lean ====
/-
  What the two programs compute, as functions of the arguments over the extended reals.

  A graph with 10000 nodes and 640000 directed edges (source s e, target d e, read as signed integers), node features
  x (10000 × 128). With deg r = 1 + #{e | d e = r}, dinv r = deg r ^ (-1/2) and the edge weight
  norm e = dinv (s e) · dinv (d e), a graph-convolution layer sends node rows h to
      conv h W b (r, q) = Σ_{e : d e = r} (h W)(s e, q) · norm e  +  (h W)(r, q) · dinv r ²  +  b q .
  The reference applies two such layers with max(·, 0) after each, then averages the rows of each of 64 graphs
  (graph number bt r of node r) and applies a last linear layer.
  The kernel instead builds the 10240 × 10240 matrix
      adj (i, j) = Σ_{e : d e = i, s e = j} norm e  +  [i = j < 10000] dinv i ²
  (rows and columns padded to 5 blocks of 2048), pads the node rows with zeros, and computes each layer as
      layer h W b (i, q) = max(Σ_j adj (i, j) · (h W)(j, q) + b q, 0),
  the sum over j taken block by block. The two agree on the rows below 10000 when every s e and d e is a node number.

  Index words are read signed; a gather wraps a negative number by the array's extent and clamps into range, a
  scatter-add drops what falls outside: the definitions below keep these conventions, so that each program's printed
  operations read to them without a hypothesis, and the hypotheses enter only where the two are compared.
-/
import Idealize.ShloMosaic.PureOps.Ideal
import Idealize.ShloMosaic.Lib.ValueIdx

noncomputable section

namespace Cert.Spec

open Idealize.ShloMosaic
open scoped BigOperators

abbrev nNode : Nat := 10000
abbrev nPad : Nat := 10240
abbrev nEdge : Nat := 640000
abbrev nFeat : Nat := 128
abbrev nGraph : Nat := 64
abbrev nClass : Nat := 10

/-- A negative index wrapped by the extent n, as indexing does before a gather or a scatter. -/
def wrapBy (n : ℤ) (z : ℤ) : ℤ := if z < 0 then z + n else z
/-- An index clamped to a node number, as a gather does. -/
def nodeOf (z : ℤ) : Fin nNode := ⟨min z.toNat 9999, by show min z.toNat 9999 < 10000; omega⟩

section
variable (s d : Fin nEdge → ℤ)

/-- deg r = (0 + the number of edges into r) + 1. -/
def deg (r : Fin nNode) : EReal := (0 + ∑ e : Fin nEdge, if d e = (r.val : ℤ) then (1 : EReal) else 0) + 1
def dinv (r : Fin nNode) : EReal := Ideal.rsqrt (deg d r)
def norm (e : Fin nEdge) : EReal := dinv d (nodeOf (wrapBy nNode (s e))) * dinv d (nodeOf (wrapBy nNode (d e)))

/-- Rows times a weight matrix. -/
def proj {n : Nat} (h : Fin n → Fin nFeat → EReal) (W : Fin nFeat → Fin nFeat → EReal) (r : Fin n) (q : Fin nFeat) : EReal :=
  ∑ k : Fin nFeat, h r k * W k q

/-- One layer as the reference computes it: over the edges. -/
def convRef (h : Fin nNode → Fin nFeat → EReal) (W : Fin nFeat → Fin nFeat → EReal) (b : Fin nFeat → EReal)
    (r : Fin nNode) (q : Fin nFeat) : EReal :=
  ((0 + ∑ e : Fin nEdge, if d e = (r.val : ℤ) then proj h W (nodeOf (wrapBy nNode (s e))) q * norm s d e else 0)
    + proj h W r q * (dinv d r * dinv d r)) + b q

/-- The normalized adjacency with self loops, padded. -/
def adj (i j : Fin nPad) : EReal :=
  (0 + ∑ e : Fin nEdge, if wrapBy nPad (d e) = (i.val : ℤ) ∧ wrapBy nPad (s e) = (j.val : ℤ) then norm s d e else 0)
    + ∑ n : Fin nNode, if (n.val : ℤ) = (i.val : ℤ) ∧ (n.val : ℤ) = (j.val : ℤ) then dinv d n * dinv d n else 0

/-- One layer as the kernel computes it: the adjacency against the projected rows, 5 column blocks of 2048. -/
def layer (A : Fin nPad → Fin nPad → EReal) (h : Fin nPad → Fin nFeat → EReal) (W : Fin nFeat → Fin nFeat → EReal)
    (b : Fin nFeat → EReal) (i : Fin nPad) (q : Fin nFeat) : EReal :=
  max ((∑ kb : Fin 5, ∑ jj : Fin 2048, A i ⟨2048 * kb.val + jj.val, by show 2048 * kb.val + jj.val < 10240; omega⟩ * proj h W ⟨2048 * kb.val + jj.val, by show 2048 * kb.val + jj.val < 10240; omega⟩ q) + b q) 0
end

/-- Node rows padded with zero rows. -/
def pad (h : Fin nNode → Fin nFeat → EReal) (j : Fin nPad) (k : Fin nFeat) : EReal :=
  if hj : j.val < nNode then h ⟨j.val, hj⟩ k else 0

/-- The shared end of both programs: per graph the mean of its nodes' rows (the count at least 1), then the last
    linear layer. -/
def poolLinear (bt : Fin nNode → ℤ) (h : Fin nNode → Fin nFeat → EReal) (Wl : Fin nFeat → Fin nClass → EReal)
    (bl : Fin nClass → EReal) (g : Fin nGraph) (c : Fin nClass) : EReal :=
  (∑ q : Fin nFeat,
      Ideal.div (0 + ∑ r : Fin nNode, if bt r = (g.val : ℤ) then h r q else 0)
        (max (0 + ∑ r : Fin nNode, if bt r = (g.val : ℤ) then (1 : EReal) else 0) 1) * Wl q c) + bl c

section
variable (s d : Fin nEdge → ℤ) (x : Fin nNode → Fin nFeat → EReal)
  (W1 : Fin nFeat → Fin nFeat → EReal) (b1 : Fin nFeat → EReal) (W2 : Fin nFeat → Fin nFeat → EReal) (b2 : Fin nFeat → EReal)

/-- The reference's node rows after both layers. -/
def refRows : Fin nNode → Fin nFeat → EReal :=
  fun r q => max (convRef s d (fun r q => max (convRef s d x W1 b1 r q) 0) W2 b2 r q) 0
/-- The kernel's (padded) node rows after both launches. -/
def kerRows : Fin nPad → Fin nFeat → EReal :=
  layer (adj s d) (layer (adj s d) (pad x) W1 b1) W2 b2
end

/-! ## The arguments as the programs hold them -/

open Idealize.ShloMosaic.ValueIdx

/-- Edge e's source and target: rows 0 and 1 of the 2 × 640000 index array, read signed. -/
def srcs (ei : (⟨2, ![2, 640000]⟩ : Shape).Idx → BitVec 32) (e : Fin nEdge) : ℤ := (ei (ix2 0 e)).toInt
def dsts (ei : (⟨2, ![2, 640000]⟩ : Shape).Idx → BitVec 32) (e : Fin nEdge) : ℤ := (ei (ix2 1 e)).toInt
/-- Node r's graph number, read signed. -/
def ids (bt : (⟨1, ![10000]⟩ : Shape).Idx → BitVec 32) (r : Fin nNode) : ℤ := (bt (ix1 r)).toInt
/-- A rank-2 array of extended reals read at its two coordinates; a rank-1 array at its one. -/
def mat {a b : Nat} (x : (⟨2, ![a, b]⟩ : Shape).Idx → EReal) (r : Fin a) (k : Fin b) : EReal := x (ix2 r k)
def vec {a : Nat} (v : (⟨1, ![a]⟩ : Shape).Idx → EReal) (k : Fin a) : EReal := v (ix1 k)

end Cert.Spec

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.KI.Read0.lean ====
/-
  The first graph-convolution launch over the extended reals, entry by entry. With A the 10240 × 10240 adjacency
  operand, H the 10240 × 128 row operand, W the weights and b the bias row as the launch finds them, the array it
  writes back holds at (i, q)
      max(Σ over the 5 column blocks kb and the 2048 columns jj of a block of A(i, 2048·kb + jj) · (H W)(2048·kb + jj, q) + b q, 0).
  The steps: where each point's tiles sit in their operands; the body's accumulate step and bias-and-maximum step read at
  an entry (two plain matrix products into a zero tile, the format changes being the identity on extended reals); the
  running accumulator after column block k of a row block as the sum over the blocks 0..k, by induction on k; and the
  write-backs, one per row block at k = 4, which together cover the array.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.Fold0
import proofs.«151618_j80324478369804_1_alg».proof.Proof.Spec
import proofs.«151618_j80324478369804_1_alg».proof.Proof.LibPlainDot
import Idealize.ShloMosaic.Lib.Pipeline.Value
import Idealize.ShloMosaic.Lib.ValueIdx
import Idealize.ShloMosaic.Lib.IdealHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## Where the tiles sit -/

theorem where0_0 : ∀ t : Fin cfg0.N, win0_0.index t 0 = t.val / 5 ∧ win0_0.index t 1 = t.val % 5 :=
  (by decide +kernel : ∀ t : Fin grid0.N, win0_0.index t 0 = t.val / 5 ∧ win0_0.index t 1 = t.val % 5)
theorem where0_1 : ∀ t : Fin cfg0.N, win0_1.index t 0 = t.val % 5 ∧ win0_1.index t 1 = 0 :=
  (by decide +kernel : ∀ t : Fin grid0.N, win0_1.index t 0 = t.val % 5 ∧ win0_1.index t 1 = 0)
theorem where0_2 : ∀ t : Fin cfg0.N, win0_2.index t 0 = 0 ∧ win0_2.index t 1 = 0 :=
  (by decide +kernel : ∀ t : Fin grid0.N, win0_2.index t 0 = 0 ∧ win0_2.index t 1 = 0)
theorem where0_3 : ∀ t : Fin cfg0.N, win0_3.index t 0 = 0 ∧ win0_3.index t 1 = 0 :=
  (by decide +kernel : ∀ t : Fin grid0.N, win0_3.index t 0 = 0 ∧ win0_3.index t 1 = 0)
theorem where0_4 : ∀ t : Fin cfg0.N, win0_4.index t 0 = t.val / 5 ∧ win0_4.index t 1 = 0 :=
  (by decide +kernel : ∀ t : Fin grid0.N, win0_4.index t 0 = t.val / 5 ∧ win0_4.index t 1 = 0)

section
variable (V : (c : Dev nD) → (b : Ref sig .tc) → Buf (Elt Ideal) ((c : Thread nD τ).loc b))

/-- The launch's four input operands as it finds them, as arrays of extended reals. -/
def opA0 (c : Dev nD) : (⟨2, ![10240, 10240]⟩ : Shape).Idx → EReal := V c (Pipeline.arrRef spec0 0)
def opH0 (c : Dev nD) : (⟨2, ![10240, 128]⟩ : Shape).Idx → EReal := V c (Pipeline.arrRef spec0 1)
def opW0 (c : Dev nD) : (⟨2, ![128, 128]⟩ : Shape).Idx → EReal := V c (Pipeline.arrRef spec0 2)
def opB0 (c : Dev nD) : (⟨2, ![1, 128]⟩ : Shape).Idx → EReal := V c (Pipeline.arrRef spec0 3)

/-- Point t's four input tiles, typed as the body reads them. -/
abbrev tileA0 (c : Dev nD) (t : Fin cfg0.N) : Vec Ideal S2048x2048 .bf16 := tile0 V c 0 t
abbrev tileH0 (c : Dev nD) (t : Fin cfg0.N) : Vec Ideal S2048x128 .f32 := tile0 V c 1 t
abbrev tileW0 (c : Dev nD) (t : Fin cfg0.N) : Vec Ideal S128x128 .f32 := tile0 V c 2 t
abbrev tileB0 (c : Dev nD) (t : Fin cfg0.N) : Vec Ideal S1x128 .f32 := tile0 V c 3 t

theorem tile0_A (c : Dev nD) (t : Fin cfg0.N) (p jj : Fin 2048) (hr : 2048 * (t.val / 5) + p.val < 10240) (hc : 2048 * (t.val % 5) + jj.val < 10240) :
    tileA0 V c t (ix2 p jj) = opA0 V c (ix2 ⟨2048 * (t.val / 5) + p.val, hr⟩ ⟨2048 * (t.val % 5) + jj.val, hc⟩) := by
  unfold tileA0 tile0 opA0
  rw [View.read_apply]
  refine congrArg (V c (Pipeline.arrRef spec0 0)) (funext fun a => Fin.ext ?_)
  match a with
  | ⟨0, _⟩ => show win0_0.index t 0 * 2048 + 1 * p.val = 2048 * (t.val / 5) + p.val; rw [(where0_0 t).1]; omega
  | ⟨1, _⟩ => show win0_0.index t 1 * 2048 + 1 * jj.val = 2048 * (t.val % 5) + jj.val; rw [(where0_0 t).2]; omega

theorem tile0_H (c : Dev nD) (t : Fin cfg0.N) (jj : Fin 2048) (kk : Fin 128) (hr : 2048 * (t.val % 5) + jj.val < 10240) :
    tileH0 V c t (ix2 jj kk) = opH0 V c (ix2 ⟨2048 * (t.val % 5) + jj.val, hr⟩ kk) := by
  unfold tileH0 tile0 opH0
  rw [View.read_apply]
  refine congrArg (V c (Pipeline.arrRef spec0 1)) (funext fun a => Fin.ext ?_)
  match a with
  | ⟨0, _⟩ => show win0_1.index t 0 * 2048 + 1 * jj.val = 2048 * (t.val % 5) + jj.val; rw [(where0_1 t).1]; omega
  | ⟨1, _⟩ => show win0_1.index t 1 * 128 + 1 * kk.val = kk.val; rw [(where0_1 t).2]; omega

theorem tile0_W (c : Dev nD) (t : Fin cfg0.N) (kk q : Fin 128) :
    tileW0 V c t (ix2 kk q) = opW0 V c (ix2 kk q) := by
  unfold tileW0 tile0 opW0
  rw [View.read_apply]
  refine congrArg (V c (Pipeline.arrRef spec0 2)) (funext fun a => Fin.ext ?_)
  match a with
  | ⟨0, _⟩ => show win0_2.index t 0 * 128 + 1 * kk.val = kk.val; rw [(where0_2 t).1]; omega
  | ⟨1, _⟩ => show win0_2.index t 1 * 128 + 1 * q.val = q.val; rw [(where0_2 t).2]; omega

theorem tile0_B (c : Dev nD) (t : Fin cfg0.N) (q : Fin 128) :
    tileB0 V c t (ix2 0 q) = opB0 V c (ix2 0 q) := by
  unfold tileB0 tile0 opB0
  rw [View.read_apply]
  refine congrArg (V c (Pipeline.arrRef spec0 3)) (funext fun a => Fin.ext ?_)
  match a with
  | ⟨0, _⟩ => show win0_3.index t 0 * 1 + 1 * 0 = 0; rw [(where0_3 t).1]
  | ⟨1, _⟩ => show win0_3.index t 1 * 128 + 1 * q.val = q.val; rw [(where0_3 t).2]; omega
end

/-! ## The body's steps at an entry -/

theorem clear0_apply (i : S2048x128.Idx) : k0_pay1 (F := Ideal) i = 0 := by
  unfold k0_pay1
  simp only [shapeCast_self]
  exact Ideal.ofBits_zero_f32

theorem step0_apply (x1 : Vec Ideal S2048x128 .f32) (x2 : Vec Ideal S128x128 .f32) (xs : Vec Ideal S2048x128 .f32)
    (x0 : Vec Ideal S2048x2048 .bf16) (p : Fin 2048) (q : Fin 128) :
    k0_pay2 (F := Ideal) x1 x2 xs x0 (ix2 p q)
      = xs (ix2 p q) + ∑ jj : Fin 2048, x0 (ix2 p jj) * ∑ kk : Fin 128, x1 (ix2 jj kk) * x2 (ix2 kk q) := by
  unfold k0_pay2
  simp only [shapeCast_self]
  refine (addf_apply _ _ _).trans (congrArg (xs (ix2 p q) + ·) ?_)
  refine (Cert.LibPlainDot.matmul_plain_zero_apply _ rfl none _ _ p q).trans ?_
  refine Finset.sum_congr rfl fun jj _ => congrArg (x0 (ix2 p jj) * ·) ?_
  exact Cert.LibPlainDot.matmul_plain_zero_apply _ rfl none _ _ jj q

theorem relu0_apply (acc : Vec Ideal S2048x128 .f32) (b : Vec Ideal S1x128 .f32) (p : Fin 2048) (q : Fin 128) :
    k0_pay3 (F := Ideal) acc b (ix2 p q) = max (acc (ix2 p q) + b (ix2 0 q)) 0 := by
  unfold k0_pay3
  simp only [shapeCast_self]
  refine (maximumf_apply _ _ _).trans (congrArg₂ max ?_ Ideal.ofBits_zero_f32)
  refine (addf_apply _ _ _).trans (congrArg (acc (ix2 p q) + ·) ?_)
  exact broadcastTo_apply b _ (ix2 p q) (ix2 0 q) (fun a => by match a with | ⟨0, _⟩ => rfl | ⟨1, _⟩ => rfl)

/-! ## The running accumulator is a sum over column blocks -/

section
variable (V : (c : Dev nD) → (b : Ref sig .tc) → Buf (Elt Ideal) ((c : Thread nD τ).loc b))

theorem running0_at (c : Dev nD) {n n' : ℕ} (h : n = n') (hn : n < cfg0.N) (hn' : n' < cfg0.N) :
    running0 V c n hn = running0 V c n' hn' := by subst h; rfl

theorem running0_first (c : Dev nD) (t : Fin cfg0.N) (h0 : t.val % 5 = 0) :
    running0 V c t.val t.isLt = k0_pay2 (tile0 V c 1 t) (tile0 V c 2 t) (k0_pay1 (F := Ideal)) (tile0 V c 0 t) := by
  obtain ⟨n, hn⟩ := t
  cases n with
  | zero => rw [running0]
  | succ n => rw [running0, if_pos h0]

theorem running0_next (c : Dev nD) (t : Fin cfg0.N) (h0 : ¬t.val % 5 = 0) :
    running0 V c t.val t.isLt = k0_pay2 (tile0 V c 1 t) (tile0 V c 2 t)
      (running0 V c (t.val - 1) (Nat.lt_of_le_of_lt (Nat.sub_le _ _) t.isLt)) (tile0 V c 0 t) := by
  obtain ⟨n, hn⟩ := t
  cases n with
  | zero => exact absurd (Nat.zero_mod 5) h0
  | succ n => rw [running0, if_neg h0]; rfl

/-- What column block kb adds to entry (p, q) of row block mb: the adjacency's block against the projected rows. -/
def blockTerm0 (c : Dev nD) (mb kb : ℕ) (p : Fin 2048) (q : Fin 128) : EReal :=
  if h : mb < 5 ∧ kb < 5 then
    ∑ jj : Fin 2048, Spec.mat (opA0 V c) ⟨2048 * mb + p.val, by have := p.isLt; have := h.1; omega⟩ ⟨2048 * kb + jj.val, by have := jj.isLt; have := h.2; omega⟩
      * Spec.proj (Spec.mat (opH0 V c)) (Spec.mat (opW0 V c)) ⟨2048 * kb + jj.val, by have := jj.isLt; have := h.2; omega⟩ q
  else 0

/-- The tile product the body adds at point t is the term of t's row block and column block. -/
theorem tileProduct0 (c : Dev nD) (t : Fin cfg0.N) (p : Fin 2048) (q : Fin 128) :
    (∑ jj : Fin 2048, tileA0 V c t (ix2 p jj) * ∑ kk : Fin 128, tileH0 V c t (ix2 jj kk) * tileW0 V c t (ix2 kk q))
      = blockTerm0 V c (t.val / 5) (t.val % 5) p q := by
  have hN : t.val < 25 := lt_of_lt_of_eq t.isLt N_0
  unfold blockTerm0
  rw [dif_pos ⟨by omega, by omega⟩]
  refine Finset.sum_congr rfl fun jj _ => ?_
  rw [tile0_A V c t p jj (by have := p.isLt; omega) (by have := jj.isLt; omega)]
  refine congrArg₂ (· * ·) rfl ?_
  unfold Spec.proj
  refine Finset.sum_congr rfl fun kk _ => ?_
  rw [tile0_H V c t jj kk (by have := jj.isLt; omega), tile0_W V c t kk q]
  rfl

/-- After column block kb of row block mb the accumulator holds the terms of the blocks 0..kb. -/
theorem running0_sum (c : Dev nD) (mb : ℕ) (hm : mb < 5) (p : Fin 2048) (q : Fin 128) :
    ∀ (kb : ℕ) (hk : kb < 5), running0 V c (5 * mb + kb) (by have hN25 : cfg0.N = 25 := N_0; omega) (ix2 p q)
      = ∑ k' ∈ Finset.range (kb + 1), blockTerm0 V c mb k' p q
  | 0, hk => by
    have hlt : 5 * mb + 0 < cfg0.N := by have hN25 : cfg0.N = 25 := N_0; omega
    have e : running0 V c (5 * mb + 0) hlt = _ := running0_first V c ⟨5 * mb + 0, hlt⟩ (by show (5 * mb + 0) % 5 = 0; omega)
    rw [e, step0_apply, clear0_apply, zero_add, tileProduct0]
    have h1 : (⟨5 * mb + 0, hlt⟩ : Fin cfg0.N).val / 5 = mb := by show (5 * mb + 0) / 5 = mb; omega
    have h2 : (⟨5 * mb + 0, hlt⟩ : Fin cfg0.N).val % 5 = 0 := by show (5 * mb + 0) % 5 = 0; omega
    rw [h1, h2]
    exact (Finset.sum_range_one (fun k' => blockTerm0 V c mb k' p q)).symm
  | kb + 1, hk => by
    have hlt : 5 * mb + (kb + 1) < cfg0.N := by have hN25 : cfg0.N = 25 := N_0; omega
    have e : running0 V c (5 * mb + (kb + 1)) hlt = _ := running0_next V c ⟨5 * mb + (kb + 1), hlt⟩ (by show ¬(5 * mb + (kb + 1)) % 5 = 0; omega)
    rw [e, step0_apply, tileProduct0, Finset.sum_range_succ]
    have h1 : (⟨5 * mb + (kb + 1), hlt⟩ : Fin cfg0.N).val / 5 = mb := by show (5 * mb + (kb + 1)) / 5 = mb; omega
    have h2 : (⟨5 * mb + (kb + 1), hlt⟩ : Fin cfg0.N).val % 5 = kb + 1 := by show (5 * mb + (kb + 1)) % 5 = kb + 1; omega
    rw [h1, h2]
    refine congrArg₂ (· + ·) ?_ rfl
    rw [running0_at V c (show (⟨5 * mb + (kb + 1), hlt⟩ : Fin cfg0.N).val - 1 = 5 * mb + kb from by show 5 * mb + (kb + 1) - 1 = 5 * mb + kb; omega) _ (by have hN25 : cfg0.N = 25 := N_0; omega)]
    exact running0_sum c mb hm p q kb (by omega)

/-! ## The array the launch writes back -/

/-- One layer of the padded rows: the specification's layer of the four operands. -/
def layerOut0 (c : Dev nD) : (⟨2, ![10240, 128]⟩ : Shape).Idx → EReal := fun i =>
  Spec.layer (Spec.mat (opA0 V c)) (Spec.mat (opH0 V c)) (Spec.mat (opW0 V c)) (fun q => opB0 V c (ix2 0 q)) (i 0) (i 1)

/-- At the last column block of a row block the output tile holds that row block's rows of the layer. -/
theorem out0_entry (c : Dev nD) (t : Fin cfg0.N) (h4 : t.val % 5 = 4) (p : Fin 2048) (q : Fin 128)
    (hr : 2048 * (t.val / 5) + p.val < 10240) :
    (stateAt0 V c t.val t.isLt).1 (ix2 p q) = layerOut0 V c (ix2 ⟨2048 * (t.val / 5) + p.val, hr⟩ q) := by
  have hN : t.val < 25 := lt_of_lt_of_eq t.isLt N_0
  rw [stateAt0_out V c t h4, relu0_apply, show (tile0 V c 3 t) (ix2 0 q) = tileB0 V c t (ix2 0 q) from rfl, tile0_B]
  unfold layerOut0 Spec.layer
  refine congrArg₂ max (congrArg₂ (· + ·) ?_ rfl) rfl
  rw [running0_at V c (show t.val = 5 * (t.val / 5) + 4 by omega) t.isLt (by have hN25 : cfg0.N = 25 := N_0; omega),
    running0_sum V c (t.val / 5) (by omega) p q 4 (by omega), Finset.sum_range]
  refine Finset.sum_congr rfl fun kb _ => ?_
  unfold blockTerm0
  rw [dif_pos ⟨by omega, kb.isLt⟩]

/-- What the write-back at point t writes is tile t of the layer's array. -/
theorem flushed0 (c : Dev nD) (t : Fin cfg0.N) (hf : (cfg0.win 4).flush t = true) :
    (dat0 V c).flushed 4 t = ((cfg0.win 4).blk t).view.read (Elt Ideal) (layerOut0 V c) := by
  have h4 : t.val % 5 = 4 := (flush0_4 t).mp hf
  have hN : t.val < 25 := lt_of_lt_of_eq t.isLt N_0
  show (cfg0.win 4).cut (grid0.coords t) ((dat0 V c).after 4 t) = _
  rw [dat0_after4]
  funext j
  obtain ⟨p, q, rfl⟩ : ∃ (p : Fin 2048) (q : Fin 128), j = ix2 p q := ⟨j 0, j 1, eq_ix2 j⟩
  rw [View.read_apply]
  show (stateAt0 V c t.val t.isLt).1 (ix2 p q) = layerOut0 V c (((cfg0.win 4).blk t).view.emb (ix2 p q))
  rw [out0_entry V c t h4 p q (by have := p.isLt; omega)]
  refine congrArg (layerOut0 V c) (funext fun a => Fin.ext ?_)
  match a with
  | ⟨0, _⟩ => show 2048 * (t.val / 5) + p.val = win0_4.index t 0 * 2048 + 1 * p.val; rw [(where0_4 t).1]; omega
  | ⟨1, _⟩ => show q.val = win0_4.index t 1 * 128 + 1 * q.val; rw [(where0_4 t).2]; omega

/-- An index of the array lies in point t's tile exactly when each coordinate lies in the tile's range. -/
theorem mem_tile0 (t : Fin cfg0.N) (i : S10240x128.Idx) :
    i ∈ ((cfg0.win 4).blk t).view.set ↔ ∀ a : Fin 2, win0_4.index t a * S2048x128.size a ≤ (i a).val ∧ (i a).val < win0_4.index t a * S2048x128.size a + S2048x128.size a := by
  show Iff (i ∈ ((View.whole main_v63).slice (win0_4.rect t)).set) _
  rw [View.set_slice_whole, Rect.mem_set_unit]
  exact Iff.rfl

/-- The five write-backs cover the array, so it ends as the layer's array. -/
theorem final0 (c : Dev nD) : (dat0 V c).arrAt 4 cfg0.N = layerOut0 V c :=
  (dat0 V c).arrAt_eq_of_cover 4 (layerOut0 V c) (fun t hf => flushed0 V c t hf) fun i => by
    have hi0 : (i 0).val < 10240 := (i 0).isLt
    have hi1 : (i 1).val < 128 := (i 1).isLt
    have hlt : 5 * ((i 0).val / 2048) + 4 < cfg0.N := by have hN25 : cfg0.N = 25 := N_0; omega
    refine ⟨⟨5 * ((i 0).val / 2048) + 4, hlt⟩, (flush0_4 _).mpr (by show (5 * ((i 0).val / 2048) + 4) % 5 = 4; omega), ?_⟩
    rw [mem_tile0]
    intro a
    have w := where0_4 ⟨5 * ((i 0).val / 2048) + 4, hlt⟩
    match a with
    | ⟨0, _⟩ =>
      show win0_4.index ⟨5 * ((i 0).val / 2048) + 4, hlt⟩ 0 * 2048 ≤ (i 0).val ∧ (i 0).val < win0_4.index ⟨5 * ((i 0).val / 2048) + 4, hlt⟩ 0 * 2048 + 2048
      rw [w.1]; show (5 * ((i 0).val / 2048) + 4) / 5 * 2048 ≤ (i 0).val ∧ (i 0).val < (5 * ((i 0).val / 2048) + 4) / 5 * 2048 + 2048; omega
    | ⟨1, _⟩ =>
      show win0_4.index ⟨5 * ((i 0).val / 2048) + 4, hlt⟩ 1 * 128 ≤ (i 1).val ∧ (i 1).val < win0_4.index ⟨5 * ((i 0).val / 2048) + 4, hlt⟩ 1 * 128 + 128
      rw [w.2]; omega
end

end Cert.KernelIdeal.Hand

end
-- ==== Proof.KI.Fold1.lean ====
/-
  The second graph-convolution launch: what the recursion over its points amounts to. Each point's accumulator is the
  body's accumulate step (feature tile times weights, through the adjacency tile, added to the accumulator before it)
  applied to the accumulator the point before left — or to the zero tile at the first column block; at the last column
  block the output tile is the body's bias-and-maximum step of that accumulator.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.Body1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin1 : (![0, 0] : Fin 2 → Nat) = fun _ => 0 := funext fun a => by fin_cases a <;> rfl

/-- At a point with 0 < k < 4 the accumulator ends as the accumulate step of the tiles and the accumulator before. -/
theorem accMid1_eq (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : ¬last1 i) (x0 : Vec F S2048x2048 .bf16) (x1 : Vec F S2048x128 .f32) (x2 : Vec F S128x128 .f32) (x3 : Vec F S1x128 .f32) (xs : Vec F S2048x128 .f32) :
    accMid1 c i arg2 harg2 arg3 harg3 arg4 harg4 arg5 harg5 arg6 harg6 arg7 harg7 hf hl x0 x1 x2 x3 xs = k1_pay2 x1 x2 xs x0 := by
  unfold accMid1
  rw [View.read_writes_eq_canon _ _ _ (accMid1_cover c i arg2 harg2 arg3 harg3 arg4 harg4 arg5 harg5 arg6 harg6 arg7 harg7 hf hl x0 x1 x2 x3 xs)]
  unfold runMid1
  dsimp only
  rw [View.canon_unit_zero origin1]
  simp only [View.readAt_eq_ld, harg2.read_unread, harg3.read_unread, harg4.read_unread, harg5.read_unread, harg7.read_unread, View.ld_unit_zero (S := S2048x128) origin1, View.ld_unit_zero (S := S128x128) origin1, View.ld_unit_zero (S := S2048x2048) origin1, View.ld_unit_zero (S := S1x128) origin1]

/-- At a point with k = 4 likewise, -/
theorem accLast1_eq (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : last1 i) (x0 : Vec F S2048x2048 .bf16) (x1 : Vec F S2048x128 .f32) (x2 : Vec F S128x128 .f32) (x3 : Vec F S1x128 .f32) (xs : Vec F S2048x128 .f32) :
    accLast1 c i arg2 harg2 arg3 harg3 arg4 harg4 arg5 harg5 arg6 harg6 arg7 harg7 hf hl x0 x1 x2 x3 xs = k1_pay2 x1 x2 xs x0 := by
  unfold accLast1
  rw [View.read_writes_eq_canon _ _ _ (accLast1_cover c i arg2 harg2 arg3 harg3 arg4 harg4 arg5 harg5 arg6 harg6 arg7 harg7 hf hl x0 x1 x2 x3 xs)]
  unfold runLast1
  dsimp only
  sl_unfold_words
  rw [View.canon_unit_zero origin1]
  simp only [View.readAt_eq_ld, harg2.read_unread, harg3.read_unread, harg4.read_unread, harg5.read_unread, harg7.read_unread, View.ld_unit_zero (S := S2048x128) origin1, View.ld_unit_zero (S := S128x128) origin1, View.ld_unit_zero (S := S2048x2048) origin1, View.ld_unit_zero (S := S1x128) origin1]

/-- and the output tile is the bias-and-maximum step of that accumulator. -/
theorem outLast1_eq (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : ¬first1 i) (hl : last1 i) (x0 : Vec F S2048x2048 .bf16) (x1 : Vec F S2048x128 .f32) (x2 : Vec F S128x128 .f32) (x3 : Vec F S1x128 .f32) (xs : Vec F S2048x128 .f32) :
    outLast1 c i arg2 harg2 arg3 harg3 arg4 harg4 arg5 harg5 arg6 harg6 arg7 harg7 hf hl x0 x1 x2 x3 xs = k1_pay3 (k1_pay2 x1 x2 xs x0) x3 := by
  unfold outLast1
  rw [View.read_writes_eq_canon _ _ _ (outLast1_cover c i arg2 harg2 arg3 harg3 arg4 harg4 arg5 harg5 arg6 harg6 arg7 harg7 hf hl x0 x1 x2 x3 xs)]
  unfold runLast1
  dsimp only
  sl_unfold_words
  rw [View.canon_unit_zero origin1]
  simp only [View.readAt_eq_ld, harg2.read_unread, harg3.read_unread, harg4.read_unread, harg5.read_unread, harg7.read_unread, View.ld_unit_zero (S := S2048x128) origin1, View.ld_unit_zero (S := S128x128) origin1, View.ld_unit_zero (S := S2048x2048) origin1, View.ld_unit_zero (S := S1x128) origin1]
  rw [View.readCov_unit_zero (S := S2048x128) _ origin1]

/-- At a point with k = 0 the accumulator ends as the accumulate step applied to the zero tile just stored. -/
theorem accFirst1_eq (c : Dev nD) (i : grid1.Coords) (arg2 : Memref sig .tc .vmem S2048x2048 .bf16) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hf : first1 i) (hl : ¬last1 i) (x0 : Vec F S2048x2048 .bf16) (x1 : Vec F S2048x128 .f32) (x2 : Vec F S128x128 .f32) (x3 : Vec F S1x128 .f32) :
    accFirst1 c i arg2 harg2 arg3 harg3 arg4 harg4 arg5 harg5 arg6 harg6 arg7 harg7 hf hl x0 x1 x2 x3 = k1_pay2 x1 x2 (k1_pay1 (F := F)) x0 := by
  unfold accFirst1
  rw [View.read_writes_eq_canon _ _ _ (accFirst1_cover c i arg2 harg2 arg3 harg3 arg4 harg4 arg5 harg5 arg6 harg6 arg7 harg7 hf hl x0 x1 x2 x3)]
  unfold runFirst1
  dsimp only
  sl_unfold_words
  rw [View.canon_cons_unit_zero (S := S2048x128) origin1, View.readCov_unit_zero (S := S2048x128) _ origin1]
  simp only [View.readAt_eq_ld, harg2.read_unread, harg3.read_unread, harg4.read_unread, harg5.read_unread, harg7.read_unread, View.ld_unit_zero (S := S2048x128) origin1, View.ld_unit_zero (S := S128x128) origin1, View.ld_unit_zero (S := S2048x2048) origin1, View.ld_unit_zero (S := S1x128) origin1]

section
variable (V : (c : Dev nD) → (b : Ref sig .tc) → Buf (Elt F) ((c : Thread nD τ).loc b))

/-- The running accumulator after the n-th point. -/
def running1 (c : Dev nD) : (n : ℕ) → n < cfg1.N → Vec F S2048x128 .f32
  | 0, hn => k1_pay2 (tile1 V c 1 ⟨0, hn⟩) (tile1 V c 2 ⟨0, hn⟩) (k1_pay1 (F := F)) (tile1 V c 0 ⟨0, hn⟩)
  | n + 1, hn =>
    if (n + 1) % 5 = 0 then k1_pay2 (tile1 V c 1 ⟨n + 1, hn⟩) (tile1 V c 2 ⟨n + 1, hn⟩) (k1_pay1 (F := F)) (tile1 V c 0 ⟨n + 1, hn⟩)
    else k1_pay2 (tile1 V c 1 ⟨n + 1, hn⟩) (tile1 V c 2 ⟨n + 1, hn⟩) (running1 c n (Nat.lt_of_succ_lt hn)) (tile1 V c 0 ⟨n + 1, hn⟩)

/-- The recursion's accumulator component is the running accumulator: by induction on the point. -/
theorem stateAt1_acc (c : Dev nD) : ∀ (n : ℕ) (hn : n < cfg1.N), (stateAt1 V c n hn).2 = running1 V c n hn
  | 0, hn => by
    have e := stateAt1_first V c ⟨0, hn⟩ (Nat.zero_mod 5) (by show ¬ 0 % 5 = 4; decide)
    dsimp only at e
    rw [e]; dsimp only
    rw [accFirst1_eq]
    rw [running1]
  | n + 1, hn => by
    by_cases h0 : (n + 1) % 5 = 0
    · have h4 : ¬(n + 1) % 5 = 4 := by omega
      rw [stateAt1_first V c ⟨n + 1, hn⟩ h0 h4]
      dsimp only
      rw [accFirst1_eq]
      rw [running1, if_pos h0]
    · by_cases h4 : (n + 1) % 5 = 4
      · rw [stateAt1_last V c ⟨n + 1, hn⟩ h0 h4]
        dsimp only
        rw [accLast1_eq]
        simp only [Nat.add_sub_cancel]
        rw [stateAt1_acc c n]
        rw [running1, if_neg h0]
      · rw [stateAt1_mid V c ⟨n + 1, hn⟩ h0 h4]
        dsimp only
        rw [accMid1_eq]
        simp only [Nat.add_sub_cancel]
        rw [stateAt1_acc c n]
        rw [running1, if_neg h0]

/-- At a point with k = 4 the output tile is the bias-and-maximum step of the running accumulator there. -/
theorem stateAt1_out (c : Dev nD) (t : Fin cfg1.N) (h4 : t.val % 5 = 4) :
    (stateAt1 V c t.val t.isLt).1 = k1_pay3 (running1 V c t.val t.isLt) (tile1 V c 3 t) := by
  have h0 : ¬t.val % 5 = 0 := by omega
  have e := stateAt1_acc V c t.val t.isLt
  rw [stateAt1_last V c t h0 h4] at e ⊢
  dsimp only at e ⊢
  rw [outLast1_eq]
  rw [accLast1_eq] at e
  rw [e]
end

end Cert.KernelIdeal.Hand

end
-- ==== Proof.KI.Read1.lean ====
/-
  The second graph-convolution launch over the extended reals, entry by entry. With A the 10240 × 10240 adjacency
  operand, H the 10240 × 128 row operand, W the weights and b the bias row as the launch finds them, the array it
  writes back holds at (i, q)
      max(Σ over the 5 column blocks kb and the 2048 columns jj of a block of A(i, 2048·kb + jj) · (H W)(2048·kb + jj, q) + b q, 0).
  The steps: where each point's tiles sit in their operands; the body's accumulate step and bias-and-maximum step read at
  an entry (two plain matrix products into a zero tile, the format changes being the identity on extended reals); the
  running accumulator after column block k of a row block as the sum over the blocks 0..k, by induction on k; and the
  write-backs, one per row block at k = 4, which together cover the array.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.Fold1
import proofs.«151618_j80324478369804_1_alg».proof.Proof.Spec
import proofs.«151618_j80324478369804_1_alg».proof.Proof.LibPlainDot
import Idealize.ShloMosaic.Lib.Pipeline.Value
import Idealize.ShloMosaic.Lib.ValueIdx
import Idealize.ShloMosaic.Lib.IdealHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## Where the tiles sit -/

theorem where1_0 : ∀ t : Fin cfg1.N, win1_0.index t 0 = t.val / 5 ∧ win1_0.index t 1 = t.val % 5 :=
  (by decide +kernel : ∀ t : Fin grid1.N, win1_0.index t 0 = t.val / 5 ∧ win1_0.index t 1 = t.val % 5)
theorem where1_1 : ∀ t : Fin cfg1.N, win1_1.index t 0 = t.val % 5 ∧ win1_1.index t 1 = 0 :=
  (by decide +kernel : ∀ t : Fin grid1.N, win1_1.index t 0 = t.val % 5 ∧ win1_1.index t 1 = 0)
theorem where1_2 : ∀ t : Fin cfg1.N, win1_2.index t 0 = 0 ∧ win1_2.index t 1 = 0 :=
  (by decide +kernel : ∀ t : Fin grid1.N, win1_2.index t 0 = 0 ∧ win1_2.index t 1 = 0)
theorem where1_3 : ∀ t : Fin cfg1.N, win1_3.index t 0 = 0 ∧ win1_3.index t 1 = 0 :=
  (by decide +kernel : ∀ t : Fin grid1.N, win1_3.index t 0 = 0 ∧ win1_3.index t 1 = 0)
theorem where1_4 : ∀ t : Fin cfg1.N, win1_4.index t 0 = t.val / 5 ∧ win1_4.index t 1 = 0 :=
  (by decide +kernel : ∀ t : Fin grid1.N, win1_4.index t 0 = t.val / 5 ∧ win1_4.index t 1 = 0)

section
variable (V : (c : Dev nD) → (b : Ref sig .tc) → Buf (Elt Ideal) ((c : Thread nD τ).loc b))

/-- The launch's four input operands as it finds them, as arrays of extended reals. -/
def opA1 (c : Dev nD) : (⟨2, ![10240, 10240]⟩ : Shape).Idx → EReal := V c (Pipeline.arrRef spec1 0)
def opH1 (c : Dev nD) : (⟨2, ![10240, 128]⟩ : Shape).Idx → EReal := V c (Pipeline.arrRef spec1 1)
def opW1 (c : Dev nD) : (⟨2, ![128, 128]⟩ : Shape).Idx → EReal := V c (Pipeline.arrRef spec1 2)
def opB1 (c : Dev nD) : (⟨2, ![1, 128]⟩ : Shape).Idx → EReal := V c (Pipeline.arrRef spec1 3)

/-- Point t's four input tiles, typed as the body reads them. -/
abbrev tileA1 (c : Dev nD) (t : Fin cfg1.N) : Vec Ideal S2048x2048 .bf16 := tile1 V c 0 t
abbrev tileH1 (c : Dev nD) (t : Fin cfg1.N) : Vec Ideal S2048x128 .f32 := tile1 V c 1 t
abbrev tileW1 (c : Dev nD) (t : Fin cfg1.N) : Vec Ideal S128x128 .f32 := tile1 V c 2 t
abbrev tileB1 (c : Dev nD) (t : Fin cfg1.N) : Vec Ideal S1x128 .f32 := tile1 V c 3 t

theorem tile1_A (c : Dev nD) (t : Fin cfg1.N) (p jj : Fin 2048) (hr : 2048 * (t.val / 5) + p.val < 10240) (hc : 2048 * (t.val % 5) + jj.val < 10240) :
    tileA1 V c t (ix2 p jj) = opA1 V c (ix2 ⟨2048 * (t.val / 5) + p.val, hr⟩ ⟨2048 * (t.val % 5) + jj.val, hc⟩) := by
  unfold tileA1 tile1 opA1
  rw [View.read_apply]
  refine congrArg (V c (Pipeline.arrRef spec1 0)) (funext fun a => Fin.ext ?_)
  match a with
  | ⟨0, _⟩ => show win1_0.index t 0 * 2048 + 1 * p.val = 2048 * (t.val / 5) + p.val; rw [(where1_0 t).1]; omega
  | ⟨1, _⟩ => show win1_0.index t 1 * 2048 + 1 * jj.val = 2048 * (t.val % 5) + jj.val; rw [(where1_0 t).2]; omega

theorem tile1_H (c : Dev nD) (t : Fin cfg1.N) (jj : Fin 2048) (kk : Fin 128) (hr : 2048 * (t.val % 5) + jj.val < 10240) :
    tileH1 V c t (ix2 jj kk) = opH1 V c (ix2 ⟨2048 * (t.val % 5) + jj.val, hr⟩ kk) := by
  unfold tileH1 tile1 opH1
  rw [View.read_apply]
  refine congrArg (V c (Pipeline.arrRef spec1 1)) (funext fun a => Fin.ext ?_)
  match a with
  | ⟨0, _⟩ => show win1_1.index t 0 * 2048 + 1 * jj.val = 2048 * (t.val % 5) + jj.val; rw [(where1_1 t).1]; omega
  | ⟨1, _⟩ => show win1_1.index t 1 * 128 + 1 * kk.val = kk.val; rw [(where1_1 t).2]; omega

theorem tile1_W (c : Dev nD) (t : Fin cfg1.N) (kk q : Fin 128) :
    tileW1 V c t (ix2 kk q) = opW1 V c (ix2 kk q) := by
  unfold tileW1 tile1 opW1
  rw [View.read_apply]
  refine congrArg (V c (Pipeline.arrRef spec1 2)) (funext fun a => Fin.ext ?_)
  match a with
  | ⟨0, _⟩ => show win1_2.index t 0 * 128 + 1 * kk.val = kk.val; rw [(where1_2 t).1]; omega
  | ⟨1, _⟩ => show win1_2.index t 1 * 128 + 1 * q.val = q.val; rw [(where1_2 t).2]; omega

theorem tile1_B (c : Dev nD) (t : Fin cfg1.N) (q : Fin 128) :
    tileB1 V c t (ix2 0 q) = opB1 V c (ix2 0 q) := by
  unfold tileB1 tile1 opB1
  rw [View.read_apply]
  refine congrArg (V c (Pipeline.arrRef spec1 3)) (funext fun a => Fin.ext ?_)
  match a with
  | ⟨0, _⟩ => show win1_3.index t 0 * 1 + 1 * 0 = 0; rw [(where1_3 t).1]
  | ⟨1, _⟩ => show win1_3.index t 1 * 128 + 1 * q.val = q.val; rw [(where1_3 t).2]; omega
end

/-! ## The body's steps at an entry -/

theorem clear1_apply (i : S2048x128.Idx) : k1_pay1 (F := Ideal) i = 0 := by
  unfold k1_pay1
  simp only [shapeCast_self]
  exact Ideal.ofBits_zero_f32

theorem step1_apply (x1 : Vec Ideal S2048x128 .f32) (x2 : Vec Ideal S128x128 .f32) (xs : Vec Ideal S2048x128 .f32)
    (x0 : Vec Ideal S2048x2048 .bf16) (p : Fin 2048) (q : Fin 128) :
    k1_pay2 (F := Ideal) x1 x2 xs x0 (ix2 p q)
      = xs (ix2 p q) + ∑ jj : Fin 2048, x0 (ix2 p jj) * ∑ kk : Fin 128, x1 (ix2 jj kk) * x2 (ix2 kk q) := by
  unfold k1_pay2
  simp only [shapeCast_self]
  refine (addf_apply _ _ _).trans (congrArg (xs (ix2 p q) + ·) ?_)
  refine (Cert.LibPlainDot.matmul_plain_zero_apply _ rfl none _ _ p q).trans ?_
  refine Finset.sum_congr rfl fun jj _ => congrArg (x0 (ix2 p jj) * ·) ?_
  exact Cert.LibPlainDot.matmul_plain_zero_apply _ rfl none _ _ jj q

theorem relu1_apply (acc : Vec Ideal S2048x128 .f32) (b : Vec Ideal S1x128 .f32) (p : Fin 2048) (q : Fin 128) :
    k1_pay3 (F := Ideal) acc b (ix2 p q) = max (acc (ix2 p q) + b (ix2 0 q)) 0 := by
  unfold k1_pay3
  simp only [shapeCast_self]
  refine (maximumf_apply _ _ _).trans (congrArg₂ max ?_ Ideal.ofBits_zero_f32)
  refine (addf_apply _ _ _).trans (congrArg (acc (ix2 p q) + ·) ?_)
  exact broadcastTo_apply b _ (ix2 p q) (ix2 0 q) (fun a => by match a with | ⟨0, _⟩ => rfl | ⟨1, _⟩ => rfl)

/-! ## The running accumulator is a sum over column blocks -/

section
variable (V : (c : Dev nD) → (b : Ref sig .tc) → Buf (Elt Ideal) ((c : Thread nD τ).loc b))

theorem running1_at (c : Dev nD) {n n' : ℕ} (h : n = n') (hn : n < cfg1.N) (hn' : n' < cfg1.N) :
    running1 V c n hn = running1 V c n' hn' := by subst h; rfl

theorem running1_first (c : Dev nD) (t : Fin cfg1.N) (h0 : t.val % 5 = 0) :
    running1 V c t.val t.isLt = k1_pay2 (tile1 V c 1 t) (tile1 V c 2 t) (k1_pay1 (F := Ideal)) (tile1 V c 0 t) := by
  obtain ⟨n, hn⟩ := t
  cases n with
  | zero => rw [running1]
  | succ n => rw [running1, if_pos h0]

theorem running1_next (c : Dev nD) (t : Fin cfg1.N) (h0 : ¬t.val % 5 = 0) :
    running1 V c t.val t.isLt = k1_pay2 (tile1 V c 1 t) (tile1 V c 2 t)
      (running1 V c (t.val - 1) (Nat.lt_of_le_of_lt (Nat.sub_le _ _) t.isLt)) (tile1 V c 0 t) := by
  obtain ⟨n, hn⟩ := t
  cases n with
  | zero => exact absurd (Nat.zero_mod 5) h0
  | succ n => rw [running1, if_neg h0]; rfl

/-- What column block kb adds to entry (p, q) of row block mb: the adjacency's block against the projected rows. -/
def blockTerm1 (c : Dev nD) (mb kb : ℕ) (p : Fin 2048) (q : Fin 128) : EReal :=
  if h : mb < 5 ∧ kb < 5 then
    ∑ jj : Fin 2048, Spec.mat (opA1 V c) ⟨2048 * mb + p.val, by have := p.isLt; have := h.1; omega⟩ ⟨2048 * kb + jj.val, by have := jj.isLt; have := h.2; omega⟩
      * Spec.proj (Spec.mat (opH1 V c)) (Spec.mat (opW1 V c)) ⟨2048 * kb + jj.val, by have := jj.isLt; have := h.2; omega⟩ q
  else 0

/-- The tile product the body adds at point t is the term of t's row block and column block. -/
theorem tileProduct1 (c : Dev nD) (t : Fin cfg1.N) (p : Fin 2048) (q : Fin 128) :
    (∑ jj : Fin 2048, tileA1 V c t (ix2 p jj) * ∑ kk : Fin 128, tileH1 V c t (ix2 jj kk) * tileW1 V c t (ix2 kk q))
      = blockTerm1 V c (t.val / 5) (t.val % 5) p q := by
  have hN : t.val < 25 := lt_of_lt_of_eq t.isLt N_1
  unfold blockTerm1
  rw [dif_pos ⟨by omega, by omega⟩]
  refine Finset.sum_congr rfl fun jj _ => ?_
  rw [tile1_A V c t p jj (by have := p.isLt; omega) (by have := jj.isLt; omega)]
  refine congrArg₂ (· * ·) rfl ?_
  unfold Spec.proj
  refine Finset.sum_congr rfl fun kk _ => ?_
  rw [tile1_H V c t jj kk (by have := jj.isLt; omega), tile1_W V c t kk q]
  rfl

/-- After column block kb of row block mb the accumulator holds the terms of the blocks 0..kb. -/
theorem running1_sum (c : Dev nD) (mb : ℕ) (hm : mb < 5) (p : Fin 2048) (q : Fin 128) :
    ∀ (kb : ℕ) (hk : kb < 5), running1 V c (5 * mb + kb) (by have hN25 : cfg1.N = 25 := N_1; omega) (ix2 p q)
      = ∑ k' ∈ Finset.range (kb + 1), blockTerm1 V c mb k' p q
  | 0, hk => by
    have hlt : 5 * mb + 0 < cfg1.N := by have hN25 : cfg1.N = 25 := N_1; omega
    have e : running1 V c (5 * mb + 0) hlt = _ := running1_first V c ⟨5 * mb + 0, hlt⟩ (by show (5 * mb + 0) % 5 = 0; omega)
    rw [e, step1_apply, clear1_apply, zero_add, tileProduct1]
    have h1 : (⟨5 * mb + 0, hlt⟩ : Fin cfg1.N).val / 5 = mb := by show (5 * mb + 0) / 5 = mb; omega
    have h2 : (⟨5 * mb + 0, hlt⟩ : Fin cfg1.N).val % 5 = 0 := by show (5 * mb + 0) % 5 = 0; omega
    rw [h1, h2]
    exact (Finset.sum_range_one (fun k' => blockTerm1 V c mb k' p q)).symm
  | kb + 1, hk => by
    have hlt : 5 * mb + (kb + 1) < cfg1.N := by have hN25 : cfg1.N = 25 := N_1; omega
    have e : running1 V c (5 * mb + (kb + 1)) hlt = _ := running1_next V c ⟨5 * mb + (kb + 1), hlt⟩ (by show ¬(5 * mb + (kb + 1)) % 5 = 0; omega)
    rw [e, step1_apply, tileProduct1, Finset.sum_range_succ]
    have h1 : (⟨5 * mb + (kb + 1), hlt⟩ : Fin cfg1.N).val / 5 = mb := by show (5 * mb + (kb + 1)) / 5 = mb; omega
    have h2 : (⟨5 * mb + (kb + 1), hlt⟩ : Fin cfg1.N).val % 5 = kb + 1 := by show (5 * mb + (kb + 1)) % 5 = kb + 1; omega
    rw [h1, h2]
    refine congrArg₂ (· + ·) ?_ rfl
    rw [running1_at V c (show (⟨5 * mb + (kb + 1), hlt⟩ : Fin cfg1.N).val - 1 = 5 * mb + kb from by show 5 * mb + (kb + 1) - 1 = 5 * mb + kb; omega) _ (by have hN25 : cfg1.N = 25 := N_1; omega)]
    exact running1_sum c mb hm p q kb (by omega)

/-! ## The array the launch writes back -/

/-- One layer of the padded rows: the specification's layer of the four operands. -/
def layerOut1 (c : Dev nD) : (⟨2, ![10240, 128]⟩ : Shape).Idx → EReal := fun i =>
  Spec.layer (Spec.mat (opA1 V c)) (Spec.mat (opH1 V c)) (Spec.mat (opW1 V c)) (fun q => opB1 V c (ix2 0 q)) (i 0) (i 1)

/-- At the last column block of a row block the output tile holds that row block's rows of the layer. -/
theorem out1_entry (c : Dev nD) (t : Fin cfg1.N) (h4 : t.val % 5 = 4) (p : Fin 2048) (q : Fin 128)
    (hr : 2048 * (t.val / 5) + p.val < 10240) :
    (stateAt1 V c t.val t.isLt).1 (ix2 p q) = layerOut1 V c (ix2 ⟨2048 * (t.val / 5) + p.val, hr⟩ q) := by
  have hN : t.val < 25 := lt_of_lt_of_eq t.isLt N_1
  rw [stateAt1_out V c t h4, relu1_apply, show (tile1 V c 3 t) (ix2 0 q) = tileB1 V c t (ix2 0 q) from rfl, tile1_B]
  unfold layerOut1 Spec.layer
  refine congrArg₂ max (congrArg₂ (· + ·) ?_ rfl) rfl
  rw [running1_at V c (show t.val = 5 * (t.val / 5) + 4 by omega) t.isLt (by have hN25 : cfg1.N = 25 := N_1; omega),
    running1_sum V c (t.val / 5) (by omega) p q 4 (by omega), Finset.sum_range]
  refine Finset.sum_congr rfl fun kb _ => ?_
  unfold blockTerm1
  rw [dif_pos ⟨by omega, kb.isLt⟩]

/-- What the write-back at point t writes is tile t of the layer's array. -/
theorem flushed1 (c : Dev nD) (t : Fin cfg1.N) (hf : (cfg1.win 4).flush t = true) :
    (dat1 V c).flushed 4 t = ((cfg1.win 4).blk t).view.read (Elt Ideal) (layerOut1 V c) := by
  have h4 : t.val % 5 = 4 := (flush1_4 t).mp hf
  have hN : t.val < 25 := lt_of_lt_of_eq t.isLt N_1
  show (cfg1.win 4).cut (grid1.coords t) ((dat1 V c).after 4 t) = _
  rw [dat1_after4]
  funext j
  obtain ⟨p, q, rfl⟩ : ∃ (p : Fin 2048) (q : Fin 128), j = ix2 p q := ⟨j 0, j 1, eq_ix2 j⟩
  rw [View.read_apply]
  show (stateAt1 V c t.val t.isLt).1 (ix2 p q) = layerOut1 V c (((cfg1.win 4).blk t).view.emb (ix2 p q))
  rw [out1_entry V c t h4 p q (by have := p.isLt; omega)]
  refine congrArg (layerOut1 V c) (funext fun a => Fin.ext ?_)
  match a with
  | ⟨0, _⟩ => show 2048 * (t.val / 5) + p.val = win1_4.index t 0 * 2048 + 1 * p.val; rw [(where1_4 t).1]; omega
  | ⟨1, _⟩ => show q.val = win1_4.index t 1 * 128 + 1 * q.val; rw [(where1_4 t).2]; omega

/-- An index of the array lies in point t's tile exactly when each coordinate lies in the tile's range. -/
theorem mem_tile1 (t : Fin cfg1.N) (i : S10240x128.Idx) :
    i ∈ ((cfg1.win 4).blk t).view.set ↔ ∀ a : Fin 2, win1_4.index t a * S2048x128.size a ≤ (i a).val ∧ (i a).val < win1_4.index t a * S2048x128.size a + S2048x128.size a := by
  show Iff (i ∈ ((View.whole main_v64).slice (win1_4.rect t)).set) _
  rw [View.set_slice_whole, Rect.mem_set_unit]
  exact Iff.rfl

/-- The five write-backs cover the array, so it ends as the layer's array. -/
theorem final1 (c : Dev nD) : (dat1 V c).arrAt 4 cfg1.N = layerOut1 V c :=
  (dat1 V c).arrAt_eq_of_cover 4 (layerOut1 V c) (fun t hf => flushed1 V c t hf) fun i => by
    have hi0 : (i 0).val < 10240 := (i 0).isLt
    have hi1 : (i 1).val < 128 := (i 1).isLt
    have hlt : 5 * ((i 0).val / 2048) + 4 < cfg1.N := by have hN25 : cfg1.N = 25 := N_1; omega
    refine ⟨⟨5 * ((i 0).val / 2048) + 4, hlt⟩, (flush1_4 _).mpr (by show (5 * ((i 0).val / 2048) + 4) % 5 = 4; omega), ?_⟩
    rw [mem_tile1]
    intro a
    have w := where1_4 ⟨5 * ((i 0).val / 2048) + 4, hlt⟩
    match a with
    | ⟨0, _⟩ =>
      show win1_4.index ⟨5 * ((i 0).val / 2048) + 4, hlt⟩ 0 * 2048 ≤ (i 0).val ∧ (i 0).val < win1_4.index ⟨5 * ((i 0).val / 2048) + 4, hlt⟩ 0 * 2048 + 2048
      rw [w.1]; show (5 * ((i 0).val / 2048) + 4) / 5 * 2048 ≤ (i 0).val ∧ (i 0).val < (5 * ((i 0).val / 2048) + 4) / 5 * 2048 + 2048; omega
    | ⟨1, _⟩ =>
      show win1_4.index ⟨5 * ((i 0).val / 2048) + 4, hlt⟩ 1 * 128 ≤ (i 1).val ∧ (i 1).val < win1_4.index ⟨5 * ((i 0).val / 2048) + 4, hlt⟩ 1 * 128 + 128
      rw [w.2]; omega
end

end Cert.KernelIdeal.Hand

end
-- ==== Proof.KI.Value.lean ====
/-
  The kernel program's result over the extended reals. Following the buffers through the run: the first launch finds
  the padded adjacency, the zero-padded features, the first weights and bias, and leaves one layer of them; the second
  launch finds the same adjacency, that layer, the second weights and bias, and leaves the second layer; the closing host
  operations pool the first 10000 rows per graph and apply the last linear layer. So the result is the specification's
  poolLinear of kerRows of the arguments. What the leading and closing host operations compute enters as hypotheses
  (they are read elsewhere); here only the launches and the bookkeeping of which buffer is which.
-/
import proofs.«151618_j80324478369804_1_alg».proof.Proof.Gen.KernelIdeal.Launch
import proofs.«151618_j80324478369804_1_alg».proof.Proof.Gen.KernelIdeal.Skeleton
import proofs.«151618_j80324478369804_1_alg».proof.Proof.Gen.KernelIdeal.Points
import proofs.«151618_j80324478369804_1_alg».proof.Proof.KI.Run
import proofs.«151618_j80324478369804_1_alg».proof.Proof.KI.Read0
import proofs.«151618_j80324478369804_1_alg».proof.Proof.KI.Read1
import proofs.«151618_j80324478369804_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ) (ρ : Dev nD → PrngReg)

/-! ## The arguments through the run -/

theorem atEntry0_arg (c : Dev nD) (b : DevRef τ sig) (hb : b ∈ ([Proc.devRef .tc main_arg0, Proc.devRef .tc main_arg1, Proc.devRef .tc main_arg2, Proc.devRef .tc main_arg3, Proc.devRef .tc main_arg4, Proc.devRef .tc main_arg5, Proc.devRef .tc main_arg6, Proc.devRef .tc main_arg7, Proc.devRef .tc main_arg8] : List (DevRef τ sig))) :
    atEntry0 m ρ c b = atLaunch m ρ c b :=
  StableHlo.after_of_forall_not_mem (b := b) _ _ (prefix_keeps_args b hb)

theorem atExit1_arg2 (c : Dev nD) : atExit1 m ρ c (Proc.devRef .tc main_arg2) = m ((c : Thread nD τ).loc main_arg2) :=
  (atExit1_of_ne m ρ c main_arg2 (by decide)).trans ((atExit0_of_ne m ρ c main_arg2 (by decide)).trans (atEntry0_arg m ρ c _ (by decide)))
theorem atExit1_arg7 (c : Dev nD) : atExit1 m ρ c (Proc.devRef .tc main_arg7) = m ((c : Thread nD τ).loc main_arg7) :=
  (atExit1_of_ne m ρ c main_arg7 (by decide)).trans ((atExit0_of_ne m ρ c main_arg7 (by decide)).trans (atEntry0_arg m ρ c _ (by decide)))
theorem atExit1_arg8 (c : Dev nD) : atExit1 m ρ c (Proc.devRef .tc main_arg8) = m ((c : Thread nD τ).loc main_arg8) :=
  (atExit1_of_ne m ρ c main_arg8 (by decide)).trans ((atExit0_of_ne m ρ c main_arg8 (by decide)).trans (atEntry0_arg m ρ c _ (by decide)))

section
variable (c : Dev nD)
/-- The arguments as arrays. -/
abbrev argX : (⟨2, ![10000, 128]⟩ : Shape).Idx → EReal := m ((c : Thread nD τ).loc main_arg0)
abbrev argE : (⟨2, ![2, 640000]⟩ : Shape).Idx → BitVec 32 := m ((c : Thread nD τ).loc main_arg1)
abbrev argG : (⟨1, ![10000]⟩ : Shape).Idx → BitVec 32 := m ((c : Thread nD τ).loc main_arg2)
abbrev argW1 : (⟨2, ![128, 128]⟩ : Shape).Idx → EReal := m ((c : Thread nD τ).loc main_arg3)
abbrev argB1 : (⟨1, ![128]⟩ : Shape).Idx → EReal := m ((c : Thread nD τ).loc main_arg4)
abbrev argW2 : (⟨2, ![128, 128]⟩ : Shape).Idx → EReal := m ((c : Thread nD τ).loc main_arg5)
abbrev argB2 : (⟨1, ![128]⟩ : Shape).Idx → EReal := m ((c : Thread nD τ).loc main_arg6)
abbrev argWl : (⟨2, ![128, 10]⟩ : Shape).Idx → EReal := m ((c : Thread nD τ).loc main_arg7)
abbrev argBl : (⟨1, ![10]⟩ : Shape).Idx → EReal := m ((c : Thread nD τ).loc main_arg8)

/-! ## What the host operations compute (read elsewhere) -/

variable
  (hAdj : (atEntry0 m ρ c (Proc.devRef .tc main_v57) : (⟨2, ![10240, 10240]⟩ : Shape).Idx → EReal)
      = fun i => Spec.adj (Spec.srcs (argE m c)) (Spec.dsts (argE m c)) (i 0) (i 1))
  (hPad : (atEntry0 m ρ c (Proc.devRef .tc main_v60) : (⟨2, ![10240, 128]⟩ : Shape).Idx → EReal)
      = fun i => Cert.Spec.pad (Spec.mat (argX m c)) (i 0) (i 1))
  (hB1 : (atEntry0 m ρ c (Proc.devRef .tc main_v61) : (⟨2, ![1, 128]⟩ : Shape).Idx → EReal) = fun i => Spec.vec (argB1 m c) (i 1))
  (hB2 : (atEntry0 m ρ c (Proc.devRef .tc main_v62) : (⟨2, ![1, 128]⟩ : Shape).Idx → EReal) = fun i => Spec.vec (argB2 m c) (i 1))

/-! ## The first launch -/

include hAdj in
theorem opA0_eq : Spec.mat (opA0 (entry0 m ρ) c) = Spec.adj (Spec.srcs (argE m c)) (Spec.dsts (argE m c)) := by
  funext i j
  show (atEntry0 m ρ c (Proc.devRef .tc main_v57) : (⟨2, ![10240, 10240]⟩ : Shape).Idx → EReal) (ix2 i j) = _
  rw [hAdj]; rfl
include hPad in
theorem opH0_eq : Spec.mat (opH0 (entry0 m ρ) c) = Cert.Spec.pad (Spec.mat (argX m c)) := by
  funext i j
  show (atEntry0 m ρ c (Proc.devRef .tc main_v60) : (⟨2, ![10240, 128]⟩ : Shape).Idx → EReal) (ix2 i j) = _
  rw [hPad]; rfl
theorem opW0_eq : Spec.mat (opW0 (entry0 m ρ) c) = Spec.mat (argW1 m c) := by
  funext i j
  show (atEntry0 m ρ c (Proc.devRef .tc main_arg3) : (⟨2, ![128, 128]⟩ : Shape).Idx → EReal) (ix2 i j) = _
  rw [atEntry0_arg m ρ c _ (by decide)]; rfl
include hB1 in
theorem opB0_eq : (fun q => opB0 (entry0 m ρ) c (ix2 0 q)) = Spec.vec (argB1 m c) := by
  funext q
  show (atEntry0 m ρ c (Proc.devRef .tc main_v61) : (⟨2, ![1, 128]⟩ : Shape).Idx → EReal) (ix2 0 q) = _
  rw [hB1]; rfl

include hAdj hPad hB1 in
/-- The array the first launch leaves: one layer of the padded features. -/
theorem first_layer : Spec.mat (layerOut0 (entry0 m ρ) c)
    = Spec.layer (Spec.adj (Spec.srcs (argE m c)) (Spec.dsts (argE m c))) (Cert.Spec.pad (Spec.mat (argX m c))) (Spec.mat (argW1 m c)) (Spec.vec (argB1 m c)) := by
  funext i q
  show Spec.layer (Spec.mat (opA0 (entry0 m ρ) c)) (Spec.mat (opH0 (entry0 m ρ) c)) (Spec.mat (opW0 (entry0 m ρ) c)) (fun q => opB0 (entry0 m ρ) c (ix2 0 q)) i q = _
  rw [opA0_eq m ρ c hAdj, opH0_eq m ρ c hPad, opW0_eq m ρ c, opB0_eq m ρ c hB1]

/-! ## The second launch -/

include hAdj in
theorem opA1_eq : Spec.mat (opA1 (entry1 m ρ) c) = Spec.adj (Spec.srcs (argE m c)) (Spec.dsts (argE m c)) := by
  have e : (atExit0 m ρ c (Proc.devRef .tc main_v57)) = atEntry0 m ρ c (Proc.devRef .tc main_v57) :=
    (atExit0_arr m ρ c 0).trans (((dat0 (entry0 m ρ) c).arrAt_in 0 rfl _).trans (dat0_A (entry0 m ρ) c 0))
  funext i j
  show (atExit0 m ρ c (Proc.devRef .tc main_v57) : (⟨2, ![10240, 10240]⟩ : Shape).Idx → EReal) (ix2 i j) = _
  rw [e, hAdj]; rfl
theorem opH1_eq : opH1 (entry1 m ρ) c = layerOut0 (entry0 m ρ) c :=
  (atExit0_arr m ρ c 4).trans (final0 (entry0 m ρ) c)
theorem opW1_eq : Spec.mat (opW1 (entry1 m ρ) c) = Spec.mat (argW2 m c) := by
  funext i j
  show (atExit0 m ρ c (Proc.devRef .tc main_arg5) : (⟨2, ![128, 128]⟩ : Shape).Idx → EReal) (ix2 i j) = _
  rw [atExit0_of_ne m ρ c main_arg5 (by decide), atEntry0_arg m ρ c _ (by decide)]; rfl
include hB2 in
theorem opB1_eq : (fun q => opB1 (entry1 m ρ) c (ix2 0 q)) = Spec.vec (argB2 m c) := by
  funext q
  show (atExit0 m ρ c (Proc.devRef .tc main_v62) : (⟨2, ![1, 128]⟩ : Shape).Idx → EReal) (ix2 0 q) = _
  rw [atExit0_of_ne m ρ c main_v62 (by decide), hB2]; rfl

include hAdj hPad hB1 hB2 in
/-- The array the second launch leaves: the kernel's rows. -/
theorem second_layer : (atExit1 m ρ c (Proc.devRef .tc main_v64) : (⟨2, ![10240, 128]⟩ : Shape).Idx → EReal)
    = fun i => Spec.kerRows (Spec.srcs (argE m c)) (Spec.dsts (argE m c)) (Spec.mat (argX m c)) (Spec.mat (argW1 m c)) (Spec.vec (argB1 m c)) (Spec.mat (argW2 m c)) (Spec.vec (argB2 m c)) (i 0) (i 1) := by
  have e : (atExit1 m ρ c (Proc.devRef .tc main_v64) : (⟨2, ![10240, 128]⟩ : Shape).Idx → EReal) = layerOut1 (entry1 m ρ) c :=
    (atExit1_arr m ρ c 4).trans (final1 (entry1 m ρ) c)
  rw [e]
  funext i
  show Spec.layer (Spec.mat (opA1 (entry1 m ρ) c)) (Spec.mat (opH1 (entry1 m ρ) c)) (Spec.mat (opW1 (entry1 m ρ) c)) (fun q => opB1 (entry1 m ρ) c (ix2 0 q)) (i 0) (i 1) = _
  rw [opA1_eq m ρ c hAdj, opH1_eq m ρ c, first_layer m ρ c hAdj hPad hB1, opW1_eq m ρ c, opB1_eq m ρ c hB2]
  rfl
end

end Cert.KernelIdeal.Hand

end
-- ==== Proof.LibGatherScatterRows.lean ====
/-
  Host operations READ AT AN INDEX, for the dimension numbers an indexing by an `E × 1` column of positions lowers to:
  a scatter-add of whole rows into a matrix (the sum, over the update rows sent to a row, of their entries), a gather of
  whole rows of a matrix, a gather of entries of a vector, and a scatter-add of entries into a vector. A gather clamps
  the position into the operand; a scatter drops an update whose position is outside it. First, for ANY scatter
  dimension numbers: an update lands at an operand index exactly when start plus window coordinate is that index on
  every axis.
-/
import Idealize.ShloMosaic.PureOps.Ideal
import Idealize.ShloMosaic.PureOps.Contract
import Idealize.ShloMosaic.Lib.ValueIdx

noncomputable section

open scoped BigOperators

namespace Cert.LibGatherScatterRows

open Idealize.ShloMosaic Idealize.ShloMosaic.ValueIdx

/-! ## Where an update lands, for any scatter dimension numbers -/

/-- An update index `j` lands at the operand index `i` exactly when, on every operand axis, the window's start plus
    the window coordinate is `i`'s coordinate (the sum is then inside the operand, so the update is not dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have hi := Option.some.inj h
      intro a
      have hv := congrArg Fin.val (congrFun hi a)
      simp only at hv
      have := (hc a).1
      omega
    · exact absurd h (by simp)
  · intro h
    have hc : ∀ a, 0 ≤ d.start j idx a + d.window j a ∧ d.start j idx a + d.window j a < s.size a := by
      intro a
      have := h a
      have := (i a).isLt
      omega
    rw [dif_pos hc]
    congr 1
    funext a
    refine Fin.ext ?_
    have := h a
    simp only
    omega

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

/-- In rank 2, axis 1 is not in the list `[0]`. -/
theorem one_not_mem_zero {s : Shape} (hs : s.rank = 2) : (⟨1, by omega⟩ : Fin s.rank) ∉ [(⟨0, by omega⟩ : Fin s.rank)] :=
  fun h => absurd (congrArg Fin.val (List.mem_singleton.mp h)) Nat.one_ne_zero

/-! ## A scatter-add of rows -/

/-- The dimension numbers of a scatter of `E` rows of width `D` into an `N × D` matrix at the row numbers held in an
    `E × 1` column: the updates' axis 1 is the window, the operand's axis 0 is inserted and is the one the index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : Nat} (wf : ScatterDims.WF ⟨2, ![N, D]⟩ ⟨2, ![E, 1]⟩ ⟨2, ![E, D]⟩ [1] [0] [0] 1)

/-- On the operand's row axis the window of update `(e, q')` starts at the row number `idx[e, 0]`, read signed. -/
theorem rowScatter_start_row (idx : IVec ⟨2, ![E, 1]⟩ w) (e : Fin E) (q' : Fin D) :
    (rowScatterDims N D E wf).start (ix2 e q') idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e q')
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis, which the index does not name, the window starts at `0`. -/
theorem rowScatter_start_col (idx : IVec ⟨2, ![E, 1]⟩ w) (e : Fin E) (q' : Fin D) :
    (rowScatterDims N D E wf).start (ix2 e q') idx 1 = 0 := by
  unfold ScatterDims.start
  rw [dif_neg (show (1 : Fin 2) ∉ (rowScatterDims N D E wf).scatterDimsToOperandDims from one_not_mem_zero rfl)]

/-- The row axis is inserted: the window coordinate on it is `0`. -/
theorem rowScatter_window_row (e : Fin E) (q' : Fin D) : (rowScatterDims N D E wf).window (ix2 e q') 0 = 0 := by
  unfold ScatterDims.window
  rw [dif_neg (show (0 : Fin 2) ∉ (rowScatterDims N D E wf).sKept from fun h => (mem_kept _ _).mp h (List.mem_singleton.mpr rfl))]

/-- The column axis carries the window: the window coordinate on it is the update's column `q'`. -/
theorem rowScatter_window_col (e : Fin E) (q' : Fin D) : (rowScatterDims N D E wf).window (ix2 e q') 1 = q'.val := by
  unfold ScatterDims.window
  rw [dif_pos (show (1 : Fin 2) ∈ (rowScatterDims N D E wf).sKept from (mem_kept _ _).mpr (one_not_mem_zero rfl))]
  rfl

/-- WHERE A ROW UPDATE LANDS: update `(e, q')` lands at operand element `(r, q)` exactly when the row number
    `idx[e, 0]`, read signed, is `r` and the columns agree (a row number outside `[0, N)` lands nowhere). -/
theorem rowScatter_resultIdx?_eq_some_iff (idx : IVec ⟨2, ![E, 1]⟩ w) (e : Fin E) (q' : Fin D) (r : Fin N) (q : Fin D) :
    (rowScatterDims N D E wf).resultIdx? (ix2 e q') idx = some (ix2 r q)
      ↔ ((idx (ix2 e 0)).toInt = (r.val : ℤ) ∧ q' = q) := by
  rw [resultIdx?_eq_some_iff]
  constructor
  · intro h
    have h0 := h 0
    have h1 := h 1
    rw [rowScatter_start_row, rowScatter_window_row] at h0
    rw [rowScatter_start_col, rowScatter_window_col] at h1
    simp only [Nat.cast_zero, add_zero] at h0
    simp only [zero_add, Nat.cast_inj] at h1
    exact ⟨h0, Fin.ext h1⟩
  · rintro ⟨h0, rfl⟩ a
    match a with
    | ⟨0, _⟩ =>
      show (rowScatterDims N D E wf).start (ix2 e q') idx 0 + ((rowScatterDims N D E wf).window (ix2 e q') 0 : ℤ) = _
      rw [rowScatter_start_row, rowScatter_window_row, h0]; simp
    | ⟨1, _⟩ =>
      show (rowScatterDims N D E wf).start (ix2 e q') idx 1 + ((rowScatterDims N D E wf).window (ix2 e q') 1 : ℤ) = _
      rw [rowScatter_start_col, rowScatter_window_col]; simp

end RowScatter

/-- A SCATTER-ADD OF ROWS READ AT `(r, q)`, at the ideal values: the operand's element plus the sum, over the update
    rows `e` whose row number `idx[e, 0]` (read signed) is `r`, of the update's entry in column `q`. A row number
    outside `[0, N)` equals no `r`: its row is dropped. (`d` is any record equal to the literal one, e.g. a program's
    own definition: `hd` is then `rfl`.) -/
theorem scatterAdd_rows_apply {N D E w : Nat} {φ : FTy}
    (d : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1)
    (hd : d = rowScatterDims N D E wf)
    (x : FVec Ideal ⟨2, ![N, D]⟩ φ) (idx : IVec ⟨2, ![E, 1]⟩ w) (upd : FVec Ideal ⟨2, ![E, D]⟩ φ)
    (r : Fin N) (q : Fin D) :
    Host.scatterAdd (F := Ideal) d x idx upd (ix2 r q)
      = x (ix2 r q) + ∑ e : Fin E, if (idx (ix2 e 0)).toInt = (r.val : ℤ) then upd (ix2 e q) else 0 := by
  subst hd
  show Ideal.hostScatterAdd (rowScatterDims N D E wf) x idx upd (ix2 r q) = _
  unfold Ideal.hostScatterAdd
  congr 1
  rw [Finset.sum_filter, sum_idx2]
  refine Finset.sum_congr rfl fun e _ => ?_
  simp only [rowScatter_resultIdx?_eq_some_iff]
  by_cases he : (idx (ix2 e 0)).toInt = (r.val : ℤ)
  · simp only [he, true_and, if_true]
    rw [Finset.sum_ite_eq' Finset.univ q (fun q' => upd (ix2 e q'))]
    simp only [Finset.mem_univ, if_true]
  · simp only [he, false_and, if_false, Finset.sum_const_zero]

/-! ## A gather of rows -/

section RowGather
variable {α : Type}

/-- The dimension numbers of a gather of `E` whole rows of an `N × D` matrix at the row numbers held in an `E × 1`
    column: the operand's axis 0 is collapsed and is the one the index names, the slice is one row, and the result's
    axis 1 runs along it. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A GATHER OF ROWS READ AT `(e, q)`: the operand's entry in column `q` of the row whose number is `idx[e, 0]`, read
    signed and clamped into `[0, N − 1]`. (`d` is any record equal to the literal one: `hd` is then `rfl`.) -/
theorem gather_rows_apply {N D E w : Nat} (hN : 0 < N)
    (d : GatherDims ⟨2, ![N, D]⟩ ⟨2, ![E, 1]⟩ ⟨2, ![E, D]⟩)
    (wf : GatherDims.WF ⟨2, ![N, D]⟩ ⟨2, ![E, 1]⟩ ⟨2, ![E, D]⟩ [1] [0] [] [0] [] 1 ![1, D])
    (hd : d = rowGatherDims N D E wf)
    (x : (⟨2, ![N, D]⟩ : Shape).Idx → α) (idx : IVec ⟨2, ![E, 1]⟩ w) (e : Fin E) (q : Fin D) :
    Host.gather d x idx (ix2 e q) = x (ix2 ⟨min (idx (ix2 e 0)).toInt.toNat (N - 1), by omega⟩ q) := by
  subst hd
  unfold Host.gather
  congr 1
  funext a
  refine Fin.ext ?_
  match a with
  | ⟨0, _⟩ =>
    show (rowGatherDims N D E wf).start (ix2 e q) idx 0 + (rowGatherDims N D E wf).batchCoord (ix2 e q) 0
      + (rowGatherDims N D E wf).offCoord (ix2 e q) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e q) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e q) idx 1 + (rowGatherDims N D E wf).batchCoord (ix2 e q) 1
      + (rowGatherDims N D E wf).offCoord (ix2 e q) 1 = q.val
    rw [GatherDims.batchCoord_eq_zero _ _ _ List.not_mem_nil]
    have hst : (rowGatherDims N D E wf).start (ix2 e q) idx 1 = 0 := by
      unfold GatherDims.start
      rw [dif_neg (show (1 : Fin 2) ∉ (rowGatherDims N D E wf).startIndexMap from one_not_mem_zero rfl)]
    rw [hst]
    simp only [Nat.add_zero, Nat.zero_add]
    unfold GatherDims.offCoord
    rw [dif_pos (show (1 : Fin 2) ∈ (rowGatherDims N D E wf).sKept from
      (GatherDims.mem_sKept _ _).mpr ⟨one_not_mem_zero rfl, List.not_mem_nil⟩)]
    rfl

end RowGather

/-! ## A gather of entries of a vector -/

section VecGather
variable {α : Type}

/-- The dimension numbers of a gather of `E` entries of a vector of `N` entries at the positions held in an `E × 1`
    column: the operand's one axis is collapsed and is the one the index names, the slice is one entry. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A GATHER OF VECTOR ENTRIES READ AT `e`: the operand's entry at the position `idx[e, 0]`, read signed and clamped
    into `[0, N − 1]`. (`d` is any record equal to the literal one: `hd` is then `rfl`.) -/
theorem gather_vec_apply {N E w : Nat} (hN : 0 < N)
    (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1])
    (hd : d = vecGatherDims N E wf)
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  subst hd
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

/-! ## A scatter-add of entries into a vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of `E` entries into a vector of `N` entries at the positions held in an
    `E × 1` column: no window axis, the operand's one axis is inserted and is the one the index names. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- WHERE AN ENTRY UPDATE LANDS: update `e` lands at operand entry `r` exactly when the position `idx[e, 0]`, read
    signed, is `r` (a position outside `[0, N)` lands nowhere). -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r) ↔ (idx (ix2 e 0)).toInt = (r.val : ℤ) := by
  rw [resultIdx?_eq_some_iff]
  have hst : (vecScatterDims N E wf).start (ix1 e) idx 0 = (idx (ix2 e 0)).toInt := by
    unfold ScatterDims.start
    rw [dif_pos (show (0 : Fin 1) ∈ (vecScatterDims N E wf).scatterDimsToOperandDims from List.mem_singleton.mpr rfl)]
    have hsi : (vecScatterDims N E wf).siIdx (ix1 e)
        ⟨List.idxOf (0 : Fin 1) (vecScatterDims N E wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hwin : (vecScatterDims N E wf).window (ix1 e) 0 = 0 := by
    unfold ScatterDims.window
    rw [dif_neg (show (0 : Fin 1) ∉ (vecScatterDims N E wf).sKept from
      fun h => (mem_kept _ _).mp h (List.mem_singleton.mpr rfl))]
  constructor
  · intro h
    have h0 := h 0
    rw [hst, hwin] at h0
    simp only [Nat.cast_zero, add_zero] at h0
    exact h0
  · intro h0 a
    obtain rfl : a = 0 := Subsingleton.elim _ _
    rw [hst, hwin, h0]
    simp only [Nat.cast_zero, add_zero]
    rfl

/-- A SCATTER-ADD OF ENTRIES READ AT `r`, at the ideal values: the operand's entry plus the sum of the updates `e`
    whose position `idx[e, 0]` (read signed) is `r`. (`d` is any record equal to the literal one: `hd` is then
    `rfl`.) -/
theorem scatterAdd_vec_apply {N E w : Nat} {φ : FTy}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = vecScatterDims N E wf)
    (x : FVec Ideal ⟨1, ![N]⟩ φ) (idx : IVec ⟨2, ![E, 1]⟩ w) (upd : FVec Ideal ⟨1, ![E]⟩ φ) (r : Fin N) :
    Host.scatterAdd (F := Ideal) d x idx upd (ix1 r)
      = x (ix1 r) + ∑ e : Fin E, if (idx (ix2 e 0)).toInt = (r.val : ℤ) then upd (ix1 e) else 0 := by
  subst hd
  show Ideal.hostScatterAdd (vecScatterDims N E wf) x idx upd (ix1 r) = _
  unfold Ideal.hostScatterAdd
  congr 1
  rw [Finset.sum_filter, sum_idx1]
  refine Finset.sum_congr rfl fun e _ => ?_
  simp only [vecScatter_resultIdx?_eq_some_iff]

end VecScatter

end Cert.LibGatherScatterRows

end
-- ==== Proof.KernelTail.lean ====
/-
  The kernel program's last stretch, read back. After the two launches the program takes the first 10000 of the 10240
  node rows, adds each row into the row of its graph (a scatter-add by the 10000 × 1 column of graph numbers into the
  64 × 128 zero matrix), counts each graph's nodes the same way (ones added into the zero vector of 64 entries), takes
  the maximum of each count with 1, divides each pooled row by its graph's count, multiplies the 64 × 128 quotient by
  the 128 × 10 matrix of the last layer and adds the layer's bias to every row.

  Read at the entry (g, c), over the extended reals: the scatter-adds are 0 + Σ_r [id r = g] · (row r, or 1); the two
  broadcasts of the counts (a vector of 64 made a column, the column copied along 128 columns) read the count of graph
  g at every (g, q), the two broadcasts of the bias read bias c at every (g, c); the product is the sum over the 128
  contracted coordinates. That is the specification's pooled linear layer of the first 10000 rows, for ANY contents of
  the buffers the stretch reads: no hypothesis on the graph numbers is used (a number outside [0, 64) equals no g and
  its row is dropped by both).
-/
import proofs.«151618_j80324478369804_1_alg».proof.Proof.Gen.KernelIdeal.Launch
import proofs.«151618_j80324478369804_1_alg».proof.Proof.Spec
import proofs.«151618_j80324478369804_1_alg».proof.Proof.LibGatherScatterRows
import proofs.«151618_j80324478369804_1_alg».proof.Proof.LibPlainDot
import Idealize.ShloMosaic.Lib.StableHlo.Run
import Idealize.ShloMosaic.Lib.ValueIdx
import Idealize.ShloMosaic.Lib.ValueLayout
import Idealize.ShloMosaic.PureOps.Ideal.Laws

set_option maxRecDepth 65536

noncomputable section

namespace Cert.KernelTail

open Cert.KernelIdeal Cert.KernelIdeal.Gen
open Idealize.ShloMosaic Idealize.ShloMosaic.TcCoe Idealize.ShloMosaic.ValueIdx
open Idealize.SL.Sem
open scoped BigOperators

/-- The pattern 0x3F800000 (exponent field 127, fraction 0) denotes 1. -/
theorem ofBits_one_f32 : Ideal.ofBits .f32 0x3F800000#32 = (1 : EReal) := by
  simp [Ideal.ofBits, Ideal.ieee]
  rw [← EReal.coe_mul, ← EReal.coe_one]
  congr 1
  norm_num

section Reads
variable {α : Type}

/-- A vector of n entries made an n × 1 column reads, at (e, 0), the vector at e. -/
theorem column_apply (v : S10000.Idx → α) (e : Fin 10000) (z : Fin 1) :
    broadcastInDim S10000x1 ![0] bcast_S10000_S10000x1_0 v (ix2 e z) = v (ix1 e) :=
  congrArg v (funext fun a => by match a with | ⟨0, _⟩ => rfl)

/-- A vector of 64 entries made a 64 × 1 column and then copied along 128 columns reads, at (g, q), the vector at g. -/
theorem rowConst_apply (v : S64.Idx → α) (g : Fin 64) (q : Fin 128) :
    broadcastInDim S64x128 ![0, 1] bcast_S64x1_S64x128_0_1 (broadcastInDim S64x1 ![0] bcast_S64_S64x1_0 v) (ix2 g q) = v (ix1 g) :=
  congrArg v (funext fun a => by match a with | ⟨0, _⟩ => rfl)

/-- A vector of 10 entries made a 1 × 10 row and then copied down 64 rows reads, at (g, c), the vector at c. -/
theorem colConst_apply (v : S10.Idx → α) (g : Fin 64) (c : Fin 10) :
    broadcastInDim S64x10 ![0, 1] bcast_S1x10_S64x10_0_1 (broadcastInDim S1x10 ![1] bcast_S10_S1x10_1 v) (ix2 g c) = v (ix1 c) :=
  congrArg v (funext fun a => by match a with | ⟨0, _⟩ => rfl)

end Reads

/-- The first 10000 rows of a 10240-row matrix, at their coordinates. -/
def firstRows (h : FVec Ideal S10240x128 .f32) (r : Fin Spec.nNode) (q : Fin Spec.nFeat) : EReal :=
  h (ix2 ⟨r.val, Nat.lt_of_lt_of_le r.isLt (by decide)⟩ q)

variable (h : FVec Ideal S10240x128 .f32) (bt : IVec S10000 32) (Wl : FVec Ideal S128x10 .f32) (bl : FVec Ideal S10 .f32)

/-- The rows of the first 10000 node rows summed per graph: entry (g, q) of the scatter-add into the zero matrix. -/
theorem pooled_apply (g : Fin 64) (q : Fin 128) :
    Host.scatterAdd scatter_S64x128_S10000x1_S10000x128_1_0_0_1
        (broadcastInDim S64x128 ![] bcast_S_S64x128 (constant S_ .f32 0x00000000#32))
        (broadcastInDim S10000x1 ![0] bcast_S10000_S10000x1_0 bt)
        (extractStridedSlice S10000x128 ![0, 0] h slices_S10240x128_S10000x128_0_0) (ix2 g q)
      = 0 + ∑ r : Fin Spec.nNode, if Spec.ids bt r = (g.val : ℤ) then firstRows h r q else 0 := by
  have e := Cert.LibGatherScatterRows.scatterAdd_rows_apply (N := 64) (D := 128) (E := 10000) (w := 32) (φ := .f32)
    scatter_S64x128_S10000x1_S10000x128_1_0_0_1 scatter_S64x128_S10000x1_S10000x128_1_0_0_1_wf rfl
    (broadcastInDim S64x128 ![] bcast_S_S64x128 (constant S_ .f32 0x00000000#32))
    (broadcastInDim S10000x1 ![0] bcast_S10000_S10000x1_0 bt)
    (extractStridedSlice S10000x128 ![0, 0] h slices_S10240x128_S10000x128_0_0) g q
  refine e.trans (congrArg₂ (· + ·) Ideal.ofBits_zero_f32 (Finset.sum_congr rfl fun r _ => ?_))
  rw [column_apply bt r 0, slice2_axis0_apply 0 h slices_S10240x128_S10000x128_0_0 r q ⟨r.val, Nat.lt_of_lt_of_le r.isLt (by decide)⟩ (by simp)]
  rfl

/-- The number of nodes of each graph, at least 1: entry g of the scatter-add of ones into the zero vector, then the
    maximum with 1. -/
theorem counts_apply (g : Fin 64) :
    maximumf (F := Ideal)
        (Host.scatterAdd scatter_S64_S10000x1_S10000_n_0_0_1
          (broadcastInDim S64 ![] bcast_S_S64 (constant S_ .f32 0x00000000#32))
          (broadcastInDim S10000x1 ![0] bcast_S10000_S10000x1_0 bt)
          (broadcastInDim S10000 ![] bcast_S_S10000 (constant S_ .f32 0x3F800000#32)))
        (broadcastInDim S64 ![] bcast_S_S64 (constant S_ .f32 0x3F800000#32)) (ix1 g)
      = max (0 + ∑ r : Fin Spec.nNode, if Spec.ids bt r = (g.val : ℤ) then (1 : EReal) else 0) 1 := by
  rw [maximumf_apply]
  have e := Cert.LibGatherScatterRows.scatterAdd_vec_apply (N := 64) (E := 10000) (w := 32) (φ := .f32)
    scatter_S64_S10000x1_S10000_n_0_0_1 scatter_S64_S10000x1_S10000_n_0_0_1_wf rfl
    (broadcastInDim S64 ![] bcast_S_S64 (constant S_ .f32 0x00000000#32))
    (broadcastInDim S10000x1 ![0] bcast_S10000_S10000x1_0 bt)
    (broadcastInDim S10000 ![] bcast_S_S10000 (constant S_ .f32 0x3F800000#32)) g
  rw [e]
  refine congrArg₂ max (congrArg₂ (· + ·) Ideal.ofBits_zero_f32 (Finset.sum_congr rfl fun r _ => ?_)) ofBits_one_f32
  rw [column_apply bt r 0]
  show (if _ then Ideal.ofBits .f32 0x3F800000#32 else 0) = _
  rw [ofBits_one_f32]
  rfl

/-- The stretch after the two launches as one function of the four arrays it reads: the node rows, the graph numbers,
    the last layer's matrix and its bias. -/
def tail : FVec Ideal S64x10 .f32 :=
  addf
    (Host.dotGeneral dot_S64x128_S128x10_S64x10_1_0_0_1_n_n none
      (Host.divf
        (Host.scatterAdd scatter_S64x128_S10000x1_S10000x128_1_0_0_1
          (broadcastInDim S64x128 ![] bcast_S_S64x128 (constant S_ .f32 0x00000000#32))
          (broadcastInDim S10000x1 ![0] bcast_S10000_S10000x1_0 bt)
          (extractStridedSlice S10000x128 ![0, 0] h slices_S10240x128_S10000x128_0_0))
        (broadcastInDim S64x128 ![0, 1] bcast_S64x1_S64x128_0_1
          (broadcastInDim S64x1 ![0] bcast_S64_S64x1_0
            (maximumf
              (Host.scatterAdd scatter_S64_S10000x1_S10000_n_0_0_1
                (broadcastInDim S64 ![] bcast_S_S64 (constant S_ .f32 0x00000000#32))
                (broadcastInDim S10000x1 ![0] bcast_S10000_S10000x1_0 bt)
                (broadcastInDim S10000 ![] bcast_S_S10000 (constant S_ .f32 0x3F800000#32)))
              (broadcastInDim S64 ![] bcast_S_S64 (constant S_ .f32 0x3F800000#32))))))
      Wl)
    (broadcastInDim S64x10 ![0, 1] bcast_S1x10_S64x10_0_1 (broadcastInDim S1x10 ![1] bcast_S10_S1x10_1 bl))

/-- The tail at entry (g, c): the mean row of graph g against column c of the last matrix, plus the bias. -/
theorem tail_apply (g : Fin 64) (c : Fin 10) :
    tail h bt Wl bl (ix2 g c)
      = Spec.poolLinear (Spec.ids bt) (firstRows h) (Spec.mat Wl) (Spec.vec bl) g c := by
  unfold tail Spec.poolLinear
  rw [addf_apply, colConst_apply,
    Cert.LibPlainDot.dotGeneral_plain_apply (M := 64) (K := 128) (N := 10) dot_S64x128_S128x10_S64x10_1_0_0_1_n_n rfl none _ Wl g c]
  refine congrArg₂ (· + ·) (Finset.sum_congr rfl fun q _ => congrArg₂ (· * ·) ?_ rfl) rfl
  show Ideal.div _ _ = _
  rw [pooled_apply, rowConst_apply, counts_apply]

set_option maxHeartbeats 4000000 in
/-- What the 21 operations leave in the result buffer, for any contents of the buffers before them. -/
theorem after_eq_tail (W : Valuation τ sig (Elt Ideal)) :
    (StableHlo.after (hostOps2 (F := Ideal)) W) (Proc.devRef .tc main_v81)
      = tail (W (Proc.devRef .tc main_v64)) (W (Proc.devRef .tc main_arg2)) (W (Proc.devRef .tc main_arg7))
          (W (Proc.devRef .tc main_arg8)) := by
  dsimp only [hostOps2]
  after_results_simp
  rfl

/-- THE TAIL READ BACK: the result buffer holds, at (g, c), the pooled linear layer of the first 10000 node rows. -/
theorem after_tail (W : Valuation τ sig (Elt Ideal)) :
    (StableHlo.after (hostOps2 (F := Ideal)) W) (Proc.devRef .tc main_v81)
      = fun i => Spec.poolLinear (Spec.ids (W (Proc.devRef .tc main_arg2))) (firstRows (W (Proc.devRef .tc main_v64)))
          (Spec.mat (W (Proc.devRef .tc main_arg7))) (Spec.vec (W (Proc.devRef .tc main_arg8))) (i 0) (i 1) := by
  rw [after_eq_tail]
  funext i
  exact (congrArg _ (eq_ix2 i)).trans (tail_apply _ _ _ _ (i 0) (i 1))

end Cert.KernelTail

end
-- ==== Proof.KernelHost.lean ====
/-
  The kernel program's first stretch of host operations, read back at the ideal values: the matrix handed to both
  launches is the padded, symmetrically normalized adjacency with self loops (Spec.lean's adj) of the edge array's sources
  and targets.

  The 81 operations are run in five parts. Each part's result is the composition of its operations applied to what the
  part finds (computed from the fold over the list), and each composition is read at an index: the degrees are a
  scatter-add of ones at the targets; their inverse square roots are gathered at both ends of every edge (an end's number
  wrapped by 10000 and clamped) and multiplied into the edge's weight; the weights are scatter-added into the zero
  10240 × 10240 matrix at (target, source), both wrapped by 10240; the squares of the inverse square roots are
  scatter-added on the diagonal; the change of float format is the identity on the extended reals.

  Two general facts are proved on the way: a negative index word moved up by the extent, read signed, is the signed
  reading wrapped (no overflow below 2³¹); and a scatter-add of entries into a matrix at (row, column) pairs, read at
  (i, j), is the operand's entry plus the sum of the updates whose pair is (i, j).
-/
import proofs.«151618_j80324478369804_1_alg».proof.Proof.Gen.KernelIdeal.Launch
import proofs.«151618_j80324478369804_1_alg».proof.Proof.Spec
import proofs.«151618_j80324478369804_1_alg».proof.Proof.LibGatherScatterRows
import Idealize.ShloMosaic.Lib.StableHlo.Run
import Idealize.ShloMosaic.Lib.ValueIdx
import Idealize.ShloMosaic.Lib.ValueLayout
import Idealize.ShloMosaic.PureOps.Ideal.Laws
import Idealize.ShloMosaic.Lib.IdealHost
import Idealize.ShloMosaic.Lib.DynamicIndex

set_option maxRecDepth 4000

noncomputable section

namespace Cert.KernelHost

open Idealize.ShloMosaic Idealize.ShloMosaic.ValueIdx Idealize.ShloMosaic.TcCoe
open Cert.KernelIdeal Cert.KernelIdeal.Gen
open scoped BigOperators

/-! ## Running a line of operations in two parts -/

section Split
variable {τ' : Topo} {sig' : RefSig} {Val : EltTy → Type}

/-- The contents after two lines run one after the other: the second line run from what the first leaves. -/
theorem after_append (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => simp only [List.cons_append, StableHlo.after_cons, ih]

end Split

/-! ## A negative index wrapped by the extent, as a 32-bit word read signed -/

/-- The word `select (x < 0) (x + n) x`, read signed, is the signed reading of `x` wrapped by `n` (for `n < 2³¹` the
    sum of a negative `x` and `n` does not overflow). -/
theorem toInt_wrap (n : Nat) (hn : n < 2 ^ 31) (x : BitVec 32) :
    (Scalar.select (IntOp.cmpi .slt x 0#32) (IntOp.addi x (BitVec.ofNat 32 n)) x).toInt = Spec.wrapBy (n : ℤ) x.toInt := by
  have e1 := BitVec.toInt_eq_toNat_cond x
  have e2 := BitVec.toInt_eq_toNat_cond (x + BitVec.ofNat 32 n)
  have e3 : (x + BitVec.ofNat 32 n).toNat = (x.toNat + n % 2 ^ 32) % 2 ^ 32 := by
    rw [BitVec.toNat_add, BitVec.toNat_ofNat]
  have hx : x.toNat < 2 ^ 32 := x.isLt
  unfold Spec.wrapBy
  by_cases h : x.toInt < 0
  · have hs : x.slt 0#32 = true := by simp only [BitVec.slt, BitVec.toInt_zero, decide_eq_true_eq]; exact h
    show (if BitVec.ofBool (x.slt 0#32) = 1#1 then x + BitVec.ofNat 32 n else x).toInt = _
    rw [hs, if_pos h, if_pos (by rfl), e2, e3]
    split at e1 <;> split <;> omega
  · have hs : x.slt 0#32 = false := by simp only [BitVec.slt, BitVec.toInt_zero, decide_eq_false_iff_not]; exact h
    show (if BitVec.ofBool (x.slt 0#32) = 1#1 then x + BitVec.ofNat 32 n else x).toInt = _
    rw [hs, if_neg h, if_neg (by decide)]

/-! ## A scatter-add of entries into a matrix at (row, column) pairs -/

/-- The dimension numbers of a scatter of `E` entries into an `N × M` matrix at the positions held in an `E × 2` array
    (columns: row number, column number): no window axis, both operand axes inserted and named by the index. -/
abbrev pairScatterDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

section PairScatter
variable {N M E w : Nat} (wf : ScatterDims.WF ⟨2, ![N, M]⟩ ⟨2, ![E, 2]⟩ ⟨1, ![E]⟩ [] [0, 1] [0, 1] 1)

theorem pairScatter_start_row (idx : IVec ⟨2, ![E, 2]⟩ w) (e : Fin E) :
    (pairScatterDims N M E wf).start (ix1 e) idx 0 = (idx (ix2 e 0)).toInt := by
  unfold ScatterDims.start
  rw [dif_pos (show (0 : Fin 2) ∈ (pairScatterDims N M E wf).scatterDimsToOperandDims from List.mem_cons_self)]
  have hsi : (pairScatterDims N M E wf).siIdx (ix1 e)
      ⟨List.idxOf (0 : Fin 2) (pairScatterDims N M E wf).scatterDimsToOperandDims,
        List.idxOf_lt_length_iff.2 List.mem_cons_self⟩ = ix2 e 0 := by
    funext b; refine Fin.ext ?_
    match b with
    | ⟨0, _⟩ => rfl
    | ⟨1, _⟩ => rfl
  rw [hsi]

theorem pairScatter_start_col (idx : IVec ⟨2, ![E, 2]⟩ w) (e : Fin E) :
    (pairScatterDims N M E wf).start (ix1 e) idx 1 = (idx (ix2 e 1)).toInt := by
  have hm : (1 : Fin 2) ∈ (pairScatterDims N M E wf).scatterDimsToOperandDims :=
    List.mem_cons_of_mem _ List.mem_cons_self
  unfold ScatterDims.start
  rw [dif_pos hm]
  have hsi : (pairScatterDims N M E wf).siIdx (ix1 e)
      ⟨List.idxOf (1 : Fin 2) (pairScatterDims N M E wf).scatterDimsToOperandDims,
        List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem pairScatter_window (e : Fin E) (a : Fin 2) : (pairScatterDims N M E wf).window (ix1 e) a = 0 := by
  unfold ScatterDims.window
  rw [dif_neg (show a ∉ (pairScatterDims N M E wf).sKept from fun h =>
    (LibGatherScatterRows.mem_kept _ _).mp h (by
      match a with
      | ⟨0, _⟩ => exact List.mem_cons_self
      | ⟨1, _⟩ => exact List.mem_cons_of_mem _ List.mem_cons_self))]

/-- WHERE AN ENTRY LANDS: update `e` lands at `(i, j)` exactly when its row number, read signed, is `i` and its column
    number `j` (a position outside the matrix lands nowhere). -/
theorem pairScatter_resultIdx?_eq_some_iff (idx : IVec ⟨2, ![E, 2]⟩ w) (e : Fin E) (i : Fin N) (j : Fin M) :
    (pairScatterDims N M E wf).resultIdx? (ix1 e) idx = some (ix2 i j)
      ↔ ((idx (ix2 e 0)).toInt = (i.val : ℤ) ∧ (idx (ix2 e 1)).toInt = (j.val : ℤ)) := by
  rw [LibGatherScatterRows.resultIdx?_eq_some_iff]
  constructor
  · intro h
    have h0 := h 0
    have h1 := h 1
    rw [pairScatter_start_row, pairScatter_window] at h0
    rw [pairScatter_start_col, pairScatter_window] at h1
    simp only [Nat.cast_zero, add_zero] at h0 h1
    exact ⟨h0, h1⟩
  · rintro ⟨h0, h1⟩ a
    match a with
    | ⟨0, _⟩ =>
      show (pairScatterDims N M E wf).start (ix1 e) idx 0 + ((pairScatterDims N M E wf).window (ix1 e) 0 : ℤ) = _
      rw [pairScatter_start_row, pairScatter_window, h0]; simp
    | ⟨1, _⟩ =>
      show (pairScatterDims N M E wf).start (ix1 e) idx 1 + ((pairScatterDims N M E wf).window (ix1 e) 1 : ℤ) = _
      rw [pairScatter_start_col, pairScatter_window, h1]; simp

end PairScatter

/-- A SCATTER-ADD OF ENTRIES INTO A MATRIX READ AT `(i, j)`, at the ideal values: the operand's entry plus the sum of
    the updates `e` whose position `(idx[e, 0], idx[e, 1])`, read signed, is `(i, j)`. -/
theorem scatterAdd_pairs_apply {N M E w : Nat} {φ : FTy}
    (d : ScatterDims ⟨2, ![N, M]⟩ ⟨2, ![E, 2]⟩ ⟨1, ![E]⟩)
    (wf : ScatterDims.WF ⟨2, ![N, M]⟩ ⟨2, ![E, 2]⟩ ⟨1, ![E]⟩ [] [0, 1] [0, 1] 1)
    (hd : d = pairScatterDims N M E wf)
    (x : FVec Ideal ⟨2, ![N, M]⟩ φ) (idx : IVec ⟨2, ![E, 2]⟩ w) (upd : FVec Ideal ⟨1, ![E]⟩ φ) (i : Fin N) (j : Fin M) :
    Host.scatterAdd (F := Ideal) d x idx upd (ix2 i j)
      = x (ix2 i j) + ∑ e : Fin E,
          if (idx (ix2 e 0)).toInt = (i.val : ℤ) ∧ (idx (ix2 e 1)).toInt = (j.val : ℤ) then upd (ix1 e) else 0 := by
  subst hd
  show Ideal.hostScatterAdd (pairScatterDims N M E wf) x idx upd (ix2 i j) = _
  unfold Ideal.hostScatterAdd
  congr 1
  rw [Finset.sum_filter, LibGatherScatterRows.sum_idx1]
  refine Finset.sum_congr rfl fun e _ => ?_
  simp only [pairScatter_resultIdx?_eq_some_iff]

/-! ## Small layout operations read at an index -/

/-- A vector laid out as a one-column matrix reads, in row `e`, the vector's entry `e`. -/
theorem broadcastInDim_col_apply {n : Nat} {α : Type}
    (h : (⟨1, ![n]⟩ : Shape).BroadcastsInDim ⟨2, ![n, 1]⟩ ![0]) (v : (⟨1, ![n]⟩ : Shape).Idx → α) (e : Fin n) (u : Fin 1) :
    broadcastInDim ⟨2, ![n, 1]⟩ ![0] h v (ix2 e u) = v (ix1 e) :=
  broadcastInDim_apply _ _ _ _ (ix1 e) (fun a => by
    match a with
    | ⟨0, _⟩ =>
      show e.val = if n = 1 then 0 else e.val
      have := e.isLt
      split <;> omega)

/-- Two one-column matrices side by side: column 0 is the first … -/
theorem concatenate_cols_apply_left {n : Nat} {α : Type} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e 0) = x₁ (ix2 e 0) :=
  concatenate_pair_apply_left (t := ⟨2, ![n, 2]⟩) (s₁ := ⟨2, ![n, 1]⟩) (s₂ := ⟨2, ![n, 1]⟩) (1 : Fin 2) x₁ x₂ h (ix2 e 0) rfl
    (ix2 e 0) (fun (b : Fin 2) => by
      match b with
      | ⟨0, _⟩ => rfl
      | ⟨1, _⟩ => rfl)

/-- … and column 1 the second. -/
theorem concatenate_cols_apply_right {n : Nat} {α : Type} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e 1) = x₂ (ix2 e 0) :=
  concatenate_pair_apply_right (t := ⟨2, ![n, 2]⟩) (s₁ := ⟨2, ![n, 1]⟩) (s₂ := ⟨2, ![n, 1]⟩) (1 : Fin 2) x₁ x₂ h (ix2 e 1) rfl rfl
    (ix2 e 0) (fun (b : Fin 2) hb => by
      match b with
      | ⟨0, _⟩ => rfl
      | ⟨1, _⟩ => exact absurd rfl hb) rfl

/-! ## The stretch's values as functions of the arguments -/

/-- The sources: row 0 of the index array, as a vector. -/
abbrev srcT (a1 : IVec S2x640000 32) : IVec S640000 32 :=
  shapeCast S640000 (extractStridedSlice S1x640000 ![0, 0] a1 slices_S2x640000_S1x640000_0_0) shapeCasts_S1x640000_S640000
/-- The targets: row 1. -/
abbrev dstT (a1 : IVec S2x640000 32) : IVec S640000 32 :=
  shapeCast S640000 (extractStridedSlice S1x640000 ![1, 0] a1 slices_S2x640000_S1x640000_1_0) shapeCasts_S1x640000_S640000
/-- A vector of index words, each negative one moved up by `n`. -/
abbrev wrapT {s : Shape} (hb : S_.BroadcastsInDim s (![] : Fin 0 → Fin s.rank)) (n : BitVec 32) (v : IVec s 32) : IVec s 32 :=
  select (cmpi .slt v (broadcastInDim s ![] hb (constantI S_ 32 0#32))) (addi v (broadcastInDim s ![] hb (constantI S_ 32 n))) v
/-- The inverse square roots of the degrees. -/
abbrev dinvT (a1 : IVec S2x640000 32) : FVec Ideal S10000 .f32 :=
  Host.rsqrt (addf
    (Host.scatterAdd (F := Ideal) scatter_S10000_S640000x1_S640000_n_0_0_1
      (broadcastInDim S10000 ![] bcast_S_S10000 (constant (F := Ideal) S_ .f32 0x00000000#32))
      (broadcastInDim S640000x1 ![0] bcast_S640000_S640000x1_0 (dstT a1))
      (broadcastInDim S640000 ![] bcast_S_S640000 (constant (F := Ideal) S_ .f32 0x3F800000#32)))
    (broadcastInDim S10000 ![] bcast_S_S10000 (constant (F := Ideal) S_ .f32 0x3F800000#32)))
/-- The edge weights. -/
abbrev normT (dv : FVec Ideal S10000 .f32) (sv tv : IVec S640000 32) : FVec Ideal S640000 .f32 :=
  mulf
    (Host.gather gather_S10000_S640000x1_S640000_n_0_n_n_0_1_1 dv
      (broadcastInDim S640000x1 ![0] bcast_S640000_S640000x1_0 (wrapT bcast_S_S640000 10000#32 sv)))
    (Host.gather gather_S10000_S640000x1_S640000_n_0_n_n_0_1_1 dv
      (broadcastInDim S640000x1 ![0] bcast_S640000_S640000x1_0 (wrapT bcast_S_S640000 10000#32 tv)))
/-- The edge weights added into the zero matrix at (target, source). -/
abbrev adjET (sv tv : IVec S640000 32) (nv : FVec Ideal S640000 .f32) : FVec Ideal S10240x10240 .f32 :=
  Host.scatterAdd (F := Ideal) scatter_S10240x10240_S640000x2_S640000_n_01_01_1
    (broadcastInDim S10240x10240 ![] bcast_S_S10240x10240 (constant (F := Ideal) S_ .f32 0x00000000#32))
    (concatenate S640000x2 1
      [⟨S640000x1, broadcastInDim S640000x1 ![0] bcast_S640000_S640000x1_0 (wrapT bcast_S_S640000 10240#32 tv)⟩,
       ⟨S640000x1, broadcastInDim S640000x1 ![0] bcast_S640000_S640000x1_0 (wrapT bcast_S_S640000 10240#32 sv)⟩]
      concatenates_S640000x1_S640000x1_S640000x2_d1)
    nv
/-- The node numbers as index words. -/
abbrev diagT : IVec S10000 32 := wrapT bcast_S_S10000 10240#32 (iotaInDim S10000 32 0)
/-- The self-loop weights added on the diagonal, then the change of format. -/
abbrev adjT (dv : FVec Ideal S10000 .f32) (ae : FVec Ideal S10240x10240 .f32) : FVec Ideal S10240x10240 .bf16 :=
  truncf .bf16
    (Host.scatterAdd (F := Ideal) scatter_S10240x10240_S10000x2_S10000_n_01_01_1 ae
      (concatenate S10000x2 1
        [⟨S10000x1, broadcastInDim S10000x1 ![0] bcast_S10000_S10000x1_0 diagT⟩,
         ⟨S10000x1, broadcastInDim S10000x1 ![0] bcast_S10000_S10000x1_0 diagT⟩]
        concatenates_S10000x1_S10000x1_S10000x2_d1)
      (mulf dv dv))
    bitsLt_bf16_f32
/-- The node rows written over the top of the zero matrix. -/
abbrev padT (a0 : FVec Ideal S10000x128 .f32) : FVec Ideal S10240x128 .f32 :=
  Host.scatter scatter_S10240x128_S1_S10000x128_01_n_0_0 (fun _ b => b)
    (broadcastInDim S10240x128 ![] bcast_S_S10240x128 (constant (F := Ideal) S_ .f32 0x00000000#32))
    (broadcastInDim S1 ![] bcast_S_S1 (constantI S_ 32 0#32)) a0
/-- A bias as a one-row matrix. -/
abbrev biasT (b : FVec Ideal S128 .f32) : FVec Ideal S1x128 .f32 := shapeCast S1x128 b shapeCasts_S128_S1x128

/-! ## … read at an index -/

theorem srcT_apply (a1 : IVec S2x640000 32) (e : Fin 640000) : srcT a1 (ix1 e) = a1 (ix2 0 e) :=
  (shapeCast_1a_a_apply _ _ e).trans (slice2_axis0_apply 0 a1 _ 0 e 0 rfl)

theorem dstT_apply (a1 : IVec S2x640000 32) (e : Fin 640000) : dstT a1 (ix1 e) = a1 (ix2 1 e) :=
  (shapeCast_1a_a_apply _ _ e).trans (slice2_axis0_apply 1 a1 _ 0 e 1 rfl)

theorem rsqrt_addf_apply {s : Shape} {φ : FTy} (x y : FVec Ideal s φ) (i : s.Idx) :
    Host.rsqrt (addf x y) i = Ideal.rsqrt (x i + y i) := rfl

/-- A splat constant reads the extended real its word encodes, everywhere. -/
theorem bcast_const_apply {s : Shape} {φ : FTy} (hb : S_.BroadcastsInDim s (![] : Fin 0 → Fin s.rank)) (b : BitVec φ.bits)
    (i : s.Idx) : broadcastInDim s ![] hb (constant (F := Ideal) S_ φ b) i = Ideal.ofBits φ b := rfl

/-- The inverse square root of the degree: the count of the edges into `r` on top of zero, plus one. -/
theorem dinvT_apply (a1 : IVec S2x640000 32) (r : Fin 10000) : dinvT a1 (ix1 r) = Spec.dinv (Spec.dsts a1) r := by
  unfold dinvT
  rw [rsqrt_addf_apply, LibGatherScatterRows.scatterAdd_vec_apply scatter_S10000_S640000x1_S640000_n_0_0_1
    scatter_S10000_S640000x1_S640000_n_0_0_1_wf rfl]
  simp only [broadcastInDim_col_apply bcast_S640000_S640000x1_0, dstT_apply, bcast_const_apply bcast_S_S10000,
    bcast_const_apply bcast_S_S640000, Ideal.ofBits_zero_f32, Ideal.ofBits_one_f32]
  rfl

theorem wrapT_toInt {s : Shape} (hb : S_.BroadcastsInDim s (![] : Fin 0 → Fin s.rank)) (n : Nat) (hn : n < 2 ^ 31)
    (v : IVec s 32) (i : s.Idx) : (wrapT hb (BitVec.ofNat 32 n) v i).toInt = Spec.wrapBy (n : ℤ) (v i).toInt :=
  toInt_wrap n hn (v i)

/-- An edge's weight: the two gathered entries, each at its end's number wrapped by 10000 and clamped. -/
theorem normT_apply (dv : FVec Ideal S10000 .f32) (sv tv : IVec S640000 32) (e : Fin 640000) :
    normT dv sv tv (ix1 e)
      = dv (ix1 (Spec.nodeOf (Spec.wrapBy (10000 : ℕ) (sv (ix1 e)).toInt)))
        * dv (ix1 (Spec.nodeOf (Spec.wrapBy (10000 : ℕ) (tv (ix1 e)).toInt))) := by
  unfold normT
  rw [mulf_apply,
    LibGatherScatterRows.gather_vec_apply (by decide) gather_S10000_S640000x1_S640000_n_0_n_n_0_1_1
      gather_S10000_S640000x1_S640000_n_0_n_n_0_1_1_wf rfl,
    LibGatherScatterRows.gather_vec_apply (by decide) gather_S10000_S640000x1_S640000_n_0_n_n_0_1_1
      gather_S10000_S640000x1_S640000_n_0_n_n_0_1_1_wf rfl]
  simp only [broadcastInDim_col_apply bcast_S640000_S640000x1_0, wrapT_toInt bcast_S_S640000 10000 (by decide)]
  rfl

/-- The edge weights in the matrix: at `(i, j)` the weights of the edges whose target, wrapped by 10240, is `i` and
    whose source, wrapped, is `j`. -/
theorem adjET_apply (sv tv : IVec S640000 32) (nv : FVec Ideal S640000 .f32) (i j : Fin 10240) :
    adjET sv tv nv (ix2 i j)
      = 0 + ∑ e : Fin 640000,
          if Spec.wrapBy (10240 : ℕ) (tv (ix1 e)).toInt = (i.val : ℤ) ∧ Spec.wrapBy (10240 : ℕ) (sv (ix1 e)).toInt = (j.val : ℤ)
          then nv (ix1 e) else 0 := by
  unfold adjET
  rw [scatterAdd_pairs_apply scatter_S10240x10240_S640000x2_S640000_n_01_01_1
    scatter_S10240x10240_S640000x2_S640000_n_01_01_1_wf rfl]
  simp only [concatenate_cols_apply_left _ _ concatenates_S640000x1_S640000x1_S640000x2_d1,
    concatenate_cols_apply_right _ _ concatenates_S640000x1_S640000x1_S640000x2_d1,
    broadcastInDim_col_apply bcast_S640000_S640000x1_0,
    wrapT_toInt bcast_S_S640000 10240 (by decide), bcast_const_apply bcast_S_S10240x10240, Ideal.ofBits_zero_f32]

/-- Node `n`'s number as an index word, read signed, is `n`. -/
theorem diagT_toInt (n : Fin 10000) : (diagT (ix1 n)).toInt = (n.val : ℤ) := by
  unfold diagT
  rw [wrapT_toInt bcast_S_S10000 10240 (by decide)]
  show Spec.wrapBy _ (BitVec.ofNat 32 n.val).toInt = _
  rw [toInt_ofNat_of_lt (by have := n.isLt; omega)]
  unfold Spec.wrapBy
  rw [if_neg (by omega)]

/-- The diagonal added: at `(i, j)` the squares of the entries of the nodes `n` with `n = i = j`. -/
theorem adjT_apply (dv : FVec Ideal S10000 .f32) (ae : FVec Ideal S10240x10240 .f32) (i j : Fin 10240) :
    adjT dv ae (ix2 i j)
      = ae (ix2 i j) + ∑ n : Fin 10000,
          if (n.val : ℤ) = (i.val : ℤ) ∧ (n.val : ℤ) = (j.val : ℤ) then dv (ix1 n) * dv (ix1 n) else 0 := by
  unfold adjT
  rw [truncf_apply, scatterAdd_pairs_apply scatter_S10240x10240_S10000x2_S10000_n_01_01_1
    scatter_S10240x10240_S10000x2_S10000_n_01_01_1_wf rfl]
  simp only [concatenate_cols_apply_left _ _ concatenates_S10000x1_S10000x1_S10000x2_d1,
    concatenate_cols_apply_right _ _ concatenates_S10000x1_S10000x1_S10000x2_d1,
    broadcastInDim_col_apply bcast_S10000_S10000x1_0, diagT_toInt, mulf_apply]

/-! ## The stretch in five parts -/

/-- The degrees and their inverse square roots (operations 1 to 14). -/
abbrev segA : List (HloOp τ sig (Elt Ideal)) := (hostOps0 (F := Ideal)).take 14
/-- The references those operations write. -/
abbrev segA_W : List (Ref sig .tc) := [main_v0, main_v1, main_v2, main_v3, main_cst, main_v4, main_cst_0, main_v5, main_v6, main_v7, main_cst_1, main_v8, main_v9, main_v10]
set_option maxHeartbeats 4000000 in
theorem segA_writes : segA.Forall fun op => op.writes ⊆ (segA_W.map (Proc.devRef (τ := τ) .tc)).toFinset := by
  simp only [segA, hostOps0, List.take_succ_cons, List.take_zero, List.drop_succ_cons, List.drop_zero, List.Forall, StableHlo.nullary_writes, StableHlo.unary_writes,
    StableHlo.binary_writes, StableHlo.ternary_writes, StableHlo.reshape_writes, Finset.singleton_subset_iff, List.mem_toFinset]
  repeat' apply And.intro
  all_goals exact List.mem_map_of_mem (by decide)
/-- A reference they do not write keeps its contents. -/
theorem segA_frame (V : Valuation τ sig (Elt Ideal)) (r : Ref sig .tc) (h : r ∉ segA_W) :
    StableHlo.after segA V (Proc.devRef .tc r) = V (Proc.devRef .tc r) :=
  StableHlo.after_of_writes_sub segA V segA_writes h

/-- The edge weights (operations 15 to 33). -/
abbrev segB : List (HloOp τ sig (Elt Ideal)) := ((hostOps0 (F := Ideal)).drop 14).take 19
/-- The references those operations write. -/
abbrev segB_W : List (Ref sig .tc) := [main_c, main_v11, main_v12, main_c_2, main_v13, main_v14, main_v15, main_v16, main_v17, main_c_3, main_v18, main_v19, main_c_4, main_v20, main_v21, main_v22, main_v23, main_v24, main_v25]
set_option maxHeartbeats 4000000 in
theorem segB_writes : segB.Forall fun op => op.writes ⊆ (segB_W.map (Proc.devRef (τ := τ) .tc)).toFinset := by
  simp only [segB, hostOps0, List.take_succ_cons, List.take_zero, List.drop_succ_cons, List.drop_zero, List.Forall, StableHlo.nullary_writes, StableHlo.unary_writes,
    StableHlo.binary_writes, StableHlo.ternary_writes, StableHlo.reshape_writes, Finset.singleton_subset_iff, List.mem_toFinset]
  repeat' apply And.intro
  all_goals exact List.mem_map_of_mem (by decide)
/-- A reference they do not write keeps its contents. -/
theorem segB_frame (V : Valuation τ sig (Elt Ideal)) (r : Ref sig .tc) (h : r ∉ segB_W) :
    StableHlo.after segB V (Proc.devRef .tc r) = V (Proc.devRef .tc r) :=
  StableHlo.after_of_writes_sub segB V segB_writes h

/-- The edge weights added into the zero matrix (operations 34 to 53). -/
abbrev segC : List (HloOp τ sig (Elt Ideal)) := ((hostOps0 (F := Ideal)).drop 33).take 20
/-- The references those operations write. -/
abbrev segC_W : List (Ref sig .tc) := [main_cst_5, main_v26, main_c_6, main_v27, main_v28, main_c_7, main_v29, main_v30, main_v31, main_c_8, main_v32, main_v33, main_c_9, main_v34, main_v35, main_v36, main_v37, main_v38, main_v39, main_v40]
set_option maxHeartbeats 4000000 in
theorem segC_writes : segC.Forall fun op => op.writes ⊆ (segC_W.map (Proc.devRef (τ := τ) .tc)).toFinset := by
  simp only [segC, hostOps0, List.take_succ_cons, List.take_zero, List.drop_succ_cons, List.drop_zero, List.Forall, StableHlo.nullary_writes, StableHlo.unary_writes,
    StableHlo.binary_writes, StableHlo.ternary_writes, StableHlo.reshape_writes, Finset.singleton_subset_iff, List.mem_toFinset]
  repeat' apply And.intro
  all_goals exact List.mem_map_of_mem (by decide)
/-- A reference they do not write keeps its contents. -/
theorem segC_frame (V : Valuation τ sig (Elt Ideal)) (r : Ref sig .tc) (h : r ∉ segC_W) :
    StableHlo.after segC V (Proc.devRef .tc r) = V (Proc.devRef .tc r) :=
  StableHlo.after_of_writes_sub segC V segC_writes h

/-- The diagonal added and the change of format (operations 54 to 74). -/
abbrev segD : List (HloOp τ sig (Elt Ideal)) := ((hostOps0 (F := Ideal)).drop 53).take 21
/-- The references those operations write. -/
abbrev segD_W : List (Ref sig .tc) := [main_v41, main_v42, main_c_10, main_v43, main_v44, main_c_11, main_v45, main_v46, main_v47, main_c_12, main_v48, main_v49, main_c_13, main_v50, main_v51, main_v52, main_v53, main_v54, main_v55, main_v56, main_v57]
set_option maxHeartbeats 4000000 in
theorem segD_writes : segD.Forall fun op => op.writes ⊆ (segD_W.map (Proc.devRef (τ := τ) .tc)).toFinset := by
  simp only [segD, hostOps0, List.take_succ_cons, List.take_zero, List.drop_succ_cons, List.drop_zero, List.Forall, StableHlo.nullary_writes, StableHlo.unary_writes,
    StableHlo.binary_writes, StableHlo.ternary_writes, StableHlo.reshape_writes, Finset.singleton_subset_iff, List.mem_toFinset]
  repeat' apply And.intro
  all_goals exact List.mem_map_of_mem (by decide)
/-- A reference they do not write keeps its contents. -/
theorem segD_frame (V : Valuation τ sig (Elt Ideal)) (r : Ref sig .tc) (h : r ∉ segD_W) :
    StableHlo.after segD V (Proc.devRef .tc r) = V (Proc.devRef .tc r) :=
  StableHlo.after_of_writes_sub segD V segD_writes h

/-- The padded node rows and the two biases as rows (operations 75 to 81). -/
abbrev segE : List (HloOp τ sig (Elt Ideal)) := (hostOps0 (F := Ideal)).drop 74
/-- The references those operations write. -/
abbrev segE_W : List (Ref sig .tc) := [main_cst_14, main_v58, main_c_15, main_v59, main_v60, main_v61, main_v62]
set_option maxHeartbeats 4000000 in
theorem segE_writes : segE.Forall fun op => op.writes ⊆ (segE_W.map (Proc.devRef (τ := τ) .tc)).toFinset := by
  simp only [segE, hostOps0, List.take_succ_cons, List.take_zero, List.drop_succ_cons, List.drop_zero, List.Forall, StableHlo.nullary_writes, StableHlo.unary_writes,
    StableHlo.binary_writes, StableHlo.ternary_writes, StableHlo.reshape_writes, Finset.singleton_subset_iff, List.mem_toFinset]
  repeat' apply And.intro
  all_goals exact List.mem_map_of_mem (by decide)
/-- A reference they do not write keeps its contents. -/
theorem segE_frame (V : Valuation τ sig (Elt Ideal)) (r : Ref sig .tc) (h : r ∉ segE_W) :
    StableHlo.after segE V (Proc.devRef .tc r) = V (Proc.devRef .tc r) :=
  StableHlo.after_of_writes_sub segE V segE_writes h

theorem hostOps0_split : (hostOps0 (F := Ideal)) = segA ++ (segB ++ (segC ++ (segD ++ segE))) := by rfl

/-- The whole stretch is its five parts in turn. -/
theorem after_hostOps0 (W : Valuation τ sig (Elt Ideal)) :
    StableHlo.after (hostOps0 (F := Ideal)) W
      = StableHlo.after segE (StableHlo.after segD (StableHlo.after segC (StableHlo.after segB (StableHlo.after segA W)))) :=
  (congrArg (fun l => StableHlo.after l W) hostOps0_split).trans (by simp only [after_append])

/-! ## Each part's results, as the composed operations -/

section Parts
variable (V : Valuation τ sig (Elt Ideal))

set_option maxHeartbeats 4000000 in
theorem segA_v1 : (StableHlo.after segA V (Proc.devRef .tc main_v1) : S640000.Idx → BitVec 32)
    = srcT (V (Proc.devRef .tc main_arg1)) := by
  simp only [segA, hostOps0, List.take_succ_cons, List.take_zero, List.drop_succ_cons, List.drop_zero]
  after_results
  all_goals rfl
set_option maxHeartbeats 4000000 in
theorem segA_v3 : (StableHlo.after segA V (Proc.devRef .tc main_v3) : S640000.Idx → BitVec 32)
    = dstT (V (Proc.devRef .tc main_arg1)) := by
  simp only [segA, hostOps0, List.take_succ_cons, List.take_zero, List.drop_succ_cons, List.drop_zero]
  after_results
  all_goals rfl
set_option maxHeartbeats 4000000 in
theorem segA_v10 : (StableHlo.after segA V (Proc.devRef .tc main_v10) : S10000.Idx → EReal)
    = dinvT (V (Proc.devRef .tc main_arg1)) := by
  simp only [segA, hostOps0, List.take_succ_cons, List.take_zero, List.drop_succ_cons, List.drop_zero]
  after_results
  all_goals rfl
set_option maxHeartbeats 4000000 in
theorem segB_v25 : (StableHlo.after segB V (Proc.devRef .tc main_v25) : S640000.Idx → EReal)
    = normT (V (Proc.devRef .tc main_v10)) (V (Proc.devRef .tc main_v1)) (V (Proc.devRef .tc main_v3)) := by
  simp only [segB, hostOps0, List.take_succ_cons, List.take_zero, List.drop_succ_cons, List.drop_zero]
  after_results
  all_goals rfl
set_option maxHeartbeats 4000000 in
theorem segC_v40 : (StableHlo.after segC V (Proc.devRef .tc main_v40) : S10240x10240.Idx → EReal)
    = adjET (V (Proc.devRef .tc main_v1)) (V (Proc.devRef .tc main_v3)) (V (Proc.devRef .tc main_v25)) := by
  simp only [segC, hostOps0, List.take_succ_cons, List.take_zero, List.drop_succ_cons, List.drop_zero]
  after_results
  all_goals rfl
set_option maxHeartbeats 4000000 in
theorem segD_v57 : (StableHlo.after segD V (Proc.devRef .tc main_v57) : S10240x10240.Idx → EReal)
    = adjT (V (Proc.devRef .tc main_v10)) (V (Proc.devRef .tc main_v40)) := by
  simp only [segD, hostOps0, List.take_succ_cons, List.take_zero, List.drop_succ_cons, List.drop_zero]
  after_results
  all_goals rfl

end Parts

/-! ## The adjacency handed to both launches -/

/-- After the first stretch the matrix both launches read is the padded normalized adjacency with self loops, of the
    edge array's sources and targets. -/
theorem adj_spec (W : Valuation τ sig (Elt Ideal)) :
    (StableHlo.after (hostOps0 (F := Ideal)) W (Proc.devRef .tc main_v57) : S10240x10240.Idx → EReal)
      = fun i => Spec.adj (Spec.srcs (W (Proc.devRef .tc main_arg1))) (Spec.dsts (W (Proc.devRef .tc main_arg1))) (i 0) (i 1) := by
  rw [after_hostOps0, segE_frame _ main_v57 (by decide), segD_v57, segC_frame _ main_v10 (by decide),
    segB_frame _ main_v10 (by decide), segA_v10, segC_v40, segB_frame _ main_v1 (by decide),
    segB_frame _ main_v3 (by decide), segA_v1, segA_v3, segB_v25, segA_v10, segA_v1, segA_v3]
  funext i
  obtain ⟨p, q, rfl⟩ : ∃ (p q : Fin 10240), i = ix2 p q := ⟨i 0, i 1, eq_ix2 i⟩
  show adjT _ _ (ix2 p q) = Spec.adj _ _ p q
  rw [adjT_apply, adjET_apply]
  simp only [normT_apply, dinvT_apply, srcT_apply, dstT_apply]
  rfl

end Cert.KernelHost
end
-- ==== Proof.KernelPad.lean ====
/-
  The kernel program's first host stretch, read at two of its buffers: the node rows padded with zero rows to
  10240, and the two bias vectors seen as one-row matrices.
-/
import proofs.«151618_j80324478369804_1_alg».proof.Proof.Gen.KernelIdeal.Launch
import proofs.«151618_j80324478369804_1_alg».proof.Proof.Spec
import proofs.«151618_j80324478369804_1_alg».proof.Proof.LibGatherScatterRows
import Idealize.ShloMosaic.Lib.StableHlo.Run
import Idealize.ShloMosaic.Lib.ValueIdx
import Idealize.ShloMosaic.Lib.ValueLayout
import Idealize.ShloMosaic.PureOps.Ideal.Laws

noncomputable section

namespace Cert.KernelPad

open Cert.KernelIdeal Cert.KernelIdeal.Gen Idealize.ShloMosaic Idealize.ShloMosaic.TcCoe
  Idealize.SL.Sem Idealize.ShloMosaic.StableHlo Idealize.ShloMosaic.ValueIdx Cert.LibGatherScatterRows
open scoped BigOperators

/-! ## A block written over the top rows of a matrix -/

section SetFold
variable {I J α : Type} (g : J → Option I) (step : (I → α) → J → (I → α)) (val : J → α) (i : I)

/-- A fold of writes leaves an element no write lands at as it was. -/
theorem foldl_miss (hmiss : ∀ r n, g n ≠ some i → step r n i = r i) :
    ∀ (l : List J) (x : I → α), (∀ n ∈ l, g n ≠ some i) → l.foldl step x i = x i
  | [], _, _ => rfl
  | n :: l, x, h => by
    rw [List.foldl_cons, foldl_miss hmiss l _ fun m hm => h m (List.mem_cons_of_mem _ hm),
      hmiss x n (h n List.mem_cons_self)]

/-- A fold of writes, every one of which that lands at an element writes `v` there, keeps `v` there … -/
theorem foldl_keep (hmiss : ∀ r n, g n ≠ some i → step r n i = r i) (hhit : ∀ r n, g n = some i → step r n i = val n)
    (v : α) : ∀ (l : List J) (x : I → α), (∀ n ∈ l, g n = some i → val n = v) → x i = v → l.foldl step x i = v
  | [], _, _, hx => hx
  | n :: l, x, h, hx => by
    rw [List.foldl_cons]
    refine foldl_keep hmiss hhit v l _ (fun m hm => h m (List.mem_cons_of_mem _ hm)) ?_
    by_cases hn : g n = some i
    · rw [hhit x n hn]; exact h n List.mem_cons_self hn
    · rw [hmiss x n hn]; exact hx

/-- … and leaves `v` there once one of them lands. -/
theorem foldl_hit (hmiss : ∀ r n, g n ≠ some i → step r n i = r i) (hhit : ∀ r n, g n = some i → step r n i = val n)
    (v : α) : ∀ (l : List J) (x : I → α), (∀ n ∈ l, g n = some i → val n = v) → (∃ n ∈ l, g n = some i) →
      l.foldl step x i = v
  | [], _, _, ⟨_, hn, _⟩ => absurd hn List.not_mem_nil
  | n :: l, x, h, ⟨m, hm, hgm⟩ => by
    rw [List.foldl_cons]
    by_cases hn : g n = some i
    · exact foldl_keep g step val i hmiss hhit v l _ (fun m hm => h m (List.mem_cons_of_mem _ hm))
        (by rw [hhit x n hn]; exact h n List.mem_cons_self hn)
    · refine foldl_hit hmiss hhit v l _ (fun m hm => h m (List.mem_cons_of_mem _ hm)) ⟨m, ?_, hgm⟩
      rcases List.mem_cons.mp hm with rfl | hm'
      · exact absurd hgm hn
      · exact hm'

end SetFold

/-- One step of a scatter's fold: the update with row-major number `n`, written where it lands (or dropped). -/
def scatterStep {s si u : Shape} {α : Type} {w : Nat} (d : ScatterDims s si u) (f : α → α → α) (idx : IVec si w)
    (upd : u.Idx → α) (r : s.Idx → α) (n : Fin u.numel) : s.Idx → α :=
  match d.resultIdx? (u.rowMajor.symm n) idx with
  | some i => fun i' => if i' = i then f (r i) (upd (u.rowMajor.symm n)) else r i'
  | none => r

theorem scatter_eq_foldl {s si u : Shape} {α : Type} {w : Nat} (d : ScatterDims s si u) (f : α → α → α)
    (x : s.Idx → α) (idx : IVec si w) (upd : u.Idx → α) :
    Host.scatter d f x idx upd = (List.finRange u.numel).foldl (scatterStep d f idx upd) x := rfl

theorem scatterStep_miss {s si u : Shape} {α : Type} {w : Nat} (d : ScatterDims s si u) (f : α → α → α) (idx : IVec si w)
    (upd : u.Idx → α) (i : s.Idx) (r : s.Idx → α) (n : Fin u.numel)
    (h : d.resultIdx? (u.rowMajor.symm n) idx ≠ some i) : scatterStep d f idx upd r n i = r i := by
  unfold scatterStep
  generalize d.resultIdx? (u.rowMajor.symm n) idx = o at h
  cases o with
  | none => rfl
  | some i0 =>
    show (if i = i0 then _ else r i) = r i
    rw [if_neg]
    rintro rfl
    exact h rfl

theorem scatterStep_hit {s si u : Shape} {α : Type} {w : Nat} (d : ScatterDims s si u) (idx : IVec si w)
    (upd : u.Idx → α) (i : s.Idx) (r : s.Idx → α) (n : Fin u.numel)
    (h : d.resultIdx? (u.rowMajor.symm n) idx = some i) :
    scatterStep d (fun _ b => b) idx upd r n i = upd (u.rowMajor.symm n) := by
  unfold scatterStep
  rw [h]
  exact if_pos rfl

/-- The dimension numbers of a scatter of ONE `R × D` block into an `N × D` matrix at the row held in a one-entry
    index: both update axes are window axes, no operand axis is inserted, the index names the row axis. -/
abbrev blockScatterDims (N D R : Nat) (wf : ScatterDims.WF ⟨2, ![N, D]⟩ ⟨1, ![1]⟩ ⟨2, ![R, D]⟩ [0, 1] [] [0] 0) :
    ScatterDims ⟨2, ![N, D]⟩ ⟨1, ![1]⟩ ⟨2, ![R, D]⟩ where
  updateWindowDims := [0, 1]
  insertedWindowDims := []
  scatterDimsToOperandDims := [0]
  indexVectorDim := 0
  wf := wf

section BlockScatter
variable {N D R w : Nat} (wf : ScatterDims.WF ⟨2, ![N, D]⟩ ⟨1, ![1]⟩ ⟨2, ![R, D]⟩ [0, 1] [] [0] 0)

theorem blockScatter_start_row (idx : IVec ⟨1, ![1]⟩ w) (r : Fin R) (q : Fin D) :
    (blockScatterDims N D R wf).start (ix2 r q) idx 0 = (idx (ix1 0)).toInt := by
  unfold ScatterDims.start
  rw [dif_pos (show (0 : Fin 2) ∈ (blockScatterDims N D R wf).scatterDimsToOperandDims from List.mem_singleton.mpr rfl)]
  have hsi : (blockScatterDims N D R wf).siIdx (ix2 r q)
      ⟨List.idxOf (0 : Fin 2) (blockScatterDims N D R wf).scatterDimsToOperandDims,
        List.idxOf_lt_length_iff.2 (List.mem_singleton.mpr rfl)⟩ = ix1 0 := by
    funext b; refine Fin.ext ?_
    match b with
    | ⟨0, _⟩ => rfl
  rw [hsi]

theorem blockScatter_start_col (idx : IVec ⟨1, ![1]⟩ w) (r : Fin R) (q : Fin D) :
    (blockScatterDims N D R wf).start (ix2 r q) idx 1 = 0 := by
  unfold ScatterDims.start
  rw [dif_neg (show (1 : Fin 2) ∉ (blockScatterDims N D R wf).scatterDimsToOperandDims from
    LibGatherScatterRows.one_not_mem_zero rfl)]

theorem blockScatter_window_row (r : Fin R) (q : Fin D) : (blockScatterDims N D R wf).window (ix2 r q) 0 = r.val := by
  unfold ScatterDims.window
  rw [dif_pos (show (0 : Fin 2) ∈ (blockScatterDims N D R wf).sKept from
    (LibGatherScatterRows.mem_kept _ _).mpr List.not_mem_nil)]
  rfl

theorem blockScatter_window_col (r : Fin R) (q : Fin D) : (blockScatterDims N D R wf).window (ix2 r q) 1 = q.val := by
  unfold ScatterDims.window
  rw [dif_pos (show (1 : Fin 2) ∈ (blockScatterDims N D R wf).sKept from
    (LibGatherScatterRows.mem_kept _ _).mpr List.not_mem_nil)]
  rfl

/-- WHERE A BLOCK ENTRY LANDS: entry `(r, q)` lands at `(i, k)` exactly when the start row plus `r` is `i` and the
    columns agree. -/
theorem blockScatter_resultIdx?_eq_some_iff (idx : IVec ⟨1, ![1]⟩ w) (r : Fin R) (q : Fin D) (i : Fin N) (k : Fin D) :
    (blockScatterDims N D R wf).resultIdx? (ix2 r q) idx = some (ix2 i k)
      ↔ ((idx (ix1 0)).toInt + (r.val : ℤ) = (i.val : ℤ) ∧ q = k) := by
  rw [LibGatherScatterRows.resultIdx?_eq_some_iff]
  constructor
  · intro h
    have h0 := h 0
    have h1 := h 1
    rw [blockScatter_start_row, blockScatter_window_row] at h0
    rw [blockScatter_start_col, blockScatter_window_col] at h1
    simp only [zero_add, Nat.cast_inj] at h1
    exact ⟨h0, Fin.ext h1⟩
  · rintro ⟨h0, rfl⟩ a
    match a with
    | ⟨0, _⟩ =>
      show (blockScatterDims N D R wf).start (ix2 r q) idx 0 + ((blockScatterDims N D R wf).window (ix2 r q) 0 : ℤ) = _
      rw [blockScatter_start_row, blockScatter_window_row, h0]
    | ⟨1, _⟩ =>
      show (blockScatterDims N D R wf).start (ix2 r q) idx 1 + ((blockScatterDims N D R wf).window (ix2 r q) 1 : ℤ) = _
      rw [blockScatter_start_col, blockScatter_window_col]; simp

end BlockScatter

/-- A BLOCK WRITTEN AT ROW 0 READ AT `(i, k)`: the block's entry on the rows the block covers, the operand's below
    them. -/
theorem scatter_block_apply {N D R w : Nat} {α : Type}
    (d : ScatterDims ⟨2, ![N, D]⟩ ⟨1, ![1]⟩ ⟨2, ![R, D]⟩)
    (wf : ScatterDims.WF ⟨2, ![N, D]⟩ ⟨1, ![1]⟩ ⟨2, ![R, D]⟩ [0, 1] [] [0] 0)
    (hd : d = blockScatterDims N D R wf)
    (x : (⟨2, ![N, D]⟩ : Shape).Idx → α) (idx : IVec ⟨1, ![1]⟩ w) (hidx : (idx (ix1 0)).toInt = 0)
    (upd : (⟨2, ![R, D]⟩ : Shape).Idx → α) (i : Fin N) (k : Fin D) :
    Host.scatter d (fun _ b => b) x idx upd (ix2 i k)
      = if h : i.val < R then upd (ix2 ⟨i.val, h⟩ k) else x (ix2 i k) := by
  subst hd
  rw [scatter_eq_foldl]
  have hmiss := scatterStep_miss (blockScatterDims N D R wf) (fun _ b => b) idx upd (ix2 i k)
  have hhit := scatterStep_hit (blockScatterDims N D R wf) idx upd (ix2 i k)
  by_cases h : i.val < R
  · rw [dif_pos h]
    refine foldl_hit (fun n => (blockScatterDims N D R wf).resultIdx? ((⟨2, ![R, D]⟩ : Shape).rowMajor.symm n) idx) _
      (fun n => upd ((⟨2, ![R, D]⟩ : Shape).rowMajor.symm n)) (ix2 i k) hmiss hhit _ _ x ?_ ?_
    · intro n _ hn
      obtain ⟨r, q, hrq⟩ : ∃ r q, (⟨2, ![R, D]⟩ : Shape).rowMajor.symm n = ix2 r q := ⟨_, _, eq_ix2 _⟩
      simp only [hrq, blockScatter_resultIdx?_eq_some_iff] at hn ⊢
      obtain ⟨h1, rfl⟩ := hn
      congr 2
      refine Fin.ext ?_
      show r.val = i.val
      omega
    · refine ⟨(⟨2, ![R, D]⟩ : Shape).rowMajor (ix2 ⟨i.val, h⟩ k), List.mem_finRange _, ?_⟩
      rw [Equiv.symm_apply_apply, blockScatter_resultIdx?_eq_some_iff]
      exact ⟨by rw [hidx]; simp, rfl⟩
  · rw [dif_neg h]
    refine foldl_miss (fun n => (blockScatterDims N D R wf).resultIdx? ((⟨2, ![R, D]⟩ : Shape).rowMajor.symm n) idx) _
      (ix2 i k) hmiss _ x ?_
    intro n _ hn
    obtain ⟨r, q, hrq⟩ : ∃ r q, (⟨2, ![R, D]⟩ : Shape).rowMajor.symm n = ix2 r q := ⟨_, _, eq_ix2 _⟩
    simp only [hrq, blockScatter_resultIdx?_eq_some_iff] at hn
    have := r.isLt
    omega

/-! ## The padded node rows, and the biases as one-row matrices -/

set_option maxRecDepth 8192 in
set_option maxHeartbeats 4000000 in
/-- The padded rows' buffer after the host stretch, as the operations' term of the launch contents. -/
theorem v60_term (W : Valuation τ sig (Elt Ideal)) :
    ((StableHlo.after hostOps0 W) (Proc.devRef .tc main_v60) : S10240x128.Idx → EReal)
      = Host.scatter scatter_S10240x128_S1_S10000x128_01_n_0_0 (fun _ b => b)
          (broadcastInDim S10240x128 ![] bcast_S_S10240x128 (constant (F := Ideal) S_ .f32 0x00000000#32))
          (broadcastInDim S1 ![] bcast_S_S1 (constantI S_ 32 0#32))
          (W (Proc.devRef .tc main_arg0)) := by
  dsimp only [hostOps0]; after_results_simp

set_option maxRecDepth 8192 in
set_option maxHeartbeats 4000000 in
theorem v61_term (W : Valuation τ sig (Elt Ideal)) :
    ((StableHlo.after hostOps0 W) (Proc.devRef .tc main_v61) : S1x128.Idx → EReal)
      = shapeCast S1x128 (W (Proc.devRef .tc main_arg4)) shapeCasts_S128_S1x128 := by
  dsimp only [hostOps0]; after_results_simp
  rfl

set_option maxRecDepth 8192 in
set_option maxHeartbeats 4000000 in
theorem v62_term (W : Valuation τ sig (Elt Ideal)) :
    ((StableHlo.after hostOps0 W) (Proc.devRef .tc main_v62) : S1x128.Idx → EReal)
      = shapeCast S1x128 (W (Proc.devRef .tc main_arg6)) shapeCasts_S128_S1x128 := by
  dsimp only [hostOps0]; after_results_simp
  rfl

/-- THE PADDED NODE ROWS: after the host stretch the padded buffer holds the node rows on the first 10000 rows and
    zero below them. -/
theorem v60_spec (W : Valuation τ sig (Elt Ideal)) :
    ((StableHlo.after hostOps0 W) (Proc.devRef .tc main_v60) : S10240x128.Idx → EReal)
      = fun i => Cert.Spec.pad (Spec.mat (W (Proc.devRef .tc main_arg0))) (i 0) (i 1) := by
  rw [v60_term]
  funext i
  obtain ⟨j, k, rfl⟩ : ∃ (j : Fin 10240) (k : Fin 128), i = ix2 j k := ⟨i 0, i 1, eq_ix2 i⟩
  rw [scatter_block_apply scatter_S10240x128_S1_S10000x128_01_n_0_0 scatter_S10240x128_S1_S10000x128_01_n_0_0_wf rfl
    _ _ (by rfl)]
  show _ = Cert.Spec.pad _ j k
  unfold Cert.Spec.pad
  by_cases h : j.val < 10000
  · rw [dif_pos h, dif_pos h]; rfl
  · rw [dif_neg h, dif_neg h]
    exact Ideal.ofBits_zero_f32

/-- THE FIRST BIAS as a one-row matrix. -/
theorem v61_spec (W : Valuation τ sig (Elt Ideal)) :
    ((StableHlo.after hostOps0 W) (Proc.devRef .tc main_v61) : S1x128.Idx → EReal)
      = fun i => Spec.vec (W (Proc.devRef .tc main_arg4)) (i 1) := by
  rw [v61_term]
  funext i
  obtain ⟨u, k, rfl⟩ : ∃ (u : Fin 1) (k : Fin 128), i = ix2 u k := ⟨i 0, i 1, eq_ix2 i⟩
  rw [shapeCast_a_1a_apply]
  rfl

/-- THE SECOND BIAS as a one-row matrix. -/
theorem v62_spec (W : Valuation τ sig (Elt Ideal)) :
    ((StableHlo.after hostOps0 W) (Proc.devRef .tc main_v62) : S1x128.Idx → EReal)
      = fun i => Spec.vec (W (Proc.devRef .tc main_arg6)) (i 1) := by
  rw [v62_term]
  funext i
  obtain ⟨u, k, rfl⟩ : ∃ (u : Fin 1) (k : Fin 128), i = ix2 u k := ⟨i 0, i 1, eq_ix2 i⟩
  rw [shapeCast_a_1a_apply]
  rfl

end Cert.KernelPad

end
-- ==== Proof.RefValue.lean ====
/-
  The reference program's result, read operation by operation, is the pooled and projected rows of two
  graph-convolution layers over the edges (Spec.lean's poolLinear of refRows).
-/
import proofs.«151618_j80324478369804_1_alg».proof.Proof.Gen.ReferenceIdeal.Read
import proofs.«151618_j80324478369804_1_alg».proof.Proof.Spec
import proofs.«151618_j80324478369804_1_alg».proof.Proof.LibGatherScatterRows
import Idealize.ShloMosaic.Lib.IdealHost

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.LibGatherScatterRows
open scoped BigOperators

/-- The programs' argument arrays at the ideal values. -/
abbrev EdgeArr := IVec S2x640000 32
abbrev NodeIds := IVec S10000 32
abbrev Rows := FVec Ideal S10000x128 .f32
abbrev Wt := FVec Ideal S128x128 .f32
abbrev Bias := FVec Ideal S128 .f32

/-! ## The two rows of the edge array -/

/-- Row 0 of the edge array, as a vector: the sources. -/
theorem v1_at (ei : EdgeArr) (e : Fin 640000) : val_main_v1 (F := Ideal) ei (ix1 e) = ei (ix2 0 e) := by
  rw [val_main_v1_apply, val_main_v0_apply]
  congr 1
  funext a; refine Fin.ext ?_
  match a with
  | ⟨0, _⟩ => rfl
  | ⟨1, _⟩ => exact Nat.mod_eq_of_lt e.isLt

/-- Row 1 of the edge array, as a vector: the targets. -/
theorem v3_at (ei : EdgeArr) (e : Fin 640000) : val_main_v3 (F := Ideal) ei (ix1 e) = ei (ix2 1 e) := by
  rw [val_main_v3_apply, val_main_v2_apply]
  congr 1
  funext a; refine Fin.ext ?_
  match a with
  | ⟨0, _⟩ => rfl
  | ⟨1, _⟩ => exact Nat.mod_eq_of_lt e.isLt

/-- The targets as a column of positions. -/
theorem v7_at (ei : EdgeArr) (e : Fin 640000) (u : Fin 1) : val_main_v7 (F := Ideal) ei (ix2 e u) = ei (ix2 1 e) := by
  rw [val_main_v7_apply]; exact v3_at ei e

/-! ## A negative index wrapped by the extent -/

theorem toInt_add_of_neg (w : BitVec 32) (h : w.toInt < 0) : (w + 10000#32).toInt = w.toInt + 10000 := by
  rw [BitVec.toInt_add]
  have h1 := BitVec.le_toInt w
  have h2 : (10000#32 : BitVec 32).toInt = 10000 := by decide
  rw [h2]
  apply Int.bmod_eq_of_le <;> omega

theorem slt_zero (w : BitVec 32) : (w.slt 0#32) = decide (w.toInt < 0) := by
  simp [BitVec.slt]

/-- The word selected by "negative: add 10000" reads, signed, as the wrapped signed reading: adding 10000 to a
    negative 32-bit number does not overflow. -/
theorem wrap_word (w : BitVec 32) :
    (Scalar.select (IntOp.cmpi .slt w 0#32) (IntOp.addi w 10000#32) w).toInt = Spec.wrapBy Spec.nNode w.toInt := by
  unfold Scalar.select IntOp.cmpi IntOp.addi Spec.wrapBy
  simp only [slt_zero]
  by_cases h : w.toInt < 0
  · simp only [h, decide_true, BitVec.ofBool_true, if_true]
    exact toInt_add_of_neg w h
  · simp only [h, decide_false, BitVec.ofBool_false, if_false]
    simp

/-! ## Degrees, their inverse square roots, the edge weights -/

/-- The scatter-add of ones at the targets: the number of edges into a node, on top of the zero operand. -/
theorem v8_at (ei : EdgeArr) (r : Fin 10000) :
    val_main_v8 (F := Ideal) ei (ix1 r)
      = 0 + ∑ e : Fin 640000, if Spec.dsts ei e = (r.val : ℤ) then (1 : EReal) else 0 := by
  unfold val_main_v8
  rw [scatterAdd_vec_apply scatter_S10000_S640000x1_S640000_n_0_0_1 scatter_S10000_S640000x1_S640000_n_0_0_1_wf rfl]
  simp only [val_main_v6_apply, val_main_cst_0_apply, val_main_v5_apply, val_main_cst_apply, v7_at, Ideal.ofBits_def,
    Ideal.ofBits_zero_f32, Ideal.ofBits_one_f32]
  rfl

theorem v10_at (ei : EdgeArr) (r : Fin 10000) : val_main_v10 (F := Ideal) ei (ix1 r) = Spec.deg (Spec.dsts ei) r := by
  rw [val_main_v10_apply, v8_at, val_main_v9_apply, val_main_cst_1_apply]
  simp only [Ideal.ofBits_def, Ideal.ofBits_one_f32, Ideal.addf_def]
  rfl

theorem v11_at (ei : EdgeArr) (r : Fin 10000) : val_main_v11 (F := Ideal) ei (ix1 r) = Spec.dinv (Spec.dsts ei) r := by
  rw [val_main_v11_apply, v10_at, Ideal.hostUnary_rsqrt_def]
  rfl

/-- The sources, wrapped, as a vector of words: read signed they are the wrapped sources. -/
theorem v16_at (ei : EdgeArr) (e : Fin 640000) :
    (val_main_v16 (F := Ideal) ei (ix1 e)).toInt = Spec.wrapBy Spec.nNode (Spec.srcs ei e) := by
  rw [val_main_v16_apply, val_main_v13_apply, val_main_v15_apply, val_main_v12_apply, val_main_c_apply,
    val_main_v14_apply, val_main_c_2_apply, v1_at]
  exact wrap_word _

theorem v17_at (ei : EdgeArr) (e : Fin 640000) (u : Fin 1) :
    val_main_v17 (F := Ideal) ei (ix2 e u) = val_main_v16 (F := Ideal) ei (ix1 e) := by
  rw [val_main_v17_apply]; rfl

/-- The targets, wrapped. -/
theorem v23_at (ei : EdgeArr) (e : Fin 640000) :
    (val_main_v23 (F := Ideal) ei (ix1 e)).toInt = Spec.wrapBy Spec.nNode (Spec.dsts ei e) := by
  rw [val_main_v23_apply, val_main_v20_apply, val_main_v22_apply, val_main_v19_apply, val_main_c_3_apply,
    val_main_v21_apply, val_main_c_4_apply, v3_at]
  exact wrap_word _

theorem v24_at (ei : EdgeArr) (e : Fin 640000) (u : Fin 1) :
    val_main_v24 (F := Ideal) ei (ix2 e u) = val_main_v23 (F := Ideal) ei (ix1 e) := by
  rw [val_main_v24_apply]; rfl

/-- A gather of entries of the inverse square roots at a column of positions: the entry of the clamped position. -/
theorem gather_dinv (ei : EdgeArr) (idx : (⟨S640000x1, .i32⟩ : BufTy).Contents (Elt Ideal)) (e : Fin 640000) :
    Host.gather gather_S10000_S640000x1_S640000_n_0_n_n_0_1_1 (val_main_v11 (F := Ideal) ei) idx (ix1 e)
      = Spec.dinv (Spec.dsts ei) (Spec.nodeOf (idx (ix2 e 0)).toInt) := by
  rw [gather_vec_apply (by decide) gather_S10000_S640000x1_S640000_n_0_n_n_0_1_1
    gather_S10000_S640000x1_S640000_n_0_n_n_0_1_1_wf rfl, v11_at]
  rfl

theorem v18_at (ei : EdgeArr) (e : Fin 640000) :
    val_main_v18 (F := Ideal) ei (ix1 e)
      = Spec.dinv (Spec.dsts ei) (Spec.nodeOf (Spec.wrapBy Spec.nNode (Spec.srcs ei e))) := by
  unfold val_main_v18
  rw [gather_dinv, v17_at, v16_at]

theorem v25_at (ei : EdgeArr) (e : Fin 640000) :
    val_main_v25 (F := Ideal) ei (ix1 e)
      = Spec.dinv (Spec.dsts ei) (Spec.nodeOf (Spec.wrapBy Spec.nNode (Spec.dsts ei e))) := by
  unfold val_main_v25
  rw [gather_dinv, v24_at, v23_at]

/-- The edge weights. -/
theorem v26_at (ei : EdgeArr) (e : Fin 640000) :
    val_main_v26 (F := Ideal) ei (ix1 e) = Spec.norm (Spec.srcs ei) (Spec.dsts ei) e := by
  rw [val_main_v26_apply, v18_at, v25_at, Ideal.mulf_def]
  rfl

theorem v35_at (ei : EdgeArr) (e : Fin 640000) (q : Fin 128) :
    val_main_v35 (F := Ideal) ei (ix2 e q) = Spec.norm (Spec.srcs ei) (Spec.dsts ei) e := by
  rw [val_main_v35_apply, val_main_v34_apply]
  exact v26_at ei e

/-- The wrapped sources again, as the column the row gather reads. -/
theorem v32_at (ei : EdgeArr) (e : Fin 640000) (u : Fin 1) :
    (val_main_v32 (F := Ideal) ei (ix2 e u)).toInt = Spec.wrapBy Spec.nNode (Spec.srcs ei e) := by
  rw [val_main_v32_apply]
  show (val_main_v31 (F := Ideal) ei (ix1 e)).toInt = _
  rw [val_main_v31_apply, val_main_v28_apply, val_main_v30_apply, val_main_v27_apply, val_main_c_5_apply,
    val_main_v29_apply, val_main_c_6_apply, v1_at]
  exact wrap_word _

theorem v38_at (ei : EdgeArr) (e : Fin 640000) (u : Fin 1) :
    (val_main_v38 (F := Ideal) ei (ix2 e u)).toInt = Spec.dsts ei e := by
  rw [val_main_v38_apply]; exact congrArg BitVec.toInt (v3_at ei e)

/-- The squared inverse square roots, spread along the rows. -/
theorem v42_at (ei : EdgeArr) (r : Fin 10000) (q : Fin 128) :
    val_main_v42 (F := Ideal) ei (ix2 r q) = Spec.dinv (Spec.dsts ei) r * Spec.dinv (Spec.dsts ei) r := by
  have hi : idx_main_v41 (idx_main_v42 (ix2 r q)) = ix1 r := by
    funext a; refine Fin.ext ?_
    match a with
    | ⟨0, _⟩ => rfl
  rw [val_main_v42_apply, val_main_v41_apply, hi, val_main_v40_apply, v11_at, Ideal.mulf_def]

/-- A bias spread along the rows. -/
theorem v46_at (b : Bias) (r : Fin 10000) (q : Fin 128) : val_main_v46 (F := Ideal) b (ix2 r q) = b (ix1 q) := by
  have hi : idx_main_v45 (idx_main_v46 (ix2 r q)) = ix1 q := by
    funext a; refine Fin.ext ?_
    match a with
    | ⟨0, _⟩ => rfl
  rw [val_main_v46_apply, val_main_v45_apply, hi]

/-- A gather of whole rows at a column of positions: the row of the clamped position. -/
theorem gather_rows_at (P : Rows) (idx : (⟨S640000x1, .i32⟩ : BufTy).Contents (Elt Ideal)) (e : Fin 640000) (q : Fin 128) :
    Host.gather gather_S10000x128_S640000x1_S640000x128_1_0_n_n_0_1_1128 P idx (ix2 e q)
      = P (ix2 (Spec.nodeOf (idx (ix2 e 0)).toInt) q) := by
  rw [gather_rows_apply (by decide) gather_S10000x128_S640000x1_S640000x128_1_0_n_n_0_1_1128
    gather_S10000x128_S640000x1_S640000x128_1_0_n_n_0_1_1128_wf rfl]
  rfl

/-! ## One layer -/

/-- The operations of one layer after its projection, applied to projected rows `P` and a bias `b`: gather the
    source rows, weight them, add them up at the targets, add the self term and the bias, clamp at zero. Both layers
    of the program are this term. -/
def layerOps (ei : EdgeArr) (P : Rows) (b : Bias) : Rows :=
  maximumf (addf (addf
    (Host.scatterAdd scatter_S10000x128_S640000x1_S640000x128_1_0_0_1 (val_main_v37 (F := Ideal)) (val_main_v38 (F := Ideal) ei)
      (mulf (Host.gather gather_S10000x128_S640000x1_S640000x128_1_0_n_n_0_1_1128 P (val_main_v32 (F := Ideal) ei))
        (val_main_v35 (F := Ideal) ei)))
    (mulf P (val_main_v42 (F := Ideal) ei))) (val_main_v46 (F := Ideal) b)) (val_main_call0_v0 (F := Ideal))

theorem v48_eq (x0 : Rows) (ei : EdgeArr) (x3 : Wt) (x4 : Bias) :
    val_main_v48 (F := Ideal) x0 ei x3 x4 = layerOps ei (val_main_v4 (F := Ideal) x0 x3) x4 := rfl

theorem v93_eq (x0 : Rows) (ei : EdgeArr) (x3 : Wt) (x4 : Bias) (x5 : Wt) (x6 : Bias) :
    val_main_v93 (F := Ideal) x0 ei x3 x4 x5 x6 = layerOps ei (val_main_v49 (F := Ideal) x0 ei x3 x4 x5) x6 := rfl

/-- One layer read at a node and a feature. -/
theorem layerOps_apply (ei : EdgeArr) (P : Rows) (b : Bias) (r : Fin 10000) (q : Fin 128) :
    layerOps ei P b (ix2 r q)
      = max (((0 + ∑ e : Fin 640000, if Spec.dsts ei e = (r.val : ℤ)
                then P (ix2 (Spec.nodeOf (Spec.wrapBy Spec.nNode (Spec.srcs ei e))) q) * Spec.norm (Spec.srcs ei) (Spec.dsts ei) e else 0)
              + P (ix2 r q) * (Spec.dinv (Spec.dsts ei) r * Spec.dinv (Spec.dsts ei) r)) + b (ix1 q)) 0 := by
  unfold layerOps
  rw [maximumf_apply, addf_apply, addf_apply, mulf_apply,
    scatterAdd_rows_apply scatter_S10000x128_S640000x1_S640000x128_1_0_0_1
      scatter_S10000x128_S640000x1_S640000x128_1_0_0_1_wf rfl]
  simp only [mulf_apply, gather_rows_at, v32_at, v38_at, v35_at, v42_at, v46_at, val_main_v37_apply, val_main_cst_7_apply,
    val_main_call0_v0_apply, val_main_call0_cst_apply, Ideal.ofBits_def, Ideal.ofBits_zero_f32]

/-! ## The two layers -/

/-- The first projection: the node features times the first weight matrix. -/
theorem v4_at (x0 : Rows) (x3 : Wt) (r : Fin 10000) (q : Fin 128) :
    val_main_v4 (F := Ideal) x0 x3 (ix2 r q) = Spec.proj (Spec.mat x0) (Spec.mat x3) r q := by
  rw [val_main_v4_apply]
  refine Finset.sum_congr rfl fun k _ => ?_
  have hl : lidx_main_v4 (ix2 r q) k = ix2 r k := by
    funext a; refine Fin.ext ?_
    match a with
    | ⟨0, _⟩ => rfl
    | ⟨1, _⟩ => rfl
  have hr : ridx_main_v4 (ix2 r q) k = ix2 k q := by
    funext a; refine Fin.ext ?_
    match a with
    | ⟨0, _⟩ => rfl
    | ⟨1, _⟩ => rfl
  rw [hl, hr]
  rfl

/-- The node rows after the first layer. -/
theorem v48_at (x0 : Rows) (ei : EdgeArr) (x3 : Wt) (x4 : Bias) (r : Fin 10000) (q : Fin 128) :
    val_main_v48 (F := Ideal) x0 ei x3 x4 (ix2 r q)
      = max (Spec.convRef (Spec.srcs ei) (Spec.dsts ei) (Spec.mat x0) (Spec.mat x3) (Spec.vec x4) r q) 0 := by
  rw [v48_eq, layerOps_apply]
  simp only [v4_at]
  rfl

/-- The second projection: the first layer's rows times the second weight matrix. -/
theorem v49_at (x0 : Rows) (ei : EdgeArr) (x3 : Wt) (x4 : Bias) (x5 : Wt) (r : Fin 10000) (q : Fin 128) :
    val_main_v49 (F := Ideal) x0 ei x3 x4 x5 (ix2 r q)
      = Spec.proj (fun r q => max (Spec.convRef (Spec.srcs ei) (Spec.dsts ei) (Spec.mat x0) (Spec.mat x3) (Spec.vec x4) r q) 0)
          (Spec.mat x5) r q := by
  rw [val_main_v49_apply]
  refine Finset.sum_congr rfl fun k _ => ?_
  have hl : lidx_main_v49 (ix2 r q) k = ix2 r k := by
    funext a; refine Fin.ext ?_
    match a with
    | ⟨0, _⟩ => rfl
    | ⟨1, _⟩ => rfl
  have hr : ridx_main_v49 (ix2 r q) k = ix2 k q := by
    funext a; refine Fin.ext ?_
    match a with
    | ⟨0, _⟩ => rfl
    | ⟨1, _⟩ => rfl
  rw [hl, hr, v48_at]
  rfl

/-- The node rows after both layers. -/
theorem v93_at (x0 : Rows) (ei : EdgeArr) (x3 : Wt) (x4 : Bias) (x5 : Wt) (x6 : Bias) (r : Fin 10000) (q : Fin 128) :
    val_main_v93 (F := Ideal) x0 ei x3 x4 x5 x6 (ix2 r q)
      = Spec.refRows (Spec.srcs ei) (Spec.dsts ei) (Spec.mat x0) (Spec.mat x3) (Spec.vec x4) (Spec.mat x5) (Spec.vec x6) r q := by
  rw [v93_eq, layerOps_apply]
  simp only [v49_at]
  rfl

/-! ## The pooling and the last linear layer -/

theorem v95_at (bt : NodeIds) (r : Fin 10000) (u : Fin 1) :
    (val_main_v95 (F := Ideal) bt (ix2 r u)).toInt = Spec.ids bt r := by
  have hi : idx_main_v95 (ix2 r u) = ix1 r := by
    funext a; refine Fin.ext ?_
    match a with
    | ⟨0, _⟩ => rfl
  rw [val_main_v95_apply, hi]
  rfl

theorem v99_at (bt : NodeIds) (r : Fin 10000) (u : Fin 1) :
    (val_main_v99 (F := Ideal) bt (ix2 r u)).toInt = Spec.ids bt r := by
  have hi : idx_main_v99 (ix2 r u) = ix1 r := by
    funext a; refine Fin.ext ?_
    match a with
    | ⟨0, _⟩ => rfl
  rw [val_main_v99_apply, hi]
  rfl

/-- Per graph and feature, the sum of its nodes' rows. -/
theorem v96_at (x0 : Rows) (ei : EdgeArr) (bt : NodeIds) (x3 : Wt) (x4 : Bias) (x5 : Wt) (x6 : Bias) (g : Fin 64) (q : Fin 128) :
    val_main_v96 (F := Ideal) x0 ei bt x3 x4 x5 x6 (ix2 g q)
      = 0 + ∑ r : Fin 10000, if Spec.ids bt r = (g.val : ℤ)
          then Spec.refRows (Spec.srcs ei) (Spec.dsts ei) (Spec.mat x0) (Spec.mat x3) (Spec.vec x4) (Spec.mat x5) (Spec.vec x6) r q else 0 := by
  unfold val_main_v96
  rw [scatterAdd_rows_apply scatter_S64x128_S10000x1_S10000x128_1_0_0_1 scatter_S64x128_S10000x1_S10000x128_1_0_0_1_wf rfl]
  simp only [v95_at, v93_at, val_main_v94_apply, val_main_cst_18_apply, Ideal.ofBits_def, Ideal.ofBits_zero_f32]

/-- Per graph, the number of its nodes, at least one. -/
theorem v102_at (bt : NodeIds) (g : Fin 64) :
    val_main_v102 (F := Ideal) bt (ix1 g)
      = max (0 + ∑ r : Fin 10000, if Spec.ids bt r = (g.val : ℤ) then (1 : EReal) else 0) 1 := by
  rw [val_main_v102_apply]
  unfold val_main_v100
  rw [scatterAdd_vec_apply scatter_S64_S10000x1_S10000_n_0_0_1 scatter_S64_S10000x1_S10000_n_0_0_1_wf rfl]
  simp only [v99_at, val_main_v98_apply, val_main_cst_20_apply, val_main_v97_apply, val_main_cst_19_apply,
    val_main_v101_apply, val_main_cst_21_apply, Ideal.ofBits_def, Ideal.ofBits_zero_f32, Ideal.ofBits_one_f32,
    Ideal.maximumf_def]

theorem v104_at (bt : NodeIds) (g : Fin 64) (q : Fin 128) :
    val_main_v104 (F := Ideal) bt (ix2 g q)
      = max (0 + ∑ r : Fin 10000, if Spec.ids bt r = (g.val : ℤ) then (1 : EReal) else 0) 1 := by
  have hi : idx_main_v103 (idx_main_v104 (ix2 g q)) = ix1 g := by
    funext a; refine Fin.ext ?_
    match a with
    | ⟨0, _⟩ => rfl
  rw [val_main_v104_apply, val_main_v103_apply, hi, v102_at]

theorem v108_at (bl : FVec Ideal S10 .f32) (g : Fin 64) (c : Fin 10) :
    val_main_v108 (F := Ideal) bl (ix2 g c) = bl (ix1 c) := by
  have hi : idx_main_v107 (idx_main_v108 (ix2 g c)) = ix1 c := by
    funext a; refine Fin.ext ?_
    match a with
    | ⟨0, _⟩ => rfl
  rw [val_main_v108_apply, val_main_v107_apply, hi]

/-- The pooled rows: per graph and feature, the mean of its nodes' rows. -/
theorem v105_at (x0 : Rows) (ei : EdgeArr) (bt : NodeIds) (x3 : Wt) (x4 : Bias) (x5 : Wt) (x6 : Bias) (g : Fin 64) (q : Fin 128) :
    val_main_v105 (F := Ideal) x0 ei bt x3 x4 x5 x6 (ix2 g q)
      = Ideal.div (0 + ∑ r : Fin 10000, if Spec.ids bt r = (g.val : ℤ)
          then Spec.refRows (Spec.srcs ei) (Spec.dsts ei) (Spec.mat x0) (Spec.mat x3) (Spec.vec x4) (Spec.mat x5) (Spec.vec x6) r q else 0)
          (max (0 + ∑ r : Fin 10000, if Spec.ids bt r = (g.val : ℤ) then (1 : EReal) else 0) 1) := by
  rw [val_main_v105_apply, v96_at, v104_at, Ideal.hostDivf_def]

/-- The result read at a graph and a class. -/
theorem v109_at (x : Rows) (ei : EdgeArr) (bt : NodeIds) (W1 : Wt) (b1 : Bias) (W2 : Wt) (b2 : Bias)
    (Wl : FVec Ideal S128x10 .f32) (bl : FVec Ideal S10 .f32) (g : Fin 64) (c : Fin 10) :
    val_main_v109 (F := Ideal) x ei bt W1 b1 W2 b2 Wl bl (ix2 g c)
      = Spec.poolLinear (Spec.ids bt)
          (Spec.refRows (Spec.srcs ei) (Spec.dsts ei) (Spec.mat x) (Spec.mat W1) (Spec.vec b1) (Spec.mat W2) (Spec.vec b2))
          (Spec.mat Wl) (Spec.vec bl) g c := by
  rw [val_main_v109_apply, val_main_v106_apply, v108_at, Ideal.addf_def]
  unfold Spec.poolLinear
  refine congrArg (· + bl (ix1 c)) ?_
  refine Finset.sum_congr rfl fun k _ => ?_
  have hl : lidx_main_v106 (ix2 g c) k = ix2 g k := by
    funext a; refine Fin.ext ?_
    match a with
    | ⟨0, _⟩ => rfl
    | ⟨1, _⟩ => rfl
  have hr : ridx_main_v106 (ix2 g c) k = ix2 k c := by
    funext a; refine Fin.ext ?_
    match a with
    | ⟨0, _⟩ => rfl
    | ⟨1, _⟩ => rfl
  rw [hl, hr, v105_at]
  rfl

/-- The specification of the reference's result as an array: Spec.lean's pooled, projected rows at each index. -/
abbrev refSpec (x : Rows) (ei : EdgeArr) (bt : NodeIds) (W1 : Wt) (b1 : Bias) (W2 : Wt) (b2 : Bias)
    (Wl : FVec Ideal S128x10 .f32) (bl : FVec Ideal S10 .f32) : FVec Ideal S64x10 .f32 :=
  fun i => Spec.poolLinear (Spec.ids bt)
    (Spec.refRows (Spec.srcs ei) (Spec.dsts ei) (Spec.mat x) (Spec.mat W1) (Spec.vec b1) (Spec.mat W2) (Spec.vec b2))
    (Spec.mat Wl) (Spec.vec bl) (i 0) (i 1)

/-- THE REFERENCE'S RESULT, as a function of its nine arguments, is the specification, for all argument arrays. -/
theorem val_spec (x : Rows) (ei : EdgeArr) (bt : NodeIds) (W1 : Wt) (b1 : Bias) (W2 : Wt) (b2 : Bias)
    (Wl : FVec Ideal S128x10 .f32) (bl : FVec Ideal S10 .f32) :
    val_main_v109 (F := Ideal) x ei bt W1 b1 W2 b2 Wl bl = refSpec x ei bt W1 b1 W2 b2 Wl bl := by
  funext i
  obtain ⟨g, c, rfl⟩ : ∃ (g : Fin 64) (c : Fin 10), i = ix2 g c := ⟨i 0, i 1, eq_ix2 i⟩
  exact v109_at x ei bt W1 b1 W2 b2 Wl bl g c

/-! ## The run -/

/-- The run's result term is the specification of the launch contents of the nine arguments. -/
theorem res_spec (m : (ℓ : Loc nD τ sig) → Buf (Elt Ideal) ℓ) (c : Dev nD) :
    Cert.ReferenceIdeal.Value.res_main_v109 (F := Ideal) m c
      = refSpec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (val_main_v109_eq (F := Ideal) m c).trans (val_spec _ _ _ _ _ _ _ _ _)

/-- Every weakly fair execution of the reference from zero counters terminates with its result buffer at the
    specification of the arguments' launch contents, the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v109)
        = refSpec (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (res_spec m c), (h c).2⟩)
    (Cert.ReferenceIdeal.Value.run (F := Ideal) m ρ)

end Cert.RefValue

end
-- ==== Proof.PreFacts.lean ====
/-
  The precondition read back. The predicate is one conjunction, in this order: for each float argument (0, 3, 4, 5, 6,
  7, 8) "every entry x has max x (-x) < +∞", then for the 2 × 640000 edge-index array "every entry w has 0 ≤ w and
  w < 10000, read signed"; each "every entry" is a reduction by `and` over all axes into one word. The claim states that
  the one word is 1. A conjunction of one-bit words is 1 exactly when each is; a reduction by `and` that is 1 had a 1 at
  every index; over the extended reals max x (-x) < ⊤ excludes x = ⊥ (then -x = ⊤) and x = ⊤, so every entry is a real;
  and the two signed comparisons are the inequalities 0 ≤ w.toInt < 10000. The facts are stated first at a raw index and
  then through the readers the specification uses (a matrix at its two coordinates, a vector at its one, an edge's
  source and target).
-/
import proofs.«151618_j80324478369804_1_alg».proof.Pre_finite_inputs
import proofs.«151618_j80324478369804_1_alg».proof.Proof.Gen.Pre_finite_inputs
import proofs.«151618_j80324478369804_1_alg».proof.Proof.Spec
import Idealize.ShloMosaic.Lib.ReduceAll
import Idealize.ShloMosaic.Lib.ValueIdx

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- A Boolean's one-bit word is 1 exactly when the Boolean is true. -/
theorem ofBool_eq_one (b : Bool) : BitVec.ofBool b = 1#1 ↔ b = true := by cases b <;> decide

/-- The pattern 0x7F800000 (sign 0, exponent all ones, fraction 0) denotes +∞. -/
theorem ofBits_inf : Ideal.ofBits .f32 0x7F800000#32 = (⊤ : EReal) := by
  simp [Ideal.ofBits, Ideal.ieee]

/-- |x| < +∞ says x is a real: at x = ⊥ the absolute value max ⊥ ⊤ is ⊤, at x = ⊤ it is ⊤. -/
theorem real_of_abs_lt (x : EReal)
    (h : FloatOps.cmpf (F := Ideal) (φ := .f32) .olt (FloatOps.hostAbsf x) (FloatOps.ofBits .f32 0x7F800000#32) = 1#1) :
    x ≠ ⊥ ∧ x ≠ ⊤ := by
  change Ideal.cmp .olt (max x (-x)) (Ideal.ofBits .f32 0x7F800000#32) = 1#1 at h
  rw [ofBits_inf] at h
  unfold Ideal.cmp at h
  rw [ofBool_eq_one] at h
  have h' : max x (-x) < ⊤ := by simpa using h
  constructor
  · rintro rfl; simp at h'
  · rintro rfl; simp at h'

/-- The two signed comparisons of an index word against 0 and against 10000, as inequalities of its signed value. -/
theorem range_of_word (w : BitVec 32)
    (h : IntOp.andi (IntOp.cmpi .sge w 0#32) (IntOp.cmpi .slt w 10000#32) = 1#1) : 0 ≤ w.toInt ∧ w.toInt < 10000 := by
  rw [IntOp.andi_eq_one, IntOp.cmpi_sge, IntOp.cmpi_slt] at h
  have e0 : (0#32 : BitVec 32).toInt = 0 := by decide
  have e1 : (10000#32 : BitVec 32).toInt = 10000 := by decide
  rw [e0, e1] at h
  exact h

variable [Facts]
variable {a0 : FVec Ideal S10000x128 .f32} {a1 : IVec S2x640000 32} {a2 : IVec S10000 32}
  {a3 : FVec Ideal S128x128 .f32} {a4 : FVec Ideal S128 .f32} {a5 : FVec Ideal S128x128 .f32}
  {a6 : FVec Ideal S128 .f32} {a7 : FVec Ideal S128x10 .f32} {a8 : FVec Ideal S10 .f32}

/-- THE PRECONDITION DECODED at raw indices: every entry of every float argument is a real, and every entry of the
    edge-index array is a node number. (Argument 2, the graph numbers, is not constrained.) -/
theorem decode (h : fn (F := Ideal) a0 a1 a2 a3 a4 a5 a6 a7 a8 = fun _ => 1#1) :
    (∀ i, a0 i ≠ ⊥ ∧ a0 i ≠ ⊤) ∧ (∀ i, a3 i ≠ ⊥ ∧ a3 i ≠ ⊤) ∧ (∀ i, a4 i ≠ ⊥ ∧ a4 i ≠ ⊤) ∧ (∀ i, a5 i ≠ ⊥ ∧ a5 i ≠ ⊤)
      ∧ (∀ i, a6 i ≠ ⊥ ∧ a6 i ≠ ⊤) ∧ (∀ i, a7 i ≠ ⊥ ∧ a7 i ≠ ⊤) ∧ (∀ i, a8 i ≠ ⊥ ∧ a8 i ≠ ⊤)
      ∧ (∀ i, 0 ≤ (a1 i).toInt ∧ (a1 i).toInt < 10000) := by
  have e := congrFun h ix0
  dsimp only [fn, fn_part1, fn_part2] at e
  -- the result word is the left-nested conjunction of the eight reductions
  change IntOp.andi (IntOp.andi (IntOp.andi (IntOp.andi (IntOp.andi (IntOp.andi (IntOp.andi _ _) _) _) _) _) _) _ = 1#1 at e
  simp only [IntOp.andi_eq_one] at e
  obtain ⟨⟨⟨⟨⟨⟨⟨h0, h3⟩, h4⟩, h5⟩, h6⟩, h7⟩, h8⟩, h1⟩ := e
  refine ⟨fun i => ?_, fun i => ?_, fun i => ?_, fun i => ?_, fun i => ?_, fun i => ?_, fun i => ?_, fun i => ?_⟩
  · exact real_of_abs_lt _ (Host.reduce_andi_all _ _ _ _ _ h0 i)
  · exact real_of_abs_lt _ (Host.reduce_andi_all _ _ _ _ _ h3 i)
  · exact real_of_abs_lt _ (Host.reduce_andi_all _ _ _ _ _ h4 i)
  · exact real_of_abs_lt _ (Host.reduce_andi_all _ _ _ _ _ h5 i)
  · exact real_of_abs_lt _ (Host.reduce_andi_all _ _ _ _ _ h6 i)
  · exact real_of_abs_lt _ (Host.reduce_andi_all _ _ _ _ _ h7 i)
  · exact real_of_abs_lt _ (Host.reduce_andi_all _ _ _ _ _ h8 i)
  · exact range_of_word _ (Host.reduce_andi_all _ _ _ _ _ h1 i)

/-! ## Through the specification's readers -/

section
variable (h : fn (F := Ideal) a0 a1 a2 a3 a4 a5 a6 a7 a8 = fun _ => 1#1)
include h

/-- The node features (argument 0, 10000 × 128) are reals. -/
theorem arg0_real (r : Fin 10000) (k : Fin 128) : Spec.mat a0 r k ≠ ⊥ ∧ Spec.mat a0 r k ≠ ⊤ := (decode h).1 (ix2 r k)
/-- The first weight matrix (argument 3, 128 × 128). -/
theorem arg3_real (r : Fin 128) (k : Fin 128) : Spec.mat a3 r k ≠ ⊥ ∧ Spec.mat a3 r k ≠ ⊤ := (decode h).2.1 (ix2 r k)
/-- The first bias (argument 4, 128). -/
theorem arg4_real (q : Fin 128) : Spec.vec a4 q ≠ ⊥ ∧ Spec.vec a4 q ≠ ⊤ := (decode h).2.2.1 (ix1 q)
/-- The second weight matrix (argument 5, 128 × 128). -/
theorem arg5_real (r : Fin 128) (k : Fin 128) : Spec.mat a5 r k ≠ ⊥ ∧ Spec.mat a5 r k ≠ ⊤ := (decode h).2.2.2.1 (ix2 r k)
/-- The second bias (argument 6, 128). -/
theorem arg6_real (q : Fin 128) : Spec.vec a6 q ≠ ⊥ ∧ Spec.vec a6 q ≠ ⊤ := (decode h).2.2.2.2.1 (ix1 q)
/-- The last linear layer's matrix (argument 7, 128 × 10). -/
theorem arg7_real (r : Fin 128) (k : Fin 10) : Spec.mat a7 r k ≠ ⊥ ∧ Spec.mat a7 r k ≠ ⊤ := (decode h).2.2.2.2.2.1 (ix2 r k)
/-- The last linear layer's bias (argument 8, 10). -/
theorem arg8_real (q : Fin 10) : Spec.vec a8 q ≠ ⊥ ∧ Spec.vec a8 q ≠ ⊤ := (decode h).2.2.2.2.2.2.1 (ix1 q)
/-- Every edge's source is a node number. -/
theorem srcs_range (e : Fin Spec.nEdge) : 0 ≤ Spec.srcs a1 e ∧ Spec.srcs a1 e < 10000 := (decode h).2.2.2.2.2.2.2 (ix2 0 e)
/-- Every edge's target is a node number. -/
theorem dsts_range (e : Fin Spec.nEdge) : 0 ≤ Spec.dsts a1 e ∧ Spec.dsts a1 e < 10000 := (decode h).2.2.2.2.2.2.2 (ix2 1 e)
end

end Cert.PreFacts

end
-- ==== Proof.Bridge.lean ====
/-
  The kernel's node rows equal the reference's on the rows below 10000, over the extended reals.

  When every source and target is a node number (0 ≤ s e, d e < 10000) no index wraps or clamps. The degree
  deg r = 1 + #{e | d e = r} is a real number at least 1, so dinv r = deg r ^ (-1/2) is a nonnegative real and so
  is every edge weight norm e = dinv (s e) · dinv (d e). Hence adj (i, j), a finite sum of nonnegative reals, is
  nonnegative, and multiplication by ANY extended real c distributes over it:
      adj (i, j) · c = Σ_{e : d e = i, s e = j} norm e · c  +  Σ_{n : n = i, n = j} dinv n ² · c
  (on the extended reals (a + b) · c = a · c + b · c holds for 0 ≤ a, b, whatever c is). Summing over the 10240
  columns j and exchanging the finite sums, each edge e picks the single column j = s e and each node n the single
  column j = n:
      Σ_j adj (i, j) · H j = Σ_{e : d e = i} norm e · H (s e)  +  Σ_{n : n = i} dinv n ² · H n ;
  the padded columns j ≥ 10000 are picked by nothing. For i = r < 10000 the second sum is dinv r ² · H r. With
  H j = (h W)(j, q), and h agreeing below 10000 with the reference's rows h', this is the reference's layer on h'.
  Nothing is asked of the rows of h at or above 10000, and no finiteness of h is used. Two layers: apply this twice.
-/
import proofs.«151618_j80324478369804_1_alg».proof.Proof.Spec
import Mathlib.Data.EReal.Operations

noncomputable section

namespace Cert.Bridge

open Cert.Spec
open Idealize.ShloMosaic
open scoped BigOperators

/-! ## Regrouping the column sum -/

/-- Five blocks of 2048 columns enumerate the 10240 columns once each. -/
theorem sum_blocks {M : Type*} [AddCommMonoid M] (f : Fin nPad → M) :
    (∑ kb : Fin 5, ∑ jj : Fin 2048,
        f ⟨2048 * kb.val + jj.val, by show 2048 * kb.val + jj.val < 10240; omega⟩) = ∑ j : Fin nPad, f j := by
  rw [← Equiv.sum_comp (finProdFinEquiv (m := 5) (n := 2048)) f, Fintype.sum_prod_type]
  refine Finset.sum_congr rfl fun kb _ => Finset.sum_congr rfl fun jj _ => congrArg f (Fin.ext ?_)
  show 2048 * kb.val + jj.val = jj.val + 2048 * kb.val
  omega

/-! ## Nonnegative reals inside the extended reals -/

/-- An extended real that is a nonnegative real number. -/
def NNR (x : EReal) : Prop := ∃ c : ℝ, 0 ≤ c ∧ x = (c : EReal)

theorem NNR.nonneg {x : EReal} (h : NNR x) : 0 ≤ x := by
  obtain ⟨c, hc, rfl⟩ := h
  exact EReal.coe_nonneg.mpr hc

theorem NNR.zero : NNR 0 := ⟨0, le_refl _, rfl⟩

theorem NNR.one : NNR 1 := ⟨1, zero_le_one, rfl⟩

theorem NNR.add {x y : EReal} (hx : NNR x) (hy : NNR y) : NNR (x + y) := by
  obtain ⟨a, ha, rfl⟩ := hx
  obtain ⟨b, hb, rfl⟩ := hy
  exact ⟨a + b, add_nonneg ha hb, (EReal.coe_add a b).symm⟩

theorem NNR.mul {x y : EReal} (hx : NNR x) (hy : NNR y) : NNR (x * y) := by
  obtain ⟨a, ha, rfl⟩ := hx
  obtain ⟨b, hb, rfl⟩ := hy
  exact ⟨a * b, mul_nonneg ha hb, (EReal.coe_mul a b).symm⟩

theorem NNR.ite {p : Prop} [Decidable p] {x y : EReal} (hx : NNR x) (hy : NNR y) : NNR (if p then x else y) := by
  split <;> assumption

theorem NNR.sum {ι : Type*} (t : Finset ι) (f : ι → EReal) (hf : ∀ i ∈ t, NNR (f i)) : NNR (∑ i ∈ t, f i) := by
  classical
  induction t using Finset.induction_on with
  | empty => simpa using NNR.zero
  | insert a t ha ih =>
    rw [Finset.sum_insert ha]
    exact (hf a (Finset.mem_insert_self a t)).add (ih fun i hi => hf i (Finset.mem_insert_of_mem hi))

/-- Multiplication by any extended real distributes over a finite sum of nonnegative extended reals. -/
theorem sum_mul_of_nonneg {ι : Type*} (t : Finset ι) (f : ι → EReal) (hf : ∀ i ∈ t, 0 ≤ f i) (c : EReal) :
    (∑ i ∈ t, f i) * c = ∑ i ∈ t, f i * c := by
  classical
  induction t using Finset.induction_on with
  | empty => simp
  | insert a t ha ih =>
    rw [Finset.sum_insert ha, Finset.sum_insert ha,
      EReal.right_distrib_of_nonneg (hf a (Finset.mem_insert_self a t))
        (Finset.sum_nonneg fun i hi => hf i (Finset.mem_insert_of_mem hi)),
      ih fun i hi => hf i (Finset.mem_insert_of_mem hi)]

/-! ## Indices that are node numbers -/

theorem wrapBy_of_nonneg (n z : ℤ) (h : 0 ≤ z) : wrapBy n z = z := if_neg (not_lt.mpr h)

theorem nodeOf_val (z : ℤ) (h0 : 0 ≤ z) (h1 : z < 10000) : ((nodeOf z).val : ℤ) = z := by
  show ((min z.toNat 9999 : ℕ) : ℤ) = z
  omega

/-- Node r as a row (or column) of the padded arrays. -/
def up (r : Fin nNode) : Fin nPad := ⟨r.val, lt_of_lt_of_le r.isLt (by decide)⟩

/-- Of the terms g j guarded by "P and z = j", only the one at the column j₀ = z survives. -/
theorem sum_pick {n : Nat} (P : Prop) [Decidable P] (z : ℤ) (j0 : Fin n) (hz : (j0.val : ℤ) = z) (g : Fin n → EReal) :
    (∑ j : Fin n, if P ∧ z = (j.val : ℤ) then g j else 0) = if P then g j0 else 0 := by
  by_cases hP : P
  · rw [if_pos hP, Finset.sum_eq_single j0]
    · rw [if_pos ⟨hP, hz.symm⟩]
    · intro j _ hj
      refine if_neg fun h => hj (Fin.ext ?_)
      have := h.2
      omega
    · intro h
      exact absurd (Finset.mem_univ _) h
  · rw [if_neg hP]
    exact Finset.sum_eq_zero fun j _ => if_neg fun h => hP h.1

/-- Of the terms guarded by "n = r", only the one at n = r survives. -/
theorem sum_diag (r : Fin nNode) (g : Fin nNode → EReal) :
    (∑ n : Fin nNode, if (n.val : ℤ) = ((up r).val : ℤ) then g n else 0) = g r := by
  rw [Finset.sum_eq_single r]
  · exact if_pos rfl
  · intro n _ hn
    refine if_neg fun h => hn (Fin.ext ?_)
    have h' : (n.val : ℤ) = (r.val : ℤ) := h
    omega
  · intro h
    exact absurd (Finset.mem_univ _) h

/-! ## Degrees and weights are nonnegative reals -/

section
variable (s d : Fin nEdge → ℤ)

theorem deg_real (r : Fin nNode) : ∃ c : ℝ, 1 ≤ c ∧ deg d r = (c : EReal) := by
  obtain ⟨c, hc, e⟩ := NNR.sum Finset.univ (fun e : Fin nEdge => if d e = (r.val : ℤ) then (1 : EReal) else 0)
    (fun _ _ => NNR.ite NNR.one NNR.zero)
  refine ⟨c + 1, by linarith, ?_⟩
  unfold deg
  rw [e, zero_add, EReal.coe_add, EReal.coe_one]

theorem dinv_nnr (r : Fin nNode) : NNR (dinv d r) := by
  obtain ⟨c, hc, e⟩ := deg_real d r
  refine ⟨(Real.sqrt c)⁻¹, inv_nonneg.mpr (Real.sqrt_nonneg c), ?_⟩
  unfold dinv
  rw [e, Ideal.rsqrt_coe, if_neg (not_lt.mpr (by linarith)), if_neg (ne_of_gt (by linarith))]

theorem norm_nnr (e : Fin nEdge) : NNR (norm s d e) := (dinv_nnr d _).mul (dinv_nnr d _)

/-! ## One row of the adjacency against a column vector -/

variable (hs : ∀ e, 0 ≤ s e ∧ s e < 10000) (hd : ∀ e, 0 ≤ d e ∧ d e < 10000)
include hs hd

theorem adj_mul (i j : Fin nPad) (c : EReal) :
    adj s d i j * c
      = (∑ e : Fin nEdge, if d e = (i.val : ℤ) ∧ s e = (j.val : ℤ) then norm s d e * c else 0)
        + ∑ n : Fin nNode,
            if (n.val : ℤ) = (i.val : ℤ) ∧ (n.val : ℤ) = (j.val : ℤ) then dinv d n * dinv d n * c else 0 := by
  have h1 : ∀ e ∈ (Finset.univ : Finset (Fin nEdge)),
      0 ≤ (if wrapBy nPad (d e) = (i.val : ℤ) ∧ wrapBy nPad (s e) = (j.val : ℤ) then norm s d e else 0) :=
    fun e _ => (NNR.ite (norm_nnr s d e) NNR.zero).nonneg
  have h2 : ∀ n ∈ (Finset.univ : Finset (Fin nNode)),
      0 ≤ (if (n.val : ℤ) = (i.val : ℤ) ∧ (n.val : ℤ) = (j.val : ℤ) then dinv d n * dinv d n else 0) :=
    fun n _ => (NNR.ite ((dinv_nnr d n).mul (dinv_nnr d n)) NNR.zero).nonneg
  unfold adj
  rw [zero_add, EReal.right_distrib_of_nonneg (Finset.sum_nonneg h1) (Finset.sum_nonneg h2),
    sum_mul_of_nonneg _ _ h1, sum_mul_of_nonneg _ _ h2]
  refine congrArg₂ (· + ·) ?_ ?_
  · refine Finset.sum_congr rfl fun e _ => ?_
    rw [wrapBy_of_nonneg _ _ (hd e).1, wrapBy_of_nonneg _ _ (hs e).1, ite_mul, zero_mul]
  · refine Finset.sum_congr rfl fun n _ => ?_
    rw [ite_mul, zero_mul]

theorem sum_adj_mul (i : Fin nPad) (H : Fin nPad → EReal) :
    ∑ j : Fin nPad, adj s d i j * H j
      = (∑ e : Fin nEdge, if d e = (i.val : ℤ) then norm s d e * H (up (nodeOf (wrapBy nNode (s e)))) else 0)
        + ∑ n : Fin nNode, if (n.val : ℤ) = (i.val : ℤ) then dinv d n * dinv d n * H (up n) else 0 := by
  simp only [adj_mul s d hs hd, Finset.sum_add_distrib]
  refine congrArg₂ (· + ·) ?_ ?_
  · rw [Finset.sum_comm]
    refine Finset.sum_congr rfl fun e _ => ?_
    have hz : ((up (nodeOf (wrapBy nNode (s e)))).val : ℤ) = s e := by
      rw [wrapBy_of_nonneg _ _ (hs e).1]
      exact nodeOf_val _ (hs e).1 (hs e).2
    exact sum_pick (d e = (i.val : ℤ)) (s e) _ hz fun j => norm s d e * H j
  · rw [Finset.sum_comm]
    refine Finset.sum_congr rfl fun n _ => ?_
    exact sum_pick ((n.val : ℤ) = (i.val : ℤ)) (n.val : ℤ) (up n) rfl fun j => dinv d n * dinv d n * H j

/-! ## One layer, then two -/

omit hs hd in
theorem proj_up (h : Fin nPad → Fin nFeat → EReal) (h' : Fin nNode → Fin nFeat → EReal)
    (hh : ∀ r k, h (up r) k = h' r k) (W : Fin nFeat → Fin nFeat → EReal) (r : Fin nNode) (q : Fin nFeat) :
    proj h W (up r) q = proj h' W r q := by
  unfold proj
  exact Finset.sum_congr rfl fun k _ => by rw [hh]

/-- The kernel's layer on rows that agree below 10000 with h' is, below 10000, the reference's layer on h'. -/
theorem layer_row (h : Fin nPad → Fin nFeat → EReal) (h' : Fin nNode → Fin nFeat → EReal)
    (hh : ∀ r k, h (up r) k = h' r k) (W : Fin nFeat → Fin nFeat → EReal) (b : Fin nFeat → EReal)
    (r : Fin nNode) (q : Fin nFeat) :
    layer (adj s d) h W b (up r) q = max (convRef s d h' W b r q) 0 := by
  unfold layer convRef
  rw [sum_blocks (fun j => adj s d (up r) j * proj h W j q), sum_adj_mul s d hs hd,
    sum_diag r (fun n => dinv d n * dinv d n * proj h W (up n) q), zero_add]
  refine congrArg (fun t => max (t + b q) 0) ?_
  refine congrArg₂ (· + ·) ?_ ?_
  · refine Finset.sum_congr rfl fun e _ => ?_
    rw [proj_up h h' hh, mul_comm]
    rfl
  · rw [proj_up h h' hh, mul_comm]

end

theorem pad_up (x : Fin nNode → Fin nFeat → EReal) (r : Fin nNode) (k : Fin nFeat) :
    Cert.Spec.pad x (up r) k = x r k := by
  unfold Cert.Spec.pad
  rw [dif_pos (show (up r).val < nNode from r.isLt)]
  rfl

/-! ## Both layers -/

section
variable (s d : Fin nEdge → ℤ) (x : Fin nNode → Fin nFeat → EReal)
  (W1 : Fin nFeat → Fin nFeat → EReal) (b1 : Fin nFeat → EReal) (W2 : Fin nFeat → Fin nFeat → EReal) (b2 : Fin nFeat → EReal)

/-- The first layer's rows below 10000 are the reference's first layer (the padded input agrees with x there);
    the second layer then sees rows that agree below 10000 with the reference's, and the statement follows by
    the same fact once more. Finiteness of the entries is not needed. -/
theorem kerRows_up (hs : ∀ e, 0 ≤ s e ∧ s e < 10000) (hd : ∀ e, 0 ≤ d e ∧ d e < 10000)
    (r : Fin nNode) (q : Fin nFeat) :
    kerRows s d x W1 b1 W2 b2 (up r) q = refRows s d x W1 b1 W2 b2 r q := by
  unfold kerRows refRows
  exact layer_row s d hs hd _ _
    (fun r k => layer_row s d hs hd (Cert.Spec.pad x) x (pad_up x) W1 b1 r k) W2 b2 r q

theorem kerRows_eq_refRows
    (hs : ∀ e, 0 ≤ s e ∧ s e < 10000) (hd : ∀ e, 0 ≤ d e ∧ d e < 10000)
    (_hx : ∀ r k, x r k ≠ ⊥ ∧ x r k ≠ ⊤) (_hW1 : ∀ k q, W1 k q ≠ ⊥ ∧ W1 k q ≠ ⊤) (_hb1 : ∀ q, b1 q ≠ ⊥ ∧ b1 q ≠ ⊤)
    (_hW2 : ∀ k q, W2 k q ≠ ⊥ ∧ W2 k q ≠ ⊤) (_hb2 : ∀ q, b2 q ≠ ⊥ ∧ b2 q ≠ ⊤)
    (r : Fin nNode) (q : Fin nFeat) :
    kerRows s d x W1 b1 W2 b2 ⟨r.val, by have h : r.val < 10000 := r.isLt; show r.val < 10240; omega⟩ q
      = refRows s d x W1 b1 W2 b2 r q :=
  kerRows_up s d x W1 b1 W2 b2 hs hd r q

/-- The same at any spelling of the row's bound. -/
theorem kerRows_eq_refRows' (hs : ∀ e, 0 ≤ s e ∧ s e < 10000) (hd : ∀ e, 0 ≤ d e ∧ d e < 10000)
    (r : Fin nNode) (hr : r.val < nPad) (q : Fin nFeat) :
    kerRows s d x W1 b1 W2 b2 ⟨r.val, hr⟩ q = refRows s d x W1 b1 W2 b2 r q :=
  kerRows_up s d x W1 b1 W2 b2 hs hd r q

end

end Cert.Bridge

end
-- ==== Proof.lean ====
/-
  The certificate's five claims. The kernel program (as printed, and idealized) runs host operations, two
  graph-convolution launches and host operations again; its frame is that run read at the nine arguments. The reference
  is a straight line of host operations; its frame is its run with the result dropped. The idealization rewrote
  nothing. Over the extended reals both programs end with the pooled, projected rows of two graph-convolution layers:
  the kernel's rows through the padded normalized adjacency, the reference's over the edges, equal on the 10000 node
  rows when every edge endpoint is a node number — which the precondition states.
-/
import proofs.«151618_j80324478369804_1_alg».proof.Defs
import proofs.«151618_j80324478369804_1_alg».proof.Proof.KB.Run
import proofs.«151618_j80324478369804_1_alg».proof.Proof.KI.Value
import proofs.«151618_j80324478369804_1_alg».proof.Proof.KernelTail
import proofs.«151618_j80324478369804_1_alg».proof.Proof.KernelHost
import proofs.«151618_j80324478369804_1_alg».proof.Proof.KernelPad
import proofs.«151618_j80324478369804_1_alg».proof.Proof.RefValue
import proofs.«151618_j80324478369804_1_alg».proof.Proof.PreFacts
import proofs.«151618_j80324478369804_1_alg».proof.Proof.Bridge
import proofs.«151618_j80324478369804_1_alg».proof.Proof.Gen.Kernel
import proofs.«151618_j80324478369804_1_alg».proof.Proof.Gen.KernelIdeal
import proofs.«151618_j80324478369804_1_alg».proof.Proof.Gen.ReferenceIdeal
import proofs.«151618_j80324478369804_1_alg».proof.Proof.Gen.Pre_finite_inputs
import Idealize.ShloMosaic.Adequacy
import Idealize.ShloMosaic.Init

set_option maxRecDepth 65536

noncomputable section

namespace Cert.Proof

open Idealize.ShloMosaic Idealize.ShloMosaic.TcCoe Idealize.SL.Sem

section
variable [Cert.Kernel.Facts] [Cert.KernelIdeal.Facts] [Cert.ReferenceIdeal.Facts] [Cert.Pre_finite_inputs.Facts]

theorem frame_kernel : Cert.frame_Kernel :=
  fun m ρ _ => Cert.Kernel.Hand.frame m ρ
theorem frame_kernelIdeal : Cert.frame_KernelIdeal :=
  fun m ρ _ => Cert.KernelIdeal.Hand.frame m ρ
theorem frame_reference : Cert.frame_ReferenceIdeal :=
  fun m ρ _ => (θ_run Cert.ReferenceIdeal.defs _ _).mono (fun _ h c => (h c).2) (Cert.RefValue.run_spec m ρ)

open Cert.KernelIdeal Cert.KernelIdeal.Gen Cert.KernelIdeal.Hand in
/-- The idealized kernel's result buffer ends as the reference's specification of the arguments: the closing host
    operations pool and project the second launch's rows, which are the kernel's rows, which on the node rows are the
    reference's when every edge endpoint is a node number. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) = fun _ => 1#1) :
    atEnd m ρ c (Proc.devRef .tc main_v81) = Cert.RefValue.refSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  have hs := fun e => Cert.PreFacts.srcs_range hpre e
  have hd := fun e => Cert.PreFacts.dsts_range hpre e
  have hAdj := Cert.KernelHost.adj_spec (atLaunch m ρ c)
  have hPad := Cert.KernelPad.v60_spec (atLaunch m ρ c)
  have hB1 := Cert.KernelPad.v61_spec (atLaunch m ρ c)
  have hB2 := Cert.KernelPad.v62_spec (atLaunch m ρ c)
  show StableHlo.after (hostOps2 (F := Ideal)) (atExit1 m ρ c) (Proc.devRef .tc main_v81) = _
  rw [Cert.KernelTail.after_tail, atExit1_arg2, atExit1_arg7, atExit1_arg8]
  funext i
  refine congrArg (fun h => Spec.poolLinear _ h _ _ (i 0) (i 1)) ?_
  funext r q
  unfold Cert.KernelTail.firstRows
  rw [second_layer m ρ c hAdj hPad hB1 hB2]
  exact Cert.Bridge.kerRows_eq_refRows' _ _ _ _ _ _ _ hs hd r _ q

theorem algebraic : Cert.algebraic_KernelIdeal_ReferenceIdeal := by
  intro m ρ m' ρ' hpre hagree
  refine ⟨fun c => Cert.RefValue.refSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Hand.run_all m ρ)
    exact ⟨(h c _ (Cert.KernelIdeal.Hand.unscoped_mem Cert.KernelIdeal.main_v81 (by decide))).trans (kernel_result m ρ c (hpre c)),
      (h c _ (Cert.KernelIdeal.Hand.unscoped_mem Cert.KernelIdeal.main_arg0 (by decide))).trans (Cert.KernelIdeal.Hand.atEnd_arg0 m ρ c),
      (h c _ (Cert.KernelIdeal.Hand.unscoped_mem Cert.KernelIdeal.main_arg1 (by decide))).trans (Cert.KernelIdeal.Hand.atEnd_arg1 m ρ c),
      (h c _ (Cert.KernelIdeal.Hand.unscoped_mem Cert.KernelIdeal.main_arg2 (by decide))).trans (Cert.KernelIdeal.Hand.atEnd_arg2 m ρ c),
      (h c _ (Cert.KernelIdeal.Hand.unscoped_mem Cert.KernelIdeal.main_arg3 (by decide))).trans (Cert.KernelIdeal.Hand.atEnd_arg3 m ρ c),
      (h c _ (Cert.KernelIdeal.Hand.unscoped_mem Cert.KernelIdeal.main_arg4 (by decide))).trans (Cert.KernelIdeal.Hand.atEnd_arg4 m ρ c),
      (h c _ (Cert.KernelIdeal.Hand.unscoped_mem Cert.KernelIdeal.main_arg5 (by decide))).trans (Cert.KernelIdeal.Hand.atEnd_arg5 m ρ c),
      (h c _ (Cert.KernelIdeal.Hand.unscoped_mem Cert.KernelIdeal.main_arg6 (by decide))).trans (Cert.KernelIdeal.Hand.atEnd_arg6 m ρ c),
      (h c _ (Cert.KernelIdeal.Hand.unscoped_mem Cert.KernelIdeal.main_arg7 (by decide))).trans (Cert.KernelIdeal.Hand.atEnd_arg7 m ρ c),
      (h c _ (Cert.KernelIdeal.Hand.unscoped_mem Cert.KernelIdeal.main_arg8 (by decide))).trans (Cert.KernelIdeal.Hand.atEnd_arg8 m ρ c)⟩
  · refine (θ_run Cert.ReferenceIdeal.defs _ _).mono (fun r h c => ?_) (Cert.RefValue.run_spec m' ρ')
    obtain ⟨a0, a1, a2, a3, a4, a5, a6, a7, a8⟩ := hagree c
    refine ⟨(h c).1.trans ?_, (h c).2⟩
    rw [a0, a1, a2, a3, a4, a5, a6, a7, a8]
end

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
